-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_2)) (v5 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_2) = v4 c
          ∧ r.2.mem ((c.tc : Thread Cert.KernelIdeal.nD Cert.KernelIdeal.τ).loc Cert.KernelIdeal.main_v5_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S4096x256 .f32) (main_arg8 : FVec F S4096x256 .f32) (main_arg9 : FVec F S4096x256 .f32) (main_v33 : IVec S_ 1) : IVec S_ 1 :=
  let main_v34 : FVec F S4096x256 .f32 := Host.absf main_arg7
  let main_cst_12 : FVec F S_ .f32 := constant S_ .f32 0x7F800000#32
  let main_v35 : FVec F S4096x256 .f32 := broadcastInDim S4096x256 ![] bcast_S_S4096x256 main_cst_12
  let main_v36 : IVec S4096x256 1 := cmpf .olt main_v34 main_v35
  let main_c_13 : IVec S_ 1 := constantI S_ 1 1#1
  let main_v37 : IVec S_ 1 := (fun x v => Host.reduce IntOp.andi x v reducesTo_S4096x256_S_d0_1 h_S_) main_v36 main_c_13
  let main_v38 : IVec S_ 1 := andi main_v33 main_v37
  let main_v39 : FVec F S4096x256 .f32 := Host.absf main_arg8
  let main_cst_14 : FVec F S_ .f32 := constant S_ .f32 0x7F800000#32
  let main_v40 : FVec F S4096x256 .f32 := broadcastInDim S4096x256 ![] bcast_S_S4096x256 main_cst_14
  let main_v41 : IVec S4096x256 1 := cmpf .olt main_v39 main_v40
  let main_c_15 : IVec S_ 1 := constantI S_ 1 1#1
  let main_v42 : IVec S_ 1 := (fun x v => Host.reduce IntOp.andi x v reducesTo_S4096x256_S_d0_1 h_S_) main_v41 main_c_15
  let main_v43 : IVec S_ 1 := andi main_v38 main_v42
  let main_v44 : FVec F S4096x256 .f32 := Host.absf main_arg9
  let main_cst_16 : FVec F S_ .f32 := constant S_ .f32 0x7F800000#32
  let main_v45 : FVec F S4096x256 .f32 := broadcastInDim S4096x256 ![] bcast_S_S4096x256 main_cst_16
  let main_v46 : IVec S4096x256 1 := cmpf .olt main_v44 main_v45
  let main_c_17 : IVec S_ 1 := constantI S_ 1 1#1
  let main_v47 : IVec S_ 1 := (fun x v => Host.reduce IntOp.andi x v reducesTo_S4096x256_S_d0_1 h_S_) main_v46 main_c_17
  let main_v48 : IVec S_ 1 := andi main_v43 main_v47
  main_v48

def fn_part1 {F : FTy → Type} [FloatOps F] (main_arg4 : FVec F S4096x256 .f32) (main_arg5 : FVec F S4096x256 .f32) (main_arg6 : FVec F S4096x256 .f32) (main_arg7 : FVec F S4096x256 .f32) (main_arg8 : FVec F S4096x256 .f32) (main_arg9 : FVec F S4096x256 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x256 .f32) (main_arg5 : FVec F S4096x256 .f32) (main_arg6 : FVec F S4096x256 .f32) (main_arg7 : FVec F S4096x256 .f32) (main_arg8 : FVec F S4096x256 .f32) (main_arg9 : FVec F S4096x256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4096x4096 : Shape := ⟨2, ![4096, 4096]⟩
abbrev S4096x256 : Shape := ⟨2, ![4096, 256]⟩
abbrev S512x1024 : Shape := ⟨2, ![512, 1024]⟩
abbrev S512x256 : Shape := ⟨2, ![512, 256]⟩
abbrev S1024x256 : Shape := ⟨2, ![1024, 256]⟩
abbrev S4096x512 : Shape := ⟨2, ![4096, 512]⟩
abbrev S512x512 : Shape := ⟨2, ![512, 512]⟩
abbrev S1024x512 : Shape := ⟨2, ![1024, 512]⟩

abbrev nBuf : Space → Nat
  | .hbm => 24
  | .vmem => 94
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .bf16⟩
  | .hbm, ⟨11, _⟩ => ⟨S4096x256, .bf16⟩
  | .hbm, ⟨12, _⟩ => ⟨S4096x256, .bf16⟩
  | .hbm, ⟨13, _⟩ => ⟨S4096x256, .bf16⟩
  | .hbm, ⟨14, _⟩ => ⟨S4096x256, .bf16⟩
  | .hbm, ⟨15, _⟩ => ⟨S4096x256, .bf16⟩
  | .hbm, ⟨16, _⟩ => ⟨S4096x512, .bf16⟩
  | .hbm, ⟨17, _⟩ => ⟨S4096x256, .f32⟩
  | .hbm, ⟨18, _⟩ => ⟨S4096x512, .bf16⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S4096x256, .f32⟩
  | .local _ .vmem, ⟨17, _⟩ => ⟨S4096x256, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S4096x256, .bf16⟩
  | .local _ .vmem, ⟨39, _⟩ => ⟨S4096x256, .bf16⟩
  | .local _ .vmem, ⟨40, _⟩ => ⟨S4096x256, .bf16⟩
  | .local _ .vmem, ⟨41, _⟩ => ⟨S512x256, .f32⟩
  | .local _ .vmem, ⟨42, _⟩ => ⟨S512x256, .f32⟩
  | .local _ .vmem, ⟨43, _⟩ => ⟨S4096x256, .bf16⟩
  | .local _ .vmem, ⟨44, _⟩ => ⟨S4096x256, .bf16⟩
  | .local _ .vmem, ⟨45, _⟩ => ⟨S4096x256, .bf16⟩
  | .local _ .vmem, ⟨46, _⟩ => ⟨S512x256, .f32⟩
  | .local _ .vmem, ⟨47, _⟩ => ⟨S512x256, .f32⟩
  | .local _ .vmem, ⟨48, _⟩ => ⟨S512x512, .bf16⟩
  | .local _ .vmem, ⟨49, _⟩ => ⟨S512x512, .bf16⟩
  | .local _ .vmem, ⟨50, _⟩ => ⟨S512x256, .f32⟩
  | .local _ .vmem, ⟨51, _⟩ => ⟨S512x256, .f32⟩
  | .local _ .vmem, ⟨52, _⟩ => ⟨S512x512, .bf16⟩
  | .local _ .vmem, ⟨53, _⟩ => ⟨S512x512, .bf16⟩
  | .local _ .vmem, ⟨54, _⟩ => ⟨S512x256, .f32⟩
  | .local _ .vmem, ⟨55, _⟩ => ⟨S512x256, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S4096x512, .bf16⟩
  | .local _ .vmem, ⟨73, _⟩ => ⟨S512x256, .bf16⟩
  | .local _ .vmem, ⟨74, _⟩ => ⟨S512x256, .bf16⟩
  | .local _ .vmem, ⟨75, _⟩ => ⟨S512x256, .bf16⟩
  | .local _ .vmem, ⟨76, _⟩ => ⟨S512x256, .bf16⟩
  | .local _ .vmem, ⟨77, _⟩ => ⟨S512x256, .bf16⟩
  | .local _ .vmem, ⟨78, _⟩ => ⟨S512x256, .bf16⟩
  | .local _ .vmem, ⟨79, _⟩ => ⟨S4096x512, .bf16⟩
  | .local _ .vmem, ⟨80, _⟩ => ⟨S512x256, .bf16⟩
  | .local _ .vmem, ⟨81, _⟩ => ⟨S512x256, .bf16⟩
  | .local _ .vmem, ⟨82, _⟩ => ⟨S512x256, .bf16⟩
  | .local _ .vmem, ⟨83, _⟩ => ⟨S512x256, .bf16⟩
  | .local _ .vmem, ⟨84, _⟩ => ⟨S512x256, .bf16⟩
  | .local _ .vmem, ⟨85, _⟩ => ⟨S512x256, .bf16⟩
  | .local _ .vmem, ⟨86, _⟩ => ⟨S512x256, .f32⟩
  | .local _ .vmem, ⟨87, _⟩ => ⟨S512x256, .f32⟩
  | .local _ .vmem, ⟨88, _⟩ => ⟨S512x256, .f32⟩
  | .local _ .vmem, ⟨89, _⟩ => ⟨S512x256, .f32⟩
  | .local _ .vmem, ⟨90, _⟩ => ⟨S512x256, .f32⟩
  | .local _ .vmem, ⟨91, _⟩ => ⟨S512x256, .f32⟩
  | .local _ .vmem, ⟨92, _⟩ => ⟨S512x256, .f32⟩
  | .local _ .vmem, ⟨93, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg13_0 : Ref sig .tc := ⟨.vmem, 44, rfl⟩
abbrev cc1_stg14_0 : Ref sig .tc := ⟨.vmem, 45, rfl⟩
abbrev cc1_stg15_0 : Ref sig .tc := ⟨.vmem, 46, rfl⟩
abbrev cc1_stg15_1 : Ref sig .tc := ⟨.vmem, 47, rfl⟩
abbrev cc1_stg16_0 : Ref sig .tc := ⟨.vmem, 48, rfl⟩
abbrev cc1_stg16_1 : Ref sig .tc := ⟨.vmem, 49, rfl⟩
abbrev cc1_stg17_0 : Ref sig .tc := ⟨.vmem, 50, rfl⟩
abbrev cc1_stg17_1 : Ref sig .tc := ⟨.vmem, 51, rfl⟩
abbrev cc1_stg18_0 : Ref sig .tc := ⟨.vmem, 52, rfl⟩
abbrev cc1_stg18_1 : Ref sig .tc := ⟨.vmem, 53, rfl⟩
abbrev cc1_stg19_0 : Ref sig .tc := ⟨.vmem, 54, rfl⟩
abbrev cc1_stg19_1 : Ref sig .tc := ⟨.vmem, 55, rfl⟩
abbrev cc2_stg0_0 : Ref sig .tc := ⟨.vmem, 56, rfl⟩
abbrev cc2_stg0_1 : Ref sig .tc := ⟨.vmem, 57, rfl⟩
abbrev cc2_stg1_0 : Ref sig .tc := ⟨.vmem, 58, rfl⟩
abbrev cc2_stg1_1 : Ref sig .tc := ⟨.vmem, 59, rfl⟩
abbrev cc2_stg2_0 : Ref sig .tc := ⟨.vmem, 60, rfl⟩
abbrev cc2_stg2_1 : Ref sig .tc := ⟨.vmem, 61, rfl⟩
abbrev cc2_stg3_0 : Ref sig .tc := ⟨.vmem, 62, rfl⟩
abbrev cc2_stg3_1 : Ref sig .tc := ⟨.vmem, 63, rfl⟩
abbrev cc2_stg4_0 : Ref sig .tc := ⟨.vmem, 64, rfl⟩
abbrev cc2_stg4_1 : Ref sig .tc := ⟨.vmem, 65, rfl⟩
abbrev cc2_stg5_0 : Ref sig .tc := ⟨.vmem, 66, rfl⟩
abbrev cc2_stg5_1 : Ref sig .tc := ⟨.vmem, 67, rfl⟩
abbrev cc2_stg6_0 : Ref sig .tc := ⟨.vmem, 68, rfl⟩
abbrev cc2_stg6_1 : Ref sig .tc := ⟨.vmem, 69, rfl⟩
abbrev cc2_stg7_0 : Ref sig .tc := ⟨.vmem, 70, rfl⟩
abbrev cc2_stg7_1 : Ref sig .tc := ⟨.vmem, 71, rfl⟩
abbrev cc2_stg8_0 : Ref sig .tc := ⟨.vmem, 72, rfl⟩
abbrev cc2_stg9_0 : Ref sig .tc := ⟨.vmem, 73, rfl⟩
abbrev cc2_stg9_1 : Ref sig .tc := ⟨.vmem, 74, rfl⟩
abbrev cc2_stg10_0 : Ref sig .tc := ⟨.vmem, 75, rfl⟩
abbrev cc2_stg10_1 : Ref sig .tc := ⟨.vmem, 76, rfl⟩
abbrev cc2_stg11_0 : Ref sig .tc := ⟨.vmem, 77, rfl⟩
abbrev cc2_stg11_1 : Ref sig .tc := ⟨.vmem, 78, rfl⟩
abbrev cc2_stg12_0 : Ref sig .tc := ⟨.vmem, 79, rfl⟩
abbrev cc2_stg13_0 : Ref sig .tc := ⟨.vmem, 80, rfl⟩
abbrev cc2_stg13_1 : Ref sig .tc := ⟨.vmem, 81, rfl⟩
abbrev cc2_stg14_0 : Ref sig .tc := ⟨.vmem, 82, rfl⟩
abbrev cc2_stg14_1 : Ref sig .tc := ⟨.vmem, 83, rfl⟩
abbrev cc2_stg15_0 : Ref sig .tc := ⟨.vmem, 84, rfl⟩
abbrev cc2_stg15_1 : Ref sig .tc := ⟨.vmem, 85, rfl⟩
abbrev cc2_stg16_0 : Ref sig .tc := ⟨.vmem, 86, rfl⟩
abbrev cc2_stg16_1 : Ref sig .tc := ⟨.vmem, 87, rfl⟩
abbrev cc2_stg17_0 : Ref sig .tc := ⟨.vmem, 88, rfl⟩
abbrev cc2_stg17_1 : Ref sig .tc := ⟨.vmem, 89, rfl⟩
abbrev cc2_stg18_0 : Ref sig .tc := ⟨.vmem, 90, rfl⟩
abbrev cc2_stg18_1 : Ref sig .tc := ⟨.vmem, 91, rfl⟩
abbrev cc2_stg19_0 : Ref sig .tc := ⟨.vmem, 92, rfl⟩
abbrev cc2_stg19_1 : Ref sig .tc := ⟨.vmem, 93, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem11_1 : DmaSem sig := 42
abbrev cc1_sem12_0 : DmaSem sig := 43
abbrev cc1_sem13_0 : DmaSem sig := 44
abbrev cc1_sem14_0 : DmaSem sig := 45
abbrev cc1_sem15_0 : DmaSem sig := 46
abbrev cc1_sem15_1 : DmaSem sig := 47
abbrev cc1_sem16_0 : DmaSem sig := 48
abbrev cc1_sem16_1 : DmaSem sig := 49
abbrev cc1_sem17_0 : DmaSem sig := 50
abbrev cc1_sem17_1 : DmaSem sig := 51
abbrev cc1_sem18_0 : DmaSem sig := 52
abbrev cc1_sem18_1 : DmaSem sig := 53
abbrev cc1_sem19_0 : DmaSem sig := 54
abbrev cc1_sem19_1 : DmaSem sig := 55
abbrev cc2_sem0_0 : DmaSem sig := 56
abbrev cc2_sem0_1 : DmaSem sig := 57
abbrev cc2_sem1_0 : DmaSem sig := 58
abbrev cc2_sem1_1 : DmaSem sig := 59
abbrev cc2_sem2_0 : DmaSem sig := 60
abbrev cc2_sem2_1 : DmaSem sig := 61
abbrev cc2_sem3_0 : DmaSem sig := 62
abbrev cc2_sem3_1 : DmaSem sig := 63
abbrev cc2_sem4_0 : DmaSem sig := 64
abbrev cc2_sem4_1 : DmaSem sig := 65
abbrev cc2_sem5_0 : DmaSem sig := 66
abbrev cc2_sem5_1 : DmaSem sig := 67
abbrev cc2_sem6_0 : DmaSem sig := 68
abbrev cc2_sem6_1 : DmaSem sig := 69
abbrev cc2_sem7_0 : DmaSem sig := 70
abbrev cc2_sem7_1 : DmaSem sig := 71
abbrev cc2_sem8_0 : DmaSem sig := 72
abbrev cc2_sem9_0 : DmaSem sig := 73
abbrev cc2_sem9_1 : DmaSem sig := 74
abbrev cc2_sem10_0 : DmaSem sig := 75
abbrev cc2_sem10_1 : DmaSem sig := 76
abbrev cc2_sem11_0 : DmaSem sig := 77
abbrev cc2_sem11_1 : DmaSem sig := 78
abbrev cc2_sem12_0 : DmaSem sig := 79
abbrev cc2_sem13_0 : DmaSem sig := 80
abbrev cc2_sem13_1 : DmaSem sig := 81
abbrev cc2_sem14_0 : DmaSem sig := 82
abbrev cc2_sem14_1 : DmaSem sig := 83
abbrev cc2_sem15_0 : DmaSem sig := 84
abbrev cc2_sem15_1 : DmaSem sig := 85
abbrev cc2_sem16_0 : DmaSem sig := 86
abbrev cc2_sem16_1 : DmaSem sig := 87
abbrev cc2_sem17_0 : DmaSem sig := 88
abbrev cc2_sem17_1 : DmaSem sig := 89
abbrev cc2_sem18_0 : DmaSem sig := 90
abbrev cc2_sem18_1 : DmaSem sig := 91
abbrev cc2_sem19_0 : DmaSem sig := 92
abbrev cc2_sem19_1 : DmaSem sig := 93

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_6 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_7 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S4096x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4096x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S4096x256 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4096x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4096x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S512x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x512 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_3 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_6 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_7 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S4096x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x256 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x256 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 1 → Memref sig .tc .vmem S4096x512 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S512x256 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S512x256 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S512x256 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S512x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S512x256 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S512x256 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S512x256 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S4096x256_S1024x256_0_0 : ∀ a, (![0, 0] : Fin 2 → Nat) a + S1024x256.size a ≤ S4096x256.size a
  h_S1024x256 : 0 < S1024x256.numel
  inb_S4096x256_S1024x256_1024_0 : ∀ a, (![1024, 0] : Fin 2 → Nat) a + S1024x256.size a ≤ S4096x256.size a
  inb_S4096x256_S1024x256_2048_0 : ∀ a, (![2048, 0] : Fin 2 → Nat) a + S1024x256.size a ≤ S4096x256.size a
  inb_S4096x256_S1024x256_3072_0 : ∀ a, (![3072, 0] : Fin 2 → Nat) a + S1024x256.size a ≤ S4096x256.size a
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S1024x256_S1024x256 : S1024x256.ShapeCasts S1024x256
  inb_S512x512_S512x256_0_0 : ∀ a, (![0, 0] : Fin 2 → Nat) a + S512x256.size a ≤ S512x512.size a
  packedbf16_S512x512_S512x256_0_0 : (Rect.unit (s := S512x512) ![0, 0] S512x256.size inb_S512x512_S512x256_0_0).PackedRows (EltTy.packing .bf16)
  inb_S512x512_S512x256_0_256 : ∀ a, (![0, 256] : Fin 2 → Nat) a + S512x256.size a ≤ S512x512.size a
  packedbf16_S512x512_S512x256_0_256 : (Rect.unit (s := S512x512) ![0, 256] S512x256.size inb_S512x512_S512x256_0_256).PackedRows (EltTy.packing .bf16)
  inb_S4096x512_S1024x512_0_0 : ∀ a, (![0, 0] : Fin 2 → Nat) a + S1024x512.size a ≤ S4096x512.size a
  h_S1024x512 : 0 < S1024x512.numel
  shapeCasts_S1024x512_S1024x512 : S1024x512.ShapeCasts S1024x512
  inb_S4096x512_S1024x512_1024_0 : ∀ a, (![1024, 0] : Fin 2 → Nat) a + S1024x512.size a ≤ S4096x512.size a
  inb_S4096x512_S1024x512_2048_0 : ∀ a, (![2048, 0] : Fin 2 → Nat) a + S1024x512.size a ≤ S4096x512.size a
  inb_S4096x512_S1024x512_3072_0 : ∀ a, (![3072, 0] : Fin 2 → Nat) a + S1024x512.size a ≤ S4096x512.size a
  shapeCasts_S512x256_S512x256 : S512x256.ShapeCasts S512x256
  slices_S512x512_o0_0_S512x256 : S512x512.Slices ![0, 0] S512x256
  slices_S512x512_o0_256_S512x256 : S512x512.Slices ![0, 256] S512x256
  dot_S512x1024_S1024x256_S512x256_1_0_0_1_n_n_wf : DotDims.WF S512x1024 S1024x256 S512x256 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x4096.size a
  hwx0_4 : ∀ i : grid0.Coords, EltTy.bits .f32 = 32 ∨ (Rect.block (s := S4096x4096) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x4096.size a
  hwx0_5 : ∀ i : grid0.Coords, EltTy.bits .f32 = 32 ∨ (Rect.block (s := S4096x4096) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x4096.size a
  hwx0_6 : ∀ i : grid0.Coords, EltTy.bits .f32 = 32 ∨ (Rect.block (s := S4096x4096) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x4096.size a
  hwx0_7 : ∀ i : grid0.Coords, EltTy.bits .f32 = 32 ∨ (Rect.block (s := S4096x4096) S512x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S4096x256.size a
  hwx0_8 : ∀ i : grid0.Coords, EltTy.bits .f32 = 32 ∨ (Rect.block (s := S4096x256) S4096x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S4096x256.size a
  hwx0_9 : ∀ i : grid0.Coords, EltTy.bits .f32 = 32 ∨ (Rect.block (s := S4096x256) S4096x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x256.size a
  hwx0_10 : ∀ i : grid0.Coords, EltTy.bits .bf16 = 32 ∨ (Rect.block (s := S4096x256) S512x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x256.size a
  hwx0_11 : ∀ i : grid0.Coords, EltTy.bits .bf16 = 32 ∨ (Rect.block (s := S4096x256) S512x256.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .f32 = 32 ∨ (Rect.block (s := S4096x4096) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x4096.size a
  hwx1_4 : ∀ i : grid1.Coords, EltTy.bits .f32 = 32 ∨ (Rect.block (s := S4096x4096) S512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x4096.size a
  hwx1_5 : ∀ i : grid1.Coords, EltTy.bits .f32 = 32 ∨ (Rect.block (s := S4096x4096) S512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x4096.size a
  hwx1_6 : ∀ i : grid1.Coords, EltTy.bits .f32 = 32 ∨ (Rect.block (s := S4096x4096) S512x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S4096x4096.size a
  hwx1_7 : ∀ i : grid1.Coords, EltTy.bits .f32 = 32 ∨ (Rect.block (s := S4096x4096) S512x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x256.size a ≤ S4096x256.size a
  hwx1_8 : ∀ i : grid1.Coords, EltTy.bits .bf16 = 32 ∨ (Rect.block (s := S4096x256) S4096x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096x256.size a ≤ S4096x256.size a
  hwx1_9 : ∀ i : grid1.Coords, EltTy.bits .bf16 = 32 ∨ (Rect.block (s := S4096x256) S4096x256.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4096x256.size a ≤ S4096x256.size a
  hwx1_10 : ∀ i : grid1.Coords, EltTy.bits .bf16 = 32 ∨ (Rect.block (s := S4096x256) S4096x256.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x256.size a ≤ S4096x256.size a
  hwx1_11 : ∀ i : grid1.Coords, EltTy.bits .f32 = 32 ∨ (Rect.block (s := S4096x256) S512x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4096x256.size a ≤ S4096x256.size a
  hwx1_12 : ∀ i : grid1.Coords, EltTy.bits .bf16 = 32 ∨ (Rect.block (s := S4096x256) S4096x256.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S4096x256.size a ≤ S4096x256.size a
  hwx1_13 : ∀ i : grid1.Coords, EltTy.bits .bf16 = 32 ∨ (Rect.block (s := S4096x256) S4096x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S4096x256.size a ≤ S4096x256.size a
  hwx1_14 : ∀ i : grid1.Coords, EltTy.bits .bf16 = 32 ∨ (Rect.block (s := S4096x256) S4096x256.size (cc1_transform_14 i) (hinb1_14 i)).WholeWords (EltTy.packing .bf16)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S512x256.size a ≤ S4096x256.size a
  hwx1_15 : ∀ i : grid1.Coords, EltTy.bits .f32 = 32 ∨ (Rect.block (s := S4096x256) S512x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S512x512.size a ≤ S4096x512.size a
  hwx1_16 : ∀ i : grid1.Coords, EltTy.bits .bf16 = 32 ∨ (Rect.block (s := S4096x512) S512x512.size (cc1_transform_16 i) (hinb1_16 i)).WholeWords (EltTy.packing .bf16)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S512x256.size a ≤ S4096x256.size a
  hwx1_17 : ∀ i : grid1.Coords, EltTy.bits .f32 = 32 ∨ (Rect.block (s := S4096x256) S512x256.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S512x512.size a ≤ S4096x512.size a
  hwx1_18 : ∀ i : grid1.Coords, EltTy.bits .bf16 = 32 ∨ (Rect.block (s := S4096x512) S512x512.size (cc1_transform_18 i) (hinb1_18 i)).WholeWords (EltTy.packing .bf16)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S512x256.size a ≤ S4096x256.size a
  hwx1_19 : ∀ i : grid1.Coords, EltTy.bits .f32 = 32 ∨ (Rect.block (s := S4096x256) S512x256.size (cc1_transform_19 i) (hinb1_19 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .f32 = 32 ∨ (Rect.block (s := S4096x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .f32 = 32 ∨ (Rect.block (s := S4096x4096) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x4096.size a
  hwx2_3 : ∀ i : grid2.Coords, EltTy.bits .f32 = 32 ∨ (Rect.block (s := S4096x4096) S512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S4096x4096.size a
  hwx2_4 : ∀ i : grid2.Coords, EltTy.bits .f32 = 32 ∨ (Rect.block (s := S4096x4096) S512x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x4096.size a
  hwx2_5 : ∀ i : grid2.Coords, EltTy.bits .f32 = 32 ∨ (Rect.block (s := S4096x4096) S512x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S4096x4096.size a
  hwx2_6 : ∀ i : grid2.Coords, EltTy.bits .f32 = 32 ∨ (Rect.block (s := S4096x4096) S512x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S4096x4096.size a
  hwx2_7 : ∀ i : grid2.Coords, EltTy.bits .f32 = 32 ∨ (Rect.block (s := S4096x4096) S512x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S4096x512.size a ≤ S4096x512.size a
  hwx2_8 : ∀ i : grid2.Coords, EltTy.bits .bf16 = 32 ∨ (Rect.block (s := S4096x512) S4096x512.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x256.size a ≤ S4096x256.size a
  hwx2_9 : ∀ i : grid2.Coords, EltTy.bits .bf16 = 32 ∨ (Rect.block (s := S4096x256) S512x256.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x256.size a ≤ S4096x256.size a
  hwx2_10 : ∀ i : grid2.Coords, EltTy.bits .bf16 = 32 ∨ (Rect.block (s := S4096x256) S512x256.size (cc2_transform_10 i) (hinb2_10 i)).WholeWords (EltTy.packing .bf16)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512x256.size a ≤ S4096x256.size a
  hwx2_11 : ∀ i : grid2.Coords, EltTy.bits .bf16 = 32 ∨ (Rect.block (s := S4096x256) S512x256.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S4096x512.size a ≤ S4096x512.size a
  hwx2_12 : ∀ i : grid2.Coords, EltTy.bits .bf16 = 32 ∨ (Rect.block (s := S4096x512) S4096x512.size (cc2_transform_12 i) (hinb2_12 i)).WholeWords (EltTy.packing .bf16)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S512x256.size a ≤ S4096x256.size a
  hwx2_13 : ∀ i : grid2.Coords, EltTy.bits .bf16 = 32 ∨ (Rect.block (s := S4096x256) S512x256.size (cc2_transform_13 i) (hinb2_13 i)).WholeWords (EltTy.packing .bf16)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S512x256.size a ≤ S4096x256.size a
  hwx2_14 : ∀ i : grid2.Coords, EltTy.bits .bf16 = 32 ∨ (Rect.block (s := S4096x256) S512x256.size (cc2_transform_14 i) (hinb2_14 i)).WholeWords (EltTy.packing .bf16)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S512x256.size a ≤ S4096x256.size a
  hwx2_15 : ∀ i : grid2.Coords, EltTy.bits .bf16 = 32 ∨ (Rect.block (s := S4096x256) S512x256.size (cc2_transform_15 i) (hinb2_15 i)).WholeWords (EltTy.packing .bf16)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S512x256.size a ≤ S4096x256.size a
  hwx2_16 : ∀ i : grid2.Coords, EltTy.bits .f32 = 32 ∨ (Rect.block (s := S4096x256) S512x256.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S512x256.size a ≤ S4096x256.size a
  hwx2_17 : ∀ i : grid2.Coords, EltTy.bits .f32 = 32 ∨ (Rect.block (s := S4096x256) S512x256.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S512x256.size a ≤ S4096x256.size a
  hwx2_18 : ∀ i : grid2.Coords, EltTy.bits .f32 = 32 ∨ (Rect.block (s := S4096x256) S512x256.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S512x256.size a ≤ S4096x256.size a
  hwx2_19 : ∀ i : grid2.Coords, EltTy.bits .f32 = 32 ∨ (Rect.block (s := S4096x256) S512x256.size (cc2_transform_19 i) (hinb2_19 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S4096x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S4096x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S512x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S512x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S512x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0) S4096x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S4096x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4_0) S4096x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg6) S512x256.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v2) S4096x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v3) S4096x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v4_1) S4096x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg7) S512x256.size cc1_transform_15 reads1_15 false false 2 stage1_15 sem1_15
    hrank1 hreads1_15 hinb1_15 nbuf1_15 (Memref.isWhole_whole _) hwx1_15 hstage1_15

abbrev win1_16 : Pipeline.Window sig grid1 :=
  Pipeline.Window.ofSpec (Memref.whole main_v5_0) S512x512.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v5_1) S512x256.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v5_2) S512x512.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v5_3) S512x256.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

abbrev win2_0 : Pipeline.Window sig grid2 :=
  Pipeline.Window.ofSpec (Memref.whole main_arg0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S512x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg2) S512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg2) S512x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg2) S512x1024.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v5_0) S4096x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v0) S512x256.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v1) S512x256.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_v4_0) S512x256.size cc2_transform_11 reads2_11 false false 2 stage2_11 sem2_11
    hrank2 hreads2_11 hinb2_11 nbuf2_11 (Memref.isWhole_whole _) hwx2_11 hstage2_11

abbrev win2_12 : Pipeline.Window sig grid2 :=
  Pipeline.Window.ofSpec (Memref.whole main_v5_2) S4096x512.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v2) S512x256.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v3) S512x256.size cc2_transform_14 reads2_14 false false 2 stage2_14 sem2_14
    hrank2 hreads2_14 hinb2_14 nbuf2_14 (Memref.isWhole_whole _) hwx2_14 hstage2_14

abbrev win2_15 : Pipeline.Window sig grid2 :=
  Pipeline.Window.ofSpec (Memref.whole main_v4_1) S512x256.size cc2_transform_15 reads2_15 false false 2 stage2_15 sem2_15
    hrank2 hreads2_15 hinb2_15 nbuf2_15 (Memref.isWhole_whole _) hwx2_15 hstage2_15

abbrev win2_16 : Pipeline.Window sig grid2 :=
  Pipeline.Window.ofSpec (Memref.whole main_v6_0) S512x256.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v6_1) S512x256.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v6_2) S512x256.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v6_3) S512x256.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S1x4096x256 : Shape := ⟨3, ![1, 4096, 256]⟩
abbrev S3x4096x256 : Shape := ⟨3, ![3, 4096, 256]⟩
abbrev S_ : Shape := ⟨0, ![]⟩

abbrev nBuf : Space → Nat
  | .hbm => 98
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S1x4096x256, .f32⟩
  | .hbm, ⟨15, _⟩ => ⟨S1x4096x256, .f32⟩
  | .hbm, ⟨16, _⟩ => ⟨S1x4096x256, .f32⟩
  | .hbm, ⟨17, _⟩ => ⟨S3x4096x256, .f32⟩
  | .hbm, ⟨18, _⟩ => ⟨S_, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S1x4096x256, .f32⟩
  | .hbm, ⟨24, _⟩ => ⟨S1x4096x256, .f32⟩
  | .hbm, ⟨25, _⟩ => ⟨S1x4096x256, .f32⟩
  | .hbm, ⟨26, _⟩ => ⟨S3x4096x256, .f32⟩
  | .hbm, ⟨27, _⟩ => ⟨S_, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S1x4096x256, .f32⟩
  | .hbm, ⟨37, _⟩ => ⟨S1x4096x256, .f32⟩
  | .hbm, ⟨38, _⟩ => ⟨S1x4096x256, .f32⟩
  | .hbm, ⟨39, _⟩ => ⟨S3x4096x256, .f32⟩
  | .hbm, ⟨40, _⟩ => ⟨S_, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .f32⟩
  | .hbm, ⟨45, _⟩ => ⟨S1x4096x256, .f32⟩
  | .hbm, ⟨46, _⟩ => ⟨S1x4096x256, .f32⟩
  | .hbm, ⟨47, _⟩ => ⟨S1x4096x256, .f32⟩
  | .hbm, ⟨48, _⟩ => ⟨S3x4096x256, .f32⟩
  | .hbm, ⟨49, _⟩ => ⟨S_, .f32⟩
  | .hbm, ⟨50, _⟩ => ⟨S4096x256, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S1x4096x256, .f32⟩
  | .hbm, ⟨59, _⟩ => ⟨S1x4096x256, .f32⟩
  | .hbm, ⟨60, _⟩ => ⟨S1x4096x256, .f32⟩
  | .hbm, ⟨61, _⟩ => ⟨S3x4096x256, .f32⟩
  | .hbm, ⟨62, _⟩ => ⟨S_, .f32⟩
  | .hbm, ⟨63, _⟩ => ⟨S4096x256, .f32⟩
  | .hbm, ⟨64, _⟩ => ⟨S_, .f32⟩
  | .hbm, ⟨65, _⟩ => ⟨S4096x256, .f32⟩
  | .hbm, ⟨66, _⟩ => ⟨S4096x256, .f32⟩
  | .hbm, ⟨67, _⟩ => ⟨S1x4096x256, .f32⟩
  | .hbm, ⟨68, _⟩ => ⟨S1x4096x256, .f32⟩
  | .hbm, ⟨69, _⟩ => ⟨S1x4096x256, .f32⟩
  | .hbm, ⟨70, _⟩ => ⟨S3x4096x256, .f32⟩
  | .hbm, ⟨71, _⟩ => ⟨S_, .f32⟩
  | .hbm, ⟨72, _⟩ => ⟨S4096x256, .f32⟩
  | .hbm, ⟨73, _⟩ => ⟨S_, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S1x4096x256, .f32⟩
  | .hbm, ⟨81, _⟩ => ⟨S1x4096x256, .f32⟩
  | .hbm, ⟨82, _⟩ => ⟨S1x4096x256, .f32⟩
  | .hbm, ⟨83, _⟩ => ⟨S3x4096x256, .f32⟩
  | .hbm, ⟨84, _⟩ => ⟨S_, .f32⟩
  | .hbm, ⟨85, _⟩ => ⟨S4096x256, .f32⟩
  | .hbm, ⟨86, _⟩ => ⟨S_, .f32⟩
  | .hbm, ⟨87, _⟩ => ⟨S4096x256, .f32⟩
  | .hbm, ⟨88, _⟩ => ⟨S4096x256, .f32⟩
  | .hbm, ⟨89, _⟩ => ⟨S1x4096x256, .f32⟩
  | .hbm, ⟨90, _⟩ => ⟨S1x4096x256, .f32⟩
  | .hbm, ⟨91, _⟩ => ⟨S1x4096x256, .f32⟩
  | .hbm, ⟨92, _⟩ => ⟨S3x4096x256, .f32⟩
  | .hbm, ⟨93, _⟩ => ⟨S_, .f32⟩
  | .hbm, ⟨94, _⟩ => ⟨S4096x256, .f32⟩
  | .hbm, ⟨95, _⟩ => ⟨S_, .f32⟩
  | .hbm, ⟨96, _⟩ => ⟨S4096x256, .f32⟩
  | .hbm, ⟨97, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  reducesTo_S3x4096x256_S4096x256_d0 : S3x4096x256.ReducesTo [0] S4096x256
  h_S_ : 0 < S_.numel
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Spec.lean ====
/-
  The mathematics both programs compute, stated once over the extended reals with no program in sight.

  Every one of the six results is the same function of two square arrays `P`, `Q` (4096 × 4096) and two tall
  arrays `x`, `y` (4096 × 256): the mean of the three layers of a two-layer bipartite propagation started at `x`,

      lgcn P Q x y = (x + P·y + P·(Q·x)) · (1/3),

  with `·` the matrix product, entry by entry `(P·y)[p,q] = Σ_k P[p,k] · y[k,q]`. The user-side results take
  `P` the user-by-item array and `x` a user embedding; the item-side results take `P` the item-by-user array and
  `x` the item embedding, so they are the same function with the two square arrays exchanged.

  Arrays are read through their entries (`entries`, `ofEntries`) so that every coordinate has a literal `Fin` type.
-/
import Idealize.ShloMosaic.PureOps.Ideal
import Idealize.ShloMosaic.Lib.ValueIdx

noncomputable section

open scoped BigOperators

namespace Cert.Spec

open Idealize.ShloMosaic Idealize.ShloMosaic.ValueIdx

/-- An array of rank 2 as a function of its two coordinates. -/
def entries {a b : Nat} (v : (⟨2, ![a, b]⟩ : Shape).Idx → EReal) : Fin a → Fin b → EReal := fun p q => v (ix2 p q)

/-- The array whose entry at `(p, q)` is `f p q`. -/
def ofEntries {a b : Nat} (f : Fin a → Fin b → EReal) : (⟨2, ![a, b]⟩ : Shape).Idx → EReal := fun i => f (i 0) (i 1)

@[simp] theorem ofEntries_ix2 {a b : Nat} (f : Fin a → Fin b → EReal) (p : Fin a) (q : Fin b) :
    ofEntries f (ix2 p q) = f p q := rfl

@[simp] theorem entries_ofEntries {a b : Nat} (f : Fin a → Fin b → EReal) : entries (ofEntries f) = f := rfl

theorem ofEntries_entries {a b : Nat} (v : (⟨2, ![a, b]⟩ : Shape).Idx → EReal) : ofEntries (entries v) = v := by
  funext i; rw [eq_ix2 i]; rfl

/-- The matrix product by entries: `(P·y)[p,q] = Σ_k P[p,k] · y[k,q]`. -/
def mmE {n k w : Nat} (P : Fin n → Fin k → EReal) (y : Fin k → Fin w → EReal) : Fin n → Fin w → EReal :=
  fun p q => ∑ j : Fin k, P p j * y j q

/-- The mean of the three layers, by entries: `(x + P·y + P·(Q·x))[p,q] · (1/3)`. -/
def lgcnE {n w : Nat} (P Q : Fin n → Fin n → EReal) (x y : Fin n → Fin w → EReal) : Fin n → Fin w → EReal :=
  fun p q => (x p q + mmE P y p q + mmE P (mmE Q x) p q) * ((1 / 3 : ℝ) : EReal)

/-- The same as an array of the results' shape. -/
def lgcn (P Q : (⟨2, ![4096, 4096]⟩ : Shape).Idx → EReal) (x y : (⟨2, ![4096, 256]⟩ : Shape).Idx → EReal) :
    (⟨2, ![4096, 256]⟩ : Shape).Idx → EReal :=
  ofEntries (lgcnE (entries P) (entries Q) (entries x) (entries y))

theorem lgcn_ix2 (P Q : (⟨2, ![4096, 4096]⟩ : Shape).Idx → EReal) (x y : (⟨2, ![4096, 256]⟩ : Shape).Idx → EReal)
    (p : Fin 4096) (q : Fin 256) :
    lgcn P Q x y (ix2 p q)
      = (x (ix2 p q) + (∑ j : Fin 4096, P (ix2 p j) * y (ix2 j q))
          + ∑ j : Fin 4096, P (ix2 p j) * ∑ l : Fin 4096, Q (ix2 j l) * x (ix2 l q)) * ((1 / 3 : ℝ) : EReal) := rfl

end Cert.Spec

end
-- ==== Proof.RefSpec.lean ====
/-
  The reference's six results are the specification's mean of three layers.

  Each result of the reference is computed in the same way from two square arrays `P`, `Q` (4096 × 4096) and two tall
  arrays `x`, `y` (4096 × 256): the three layers `x`, `P·y` and `P·(Q·x)` are each given a leading axis of extent one,
  stacked along that axis into a 3 × 4096 × 256 array, summed over the stacked axis starting from zero, and the sum is
  divided, entry by entry, by the constant three. Read at the entry `(p, q)`:

    * the stack's entry `(k, p, q)` is layer `k`'s entry `(0, p, q)`, which is the layer's own entry `(p, q)`;
    * the sum over the stacked axis is `0 + (x[p,q] + (P·y)[p,q] + (P·(Q·x))[p,q])`, and `0 + s = s`;
    * a matrix product's entry is `(A·b)[p,q] = Σ_k A[p,k] · b[k,q]`;
    * the divisor's word denotes the real number 3, and the quotient of any extended real by a nonzero real is its
      product with the reciprocal, so the quotient is `s · (1/3)`.

  That is `Cert.Spec.lgcn P Q x y` at `(p, q)`; no finiteness of any entry is used. The second theorem restates the
  reference's run (a generated module) with each of the six result terms replaced by the specification.
-/
import proofs.«140658_g7370163880393_cont_sun_c4_438_32_alg».proof.Proof.Spec
import proofs.«140658_g7370163880393_cont_sun_c4_438_32_alg».proof.Proof.Gen.ReferenceIdeal.Run
import proofs.«140658_g7370163880393_cont_sun_c4_438_32_alg».proof.Proof.Gen.ReferenceIdeal.Read

noncomputable section

open scoped BigOperators

namespace Cert.RefSpec

open Cert.ReferenceIdeal Cert.ReferenceIdeal.Gen Idealize.ShloMosaic Idealize.ShloMosaic.TcCoe Idealize.SL.Sem
  Idealize.ShloMosaic.StableHlo Idealize.ShloMosaic.ValueIdx

/-! ## The constants, the stack and the matrix product read at an entry -/

/-- The divisor's word denotes the real number three. -/
theorem ofBits_three : Ideal.ofBits .f32 0x40400000#32 = ((3 : ℝ) : EReal) := by
  simp [Ideal.ofBits, Ideal.ieee, -EReal.coe_mul]; norm_num

/-- Three layers of extent one stacked along a new leading axis: the entry at `(k, p, q)` of the stack is the entry at
    `(0, p, q)` of layer `k`. -/
theorem stack3_apply (u0 u1 u2 : S1x4096x256.Idx → EReal) (k : Fin 3) (p : Fin 4096) (q : Fin 256) :
    concatenate S3x4096x256 0 [⟨S1x4096x256, u0⟩, ⟨S1x4096x256, u1⟩, ⟨S1x4096x256, u2⟩]
        concatenates_S1x4096x256_S1x4096x256_S1x4096x256_S3x4096x256_d0 (ix3 k p q)
      = (![u0, u1, u2] k) (ix3 0 p q) :=
  concatenate_ofFn_unit_apply (t := S3x4096x256) (s₁ := S1x4096x256) (0 : Fin 3) (N := 3) ![u0, u1, u2]
    concatenates_S1x4096x256_S1x4096x256_S1x4096x256_S3x4096x256_d0 rfl rfl (ix3 k p q) k rfl (ix3 0 p q)
    (fun b hb => by
      match b with
      | ⟨0, _⟩ => exact absurd rfl hb
      | ⟨1, _⟩ => rfl
      | ⟨2, _⟩ => rfl)

/-- A tall array given a leading axis of extent one: its entry at `(0, p, q)` is the array's entry at `(p, q)`. -/
theorem layer_apply (u : FVec Ideal S4096x256 .f32) (p : Fin 4096) (q : Fin 256) :
    broadcastInDim S1x4096x256 ![1, 2] bcast_S4096x256_S1x4096x256_1_2 u (ix3 0 p q) = u (ix2 p q) :=
  (Read.val_main_v4_apply (F := Ideal) u (ix3 0 p q)).trans
    (congrArg u (funext fun a => by match a with | ⟨0, _⟩ => rfl | ⟨1, _⟩ => rfl))

/-- The matrix product at an entry: `(A·b)[p,q] = Σ_k A[p,k] · b[k,q]`. -/
theorem dot_apply (A : FVec Ideal S4096x4096 .f32) (b : FVec Ideal S4096x256 .f32) (p : Fin 4096) (q : Fin 256) :
    Host.dotGeneral (F := Ideal) dot_S4096x4096_S4096x256_S4096x256_1_0_0_1_n_n none A b (ix2 p q)
      = ∑ k : Fin 4096, A (ix2 p k) * b (ix2 k q) := by
  refine (Read.val_main_v0_apply A b (ix2 p q)).trans (Finset.sum_congr rfl fun k _ => ?_)
  have el : Read.lidx_main_v0 (ix2 p q) k = ix2 p k :=
    funext fun a => by match a with | ⟨0, _⟩ => rfl | ⟨1, _⟩ => rfl
  have er : Read.ridx_main_v0 (ix2 p q) k = ix2 k q :=
    funext fun a => by match a with | ⟨0, _⟩ => rfl | ⟨1, _⟩ => rfl
  rw [el, er]

/-! ## One result of the reference is the specification -/

/-- Each result of the reference — the three layers `x`, `P·y`, `P·(Q·x)` stacked along a new leading axis, summed
    over that axis from the initial value zero, and divided by three — is the mean of the three layers: at the entry
    `(p, q)` the sum over the stacked axis is `0 + (x[p,q] + (P·y)[p,q] + (P·(Q·x))[p,q])`, and the quotient of an
    extended real by the real number three is its product with `1/3`. -/
theorem term_eq (P Q : FVec Ideal S4096x4096 .f32) (x y : FVec Ideal S4096x256 .f32) :
    Host.divf (F := Ideal) (Host.reduceAdd (F := Ideal) (concatenate S3x4096x256 0 [⟨S1x4096x256, broadcastInDim S1x4096x256 ![1, 2] bcast_S4096x256_S1x4096x256_1_2 x⟩, ⟨S1x4096x256, broadcastInDim S1x4096x256 ![1, 2] bcast_S4096x256_S1x4096x256_1_2 (Host.dotGeneral (F := Ideal) dot_S4096x4096_S4096x256_S4096x256_1_0_0_1_n_n none P y)⟩, ⟨S1x4096x256, broadcastInDim S1x4096x256 ![1, 2] bcast_S4096x256_S1x4096x256_1_2 (Host.dotGeneral (F := Ideal) dot_S4096x4096_S4096x256_S4096x256_1_0_0_1_n_n none P (Host.dotGeneral (F := Ideal) dot_S4096x4096_S4096x256_S4096x256_1_0_0_1_n_n none Q x))⟩] concatenates_S1x4096x256_S1x4096x256_S1x4096x256_S3x4096x256_d0) (constant (F := Ideal) S_ .f32 0x00000000#32) reducesTo_S3x4096x256_S4096x256_d0 h_S_) (broadcastInDim S4096x256 ![] bcast_S_S4096x256 (constant (F := Ideal) S_ .f32 0x40400000#32))
      = Cert.Spec.lgcn P Q x y := by
  show Read.val_main_v10 (F := Ideal) P Q x y = _
  funext i
  obtain ⟨p, q, rfl⟩ : ∃ (p : Fin 4096) (q : Fin 256), i = ix2 p q := ⟨i 0, i 1, eq_ix2 i⟩
  have e8 : ∀ k : Fin 3, Read.idx_main_v8 (ix2 p q) k = ix3 k p q := fun k =>
    funext fun a => by match a with | ⟨0, _⟩ => rfl | ⟨1, _⟩ => rfl | ⟨2, _⟩ => rfl
  rw [Spec.lgcn_ix2, Read.val_main_v10_apply, Read.val_main_v8_apply, Read.val_main_v9_apply, Read.val_main_cst_apply,
    Read.val_main_cst_0_apply, Fin.sum_univ_three, e8, e8, e8]
  unfold Read.val_main_v7 Read.val_main_v4 Read.val_main_v5 Read.val_main_v6 Read.val_main_v0 Read.val_main_v2 Read.val_main_v1
  rw [stack3_apply, stack3_apply, stack3_apply]
  simp only [Matrix.cons_val_zero, Matrix.cons_val_one, Matrix.cons_val_two, Matrix.head_cons, Matrix.tail_cons]
  rw [layer_apply, layer_apply, layer_apply, dot_apply P y, dot_apply P]
  simp only [dot_apply Q x]
  rw [Ideal.ofBits_def, Ideal.ofBits_def, Ideal.ofBits_zero_f32, ofBits_three, Ideal.hostDivf_def,
    Ideal.div_coe (by norm_num : (3 : ℝ) ≠ 0), zero_add]

/-! ## The reference's run, stated over the specification -/

/-- On every device, from any memory with zero counters, every weakly fair execution of the reference terminates
    with each of its six results at the specification's mean of three layers of the arguments — three results over
    one pair of square arrays (two with the pair in one order, on two different starting arrays `x`, and one with the
    pair exchanged), three likewise over the other pair — and with the ten arguments unchanged. -/
theorem run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v46) = Cert.Spec.lgcn (m ((c.tc : Thread nD τ).loc main_arg0)) (m ((c.tc : Thread nD τ).loc main_arg1)) (m ((c.tc : Thread nD τ).loc main_arg8)) (m ((c.tc : Thread nD τ).loc main_arg6))
      ∧ r.2.mem ((c.tc : Thread nD τ).loc main_v10) = Cert.Spec.lgcn (m ((c.tc : Thread nD τ).loc main_arg0)) (m ((c.tc : Thread nD τ).loc main_arg1)) (m ((c.tc : Thread nD τ).loc main_arg4)) (m ((c.tc : Thread nD τ).loc main_arg6))
      ∧ r.2.mem ((c.tc : Thread nD τ).loc main_v17) = Cert.Spec.lgcn (m ((c.tc : Thread nD τ).loc main_arg1)) (m ((c.tc : Thread nD τ).loc main_arg0)) (m ((c.tc : Thread nD τ).loc main_arg6)) (m ((c.tc : Thread nD τ).loc main_arg4))
      ∧ r.2.mem ((c.tc : Thread nD τ).loc main_v64) = Cert.Spec.lgcn (m ((c.tc : Thread nD τ).loc main_arg2)) (m ((c.tc : Thread nD τ).loc main_arg3)) (m ((c.tc : Thread nD τ).loc main_arg9)) (m ((c.tc : Thread nD τ).loc main_arg7))
      ∧ r.2.mem ((c.tc : Thread nD τ).loc main_v28) = Cert.Spec.lgcn (m ((c.tc : Thread nD τ).loc main_arg2)) (m ((c.tc : Thread nD τ).loc main_arg3)) (m ((c.tc : Thread nD τ).loc main_arg5)) (m ((c.tc : Thread nD τ).loc main_arg7))
      ∧ r.2.mem ((c.tc : Thread nD τ).loc main_v35) = Cert.Spec.lgcn (m ((c.tc : Thread nD τ).loc main_arg3)) (m ((c.tc : Thread nD τ).loc main_arg2)) (m ((c.tc : Thread nD τ).loc main_arg7)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run Cert.ReferenceIdeal.defs _ _).mono (fun _ h c => by
      obtain ⟨h46, h10, h17, h64, h28, h35, hargs⟩ := h c
      exact ⟨h46.trans (term_eq _ _ _ _), h10.trans (term_eq _ _ _ _), h17.trans (term_eq _ _ _ _),
        h64.trans (term_eq _ _ _ _), h28.trans (term_eq _ _ _ _), h35.trans (term_eq _ _ _ _), hargs⟩)
    (Cert.ReferenceIdeal.Value.run (F := Ideal) m ρ)

end Cert.RefSpec

end
-- ==== Proof.K.Stage1.lean ====
import proofs.«140658_g7370163880393_cont_sun_c4_438_32_alg».proof.Proof.Gen.Kernel.Launch
import proofs.«140658_g7370163880393_cont_sun_c4_438_32_alg».proof.Proof.Gen.Kernel.Skeleton
import proofs.«140658_g7370163880393_cont_sun_c4_438_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Stage 1: one row block of the first product, for both domains

At a grid point the body holds four column quarters of a 512-row block of each adjacency array and the whole item
embedding of each domain. It rounds each quarter and the matching 1024 rows of the embedding to the narrow format,
multiplies them on the matrix unit into a zero accumulator of the wide format, adds the four partial products in order,
and stores the sum rounded to the narrow format: one store per output window, covering its block. -/

/-- The whole 512 × 1024 block of an adjacency window. -/
abbrev rA : Rect S512x1024 := Rect.unit (s := S512x1024) ![0, 0] S512x1024.size inb_S512x1024_S512x1024_0_0
/-- The four 1024-row quarters of the resident embedding. -/
abbrev rB0 : Rect S4096x256 := Rect.unit (s := S4096x256) ![0, 0] S1024x256.size inb_S4096x256_S1024x256_0_0
abbrev rB1 : Rect S4096x256 := Rect.unit (s := S4096x256) ![1024, 0] S1024x256.size inb_S4096x256_S1024x256_1024_0
abbrev rB2 : Rect S4096x256 := Rect.unit (s := S4096x256) ![2048, 0] S1024x256.size inb_S4096x256_S1024x256_2048_0
abbrev rB3 : Rect S4096x256 := Rect.unit (s := S4096x256) ![3072, 0] S1024x256.size inb_S4096x256_S1024x256_3072_0
/-- The whole 512 × 256 output block. -/
abbrev rO : Rect S512x256 := Rect.unit (s := S512x256) ![0, 0] S512x256.size inb_S512x256_S512x256_0_0

/-- What the body leaves in the first output's buffer: its one store, over the first domain's loads. -/
def outS (x0 x1 x2 x3 : Vec F S512x1024 .f32) (x8 : Vec F S4096x256 .f32) : Vec F S512x256 .bf16 :=
  View.canon [⟨rO, k0_pay2 (View.ld x0 rA) (View.ld x1 rA) (View.ld x2 rA) (View.ld x3 rA) (View.ld x8 rB0) (View.ld x8 rB1) (View.ld x8 rB2) (View.ld x8 rB3)⟩]

/-- What it leaves in the second output's buffer, over the second domain's loads. -/
def outT (x4 x5 x6 x7 : Vec F S512x1024 .f32) (x9 : Vec F S4096x256 .f32) : Vec F S512x256 .bf16 :=
  View.canon [⟨rO, k0_pay1 (k0_pay3 (View.ld x4 rA)) (k0_pay4 (View.ld x5 rA)) (View.ld x6 rA) (View.ld x7 rA) (View.ld x9 rB0) (View.ld x9 rB1) (View.ld x9 rB2) (View.ld x9 rB3)⟩]

/-- The one store covers the output block. -/
theorem coverO (p0 : Vec F S512x256 .bf16) (y : S512x256.Idx) :
    ∃ pc ∈ ([⟨rO, p0⟩] : List (View.Piece (Elt F) S512x256 .bf16)), y ∈ pc.1.set :=
  View.cover_of_tiled [⟨rO, p0⟩] S512x256.size (by rfl) y

set_option maxHeartbeats 4000000 in
/-- The body on whole staging memrefs: the ten inputs at read contents `x0 … x9`, the two outputs at anything; it
    runs to the continuation with the inputs as they were and each output at its one store. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S512x256 .bf16) (harg11 : arg11.IsWhole) (arg12 : Memref sig .tc .vmem S512x256 .bf16) (harg12 : arg12.IsWhole)
    (x0 x1 x2 x3 x4 x5 x6 x7 : Vec F S512x1024 .f32) (x8 x9 : Vec F S4096x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outS x0 x1 x2 x3 x8) ∗ owns (c : Thread nD τ) arg12 fullShare (outT x4 x5 x6 x7 x9)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coverO _)
  iexists _; isplitr
  swap; · iexact H11
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outS (iblk V c 0 t) (iblk V c 1 t) (iblk V c 2 t) (iblk V c 3 t) (iblk V c 8 t)
    | ⟨11, _⟩ => outT (iblk V c 4 t) (iblk V c 5 t) (iblk V c 6 t) (iblk V c 7 t) (iblk V c 9 t)
  Φ _ := Pipeline.ΦA spec0 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = outS (iblk V c 0 t) (iblk V c 1 t) (iblk V c 2 t) (iblk V c 3 t) (iblk V c 8 t) := by dsimp only [dat]
theorem after_11 (c : Dev nD) (t : Fin cfg0.N) : (dat V c).after 11 t = outT (iblk V c 4 t) (iblk V c 5 t) (iblk V c 6 t) (iblk V c 7 t) (iblk V c 9 t) := by dsimp only [dat]

/-! An input's staging buffer holds its block at every point, fetched there or not: where the pipeline does not fetch,
    the block index has not moved and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 2000000 in
/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (cfg0.grid.coords t) _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Stage1

end
-- ==== Proof.K.Stage2.lean ====
import proofs.«140658_g7370163880393_cont_sun_c4_438_32_alg».proof.Proof.Gen.Kernel.Launch
import proofs.«140658_g7370163880393_cont_sun_c4_438_32_alg».proof.Proof.Gen.Kernel.Skeleton
import proofs.«140658_g7370163880393_cont_sun_c4_438_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Stage 2: one row block of the two second-layer products and of the item-side result, for both domains

At a grid point the body holds four column quarters of a 512-row block of each item-by-user array, the whole of the
narrow-format casts of the two user embeddings and of stage 1's output (resident), and the row block of the item
embedding. With each adjacency quarter rounded to the narrow format and every product accumulated in the wide format from
zero, it forms `B`, `B'` (against the two casts) and `D` (against stage 1's output) quarter by quarter, stores `B` and
`B'` rounded to the narrow format side by side as the two column halves of one output block, and stores
`((i0 + B) + D) · third` into the other, `B` unrounded and `third` the f32 constant nearest 1/3. -/

abbrev rA : Rect S512x1024 := Rect.unit (s := S512x1024) ![0, 0] S512x1024.size inb_S512x1024_S512x1024_0_0
abbrev rB0 : Rect S4096x256 := Rect.unit (s := S4096x256) ![0, 0] S1024x256.size inb_S4096x256_S1024x256_0_0
abbrev rB1 : Rect S4096x256 := Rect.unit (s := S4096x256) ![1024, 0] S1024x256.size inb_S4096x256_S1024x256_1024_0
abbrev rB2 : Rect S4096x256 := Rect.unit (s := S4096x256) ![2048, 0] S1024x256.size inb_S4096x256_S1024x256_2048_0
abbrev rB3 : Rect S4096x256 := Rect.unit (s := S4096x256) ![3072, 0] S1024x256.size inb_S4096x256_S1024x256_3072_0
abbrev rO : Rect S512x256 := Rect.unit (s := S512x256) ![0, 0] S512x256.size inb_S512x256_S512x256_0_0
/-- The left and right column halves of the 512 × 512 output block. -/
abbrev rLo : Rect S512x512 := Rect.unit (s := S512x512) ![0, 0] S512x256.size inb_S512x512_S512x256_0_0
abbrev rHi : Rect S512x512 := Rect.unit (s := S512x512) ![0, 256] S512x256.size inb_S512x512_S512x256_0_256

/-- The pair `[B | B']` of the first domain: two stores, the right half last. -/
def outBBs (x0 x1 x2 x3 : Vec F S512x1024 .f32) (x8 x9 : Vec F S4096x256 .bf16) : Vec F S512x512 .bf16 :=
  View.canon [⟨rHi, k1_pay8 (k1_pay3 (View.ld x2 rA)) (k1_pay4 (View.ld x3 rA)) (k1_pay6 (View.ld x0 rA) (View.ld x1 rA) (View.ld x9 rB0) (View.ld x9 rB1)) (View.ld x9 rB2) (View.ld x9 rB3)⟩,
    ⟨rLo, k1_pay7 (k1_pay5 (View.ld x0 rA) (View.ld x1 rA) (View.ld x2 rA) (View.ld x3 rA) (View.ld x8 rB0) (View.ld x8 rB1) (View.ld x8 rB2) (View.ld x8 rB3))⟩]

/-- The item-side result of the first domain: one store. -/
def outIs (x0 x1 x2 x3 : Vec F S512x1024 .f32) (x8 x10 : Vec F S4096x256 .bf16) (x11 : Vec F S512x256 .f32) : Vec F S512x256 .f32 :=
  View.canon [⟨rO, k1_pay9 (k1_pay1 (View.ld x0 rA)) (k1_pay2 (View.ld x1 rA)) (k1_pay3 (View.ld x2 rA)) (k1_pay4 (View.ld x3 rA)) (k1_pay5 (View.ld x0 rA) (View.ld x1 rA) (View.ld x2 rA) (View.ld x3 rA) (View.ld x8 rB0) (View.ld x8 rB1) (View.ld x8 rB2) (View.ld x8 rB3)) (View.ld x10 rB0) (View.ld x10 rB1) (View.ld x10 rB2) (View.ld x10 rB3) (View.ld x11 rO)⟩]

/-- The pair `[B | B']` of the second domain. -/
def outBBt (x4 x5 x6 x7 : Vec F S512x1024 .f32) (x12 x13 : Vec F S4096x256 .bf16) : Vec F S512x512 .bf16 :=
  View.canon [⟨rHi, k1_pay18 (k1_pay12 (View.ld x6 rA)) (k1_pay13 (View.ld x7 rA)) (k1_pay15 (View.ld x4 rA) (View.ld x5 rA) (View.ld x13 rB0) (View.ld x13 rB1)) (k1_pay16 (View.ld x13 rB2)) (View.ld x13 rB3)⟩,
    ⟨rLo, k1_pay17 (k1_pay14 (View.ld x4 rA) (View.ld x5 rA) (View.ld x6 rA) (View.ld x7 rA) (View.ld x12 rB0) (View.ld x12 rB1) (View.ld x12 rB2) (View.ld x12 rB3))⟩]

/-- The item-side result of the second domain. -/
def outIt (x4 x5 x6 x7 : Vec F S512x1024 .f32) (x12 x14 : Vec F S4096x256 .bf16) (x15 : Vec F S512x256 .f32) : Vec F S512x256 .f32 :=
  View.canon [⟨rO, k1_pay19 (k1_pay10 (View.ld x4 rA)) (k1_pay11 (View.ld x5 rA)) (k1_pay12 (View.ld x6 rA)) (k1_pay13 (View.ld x7 rA)) (k1_pay14 (View.ld x4 rA) (View.ld x5 rA) (View.ld x6 rA) (View.ld x7 rA) (View.ld x12 rB0) (View.ld x12 rB1) (View.ld x12 rB2) (View.ld x12 rB3)) (View.ld x14 rB0) (View.ld x14 rB1) (View.ld x14 rB2) (View.ld x14 rB3) (View.ld x15 rO)⟩]

/-- One store covers the 512 × 256 block. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-- The two column halves tile the 512 × 512 block. -/
theorem coverBB (p1 p0 : Vec F S512x256 .bf16) (y : S512x512.Idx) :
    ∃ pc ∈ ([⟨rHi, p1⟩, ⟨rLo, p0⟩] : List (View.Piece (Elt F) S512x512 .bf16)), y ∈ pc.1.set :=
  View.cover_of_tiled [⟨rHi, p1⟩, ⟨rLo, p0⟩] S512x256.size (by rfl) y

set_option maxHeartbeats 8000000 in
/-- The body on whole staging memrefs: the sixteen inputs at read contents, the four outputs at anything; it runs to
    the continuation with the inputs as they were and each output at its stores. -/
theorem sound_kernel (c : Dev nD) (E : Set ℕ) (i : grid1.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S512x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S512x256 .f32) (harg16 : arg16.IsWhole) (arg17 : Memref sig .tc .vmem S512x512 .bf16) (harg17 : arg17.IsWhole) (arg18 : Memref sig .tc .vmem S512x256 .f32) (harg18 : arg18.IsWhole) (arg19 : Memref sig .tc .vmem S512x512 .bf16) (harg19 : arg19.IsWhole) (arg20 : Memref sig .tc .vmem S512x256 .f32) (harg20 : arg20.IsWhole)
    (x0 : Vec F S512x1024 .f32) (x1 : Vec F S512x1024 .f32) (x2 : Vec F S512x1024 .f32) (x3 : Vec F S512x1024 .f32) (x4 : Vec F S512x1024 .f32) (x5 : Vec F S512x1024 .f32) (x6 : Vec F S512x1024 .f32) (x7 : Vec F S512x1024 .f32) (x8 : Vec F S4096x256 .bf16) (x9 : Vec F S4096x256 .bf16) (x10 : Vec F S4096x256 .bf16) (x11 : Vec F S512x256 .f32) (x12 : Vec F S4096x256 .bf16) (x13 : Vec F S4096x256 .bf16) (x14 : Vec F S4096x256 .bf16) (x15 : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (outBBs x0 x1 x2 x3 x8 x9) ∗ owns (c : Thread nD τ) arg18 fullShare (outIs x0 x1 x2 x3 x8 x10 x11) ∗ owns (c : Thread nD τ) arg19 fullShare (outBBt x4 x5 x6 x7 x12 x13) ∗ owns (c : Thread nD τ) arg20 fullShare (outIt x4 x5 x6 x7 x12 x14 x15)) -∗ K ⟨⟩))
      ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__s2_body_eq_skeleton]; unfold cc1__s2_body_skel
  simp only [k1_part4_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverBB _ _)
  isplitl [H17]
  · iexists _; isplitr
    swap; · iexact H17
    ipureintro
    exact View.read_writes_eq_canon _ _ _ (coverO _)
  isplitl [H18]
  · iexists _; isplitr
    swap; · iexact H18
    ipureintro
    exact View.read_writes_eq_canon _ _ _ (coverBB _ _)
  iexists _; isplitr
  swap; · iexact H19
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outBBs (iblk V c 0 t) (iblk V c 1 t) (iblk V c 2 t) (iblk V c 3 t) (iblk V c 8 t) (iblk V c 9 t)
    | ⟨17, _⟩ => outIs (iblk V c 0 t) (iblk V c 1 t) (iblk V c 2 t) (iblk V c 3 t) (iblk V c 8 t) (iblk V c 10 t) (iblk V c 11 t)
    | ⟨18, _⟩ => outBBt (iblk V c 4 t) (iblk V c 5 t) (iblk V c 6 t) (iblk V c 7 t) (iblk V c 12 t) (iblk V c 13 t)
    | ⟨19, _⟩ => outIt (iblk V c 4 t) (iblk V c 5 t) (iblk V c 6 t) (iblk V c 7 t) (iblk V c 12 t) (iblk V c 14 t) (iblk V c 15 t)
    | ⟨_ + 20, h⟩ => absurd h (Nat.not_lt.2 (Nat.le_add_left _ _))
  Φ _ := Pipeline.ΦA spec1 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = outBBs (iblk V c 0 t) (iblk V c 1 t) (iblk V c 2 t) (iblk V c 3 t) (iblk V c 8 t) (iblk V c 9 t) := by dsimp only [dat]
theorem after_17 (c : Dev nD) (t : Fin cfg1.N) : (dat V c).after 17 t = outIs (iblk V c 0 t) (iblk V c 1 t) (iblk V c 2 t) (iblk V c 3 t) (iblk V c 8 t) (iblk V c 10 t) (iblk V c 11 t) := by dsimp only [dat]
theorem after_18 (c : Dev nD) (t : Fin cfg1.N) : (dat V c).after 18 t = outBBt (iblk V c 4 t) (iblk V c 5 t) (iblk V c 6 t) (iblk V c 7 t) (iblk V c 12 t) (iblk V c 13 t) := by dsimp only [dat]
theorem after_19 (c : Dev nD) (t : Fin cfg1.N) : (dat V c).after 19 t = outIt (iblk V c 4 t) (iblk V c 5 t) (iblk V c 6 t) (iblk V c 7 t) (iblk V c 12 t) (iblk V c 14 t) (iblk V c 15 t) := by dsimp only [dat]

/-! An input's staging buffer holds its block at every point, fetched there or not: where the pipeline does not fetch,
    the block index has not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg1.N) (d) : (dat V c).before 14 t d = iblk V c 14 t :=
  ((dat V c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg1.N) (d) : (dat V c).before 15 t d = iblk V c 15 t :=
  ((dat V c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t)
    ∗ owns (c : Thread nD τ) (st1_18 t) fullShare ((dat V c).after 18 t)
    ∗ owns (c : Thread nD τ) (st1_19 t) fullShare ((dat V c).after 19 t))

set_option maxHeartbeats 2000000 in
/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13, before_14, before_15]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (cfg1.grid.coords t) _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Stage2

end
-- ==== Proof.K.Stage3.lean ====
import proofs.«140658_g7370163880393_cont_sun_c4_438_32_alg».proof.Proof.Gen.Kernel.Launch
import proofs.«140658_g7370163880393_cont_sun_c4_438_32_alg».proof.Proof.Gen.Kernel.Skeleton
import proofs.«140658_g7370163880393_cont_sun_c4_438_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Stage3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Stage 3: one row block of the two user-side results, for both domains

At a grid point the body holds four column quarters of a 512-row block of each user-by-item array, the whole pair
`[B | B']` that stage 2 stored (resident, 512 columns, narrow format), and the row blocks of the narrow-format casts of
the two user embeddings and of stage 1's output, each widened before it is added. With each adjacency quarter rounded to
the narrow format and the products accumulated in the wide format, it forms `[C | C']` from the quarters and the pair
and stores `((u0 + A) + C) · third` and `((u0' + A) + C') · third`, `C` and `C'` the left and right column halves of the
product and `third` the f32 constant nearest 1/3. -/

abbrev rA : Rect S512x1024 := Rect.unit (s := S512x1024) ![0, 0] S512x1024.size inb_S512x1024_S512x1024_0_0
/-- The four 1024-row quarters of the resident pair. -/
abbrev rC0 : Rect S4096x512 := Rect.unit (s := S4096x512) ![0, 0] S1024x512.size inb_S4096x512_S1024x512_0_0
abbrev rC1 : Rect S4096x512 := Rect.unit (s := S4096x512) ![1024, 0] S1024x512.size inb_S4096x512_S1024x512_1024_0
abbrev rC2 : Rect S4096x512 := Rect.unit (s := S4096x512) ![2048, 0] S1024x512.size inb_S4096x512_S1024x512_2048_0
abbrev rC3 : Rect S4096x512 := Rect.unit (s := S4096x512) ![3072, 0] S1024x512.size inb_S4096x512_S1024x512_3072_0
abbrev rO : Rect S512x256 := Rect.unit (s := S512x256) ![0, 0] S512x256.size inb_S512x256_S512x256_0_0

/-- `(u0 + A + C) · third`, first domain. -/
def outUs (x0 x1 x2 x3 : Vec F S512x1024 .f32) (x8 : Vec F S4096x512 .bf16) (x9 x11 : Vec F S512x256 .bf16) : Vec F S512x256 .f32 :=
  View.canon [⟨rO, k2_pay9 (k2_pay5 (View.ld x0 rA) (View.ld x1 rA) (View.ld x2 rA) (View.ld x3 rA) (View.ld x8 rC0) (View.ld x8 rC1) (View.ld x8 rC2) (View.ld x8 rC3)) (k2_pay8 (View.ld x11 rO) (View.ld x9 rO))⟩]

/-- `(u0' + A + C') · third`, first domain. -/
def outSs (x0 x1 x2 x3 : Vec F S512x1024 .f32) (x8 : Vec F S4096x512 .bf16) (x10 x11 : Vec F S512x256 .bf16) : Vec F S512x256 .f32 :=
  View.canon [⟨rO, k2_pay10 (k2_pay5 (View.ld x0 rA) (View.ld x1 rA) (View.ld x2 rA) (View.ld x3 rA) (View.ld x8 rC0) (View.ld x8 rC1) (View.ld x8 rC2) (View.ld x8 rC3)) (k2_pay6 (View.ld x11 rO)) (k2_pay7 (View.ld x10 rO))⟩]

/-- `(u0 + A + C) · third`, second domain. -/
def outUt (x4 x5 x6 x7 : Vec F S512x1024 .f32) (x12 : Vec F S4096x512 .bf16) (x13 x15 : Vec F S512x256 .bf16) : Vec F S512x256 .f32 :=
  View.canon [⟨rO, k2_pay3 (k2_pay11 (View.ld x7 rA)) (k2_pay12 (View.ld x4 rA) (View.ld x5 rA) (View.ld x6 rA) (View.ld x12 rC0) (View.ld x12 rC1) (View.ld x12 rC2)) (k2_pay13 (View.ld x12 rC3)) (constant S512x512 .f32 0x00000000#32) (View.ld x15 rO) (View.ld x13 rO)⟩]

/-- `(u0' + A + C') · third`, second domain. -/
def outSt (x4 x5 x6 x7 : Vec F S512x1024 .f32) (x12 : Vec F S4096x512 .bf16) (x14 x15 : Vec F S512x256 .bf16) : Vec F S512x256 .f32 :=
  View.canon [⟨rO, k2_pay4 (k2_pay11 (View.ld x7 rA)) (k2_pay12 (View.ld x4 rA) (View.ld x5 rA) (View.ld x6 rA) (View.ld x12 rC0) (View.ld x12 rC1) (View.ld x12 rC2)) (k2_pay13 (View.ld x12 rC3)) (constant S512x512 .f32 0x00000000#32) (View.ld x15 rO) (View.ld x14 rO)⟩]

/-- One store covers the 512 × 256 block. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

set_option maxHeartbeats 8000000 in
/-- The body on whole staging memrefs: the sixteen inputs at read contents, the four outputs at anything; it runs to
    the continuation with the inputs as they were and each output at its one store. -/
theorem sound_kernel (c : Dev nD) (E : Set ℕ) (i : grid2.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x512 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S4096x512 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x256 .f32) (harg20 : arg20.IsWhole)
    (x0 : Vec F S512x1024 .f32) (x1 : Vec F S512x1024 .f32) (x2 : Vec F S512x1024 .f32) (x3 : Vec F S512x1024 .f32) (x4 : Vec F S512x1024 .f32) (x5 : Vec F S512x1024 .f32) (x6 : Vec F S512x1024 .f32) (x7 : Vec F S512x1024 .f32) (x8 : Vec F S4096x512 .bf16) (x9 : Vec F S512x256 .bf16) (x10 : Vec F S512x256 .bf16) (x11 : Vec F S512x256 .bf16) (x12 : Vec F S4096x512 .bf16) (x13 : Vec F S512x256 .bf16) (x14 : Vec F S512x256 .bf16) (x15 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (outUs x0 x1 x2 x3 x8 x9 x11) ∗ owns (c : Thread nD τ) arg18 fullShare (outSs x0 x1 x2 x3 x8 x10 x11) ∗ owns (c : Thread nD τ) arg19 fullShare (outUt x4 x5 x6 x7 x12 x13 x15) ∗ owns (c : Thread nD τ) arg20 fullShare (outSt x4 x5 x6 x7 x12 x14 x15)) -∗ K ⟨⟩))
      ⊢ wp frame (wpE (defs₀ (F := F)) Variants.none c none) E (cc2__s3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc2__s3_body_eq_skeleton]; unfold cc2__s3_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverO _)
  isplitl [H17]
  · iexists _; isplitr
    swap; · iexact H17
    ipureintro
    exact View.read_writes_eq_canon _ _ _ (coverO _)
  isplitl [H18]
  · iexists _; isplitr
    swap; · iexact H18
    ipureintro
    exact View.read_writes_eq_canon _ _ _ (coverO _)
  iexists _; isplitr
  swap; · iexact H19
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outUs (iblk V c 0 t) (iblk V c 1 t) (iblk V c 2 t) (iblk V c 3 t) (iblk V c 8 t) (iblk V c 9 t) (iblk V c 11 t)
    | ⟨17, _⟩ => outSs (iblk V c 0 t) (iblk V c 1 t) (iblk V c 2 t) (iblk V c 3 t) (iblk V c 8 t) (iblk V c 10 t) (iblk V c 11 t)
    | ⟨18, _⟩ => outUt (iblk V c 4 t) (iblk V c 5 t) (iblk V c 6 t) (iblk V c 7 t) (iblk V c 12 t) (iblk V c 13 t) (iblk V c 15 t)
    | ⟨19, _⟩ => outSt (iblk V c 4 t) (iblk V c 5 t) (iblk V c 6 t) (iblk V c 7 t) (iblk V c 12 t) (iblk V c 14 t) (iblk V c 15 t)
    | ⟨_ + 20, h⟩ => absurd h (Nat.not_lt.2 (Nat.le_add_left _ _))
  Φ _ := Pipeline.ΦA spec2 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]
theorem after_14 (c : Dev nD) (t : Fin cfg2.N) : (dat V c).after 14 t = iblk V c 14 t := by dsimp only [dat]
theorem after_15 (c : Dev nD) (t : Fin cfg2.N) : (dat V c).after 15 t = iblk V c 15 t := by dsimp only [dat]
theorem after_16 (c : Dev nD) (t : Fin cfg2.N) : (dat V c).after 16 t = outUs (iblk V c 0 t) (iblk V c 1 t) (iblk V c 2 t) (iblk V c 3 t) (iblk V c 8 t) (iblk V c 9 t) (iblk V c 11 t) := by dsimp only [dat]
theorem after_17 (c : Dev nD) (t : Fin cfg2.N) : (dat V c).after 17 t = outSs (iblk V c 0 t) (iblk V c 1 t) (iblk V c 2 t) (iblk V c 3 t) (iblk V c 8 t) (iblk V c 10 t) (iblk V c 11 t) := by dsimp only [dat]
theorem after_18 (c : Dev nD) (t : Fin cfg2.N) : (dat V c).after 18 t = outUt (iblk V c 4 t) (iblk V c 5 t) (iblk V c 6 t) (iblk V c 7 t) (iblk V c 12 t) (iblk V c 13 t) (iblk V c 15 t) := by dsimp only [dat]
theorem after_19 (c : Dev nD) (t : Fin cfg2.N) : (dat V c).after 19 t = outSt (iblk V c 4 t) (iblk V c 5 t) (iblk V c 6 t) (iblk V c 7 t) (iblk V c 12 t) (iblk V c 14 t) (iblk V c 15 t) := by dsimp only [dat]

/-! An input's staging buffer holds its block at every point, fetched there or not: where the pipeline does not fetch,
    the block index has not moved and the body left the block in place. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg2.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg2.N) (d) : (dat V c).before 11 t d = iblk V c 11 t :=
  ((dat V c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg2.N) (d) : (dat V c).before 12 t d = iblk V c 12 t :=
  ((dat V c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg2.N) (d) : (dat V c).before 13 t d = iblk V c 13 t :=
  ((dat V c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg2.N) (d) : (dat V c).before 14 t d = iblk V c 14 t :=
  ((dat V c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg2.N) (d) : (dat V c).before 15 t d = iblk V c 15 t :=
  ((dat V c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d))
    ∗ (∃ d, owns (c : Thread nD τ) (st2_15 t) fullShare ((dat V c).before 15 t d))
    ∗ (∃ d, owns (c : Thread nD τ) (st2_16 t) fullShare ((dat V c).before 16 t d))
    ∗ (∃ d, owns (c : Thread nD τ) (st2_17 t) fullShare ((dat V c).before 17 t d))
    ∗ (∃ d, owns (c : Thread nD τ) (st2_18 t) fullShare ((dat V c).before 18 t d))
    ∗ (∃ d, owns (c : Thread nD τ) (st2_19 t) fullShare ((dat V c).before 19 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t)
    ∗ owns (c : Thread nD τ) (st2_15 t) fullShare ((dat V c).after 15 t)
    ∗ owns (c : Thread nD τ) (st2_16 t) fullShare ((dat V c).after 16 t)
    ∗ owns (c : Thread nD τ) (st2_17 t) fullShare ((dat V c).after 17 t)
    ∗ owns (c : Thread nD τ) (st2_18 t) fullShare ((dat V c).after 18 t)
    ∗ owns (c : Thread nD τ) (st2_19 t) fullShare ((dat V c).after 19 t))

set_option maxHeartbeats 2000000 in
/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13, before_14, before_15]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (cfg2.grid.coords t) _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Stage3

end
-- ==== Proof.K.Run.lean ====
import proofs.«140658_g7370163880393_cont_sun_c4_438_32_alg».proof.Proof.Gen.Kernel.Launch
import proofs.«140658_g7370163880393_cont_sun_c4_438_32_alg».proof.Proof.Gen.Kernel.Skeleton
import proofs.«140658_g7370163880393_cont_sun_c4_438_32_alg».proof.Proof.Gen.Kernel.Points
import proofs.«140658_g7370163880393_cont_sun_c4_438_32_alg».proof.Proof.Gen.Kernel.Regions
import proofs.«140658_g7370163880393_cont_sun_c4_438_32_alg».proof.Proof.K.Stage1
import proofs.«140658_g7370163880393_cont_sun_c4_438_32_alg».proof.Proof.K.Stage2
import proofs.«140658_g7370163880393_cont_sun_c4_438_32_alg».proof.Proof.K.Stage3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The run of the whole program: a stretch of host operations, then the three stages in order

Between two items a core holds every unscoped buffer whole at a valuation: the launch memory, then the four casts of
the user embeddings, then after each stage its outputs at what the write-backs left and everything else unchanged.
Each stage is entered by dealing the buffers behind its windows to the windows (the adjacency arrays in quarter shares)
and left by collecting them back. -/

/-! ## Stage 1: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain1 (c : Dev nD) (V0 : (c : Dev nD) → (b : Ref sig .tc) → Buf (Elt F) ((c : Thread nD τ).loc b))
    (V : (b : Ref sig .tc) → Buf (Elt F) ((c : Thread nD τ).loc b)) :
    ((Stage1.dat V0 c).arrays (fun w => V (Pipeline.arrRef spec0 w)) : sProp 𝕄)
      = iprop((((c : Thread nD τ).loc main_arg0) ↦{fullShare.left.left} V main_arg0) ∗ (((c : Thread nD τ).loc main_arg0) ↦{fullShare.left.right} V main_arg0) ∗ (((c : Thread nD τ).loc main_arg0) ↦{fullShare.right.left} V main_arg0) ∗ (((c : Thread nD τ).loc main_arg0) ↦{fullShare.right.right} V main_arg0) ∗ (((c : Thread nD τ).loc main_arg2) ↦{fullShare.left.left} V main_arg2) ∗ (((c : Thread nD τ).loc main_arg2) ↦{fullShare.left.right} V main_arg2) ∗ (((c : Thread nD τ).loc main_arg2) ↦{fullShare.right.left} V main_arg2) ∗ (((c : Thread nD τ).loc main_arg2) ↦{fullShare.right.right} V main_arg2) ∗ (((c : Thread nD τ).loc main_arg6) ↦{fullShare} V main_arg6) ∗ (((c : Thread nD τ).loc main_arg7) ↦{fullShare} V main_arg7) ∗ (((c : Thread nD τ).loc main_v4_0) ↦{fullShare} V main_v4_0) ∗ (((c : Thread nD τ).loc main_v4_1) ↦{fullShare} V main_v4_1)) := by
  unfold Dat.arrays
  rw [show (bigSep Finset.univ fun w : Fin cfg0.W => ((cfg0.win w).arr.view.loc (c : Thread nD τ) ↦[(cfg0.win w).arr.view.set]{(Stage1.dat V0 c).share w} V (Pipeline.arrRef spec0 w) : sProp 𝕄))
      = bigSep Finset.univ fun w : Fin cfg0.W => ((((c : Thread nD τ).loc (Pipeline.arrRef spec0 w)) ↦{(Stage1.dat V0 c).share w} V (Pipeline.arrRef spec0 w) : sProp 𝕄))
      from bigSep_congr fun w _ => by rw [(arr_whole0 w).set_eq_univ],
    bigSep_W0]
  rfl

/-- The distinct buffers behind them one by one, each whole. -/
theorem arrBufs_chain1 (c : Dev nD) (V : (b : Ref sig .tc) → Buf (Elt F) ((c : Thread nD τ).loc b)) :
    (Pipeline.arrBufs (Ix := Unit) (Name := ℕ) (U := Pipeline.UD sig nD τ) (Lvl := ℕ) spec0 c V : sProp 𝕄)
      = iprop((((c : Thread nD τ).loc main_arg0) ↦{fullShare} V main_arg0) ∗ (((c : Thread nD τ).loc main_arg2) ↦{fullShare} V main_arg2) ∗ (((c : Thread nD τ).loc main_arg6) ↦{fullShare} V main_arg6) ∗ (((c : Thread nD τ).loc main_arg7) ↦{fullShare} V main_arg7) ∗ (((c : Thread nD τ).loc main_v4_0) ↦{fullShare} V main_v4_0) ∗ (((c : Thread nD τ).loc main_v4_1) ↦{fullShare} V main_v4_1)) := by
  unfold Pipeline.arrBufs
  exact bigSep_eq_bigSepL_of_eq [main_arg0, main_arg2, main_arg6, main_arg7, main_v4_0, main_v4_1] (by decide) (by decide) _

/-- Dealing: the buffers whole give every window its array at its share. -/
theorem arrays_of_bufs1 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec0 c V : sProp 𝕄)
      ⊢ (Stage1.dat V0 c).arrays (fun w => V (Pipeline.arrRef spec0 w)) := by
  rw [arrays_chain1, arrBufs_chain1]
  iintro ⟨H_main_arg0, H_main_arg2, H_main_arg6, H_main_arg7, H_main_v4_0, H_main_v4_1⟩
  ihave As := (pointsTo_share (PosShare.mem_left_op_right fullShare)).1 $$ H_main_arg0
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg2
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_arg6]; · iexact H_main_arg6
  isplitl [H_main_arg7]; · iexact H_main_arg7
  isplitl [H_main_v4_0]; · iexact H_main_v4_0
  iexact H_main_v4_1

/-- Collecting: the windows' arrays at their shares, all at one valuation, give the buffers back whole. -/
theorem bufs_of_arrays1 (c : Dev nD) (V0 : (c : Dev nD) → (b : Ref sig .tc) → Buf (Elt F) ((c : Thread nD τ).loc b))
    (V : (b : Ref sig .tc) → Buf (Elt F) ((c : Thread nD τ).loc b)) :
    ((Stage1.dat V0 c).arrays (fun w => V (Pipeline.arrRef spec0 w)) : sProp 𝕄)
      ⊢ Pipeline.arrBufs (Ix := Unit) (Name := ℕ) (U := Pipeline.UD sig nD τ) (Lvl := ℕ) spec0 c V := by
  rw [arrays_chain1, arrBufs_chain1]
  iintro ⟨ALL, ALR, ARL, ARR, BLL, BLR, BRL, BRR, H_main_arg6, H_main_arg7, H_main_v4_0, H_main_v4_1⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg0 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg2 := (pointsTo_share (PosShare.mem_left_op_right fullShare)).2 $$ [BL BR]
  · isplitl [BL]; · iexact BL
    iexact BR
  isplitl [H_main_arg0]; · iexact H_main_arg0
  isplitl [H_main_arg2]; · iexact H_main_arg2
  isplitl [H_main_arg6]; · iexact H_main_arg6
  isplitl [H_main_arg7]; · iexact H_main_arg7
  isplitl [H_main_v4_0]; · iexact H_main_v4_0
  iexact H_main_v4_1

/-! ## Stage 2: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain2 (c : Dev nD) (V0 : (c : Dev nD) → (b : Ref sig .tc) → Buf (Elt F) ((c : Thread nD τ).loc b))
    (V : (b : Ref sig .tc) → Buf (Elt F) ((c : Thread nD τ).loc b)) :
    ((Stage2.dat V0 c).arrays (fun w => V (Pipeline.arrRef spec1 w)) : sProp 𝕄)
      = iprop((((c : Thread nD τ).loc main_arg1) ↦{fullShare.left.left} V main_arg1) ∗ (((c : Thread nD τ).loc main_arg1) ↦{fullShare.left.right} V main_arg1) ∗ (((c : Thread nD τ).loc main_arg1) ↦{fullShare.right.left} V main_arg1) ∗ (((c : Thread nD τ).loc main_arg1) ↦{fullShare.right.right} V main_arg1) ∗ (((c : Thread nD τ).loc main_arg3) ↦{fullShare.left.left} V main_arg3) ∗ (((c : Thread nD τ).loc main_arg3) ↦{fullShare.left.right} V main_arg3) ∗ (((c : Thread nD τ).loc main_arg3) ↦{fullShare.right.left} V main_arg3) ∗ (((c : Thread nD τ).loc main_arg3) ↦{fullShare.right.right} V main_arg3) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_arg6) ↦{fullShare} V main_arg6) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_arg7) ↦{fullShare} V main_arg7) ∗ (((c : Thread nD τ).loc main_v5_0) ↦{fullShare} V main_v5_0) ∗ (((c : Thread nD τ).loc main_v5_1) ↦{fullShare} V main_v5_1) ∗ (((c : Thread nD τ).loc main_v5_2) ↦{fullShare} V main_v5_2) ∗ (((c : Thread nD τ).loc main_v5_3) ↦{fullShare} V main_v5_3)) := by
  unfold Dat.arrays
  rw [show (bigSep Finset.univ fun w : Fin cfg1.W => ((cfg1.win w).arr.view.loc (c : Thread nD τ) ↦[(cfg1.win w).arr.view.set]{(Stage2.dat V0 c).share w} V (Pipeline.arrRef spec1 w) : sProp 𝕄))
      = bigSep Finset.univ fun w : Fin cfg1.W => ((((c : Thread nD τ).loc (Pipeline.arrRef spec1 w)) ↦{(Stage2.dat V0 c).share w} V (Pipeline.arrRef spec1 w) : sProp 𝕄))
      from bigSep_congr fun w _ => by rw [(arr_whole1 w).set_eq_univ],
    bigSep_W1]
  rfl

/-- The distinct buffers behind them one by one, each whole. -/
theorem arrBufs_chain2 (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_arg1) ↦{fullShare} V main_arg1) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_arg6) ↦{fullShare} V main_arg6) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_arg7) ↦{fullShare} V main_arg7) ∗ (((c : Thread nD τ).loc main_v5_0) ↦{fullShare} V main_v5_0) ∗ (((c : Thread nD τ).loc main_v5_1) ↦{fullShare} V main_v5_1) ∗ (((c : Thread nD τ).loc main_v5_2) ↦{fullShare} V main_v5_2) ∗ (((c : Thread nD τ).loc main_v5_3) ↦{fullShare} V main_v5_3)) := by
  unfold Pipeline.arrBufs
  exact bigSep_eq_bigSepL_of_eq [main_arg1, main_arg3, main_v0, main_v1, main_v4_0, main_arg6, main_v2, main_v3, main_v4_1, main_arg7, main_v5_0, main_v5_1, main_v5_2, main_v5_3] (by decide) (by decide) _

/-- Dealing: the buffers whole give every window its array at its share. -/
theorem arrays_of_bufs2 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec1 c V : sProp 𝕄)
      ⊢ (Stage2.dat V0 c).arrays (fun w => V (Pipeline.arrRef spec1 w)) := by
  rw [arrays_chain2, arrBufs_chain2]
  iintro ⟨H_main_arg1, H_main_arg3, H_main_v0, H_main_v1, H_main_v4_0, H_main_arg6, H_main_v2, H_main_v3, H_main_v4_1, H_main_arg7, H_main_v5_0, H_main_v5_1, H_main_v5_2, H_main_v5_3⟩
  ihave As := (pointsTo_share (PosShare.mem_left_op_right fullShare)).1 $$ H_main_arg1
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg3
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_v0]; · iexact H_main_v0
  isplitl [H_main_v1]; · iexact H_main_v1
  isplitl [H_main_v4_0]; · iexact H_main_v4_0
  isplitl [H_main_arg6]; · iexact H_main_arg6
  isplitl [H_main_v2]; · iexact H_main_v2
  isplitl [H_main_v3]; · iexact H_main_v3
  isplitl [H_main_v4_1]; · iexact H_main_v4_1
  isplitl [H_main_arg7]; · iexact H_main_arg7
  isplitl [H_main_v5_0]; · iexact H_main_v5_0
  isplitl [H_main_v5_1]; · iexact H_main_v5_1
  isplitl [H_main_v5_2]; · iexact H_main_v5_2
  iexact H_main_v5_3

/-- Collecting: the windows' arrays at their shares, all at one valuation, give the buffers back whole. -/
theorem bufs_of_arrays2 (c : Dev nD) (V0 : (c : Dev nD) → (b : Ref sig .tc) → Buf (Elt F) ((c : Thread nD τ).loc b))
    (V : (b : Ref sig .tc) → Buf (Elt F) ((c : Thread nD τ).loc b)) :
    ((Stage2.dat V0 c).arrays (fun w => V (Pipeline.arrRef spec1 w)) : sProp 𝕄)
      ⊢ Pipeline.arrBufs (Ix := Unit) (Name := ℕ) (U := Pipeline.UD sig nD τ) (Lvl := ℕ) spec1 c V := by
  rw [arrays_chain2, arrBufs_chain2]
  iintro ⟨ALL, ALR, ARL, ARR, BLL, BLR, BRL, BRR, H_main_v0, H_main_v1, H_main_v4_0, H_main_arg6, H_main_v2, H_main_v3, H_main_v4_1, H_main_arg7, H_main_v5_0, H_main_v5_1, H_main_v5_2, H_main_v5_3⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg1 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg3 := (pointsTo_share (PosShare.mem_left_op_right fullShare)).2 $$ [BL BR]
  · isplitl [BL]; · iexact BL
    iexact BR
  isplitl [H_main_arg1]; · iexact H_main_arg1
  isplitl [H_main_arg3]; · iexact H_main_arg3
  isplitl [H_main_v0]; · iexact H_main_v0
  isplitl [H_main_v1]; · iexact H_main_v1
  isplitl [H_main_v4_0]; · iexact H_main_v4_0
  isplitl [H_main_arg6]; · iexact H_main_arg6
  isplitl [H_main_v2]; · iexact H_main_v2
  isplitl [H_main_v3]; · iexact H_main_v3
  isplitl [H_main_v4_1]; · iexact H_main_v4_1
  isplitl [H_main_arg7]; · iexact H_main_arg7
  isplitl [H_main_v5_0]; · iexact H_main_v5_0
  isplitl [H_main_v5_1]; · iexact H_main_v5_1
  isplitl [H_main_v5_2]; · iexact H_main_v5_2
  iexact H_main_v5_3

/-! ## Stage 3: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain3 (c : Dev nD) (V0 : (c : Dev nD) → (b : Ref sig .tc) → Buf (Elt F) ((c : Thread nD τ).loc b))
    (V : (b : Ref sig .tc) → Buf (Elt F) ((c : Thread nD τ).loc b)) :
    ((Stage3.dat V0 c).arrays (fun w => V (Pipeline.arrRef spec2 w)) : sProp 𝕄)
      = iprop((((c : Thread nD τ).loc main_arg0) ↦{fullShare.left.left} V main_arg0) ∗ (((c : Thread nD τ).loc main_arg0) ↦{fullShare.left.right} V main_arg0) ∗ (((c : Thread nD τ).loc main_arg0) ↦{fullShare.right.left} V main_arg0) ∗ (((c : Thread nD τ).loc main_arg0) ↦{fullShare.right.right} V main_arg0) ∗ (((c : Thread nD τ).loc main_arg2) ↦{fullShare.left.left} V main_arg2) ∗ (((c : Thread nD τ).loc main_arg2) ↦{fullShare.left.right} V main_arg2) ∗ (((c : Thread nD τ).loc main_arg2) ↦{fullShare.right.left} V main_arg2) ∗ (((c : Thread nD τ).loc main_arg2) ↦{fullShare.right.right} V main_arg2) ∗ (((c : Thread nD τ).loc main_v5_0) ↦{fullShare} V main_v5_0) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_v5_2) ↦{fullShare} V main_v5_2) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_v6_0) ↦{fullShare} V main_v6_0) ∗ (((c : Thread nD τ).loc main_v6_1) ↦{fullShare} V main_v6_1) ∗ (((c : Thread nD τ).loc main_v6_2) ↦{fullShare} V main_v6_2) ∗ (((c : Thread nD τ).loc main_v6_3) ↦{fullShare} V main_v6_3)) := by
  unfold Dat.arrays
  rw [show (bigSep Finset.univ fun w : Fin cfg2.W => ((cfg2.win w).arr.view.loc (c : Thread nD τ) ↦[(cfg2.win w).arr.view.set]{(Stage3.dat V0 c).share w} V (Pipeline.arrRef spec2 w) : sProp 𝕄))
      = bigSep Finset.univ fun w : Fin cfg2.W => ((((c : Thread nD τ).loc (Pipeline.arrRef spec2 w)) ↦{(Stage3.dat V0 c).share w} V (Pipeline.arrRef spec2 w) : sProp 𝕄))
      from bigSep_congr fun w _ => by rw [(arr_whole2 w).set_eq_univ],
    bigSep_W2]
  rfl

/-- The distinct buffers behind them one by one, each whole. -/
theorem arrBufs_chain3 (c : Dev nD) (V : (b : Ref sig .tc) → Buf (Elt F) ((c : Thread nD τ).loc b)) :
    (Pipeline.arrBufs (Ix := Unit) (Name := ℕ) (U := Pipeline.UD sig nD τ) (Lvl := ℕ) spec2 c V : sProp 𝕄)
      = iprop((((c : Thread nD τ).loc main_arg0) ↦{fullShare} V main_arg0) ∗ (((c : Thread nD τ).loc main_arg2) ↦{fullShare} V main_arg2) ∗ (((c : Thread nD τ).loc main_v5_0) ↦{fullShare} V main_v5_0) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_v5_2) ↦{fullShare} V main_v5_2) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_v6_0) ↦{fullShare} V main_v6_0) ∗ (((c : Thread nD τ).loc main_v6_1) ↦{fullShare} V main_v6_1) ∗ (((c : Thread nD τ).loc main_v6_2) ↦{fullShare} V main_v6_2) ∗ (((c : Thread nD τ).loc main_v6_3) ↦{fullShare} V main_v6_3)) := by
  unfold Pipeline.arrBufs
  exact bigSep_eq_bigSepL_of_eq [main_arg0, main_arg2, main_v5_0, main_v0, main_v1, main_v4_0, main_v5_2, main_v2, main_v3, main_v4_1, main_v6_0, main_v6_1, main_v6_2, main_v6_3] (by decide) (by decide) _

/-- Dealing: the buffers whole give every window its array at its share. -/
theorem arrays_of_bufs3 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec2 c V : sProp 𝕄)
      ⊢ (Stage3.dat V0 c).arrays (fun w => V (Pipeline.arrRef spec2 w)) := by
  rw [arrays_chain3, arrBufs_chain3]
  iintro ⟨H_main_arg0, H_main_arg2, H_main_v5_0, H_main_v0, H_main_v1, H_main_v4_0, H_main_v5_2, H_main_v2, H_main_v3, H_main_v4_1, H_main_v6_0, H_main_v6_1, H_main_v6_2, H_main_v6_3⟩
  ihave As := (pointsTo_share (PosShare.mem_left_op_right fullShare)).1 $$ H_main_arg0
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg2
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_v5_0]; · iexact H_main_v5_0
  isplitl [H_main_v0]; · iexact H_main_v0
  isplitl [H_main_v1]; · iexact H_main_v1
  isplitl [H_main_v4_0]; · iexact H_main_v4_0
  isplitl [H_main_v5_2]; · iexact H_main_v5_2
  isplitl [H_main_v2]; · iexact H_main_v2
  isplitl [H_main_v3]; · iexact H_main_v3
  isplitl [H_main_v4_1]; · iexact H_main_v4_1
  isplitl [H_main_v6_0]; · iexact H_main_v6_0
  isplitl [H_main_v6_1]; · iexact H_main_v6_1
  isplitl [H_main_v6_2]; · iexact H_main_v6_2
  iexact H_main_v6_3

/-- Collecting: the windows' arrays at their shares, all at one valuation, give the buffers back whole. -/
theorem bufs_of_arrays3 (c : Dev nD) (V0 : (c : Dev nD) → (b : Ref sig .tc) → Buf (Elt F) ((c : Thread nD τ).loc b))
    (V : (b : Ref sig .tc) → Buf (Elt F) ((c : Thread nD τ).loc b)) :
    ((Stage3.dat V0 c).arrays (fun w => V (Pipeline.arrRef spec2 w)) : sProp 𝕄)
      ⊢ Pipeline.arrBufs (Ix := Unit) (Name := ℕ) (U := Pipeline.UD sig nD τ) (Lvl := ℕ) spec2 c V := by
  rw [arrays_chain3, arrBufs_chain3]
  iintro ⟨ALL, ALR, ARL, ARR, BLL, BLR, BRL, BRR, H_main_v5_0, H_main_v0, H_main_v1, H_main_v4_0, H_main_v5_2, H_main_v2, H_main_v3, H_main_v4_1, H_main_v6_0, H_main_v6_1, H_main_v6_2, H_main_v6_3⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg0 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg2 := (pointsTo_share (PosShare.mem_left_op_right fullShare)).2 $$ [BL BR]
  · isplitl [BL]; · iexact BL
    iexact BR
  isplitl [H_main_arg0]; · iexact H_main_arg0
  isplitl [H_main_arg2]; · iexact H_main_arg2
  isplitl [H_main_v5_0]; · iexact H_main_v5_0
  isplitl [H_main_v0]; · iexact H_main_v0
  isplitl [H_main_v1]; · iexact H_main_v1
  isplitl [H_main_v4_0]; · iexact H_main_v4_0
  isplitl [H_main_v5_2]; · iexact H_main_v5_2
  isplitl [H_main_v2]; · iexact H_main_v2
  isplitl [H_main_v3]; · iexact H_main_v3
  isplitl [H_main_v4_1]; · iexact H_main_v4_1
  isplitl [H_main_v6_0]; · iexact H_main_v6_0
  isplitl [H_main_v6_1]; · iexact H_main_v6_1
  isplitl [H_main_v6_2]; · iexact H_main_v6_2
  iexact H_main_v6_3

/-! ## The buffer contents between items -/

variable (m : (ℓ : Loc nD τ sig) → Buf (Elt F) ℓ)

/-- A valuation of every core's buffers read at the TensorCore's references. -/
abbrev asV (W : Dev nD → Valuation τ sig (Elt F)) : (c : Dev nD) → (b : Ref sig .tc) → Buf (Elt F) ((c : Thread nD τ).loc b) :=
  fun c b => W c b

/-! ### After stage 1: its outputs at what the pipeline's write-backs leave, every other buffer as entered -/

/-- Core `c`'s unscoped buffers after stage 1. -/
def W2 (c : Dev nD) : Valuation τ sig (Elt F) :=
  Function.update (Function.update (V1 m c) main_v4_0 ((Stage1.dat (asV (V1 m)) c).arrAt 10 cfg0.N)) main_v4_1 ((Stage1.dat (asV (V1 m)) c).arrAt 11 cfg0.N)

/-- Off the stage's outputs nothing changed. -/
theorem W2_of (c : Dev nD) (r : Ref sig .tc) (h0 : r ≠ main_v4_0) (h1 : r ≠ main_v4_1) : W2 m c r = V1 m c r := by
  unfold W2
  rw [Function.update_of_ne (StableHlo.devRef_ne_of_ne h1 : (Proc.devRef .tc r : DevRef τ sig) ≠ Proc.devRef .tc main_v4_1), Function.update_of_ne (StableHlo.devRef_ne_of_ne h0 : (Proc.devRef .tc r : DevRef τ sig) ≠ Proc.devRef .tc main_v4_0)]

theorem W2_main_v4_0 (c : Dev nD) : W2 m c main_v4_0 = (Stage1.dat (asV (V1 m)) c).arrAt 10 cfg0.N := by
  unfold W2
  rw [Function.update_of_ne (StableHlo.devRef_ne_of_ne (by decide : main_v4_0 ≠ main_v4_1) : (Proc.devRef .tc main_v4_0 : DevRef τ sig) ≠ Proc.devRef .tc main_v4_1), Function.update_self]
theorem W2_main_v4_1 (c : Dev nD) : W2 m c main_v4_1 = (Stage1.dat (asV (V1 m)) c).arrAt 11 cfg0.N := by
  unfold W2
  rw [Function.update_self]

attribute [irreducible] W2

set_option maxHeartbeats 4000000 in
/-- Every window's array after the last write-back is the new valuation at it: an input's array is as entered, an
    output's is what the write-backs left. -/
theorem W2_arr (c : Dev nD) : ∀ w : Fin cfg0.W, (Stage1.dat (asV (V1 m)) c).arrAt w cfg0.N = W2 m c (Pipeline.arrRef spec0 w)
  | ⟨0, _⟩ => ((Stage1.dat (asV (V1 m)) c).arrAt_in 0 rfl _).trans (W2_of m c main_arg0 (by decide) (by decide)).symm
  | ⟨1, _⟩ => ((Stage1.dat (asV (V1 m)) c).arrAt_in 1 rfl _).trans (W2_of m c main_arg0 (by decide) (by decide)).symm
  | ⟨2, _⟩ => ((Stage1.dat (asV (V1 m)) c).arrAt_in 2 rfl _).trans (W2_of m c main_arg0 (by decide) (by decide)).symm
  | ⟨3, _⟩ => ((Stage1.dat (asV (V1 m)) c).arrAt_in 3 rfl _).trans (W2_of m c main_arg0 (by decide) (by decide)).symm
  | ⟨4, _⟩ => ((Stage1.dat (asV (V1 m)) c).arrAt_in 4 rfl _).trans (W2_of m c main_arg2 (by decide) (by decide)).symm
  | ⟨5, _⟩ => ((Stage1.dat (asV (V1 m)) c).arrAt_in 5 rfl _).trans (W2_of m c main_arg2 (by decide) (by decide)).symm
  | ⟨6, _⟩ => ((Stage1.dat (asV (V1 m)) c).arrAt_in 6 rfl _).trans (W2_of m c main_arg2 (by decide) (by decide)).symm
  | ⟨7, _⟩ => ((Stage1.dat (asV (V1 m)) c).arrAt_in 7 rfl _).trans (W2_of m c main_arg2 (by decide) (by decide)).symm
  | ⟨8, _⟩ => ((Stage1.dat (asV (V1 m)) c).arrAt_in 8 rfl _).trans (W2_of m c main_arg6 (by decide) (by decide)).symm
  | ⟨9, _⟩ => ((Stage1.dat (asV (V1 m)) c).arrAt_in 9 rfl _).trans (W2_of m c main_arg7 (by decide) (by decide)).symm
  | ⟨10, _⟩ => (W2_main_v4_0 m c).symm
  | ⟨11, _⟩ => (W2_main_v4_1 m c).symm

/-- ENTRY: the unscoped buffers held at the entry valuation are the windows' arrays at their shares and the rest. -/
theorem entry1 (c : Dev nD) :
    (StableHlo.held (c : Thread nD τ) (Pipeline.ucRefs τ sig) (V1 m c) : sProp 𝕄)
      ⊢ iprop((Stage1.dat (asV (V1 m)) c).arrays ((Stage1.dat (asV (V1 m)) c).arrAt · 0)
          ∗ Pipeline.unscopedRest (Ix := Unit) (Name := ℕ) (U := Pipeline.UD sig nD τ) (Lvl := ℕ) spec0 c (asV (V1 m) c)) := by
  rw [← Pipeline.unscopedBufs_held c (V1 m c),
    Pipeline.PerCore.unscopedBufs_split₀ (fun _ : Dev nD => cfgs) (0 : Fin 3) c winFacts₀0.arr_unscoped]
  exact sep_mono (arrays_of_bufs1 c (asV (V1 m)) (asV (V1 m) c)) .rfl

/-- EXIT: the windows' arrays as the pipeline leaves them and the rest as entered are the unscoped buffers held at
    the new valuation. -/
theorem exit1 (c : Dev nD) :
    iprop((Stage1.dat (asV (V1 m)) c).arrays ((Stage1.dat (asV (V1 m)) c).arrAt · cfg0.N)
        ∗ Pipeline.unscopedRest (Ix := Unit) (Name := ℕ) (U := Pipeline.UD sig nD τ) (Lvl := ℕ) spec0 c (asV (V1 m) c))
      ⊢ (StableHlo.held (c : Thread nD τ) (Pipeline.ucRefs τ sig) (W2 m c) : sProp 𝕄) := by
  rw [← Pipeline.unscopedBufs_held c (W2 m c),
    Pipeline.PerCore.unscopedBufs_split₀ (fun _ : Dev nD => cfgs) (0 : Fin 3) c winFacts₀0.arr_unscoped,
    show ((Stage1.dat (asV (V1 m)) c).arrAt · cfg0.N) = fun w => asV (W2 m) c (Pipeline.arrRef spec0 w) from funext (W2_arr m c)]
  refine sep_mono (bufs_of_arrays1 c (asV (V1 m)) (asV (W2 m) c)) (Entails.of_eq ?_)
  unfold Pipeline.unscopedRest
  refine bigSep_congr fun b hb => ?_
  have hb' := (Finset.mem_sdiff.mp hb).2
  dsimp only [asV]
  rw [W2_of m c b (fun e => hb' (e ▸ Finset.mem_image.mpr ⟨10, Finset.mem_univ _, rfl⟩)) (fun e => hb' (e ▸ Finset.mem_image.mpr ⟨11, Finset.mem_univ _, rfl⟩))]

/-! ### After stage 2: its outputs at what the pipeline's write-backs leave, every other buffer as entered -/

/-- Core `c`'s unscoped buffers after stage 2. -/
def W3 (c : Dev nD) : Valuation τ sig (Elt F) :=
  Function.update (Function.update (Function.update (Function.update (W2 m c) main_v5_0 ((Stage2.dat (asV (W2 m)) c).arrAt 16 cfg1.N)) main_v5_1 ((Stage2.dat (asV (W2 m)) c).arrAt 17 cfg1.N)) main_v5_2 ((Stage2.dat (asV (W2 m)) c).arrAt 18 cfg1.N)) main_v5_3 ((Stage2.dat (asV (W2 m)) c).arrAt 19 cfg1.N)

/-- Off the stage's outputs nothing changed. -/
theorem W3_of (c : Dev nD) (r : Ref sig .tc) (h0 : r ≠ main_v5_0) (h1 : r ≠ main_v5_1) (h2 : r ≠ main_v5_2) (h3 : r ≠ main_v5_3) : W3 m c r = W2 m c r := by
  unfold W3
  rw [Function.update_of_ne (StableHlo.devRef_ne_of_ne h3 : (Proc.devRef .tc r : DevRef τ sig) ≠ Proc.devRef .tc main_v5_3), Function.update_of_ne (StableHlo.devRef_ne_of_ne h2 : (Proc.devRef .tc r : DevRef τ sig) ≠ Proc.devRef .tc main_v5_2), Function.update_of_ne (StableHlo.devRef_ne_of_ne h1 : (Proc.devRef .tc r : DevRef τ sig) ≠ Proc.devRef .tc main_v5_1), Function.update_of_ne (StableHlo.devRef_ne_of_ne h0 : (Proc.devRef .tc r : DevRef τ sig) ≠ Proc.devRef .tc main_v5_0)]

theorem W3_main_v5_0 (c : Dev nD) : W3 m c main_v5_0 = (Stage2.dat (asV (W2 m)) c).arrAt 16 cfg1.N := by
  unfold W3
  rw [Function.update_of_ne (StableHlo.devRef_ne_of_ne (by decide : main_v5_0 ≠ main_v5_3) : (Proc.devRef .tc main_v5_0 : DevRef τ sig) ≠ Proc.devRef .tc main_v5_3), Function.update_of_ne (StableHlo.devRef_ne_of_ne (by decide : main_v5_0 ≠ main_v5_2) : (Proc.devRef .tc main_v5_0 : DevRef τ sig) ≠ Proc.devRef .tc main_v5_2), Function.update_of_ne (StableHlo.devRef_ne_of_ne (by decide : main_v5_0 ≠ main_v5_1) : (Proc.devRef .tc main_v5_0 : DevRef τ sig) ≠ Proc.devRef .tc main_v5_1), Function.update_self]
theorem W3_main_v5_1 (c : Dev nD) : W3 m c main_v5_1 = (Stage2.dat (asV (W2 m)) c).arrAt 17 cfg1.N := by
  unfold W3
  rw [Function.update_of_ne (StableHlo.devRef_ne_of_ne (by decide : main_v5_1 ≠ main_v5_3) : (Proc.devRef .tc main_v5_1 : DevRef τ sig) ≠ Proc.devRef .tc main_v5_3), Function.update_of_ne (StableHlo.devRef_ne_of_ne (by decide : main_v5_1 ≠ main_v5_2) : (Proc.devRef .tc main_v5_1 : DevRef τ sig) ≠ Proc.devRef .tc main_v5_2), Function.update_self]
theorem W3_main_v5_2 (c : Dev nD) : W3 m c main_v5_2 = (Stage2.dat (asV (W2 m)) c).arrAt 18 cfg1.N := by
  unfold W3
  rw [Function.update_of_ne (StableHlo.devRef_ne_of_ne (by decide : main_v5_2 ≠ main_v5_3) : (Proc.devRef .tc main_v5_2 : DevRef τ sig) ≠ Proc.devRef .tc main_v5_3), Function.update_self]
theorem W3_main_v5_3 (c : Dev nD) : W3 m c main_v5_3 = (Stage2.dat (asV (W2 m)) c).arrAt 19 cfg1.N := by
  unfold W3
  rw [Function.update_self]

attribute [irreducible] W3

set_option maxHeartbeats 4000000 in
/-- Every window's array after the last write-back is the new valuation at it: an input's array is as entered, an
    output's is what the write-backs left. -/
theorem W3_arr (c : Dev nD) : ∀ w : Fin cfg1.W, (Stage2.dat (asV (W2 m)) c).arrAt w cfg1.N = W3 m c (Pipeline.arrRef spec1 w)
  | ⟨0, _⟩ => ((Stage2.dat (asV (W2 m)) c).arrAt_in 0 rfl _).trans (W3_of m c main_arg1 (by decide) (by decide) (by decide) (by decide)).symm
  | ⟨1, _⟩ => ((Stage2.dat (asV (W2 m)) c).arrAt_in 1 rfl _).trans (W3_of m c main_arg1 (by decide) (by decide) (by decide) (by decide)).symm
  | ⟨2, _⟩ => ((Stage2.dat (asV (W2 m)) c).arrAt_in 2 rfl _).trans (W3_of m c main_arg1 (by decide) (by decide) (by decide) (by decide)).symm
  | ⟨3, _⟩ => ((Stage2.dat (asV (W2 m)) c).arrAt_in 3 rfl _).trans (W3_of m c main_arg1 (by decide) (by decide) (by decide) (by decide)).symm
  | ⟨4, _⟩ => ((Stage2.dat (asV (W2 m)) c).arrAt_in 4 rfl _).trans (W3_of m c main_arg3 (by decide) (by decide) (by decide) (by decide)).symm
  | ⟨5, _⟩ => ((Stage2.dat (asV (W2 m)) c).arrAt_in 5 rfl _).trans (W3_of m c main_arg3 (by decide) (by decide) (by decide) (by decide)).symm
  | ⟨6, _⟩ => ((Stage2.dat (asV (W2 m)) c).arrAt_in 6 rfl _).trans (W3_of m c main_arg3 (by decide) (by decide) (by decide) (by decide)).symm
  | ⟨7, _⟩ => ((Stage2.dat (asV (W2 m)) c).arrAt_in 7 rfl _).trans (W3_of m c main_arg3 (by decide) (by decide) (by decide) (by decide)).symm
  | ⟨8, _⟩ => ((Stage2.dat (asV (W2 m)) c).arrAt_in 8 rfl _).trans (W3_of m c main_v0 (by decide) (by decide) (by decide) (by decide)).symm
  | ⟨9, _⟩ => ((Stage2.dat (asV (W2 m)) c).arrAt_in 9 rfl _).trans (W3_of m c main_v1 (by decide) (by decide) (by decide) (by decide)).symm
  | ⟨10, _⟩ => ((Stage2.dat (asV (W2 m)) c).arrAt_in 10 rfl _).trans (W3_of m c main_v4_0 (by decide) (by decide) (by decide) (by decide)).symm
  | ⟨11, _⟩ => ((Stage2.dat (asV (W2 m)) c).arrAt_in 11 rfl _).trans (W3_of m c main_arg6 (by decide) (by decide) (by decide) (by decide)).symm
  | ⟨12, _⟩ => ((Stage2.dat (asV (W2 m)) c).arrAt_in 12 rfl _).trans (W3_of m c main_v2 (by decide) (by decide) (by decide) (by decide)).symm
  | ⟨13, _⟩ => ((Stage2.dat (asV (W2 m)) c).arrAt_in 13 rfl _).trans (W3_of m c main_v3 (by decide) (by decide) (by decide) (by decide)).symm
  | ⟨14, _⟩ => ((Stage2.dat (asV (W2 m)) c).arrAt_in 14 rfl _).trans (W3_of m c main_v4_1 (by decide) (by decide) (by decide) (by decide)).symm
  | ⟨15, _⟩ => ((Stage2.dat (asV (W2 m)) c).arrAt_in 15 rfl _).trans (W3_of m c main_arg7 (by decide) (by decide) (by decide) (by decide)).symm
  | ⟨16, _⟩ => (W3_main_v5_0 m c).symm
  | ⟨17, _⟩ => (W3_main_v5_1 m c).symm
  | ⟨18, _⟩ => (W3_main_v5_2 m c).symm
  | ⟨19, _⟩ => (W3_main_v5_3 m c).symm
  | ⟨_ + 20, h⟩ => absurd h (Nat.not_lt.2 (Nat.le_add_left _ _))

/-- ENTRY: the unscoped buffers held at the entry valuation are the windows' arrays at their shares and the rest. -/
theorem entry2 (c : Dev nD) :
    (StableHlo.held (c : Thread nD τ) (Pipeline.ucRefs τ sig) (W2 m c) : sProp 𝕄)
      ⊢ iprop((Stage2.dat (asV (W2 m)) c).arrays ((Stage2.dat (asV (W2 m)) c).arrAt · 0)
          ∗ Pipeline.unscopedRest (Ix := Unit) (Name := ℕ) (U := Pipeline.UD sig nD τ) (Lvl := ℕ) spec1 c (asV (W2 m) c)) := by
  rw [← Pipeline.unscopedBufs_held c (W2 m c),
    Pipeline.PerCore.unscopedBufs_split₀ (fun _ : Dev nD => cfgs) (1 : Fin 3) c winFacts₀1.arr_unscoped]
  exact sep_mono (arrays_of_bufs2 c (asV (W2 m)) (asV (W2 m) c)) .rfl

/-- EXIT: the windows' arrays as the pipeline leaves them and the rest as entered are the unscoped buffers held at
    the new valuation. -/
theorem exit2 (c : Dev nD) :
    iprop((Stage2.dat (asV (W2 m)) c).arrays ((Stage2.dat (asV (W2 m)) c).arrAt · cfg1.N)
        ∗ Pipeline.unscopedRest (Ix := Unit) (Name := ℕ) (U := Pipeline.UD sig nD τ) (Lvl := ℕ) spec1 c (asV (W2 m) c))
      ⊢ (StableHlo.held (c : Thread nD τ) (Pipeline.ucRefs τ sig) (W3 m c) : sProp 𝕄) := by
  rw [← Pipeline.unscopedBufs_held c (W3 m c),
    Pipeline.PerCore.unscopedBufs_split₀ (fun _ : Dev nD => cfgs) (1 : Fin 3) c winFacts₀1.arr_unscoped,
    show ((Stage2.dat (asV (W2 m)) c).arrAt · cfg1.N) = fun w => asV (W3 m) c (Pipeline.arrRef spec1 w) from funext (W3_arr m c)]
  refine sep_mono (bufs_of_arrays2 c (asV (W2 m)) (asV (W3 m) c)) (Entails.of_eq ?_)
  unfold Pipeline.unscopedRest
  refine bigSep_congr fun b hb => ?_
  have hb' := (Finset.mem_sdiff.mp hb).2
  dsimp only [asV]
  rw [W3_of m c b (fun e => hb' (e ▸ Finset.mem_image.mpr ⟨16, Finset.mem_univ _, rfl⟩)) (fun e => hb' (e ▸ Finset.mem_image.mpr ⟨17, Finset.mem_univ _, rfl⟩)) (fun e => hb' (e ▸ Finset.mem_image.mpr ⟨18, Finset.mem_univ _, rfl⟩)) (fun e => hb' (e ▸ Finset.mem_image.mpr ⟨19, Finset.mem_univ _, rfl⟩))]

/-! ### After stage 3: its outputs at what the pipeline's write-backs leave, every other buffer as entered -/

/-- Core `c`'s unscoped buffers after stage 3. -/
def W4 (c : Dev nD) : Valuation τ sig (Elt F) :=
  Function.update (Function.update (Function.update (Function.update (W3 m c) main_v6_0 ((Stage3.dat (asV (W3 m)) c).arrAt 16 cfg2.N)) main_v6_1 ((Stage3.dat (asV (W3 m)) c).arrAt 17 cfg2.N)) main_v6_2 ((Stage3.dat (asV (W3 m)) c).arrAt 18 cfg2.N)) main_v6_3 ((Stage3.dat (asV (W3 m)) c).arrAt 19 cfg2.N)

/-- Off the stage's outputs nothing changed. -/
theorem W4_of (c : Dev nD) (r : Ref sig .tc) (h0 : r ≠ main_v6_0) (h1 : r ≠ main_v6_1) (h2 : r ≠ main_v6_2) (h3 : r ≠ main_v6_3) : W4 m c r = W3 m c r := by
  unfold W4
  rw [Function.update_of_ne (StableHlo.devRef_ne_of_ne h3 : (Proc.devRef .tc r : DevRef τ sig) ≠ Proc.devRef .tc main_v6_3), Function.update_of_ne (StableHlo.devRef_ne_of_ne h2 : (Proc.devRef .tc r : DevRef τ sig) ≠ Proc.devRef .tc main_v6_2), Function.update_of_ne (StableHlo.devRef_ne_of_ne h1 : (Proc.devRef .tc r : DevRef τ sig) ≠ Proc.devRef .tc main_v6_1), Function.update_of_ne (StableHlo.devRef_ne_of_ne h0 : (Proc.devRef .tc r : DevRef τ sig) ≠ Proc.devRef .tc main_v6_0)]

theorem W4_main_v6_0 (c : Dev nD) : W4 m c main_v6_0 = (Stage3.dat (asV (W3 m)) c).arrAt 16 cfg2.N := by
  unfold W4
  rw [Function.update_of_ne (StableHlo.devRef_ne_of_ne (by decide : main_v6_0 ≠ main_v6_3) : (Proc.devRef .tc main_v6_0 : DevRef τ sig) ≠ Proc.devRef .tc main_v6_3), Function.update_of_ne (StableHlo.devRef_ne_of_ne (by decide : main_v6_0 ≠ main_v6_2) : (Proc.devRef .tc main_v6_0 : DevRef τ sig) ≠ Proc.devRef .tc main_v6_2), Function.update_of_ne (StableHlo.devRef_ne_of_ne (by decide : main_v6_0 ≠ main_v6_1) : (Proc.devRef .tc main_v6_0 : DevRef τ sig) ≠ Proc.devRef .tc main_v6_1), Function.update_self]
theorem W4_main_v6_1 (c : Dev nD) : W4 m c main_v6_1 = (Stage3.dat (asV (W3 m)) c).arrAt 17 cfg2.N := by
  unfold W4
  rw [Function.update_of_ne (StableHlo.devRef_ne_of_ne (by decide : main_v6_1 ≠ main_v6_3) : (Proc.devRef .tc main_v6_1 : DevRef τ sig) ≠ Proc.devRef .tc main_v6_3), Function.update_of_ne (StableHlo.devRef_ne_of_ne (by decide : main_v6_1 ≠ main_v6_2) : (Proc.devRef .tc main_v6_1 : DevRef τ sig) ≠ Proc.devRef .tc main_v6_2), Function.update_self]
theorem W4_main_v6_2 (c : Dev nD) : W4 m c main_v6_2 = (Stage3.dat (asV (W3 m)) c).arrAt 18 cfg2.N := by
  unfold W4
  rw [Function.update_of_ne (StableHlo.devRef_ne_of_ne (by decide : main_v6_2 ≠ main_v6_3) : (Proc.devRef .tc main_v6_2 : DevRef τ sig) ≠ Proc.devRef .tc main_v6_3), Function.update_self]
theorem W4_main_v6_3 (c : Dev nD) : W4 m c main_v6_3 = (Stage3.dat (asV (W3 m)) c).arrAt 19 cfg2.N := by
  unfold W4
  rw [Function.update_self]

attribute [irreducible] W4

set_option maxHeartbeats 4000000 in
/-- Every window's array after the last write-back is the new valuation at it: an input's array is as entered, an
    output's is what the write-backs left. -/
theorem W4_arr (c : Dev nD) : ∀ w : Fin cfg2.W, (Stage3.dat (asV (W3 m)) c).arrAt w cfg2.N = W4 m c (Pipeline.arrRef spec2 w)
  | ⟨0, _⟩ => ((Stage3.dat (asV (W3 m)) c).arrAt_in 0 rfl _).trans (W4_of m c main_arg0 (by decide) (by decide) (by decide) (by decide)).symm
  | ⟨1, _⟩ => ((Stage3.dat (asV (W3 m)) c).arrAt_in 1 rfl _).trans (W4_of m c main_arg0 (by decide) (by decide) (by decide) (by decide)).symm
  | ⟨2, _⟩ => ((Stage3.dat (asV (W3 m)) c).arrAt_in 2 rfl _).trans (W4_of m c main_arg0 (by decide) (by decide) (by decide) (by decide)).symm
  | ⟨3, _⟩ => ((Stage3.dat (asV (W3 m)) c).arrAt_in 3 rfl _).trans (W4_of m c main_arg0 (by decide) (by decide) (by decide) (by decide)).symm
  | ⟨4, _⟩ => ((Stage3.dat (asV (W3 m)) c).arrAt_in 4 rfl _).trans (W4_of m c main_arg2 (by decide) (by decide) (by decide) (by decide)).symm
  | ⟨5, _⟩ => ((Stage3.dat (asV (W3 m)) c).arrAt_in 5 rfl _).trans (W4_of m c main_arg2 (by decide) (by decide) (by decide) (by decide)).symm
  | ⟨6, _⟩ => ((Stage3.dat (asV (W3 m)) c).arrAt_in 6 rfl _).trans (W4_of m c main_arg2 (by decide) (by decide) (by decide) (by decide)).symm
  | ⟨7, _⟩ => ((Stage3.dat (asV (W3 m)) c).arrAt_in 7 rfl _).trans (W4_of m c main_arg2 (by decide) (by decide) (by decide) (by decide)).symm
  | ⟨8, _⟩ => ((Stage3.dat (asV (W3 m)) c).arrAt_in 8 rfl _).trans (W4_of m c main_v5_0 (by decide) (by decide) (by decide) (by decide)).symm
  | ⟨9, _⟩ => ((Stage3.dat (asV (W3 m)) c).arrAt_in 9 rfl _).trans (W4_of m c main_v0 (by decide) (by decide) (by decide) (by decide)).symm
  | ⟨10, _⟩ => ((Stage3.dat (asV (W3 m)) c).arrAt_in 10 rfl _).trans (W4_of m c main_v1 (by decide) (by decide) (by decide) (by decide)).symm
  | ⟨11, _⟩ => ((Stage3.dat (asV (W3 m)) c).arrAt_in 11 rfl _).trans (W4_of m c main_v4_0 (by decide) (by decide) (by decide) (by decide)).symm
  | ⟨12, _⟩ => ((Stage3.dat (asV (W3 m)) c).arrAt_in 12 rfl _).trans (W4_of m c main_v5_2 (by decide) (by decide) (by decide) (by decide)).symm
  | ⟨13, _⟩ => ((Stage3.dat (asV (W3 m)) c).arrAt_in 13 rfl _).trans (W4_of m c main_v2 (by decide) (by decide) (by decide) (by decide)).symm
  | ⟨14, _⟩ => ((Stage3.dat (asV (W3 m)) c).arrAt_in 14 rfl _).trans (W4_of m c main_v3 (by decide) (by decide) (by decide) (by decide)).symm
  | ⟨15, _⟩ => ((Stage3.dat (asV (W3 m)) c).arrAt_in 15 rfl _).trans (W4_of m c main_v4_1 (by decide) (by decide) (by decide) (by decide)).symm
  | ⟨16, _⟩ => (W4_main_v6_0 m c).symm
  | ⟨17, _⟩ => (W4_main_v6_1 m c).symm
  | ⟨18, _⟩ => (W4_main_v6_2 m c).symm
  | ⟨19, _⟩ => (W4_main_v6_3 m c).symm
  | ⟨_ + 20, h⟩ => absurd h (Nat.not_lt.2 (Nat.le_add_left _ _))

/-- ENTRY: the unscoped buffers held at the entry valuation are the windows' arrays at their shares and the rest. -/
theorem entry3 (c : Dev nD) :
    (StableHlo.held (c : Thread nD τ) (Pipeline.ucRefs τ sig) (W3 m c) : sProp 𝕄)
      ⊢ iprop((Stage3.dat (asV (W3 m)) c).arrays ((Stage3.dat (asV (W3 m)) c).arrAt · 0)
          ∗ Pipeline.unscopedRest (Ix := Unit) (Name := ℕ) (U := Pipeline.UD sig nD τ) (Lvl := ℕ) spec2 c (asV (W3 m) c)) := by
  rw [← Pipeline.unscopedBufs_held c (W3 m c),
    Pipeline.PerCore.unscopedBufs_split₀ (fun _ : Dev nD => cfgs) (2 : Fin 3) c winFacts₀2.arr_unscoped]
  exact sep_mono (arrays_of_bufs3 c (asV (W3 m)) (asV (W3 m) c)) .rfl

/-- EXIT: the windows' arrays as the pipeline leaves them and the rest as entered are the unscoped buffers held at
    the new valuation. -/
theorem exit3 (c : Dev nD) :
    iprop((Stage3.dat (asV (W3 m)) c).arrays ((Stage3.dat (asV (W3 m)) c).arrAt · cfg2.N)
        ∗ Pipeline.unscopedRest (Ix := Unit) (Name := ℕ) (U := Pipeline.UD sig nD τ) (Lvl := ℕ) spec2 c (asV (W3 m) c))
      ⊢ (StableHlo.held (c : Thread nD τ) (Pipeline.ucRefs τ sig) (W4 m c) : sProp 𝕄) := by
  rw [← Pipeline.unscopedBufs_held c (W4 m c),
    Pipeline.PerCore.unscopedBufs_split₀ (fun _ : Dev nD => cfgs) (2 : Fin 3) c winFacts₀2.arr_unscoped,
    show ((Stage3.dat (asV (W3 m)) c).arrAt · cfg2.N) = fun w => asV (W4 m) c (Pipeline.arrRef spec2 w) from funext (W4_arr m c)]
  refine sep_mono (bufs_of_arrays3 c (asV (W3 m)) (asV (W4 m) c)) (Entails.of_eq ?_)
  unfold Pipeline.unscopedRest
  refine bigSep_congr fun b hb => ?_
  have hb' := (Finset.mem_sdiff.mp hb).2
  dsimp only [asV]
  rw [W4_of m c b (fun e => hb' (e ▸ Finset.mem_image.mpr ⟨16, Finset.mem_univ _, rfl⟩)) (fun e => hb' (e ▸ Finset.mem_image.mpr ⟨17, Finset.mem_univ _, rfl⟩)) (fun e => hb' (e ▸ Finset.mem_image.mpr ⟨18, Finset.mem_univ _, rfl⟩)) (fun e => hb' (e ▸ Finset.mem_image.mpr ⟨19, Finset.mem_univ _, rfl⟩))]

/-! ## The proof data of the three pipelines and the thread state -/

/-- Every pipeline's proof data, each at its stage's entry contents. -/
def pdats : (p : Fin 3) → (c : Dev nD) → Dat τ (Elt F) Unit ℕ (Pipeline.UD sig nD τ) ℕ (Pipeline.pin (pcfgs (F := F)) adm p) c
  | ⟨0, _⟩ => fun c => Stage1.dat (asV (V1 m)) c
  | ⟨1, _⟩ => fun c => Stage2.dat (asV (W2 m)) c
  | ⟨2, _⟩ => fun c => Stage3.dat (asV (W3 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The stages as segments -/

set_option backward.isDefEq.respectTransparency.types false in
/-- Stage 1 as a segment: entered with every unscoped buffer held at `V1`, left with them at `W2`; the generator
    register goes into the class invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stage1.body_obligation (asV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (asV (V1 m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 2 as a segment: entered with every unscoped buffer held at `W2`, left with them at `W3`; the generator
    register goes into the class invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Stage2.body_obligation (asV (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (asV (W2 m) c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 3 as a segment: entered with every unscoped buffer held at `W3`, left with them at `W4`; the generator
    register goes into the class invariant and comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Stage3.body_obligation (asV (W3 m)) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (asV (W3 m) c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each core's every unscoped buffer holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ (∃ r, prngReg c r) ∗ ∃ W, owes (c : Thread nD τ) (0 : CellTallies nD τ sig Unit) W) : sProp 𝕄)
        ⊢ iprop((StableHlo.held (c : Thread nD τ) (Pipeline.ucRefs τ sig) (W4 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## Reading the last valuation -/

/-- No host operation and no stage writes argument 0. -/
theorem W4_main_arg0 (c : Dev nD) : W4 m c main_arg0 = m ((c : Thread nD τ).loc main_arg0) :=
  (W4_of m c main_arg0 (by decide) (by decide) (by decide) (by decide)).trans <| (W3_of m c main_arg0 (by decide) (by decide) (by decide) (by decide)).trans <|
    (W2_of m c main_arg0 (by decide) (by decide)).trans <| (V1_of m c main_arg0 (by decide)).trans rfl
/-- No host operation and no stage writes argument 1. -/
theorem W4_main_arg1 (c : Dev nD) : W4 m c main_arg1 = m ((c : Thread nD τ).loc main_arg1) :=
  (W4_of m c main_arg1 (by decide) (by decide) (by decide) (by decide)).trans <| (W3_of m c main_arg1 (by decide) (by decide) (by decide) (by decide)).trans <|
    (W2_of m c main_arg1 (by decide) (by decide)).trans <| (V1_of m c main_arg1 (by decide)).trans rfl
/-- No host operation and no stage writes argument 2. -/
theorem W4_main_arg2 (c : Dev nD) : W4 m c main_arg2 = m ((c : Thread nD τ).loc main_arg2) :=
  (W4_of m c main_arg2 (by decide) (by decide) (by decide) (by decide)).trans <| (W3_of m c main_arg2 (by decide) (by decide) (by decide) (by decide)).trans <|
    (W2_of m c main_arg2 (by decide) (by decide)).trans <| (V1_of m c main_arg2 (by decide)).trans rfl
/-- No host operation and no stage writes argument 3. -/
theorem W4_main_arg3 (c : Dev nD) : W4 m c main_arg3 = m ((c : Thread nD τ).loc main_arg3) :=
  (W4_of m c main_arg3 (by decide) (by decide) (by decide) (by decide)).trans <| (W3_of m c main_arg3 (by decide) (by decide) (by decide) (by decide)).trans <|
    (W2_of m c main_arg3 (by decide) (by decide)).trans <| (V1_of m c main_arg3 (by decide)).trans rfl
/-- No host operation and no stage writes argument 4. -/
theorem W4_main_arg4 (c : Dev nD) : W4 m c main_arg4 = m ((c : Thread nD τ).loc main_arg4) :=
  (W4_of m c main_arg4 (by decide) (by decide) (by decide) (by decide)).trans <| (W3_of m c main_arg4 (by decide) (by decide) (by decide) (by decide)).trans <|
    (W2_of m c main_arg4 (by decide) (by decide)).trans <| (V1_of m c main_arg4 (by decide)).trans rfl
/-- No host operation and no stage writes argument 5. -/
theorem W4_main_arg5 (c : Dev nD) : W4 m c main_arg5 = m ((c : Thread nD τ).loc main_arg5) :=
  (W4_of m c main_arg5 (by decide) (by decide) (by decide) (by decide)).trans <| (W3_of m c main_arg5 (by decide) (by decide) (by decide) (by decide)).trans <|
    (W2_of m c main_arg5 (by decide) (by decide)).trans <| (V1_of m c main_arg5 (by decide)).trans rfl
/-- No host operation and no stage writes argument 6. -/
theorem W4_main_arg6 (c : Dev nD) : W4 m c main_arg6 = m ((c : Thread nD τ).loc main_arg6) :=
  (W4_of m c main_arg6 (by decide) (by decide) (by decide) (by decide)).trans <| (W3_of m c main_arg6 (by decide) (by decide) (by decide) (by decide)).trans <|
    (W2_of m c main_arg6 (by decide) (by decide)).trans <| (V1_of m c main_arg6 (by decide)).trans rfl
/-- No host operation and no stage writes argument 7. -/
theorem W4_main_arg7 (c : Dev nD) : W4 m c main_arg7 = m ((c : Thread nD τ).loc main_arg7) :=
  (W4_of m c main_arg7 (by decide) (by decide) (by decide) (by decide)).trans <| (W3_of m c main_arg7 (by decide) (by decide) (by decide) (by decide)).trans <|
    (W2_of m c main_arg7 (by decide) (by decide)).trans <| (V1_of m c main_arg7 (by decide)).trans rfl
/-- No host operation and no stage writes argument 8. -/
theorem W4_main_arg8 (c : Dev nD) : W4 m c main_arg8 = m ((c : Thread nD τ).loc main_arg8) :=
  (W4_of m c main_arg8 (by decide) (by decide) (by decide) (by decide)).trans <| (W3_of m c main_arg8 (by decide) (by decide) (by decide) (by decide)).trans <|
    (W2_of m c main_arg8 (by decide) (by decide)).trans <| (V1_of m c main_arg8 (by decide)).trans rfl
/-- No host operation and no stage writes argument 9. -/
theorem W4_main_arg9 (c : Dev nD) : W4 m c main_arg9 = m ((c : Thread nD τ).loc main_arg9) :=
  (W4_of m c main_arg9 (by decide) (by decide) (by decide) (by decide)).trans <| (W3_of m c main_arg9 (by decide) (by decide) (by decide) (by decide)).trans <|
    (W2_of m c main_arg9 (by decide) (by decide)).trans <| (V1_of m c main_arg9 (by decide)).trans rfl

/-- THE FRAME, at any instance: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c)⟩)
    (run_all m ρ)

end Cert.Kernel.Run

end
-- ==== Proof.KI.Stage1.lean ====
import proofs.«140658_g7370163880393_cont_sun_c4_438_32_alg».proof.Proof.Gen.KernelIdeal.Launch
import proofs.«140658_g7370163880393_cont_sun_c4_438_32_alg».proof.Proof.Gen.KernelIdeal.Skeleton
import proofs.«140658_g7370163880393_cont_sun_c4_438_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # Stage 1: one row block of `A = UV · i0` for both domains

At a grid point the body holds four column quarters of a 512-row block of each adjacency array and the whole item
embedding of each domain; it multiplies each quarter with the matching 1024 rows of the embedding, adds the four
partial products and stores the sum: one store per output window, covering its block.

Everything here is read at the ideal values: on the extended reals the body's changes of number format are the identity,
so the formulas above are exact. -/

/-- The whole 512 × 1024 block of an adjacency window. -/
abbrev rA : Rect S512x1024 := Rect.unit (s := S512x1024) ![0, 0] S512x1024.size inb_S512x1024_S512x1024_0_0
/-- The four 1024-row quarters of the resident embedding. -/
abbrev rB0 : Rect S4096x256 := Rect.unit (s := S4096x256) ![0, 0] S1024x256.size inb_S4096x256_S1024x256_0_0
abbrev rB1 : Rect S4096x256 := Rect.unit (s := S4096x256) ![1024, 0] S1024x256.size inb_S4096x256_S1024x256_1024_0
abbrev rB2 : Rect S4096x256 := Rect.unit (s := S4096x256) ![2048, 0] S1024x256.size inb_S4096x256_S1024x256_2048_0
abbrev rB3 : Rect S4096x256 := Rect.unit (s := S4096x256) ![3072, 0] S1024x256.size inb_S4096x256_S1024x256_3072_0
/-- The whole 512 × 256 output block. -/
abbrev rO : Rect S512x256 := Rect.unit (s := S512x256) ![0, 0] S512x256.size inb_S512x256_S512x256_0_0

/-- What the body leaves in the first output's buffer: its one store, over the first domain's loads. -/
def outS (x0 x1 x2 x3 : Vec F S512x1024 .f32) (x8 : Vec F S4096x256 .f32) : Vec F S512x256 .bf16 :=
  View.canon [⟨rO, k0_pay2 (View.ld x0 rA) (View.ld x1 rA) (View.ld x2 rA) (View.ld x3 rA) (View.ld x8 rB0) (View.ld x8 rB1) (View.ld x8 rB2) (View.ld x8 rB3)⟩]

/-- What it leaves in the second output's buffer, over the second domain's loads. -/
def outT (x4 x5 x6 x7 : Vec F S512x1024 .f32) (x9 : Vec F S4096x256 .f32) : Vec F S512x256 .bf16 :=
  View.canon [⟨rO, k0_pay1 (k0_pay3 (View.ld x4 rA)) (k0_pay4 (View.ld x5 rA)) (View.ld x6 rA) (View.ld x7 rA) (View.ld x9 rB0) (View.ld x9 rB1) (View.ld x9 rB2) (View.ld x9 rB3)⟩]

/-- The one store covers the output block. -/
theorem coverO (p0 : Vec F S512x256 .bf16) (y : S512x256.Idx) :
    ∃ pc ∈ ([⟨rO, p0⟩] : List (View.Piece (Elt F) S512x256 .bf16)), y ∈ pc.1.set :=
  View.cover_of_tiled [⟨rO, p0⟩] S512x256.size (by rfl) y

set_option maxHeartbeats 4000000 in
/-- The body on whole staging memrefs: the ten inputs at read contents `x0 … x9`, the two outputs at anything; it
    runs to the continuation with the inputs as they were and each output at its one store. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S512x256 .bf16) (harg11 : arg11.IsWhole) (arg12 : Memref sig .tc .vmem S512x256 .bf16) (harg12 : arg12.IsWhole)
    (x0 x1 x2 x3 x4 x5 x6 x7 : Vec F S512x1024 .f32) (x8 x9 : Vec F S4096x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outS x0 x1 x2 x3 x8) ∗ owns (c : Thread nD τ) arg12 fullShare (outT x4 x5 x6 x7 x9)) -∗ K ⟨⟩))
      ⊢ wp frame (wpE (defs₀ (F := F)) Variants.none c none) E (cc0__s1_body i arg1 harg1 arg2 harg2 arg3 harg3 arg4 harg4 arg5 harg5 arg6 harg6 arg7 harg7 arg8 harg8 arg9 harg9 arg10 harg10 arg11 harg11 arg12 harg12) K := by
  simp only [cc0__s1_body_eq_skeleton]; unfold cc0__s1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coverO _)
  iexists _; isplitr
  swap; · iexact H11
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outS (iblk V c 0 t) (iblk V c 1 t) (iblk V c 2 t) (iblk V c 3 t) (iblk V c 8 t)
    | ⟨11, _⟩ => outT (iblk V c 4 t) (iblk V c 5 t) (iblk V c 6 t) (iblk V c 7 t) (iblk V c 9 t)
  Φ _ := Pipeline.ΦA spec0 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = outS (iblk V c 0 t) (iblk V c 1 t) (iblk V c 2 t) (iblk V c 3 t) (iblk V c 8 t) := by dsimp only [dat]
theorem after_11 (c : Dev nD) (t : Fin cfg0.N) : (dat V c).after 11 t = outT (iblk V c 4 t) (iblk V c 5 t) (iblk V c 6 t) (iblk V c 7 t) (iblk V c 9 t) := by dsimp only [dat]

/-! An input's staging buffer holds its block at every point, fetched there or not: where the pipeline does not fetch,
    the block index has not moved and the body left the block in place. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 2000000 in
/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (cfg0.grid.coords t) _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Stage1

end
-- ==== Proof.KI.Stage2.lean ====
import proofs.«140658_g7370163880393_cont_sun_c4_438_32_alg».proof.Proof.Gen.KernelIdeal.Launch
import proofs.«140658_g7370163880393_cont_sun_c4_438_32_alg».proof.Proof.Gen.KernelIdeal.Skeleton
import proofs.«140658_g7370163880393_cont_sun_c4_438_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # Stage 2: one row block of `B = VU · u0`, `B' = VU · u0'`, and the item-side result, for both domains

At a grid point the body holds four column quarters of a 512-row block of each item-by-user array, the whole of the
two user embeddings and of stage 1's product `A` (resident), and the row block of the item embedding. It forms
`B`, `B'` and `D = VU · A` quarter by quarter, stores `B` and `B'` side by side as the two column halves of one
output block, and stores `(i0 + B + D) · inv_3` into the other.

Everything here is read at the ideal values: on the extended reals the body's changes of number format are the identity,
so the formulas above are exact. -/

abbrev rA : Rect S512x1024 := Rect.unit (s := S512x1024) ![0, 0] S512x1024.size inb_S512x1024_S512x1024_0_0
abbrev rB0 : Rect S4096x256 := Rect.unit (s := S4096x256) ![0, 0] S1024x256.size inb_S4096x256_S1024x256_0_0
abbrev rB1 : Rect S4096x256 := Rect.unit (s := S4096x256) ![1024, 0] S1024x256.size inb_S4096x256_S1024x256_1024_0
abbrev rB2 : Rect S4096x256 := Rect.unit (s := S4096x256) ![2048, 0] S1024x256.size inb_S4096x256_S1024x256_2048_0
abbrev rB3 : Rect S4096x256 := Rect.unit (s := S4096x256) ![3072, 0] S1024x256.size inb_S4096x256_S1024x256_3072_0
abbrev rO : Rect S512x256 := Rect.unit (s := S512x256) ![0, 0] S512x256.size inb_S512x256_S512x256_0_0
/-- The left and right column halves of the 512 × 512 output block. -/
abbrev rLo : Rect S512x512 := Rect.unit (s := S512x512) ![0, 0] S512x256.size inb_S512x512_S512x256_0_0
abbrev rHi : Rect S512x512 := Rect.unit (s := S512x512) ![0, 256] S512x256.size inb_S512x512_S512x256_0_256

/-- The pair `[B | B']` of the first domain: two stores, the right half last. -/
def outBBs (x0 x1 x2 x3 : Vec F S512x1024 .f32) (x8 x9 : Vec F S4096x256 .bf16) : Vec F S512x512 .bf16 :=
  View.canon [⟨rHi, k1_pay8 (k1_pay3 (View.ld x2 rA)) (k1_pay4 (View.ld x3 rA)) (k1_pay6 (View.ld x0 rA) (View.ld x1 rA) (View.ld x9 rB0) (View.ld x9 rB1)) (View.ld x9 rB2) (View.ld x9 rB3)⟩,
    ⟨rLo, k1_pay7 (k1_pay5 (View.ld x0 rA) (View.ld x1 rA) (View.ld x2 rA) (View.ld x3 rA) (View.ld x8 rB0) (View.ld x8 rB1) (View.ld x8 rB2) (View.ld x8 rB3))⟩]

/-- The item-side result of the first domain: one store. -/
def outIs (x0 x1 x2 x3 : Vec F S512x1024 .f32) (x8 x10 : Vec F S4096x256 .bf16) (x11 : Vec F S512x256 .f32) : Vec F S512x256 .f32 :=
  View.canon [⟨rO, k1_pay9 (k1_pay1 (View.ld x0 rA)) (k1_pay2 (View.ld x1 rA)) (k1_pay3 (View.ld x2 rA)) (k1_pay4 (View.ld x3 rA)) (k1_pay5 (View.ld x0 rA) (View.ld x1 rA) (View.ld x2 rA) (View.ld x3 rA) (View.ld x8 rB0) (View.ld x8 rB1) (View.ld x8 rB2) (View.ld x8 rB3)) (View.ld x10 rB0) (View.ld x10 rB1) (View.ld x10 rB2) (View.ld x10 rB3) (View.ld x11 rO)⟩]

/-- The pair `[B | B']` of the second domain. -/
def outBBt (x4 x5 x6 x7 : Vec F S512x1024 .f32) (x12 x13 : Vec F S4096x256 .bf16) : Vec F S512x512 .bf16 :=
  View.canon [⟨rHi, k1_pay18 (k1_pay12 (View.ld x6 rA)) (k1_pay13 (View.ld x7 rA)) (k1_pay15 (View.ld x4 rA) (View.ld x5 rA) (View.ld x13 rB0) (View.ld x13 rB1)) (k1_pay16 (View.ld x13 rB2)) (View.ld x13 rB3)⟩,
    ⟨rLo, k1_pay17 (k1_pay14 (View.ld x4 rA) (View.ld x5 rA) (View.ld x6 rA) (View.ld x7 rA) (View.ld x12 rB0) (View.ld x12 rB1) (View.ld x12 rB2) (View.ld x12 rB3))⟩]

/-- The item-side result of the second domain. -/
def outIt (x4 x5 x6 x7 : Vec F S512x1024 .f32) (x12 x14 : Vec F S4096x256 .bf16) (x15 : Vec F S512x256 .f32) : Vec F S512x256 .f32 :=
  View.canon [⟨rO, k1_pay19 (k1_pay10 (View.ld x4 rA)) (k1_pay11 (View.ld x5 rA)) (k1_pay12 (View.ld x6 rA)) (k1_pay13 (View.ld x7 rA)) (k1_pay14 (View.ld x4 rA) (View.ld x5 rA) (View.ld x6 rA) (View.ld x7 rA) (View.ld x12 rB0) (View.ld x12 rB1) (View.ld x12 rB2) (View.ld x12 rB3)) (View.ld x14 rB0) (View.ld x14 rB1) (View.ld x14 rB2) (View.ld x14 rB3) (View.ld x15 rO)⟩]

/-- One store covers the 512 × 256 block. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-- The two column halves tile the 512 × 512 block. -/
theorem coverBB (p1 p0 : Vec F S512x256 .bf16) (y : S512x512.Idx) :
    ∃ pc ∈ ([⟨rHi, p1⟩, ⟨rLo, p0⟩] : List (View.Piece (Elt F) S512x512 .bf16)), y ∈ pc.1.set :=
  View.cover_of_tiled [⟨rHi, p1⟩, ⟨rLo, p0⟩] S512x256.size (by rfl) y

set_option maxHeartbeats 8000000 in
/-- The body on whole staging memrefs: the sixteen inputs at read contents, the four outputs at anything; it runs to
    the continuation with the inputs as they were and each output at its stores. -/
theorem sound_kernel (c : Dev nD) (E : Set ℕ) (i : grid1.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S512x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S4096x256 .bf16) (harg15 : arg15.IsWhole) (arg16 : Memref sig .tc .vmem S512x256 .f32) (harg16 : arg16.IsWhole) (arg17 : Memref sig .tc .vmem S512x512 .bf16) (harg17 : arg17.IsWhole) (arg18 : Memref sig .tc .vmem S512x256 .f32) (harg18 : arg18.IsWhole) (arg19 : Memref sig .tc .vmem S512x512 .bf16) (harg19 : arg19.IsWhole) (arg20 : Memref sig .tc .vmem S512x256 .f32) (harg20 : arg20.IsWhole)
    (x0 : Vec F S512x1024 .f32) (x1 : Vec F S512x1024 .f32) (x2 : Vec F S512x1024 .f32) (x3 : Vec F S512x1024 .f32) (x4 : Vec F S512x1024 .f32) (x5 : Vec F S512x1024 .f32) (x6 : Vec F S512x1024 .f32) (x7 : Vec F S512x1024 .f32) (x8 : Vec F S4096x256 .bf16) (x9 : Vec F S4096x256 .bf16) (x10 : Vec F S4096x256 .bf16) (x11 : Vec F S512x256 .f32) (x12 : Vec F S4096x256 .bf16) (x13 : Vec F S4096x256 .bf16) (x14 : Vec F S4096x256 .bf16) (x15 : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (outBBs x0 x1 x2 x3 x8 x9) ∗ owns (c : Thread nD τ) arg18 fullShare (outIs x0 x1 x2 x3 x8 x10 x11) ∗ owns (c : Thread nD τ) arg19 fullShare (outBBt x4 x5 x6 x7 x12 x13) ∗ owns (c : Thread nD τ) arg20 fullShare (outIt x4 x5 x6 x7 x12 x14 x15)) -∗ K ⟨⟩))
      ⊢ wp frame (wpE (defs₀ (F := F)) Variants.none c none) E (cc1__s2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__s2_body_eq_skeleton]; unfold cc1__s2_body_skel
  simp only [k1_part4_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverBB _ _)
  isplitl [H17]
  · iexists _; isplitr
    swap; · iexact H17
    ipureintro
    exact View.read_writes_eq_canon _ _ _ (coverO _)
  isplitl [H18]
  · iexists _; isplitr
    swap; · iexact H18
    ipureintro
    exact View.read_writes_eq_canon _ _ _ (coverBB _ _)
  iexists _; isplitr
  swap; · iexact H19
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outBBs (iblk V c 0 t) (iblk V c 1 t) (iblk V c 2 t) (iblk V c 3 t) (iblk V c 8 t) (iblk V c 9 t)
    | ⟨17, _⟩ => outIs (iblk V c 0 t) (iblk V c 1 t) (iblk V c 2 t) (iblk V c 3 t) (iblk V c 8 t) (iblk V c 10 t) (iblk V c 11 t)
    | ⟨18, _⟩ => outBBt (iblk V c 4 t) (iblk V c 5 t) (iblk V c 6 t) (iblk V c 7 t) (iblk V c 12 t) (iblk V c 13 t)
    | ⟨19, _⟩ => outIt (iblk V c 4 t) (iblk V c 5 t) (iblk V c 6 t) (iblk V c 7 t) (iblk V c 12 t) (iblk V c 14 t) (iblk V c 15 t)
    | ⟨_ + 20, h⟩ => absurd h (Nat.not_lt.2 (Nat.le_add_left _ _))
  Φ _ := Pipeline.ΦA spec1 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = outBBs (iblk V c 0 t) (iblk V c 1 t) (iblk V c 2 t) (iblk V c 3 t) (iblk V c 8 t) (iblk V c 9 t) := by dsimp only [dat]
theorem after_17 (c : Dev nD) (t : Fin cfg1.N) : (dat V c).after 17 t = outIs (iblk V c 0 t) (iblk V c 1 t) (iblk V c 2 t) (iblk V c 3 t) (iblk V c 8 t) (iblk V c 10 t) (iblk V c 11 t) := by dsimp only [dat]
theorem after_18 (c : Dev nD) (t : Fin cfg1.N) : (dat V c).after 18 t = outBBt (iblk V c 4 t) (iblk V c 5 t) (iblk V c 6 t) (iblk V c 7 t) (iblk V c 12 t) (iblk V c 13 t) := by dsimp only [dat]
theorem after_19 (c : Dev nD) (t : Fin cfg1.N) : (dat V c).after 19 t = outIt (iblk V c 4 t) (iblk V c 5 t) (iblk V c 6 t) (iblk V c 7 t) (iblk V c 12 t) (iblk V c 14 t) (iblk V c 15 t) := by dsimp only [dat]

/-! An input's staging buffer holds its block at every point, fetched there or not: where the pipeline does not fetch,
    the block index has not moved and the body left the block in place. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg1.N) (d) : (dat V c).before 14 t d = iblk V c 14 t :=
  ((dat V c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg1.N) (d) : (dat V c).before 15 t d = iblk V c 15 t :=
  ((dat V c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t)
    ∗ owns (c : Thread nD τ) (st1_18 t) fullShare ((dat V c).after 18 t)
    ∗ owns (c : Thread nD τ) (st1_19 t) fullShare ((dat V c).after 19 t))

set_option maxHeartbeats 2000000 in
/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13, before_14, before_15]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (cfg1.grid.coords t) _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Stage2

end
-- ==== Proof.KI.Stage3.lean ====
import proofs.«140658_g7370163880393_cont_sun_c4_438_32_alg».proof.Proof.Gen.KernelIdeal.Launch
import proofs.«140658_g7370163880393_cont_sun_c4_438_32_alg».proof.Proof.Gen.KernelIdeal.Skeleton
import proofs.«140658_g7370163880393_cont_sun_c4_438_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Stage3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # Stage 3: one row block of the two user-side results, for both domains

At a grid point the body holds four column quarters of a 512-row block of each user-by-item array, the whole pair
`[B | B']` of stage 2 (resident, 512 columns), and the row blocks of the two user embeddings and of stage 1's `A`.
It forms `[C | C'] = UV · [B | B']` quarter by quarter and stores `(u0 + A + C) · inv_3` and `(u0' + A + C') · inv_3`,
`C` and `C'` the left and right column halves of the product.

Everything here is read at the ideal values: on the extended reals the body's changes of number format are the identity,
so the formulas above are exact. -/

abbrev rA : Rect S512x1024 := Rect.unit (s := S512x1024) ![0, 0] S512x1024.size inb_S512x1024_S512x1024_0_0
/-- The four 1024-row quarters of the resident pair. -/
abbrev rC0 : Rect S4096x512 := Rect.unit (s := S4096x512) ![0, 0] S1024x512.size inb_S4096x512_S1024x512_0_0
abbrev rC1 : Rect S4096x512 := Rect.unit (s := S4096x512) ![1024, 0] S1024x512.size inb_S4096x512_S1024x512_1024_0
abbrev rC2 : Rect S4096x512 := Rect.unit (s := S4096x512) ![2048, 0] S1024x512.size inb_S4096x512_S1024x512_2048_0
abbrev rC3 : Rect S4096x512 := Rect.unit (s := S4096x512) ![3072, 0] S1024x512.size inb_S4096x512_S1024x512_3072_0
abbrev rO : Rect S512x256 := Rect.unit (s := S512x256) ![0, 0] S512x256.size inb_S512x256_S512x256_0_0

/-- `(u0 + A + C) · inv_3`, first domain. -/
def outUs (x0 x1 x2 x3 : Vec F S512x1024 .f32) (x8 : Vec F S4096x512 .bf16) (x9 x11 : Vec F S512x256 .bf16) : Vec F S512x256 .f32 :=
  View.canon [⟨rO, k2_pay9 (k2_pay5 (View.ld x0 rA) (View.ld x1 rA) (View.ld x2 rA) (View.ld x3 rA) (View.ld x8 rC0) (View.ld x8 rC1) (View.ld x8 rC2) (View.ld x8 rC3)) (k2_pay8 (View.ld x11 rO) (View.ld x9 rO))⟩]

/-- `(u0' + A + C') · inv_3`, first domain. -/
def outSs (x0 x1 x2 x3 : Vec F S512x1024 .f32) (x8 : Vec F S4096x512 .bf16) (x10 x11 : Vec F S512x256 .bf16) : Vec F S512x256 .f32 :=
  View.canon [⟨rO, k2_pay10 (k2_pay5 (View.ld x0 rA) (View.ld x1 rA) (View.ld x2 rA) (View.ld x3 rA) (View.ld x8 rC0) (View.ld x8 rC1) (View.ld x8 rC2) (View.ld x8 rC3)) (k2_pay6 (View.ld x11 rO)) (k2_pay7 (View.ld x10 rO))⟩]

/-- `(u0 + A + C) · inv_3`, second domain. -/
def outUt (x4 x5 x6 x7 : Vec F S512x1024 .f32) (x12 : Vec F S4096x512 .bf16) (x13 x15 : Vec F S512x256 .bf16) : Vec F S512x256 .f32 :=
  View.canon [⟨rO, k2_pay3 (k2_pay11 (View.ld x7 rA)) (k2_pay12 (View.ld x4 rA) (View.ld x5 rA) (View.ld x6 rA) (View.ld x12 rC0) (View.ld x12 rC1) (View.ld x12 rC2)) (k2_pay13 (View.ld x12 rC3)) (constant S512x512 .f32 0x00000000#32) (View.ld x15 rO) (View.ld x13 rO)⟩]

/-- `(u0' + A + C') · inv_3`, second domain. -/
def outSt (x4 x5 x6 x7 : Vec F S512x1024 .f32) (x12 : Vec F S4096x512 .bf16) (x14 x15 : Vec F S512x256 .bf16) : Vec F S512x256 .f32 :=
  View.canon [⟨rO, k2_pay4 (k2_pay11 (View.ld x7 rA)) (k2_pay12 (View.ld x4 rA) (View.ld x5 rA) (View.ld x6 rA) (View.ld x12 rC0) (View.ld x12 rC1) (View.ld x12 rC2)) (k2_pay13 (View.ld x12 rC3)) (constant S512x512 .f32 0x00000000#32) (View.ld x15 rO) (View.ld x14 rO)⟩]

/-- One store covers the 512 × 256 block. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

set_option maxHeartbeats 8000000 in
/-- The body on whole staging memrefs: the sixteen inputs at read contents, the four outputs at anything; it runs to
    the continuation with the inputs as they were and each output at its one store. -/
theorem sound_kernel (c : Dev nD) (E : Set ℕ) (i : grid2.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S4096x512 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S4096x512 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x256 .f32) (harg17 : arg17.IsWhole) (arg18 : Memref sig .tc .vmem S512x256 .f32) (harg18 : arg18.IsWhole) (arg19 : Memref sig .tc .vmem S512x256 .f32) (harg19 : arg19.IsWhole) (arg20 : Memref sig .tc .vmem S512x256 .f32) (harg20 : arg20.IsWhole)
    (x0 : Vec F S512x1024 .f32) (x1 : Vec F S512x1024 .f32) (x2 : Vec F S512x1024 .f32) (x3 : Vec F S512x1024 .f32) (x4 : Vec F S512x1024 .f32) (x5 : Vec F S512x1024 .f32) (x6 : Vec F S512x1024 .f32) (x7 : Vec F S512x1024 .f32) (x8 : Vec F S4096x512 .bf16) (x9 : Vec F S512x256 .bf16) (x10 : Vec F S512x256 .bf16) (x11 : Vec F S512x256 .bf16) (x12 : Vec F S4096x512 .bf16) (x13 : Vec F S512x256 .bf16) (x14 : Vec F S512x256 .bf16) (x15 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (outUs x0 x1 x2 x3 x8 x9 x11) ∗ owns (c : Thread nD τ) arg18 fullShare (outSs x0 x1 x2 x3 x8 x10 x11) ∗ owns (c : Thread nD τ) arg19 fullShare (outUt x4 x5 x6 x7 x12 x13 x15) ∗ owns (c : Thread nD τ) arg20 fullShare (outSt x4 x5 x6 x7 x12 x14 x15)) -∗ K ⟨⟩))
      ⊢ wp frame (wpE (defs₀ (F := F)) Variants.none c none) E (cc2__s3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc2__s3_body_eq_skeleton]; unfold cc2__s3_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverO _)
  isplitl [H17]
  · iexists _; isplitr
    swap; · iexact H17
    ipureintro
    exact View.read_writes_eq_canon _ _ _ (coverO _)
  isplitl [H18]
  · iexists _; isplitr
    swap; · iexact H18
    ipureintro
    exact View.read_writes_eq_canon _ _ _ (coverO _)
  iexists _; isplitr
  swap; · iexact H19
  ipureintro
  exact View.read_writes_eq_canon _ _ _ (coverO _)

/-! ## The windows' blocks and the proof data -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body each input's buffer still at its block and
    each output's at its stores over the input blocks; the class invariant; the adjacency arrays, each read through
    four windows, held at a quarter share by each of them, every other array whole; nothing owed. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outUs (iblk V c 0 t) (iblk V c 1 t) (iblk V c 2 t) (iblk V c 3 t) (iblk V c 8 t) (iblk V c 9 t) (iblk V c 11 t)
    | ⟨17, _⟩ => outSs (iblk V c 0 t) (iblk V c 1 t) (iblk V c 2 t) (iblk V c 3 t) (iblk V c 8 t) (iblk V c 10 t) (iblk V c 11 t)
    | ⟨18, _⟩ => outUt (iblk V c 4 t) (iblk V c 5 t) (iblk V c 6 t) (iblk V c 7 t) (iblk V c 12 t) (iblk V c 13 t) (iblk V c 15 t)
    | ⟨19, _⟩ => outSt (iblk V c 4 t) (iblk V c 5 t) (iblk V c 6 t) (iblk V c 7 t) (iblk V c 12 t) (iblk V c 14 t) (iblk V c 15 t)
    | ⟨_ + 20, h⟩ => absurd h (Nat.not_lt.2 (Nat.le_add_left _ _))
  Φ _ := Pipeline.ΦA spec2 c
  q w := match w with
    | ⟨0, _⟩ => fullShare.left.left | ⟨1, _⟩ => fullShare.left.right | ⟨2, _⟩ => fullShare.right.left | ⟨3, _⟩ => fullShare.right.right
    | ⟨4, _⟩ => fullShare.left.left | ⟨5, _⟩ => fullShare.left.right | ⟨6, _⟩ => fullShare.right.left | ⟨7, _⟩ => fullShare.right.right
    | _ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]
theorem after_14 (c : Dev nD) (t : Fin cfg2.N) : (dat V c).after 14 t = iblk V c 14 t := by dsimp only [dat]
theorem after_15 (c : Dev nD) (t : Fin cfg2.N) : (dat V c).after 15 t = iblk V c 15 t := by dsimp only [dat]
theorem after_16 (c : Dev nD) (t : Fin cfg2.N) : (dat V c).after 16 t = outUs (iblk V c 0 t) (iblk V c 1 t) (iblk V c 2 t) (iblk V c 3 t) (iblk V c 8 t) (iblk V c 9 t) (iblk V c 11 t) := by dsimp only [dat]
theorem after_17 (c : Dev nD) (t : Fin cfg2.N) : (dat V c).after 17 t = outSs (iblk V c 0 t) (iblk V c 1 t) (iblk V c 2 t) (iblk V c 3 t) (iblk V c 8 t) (iblk V c 10 t) (iblk V c 11 t) := by dsimp only [dat]
theorem after_18 (c : Dev nD) (t : Fin cfg2.N) : (dat V c).after 18 t = outUt (iblk V c 4 t) (iblk V c 5 t) (iblk V c 6 t) (iblk V c 7 t) (iblk V c 12 t) (iblk V c 13 t) (iblk V c 15 t) := by dsimp only [dat]
theorem after_19 (c : Dev nD) (t : Fin cfg2.N) : (dat V c).after 19 t = outSt (iblk V c 4 t) (iblk V c 5 t) (iblk V c 6 t) (iblk V c 7 t) (iblk V c 12 t) (iblk V c 14 t) (iblk V c 15 t) := by dsimp only [dat]

/-! An input's staging buffer holds its block at every point, fetched there or not: where the pipeline does not fetch,
    the block index has not moved and the body left the block in place. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg2.N) (d) : (dat V c).before 10 t d = iblk V c 10 t :=
  ((dat V c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg2.N) (d) : (dat V c).before 11 t d = iblk V c 11 t :=
  ((dat V c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg2.N) (d) : (dat V c).before 12 t d = iblk V c 12 t :=
  ((dat V c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg2.N) (d) : (dat V c).before 13 t d = iblk V c 13 t :=
  ((dat V c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg2.N) (d) : (dat V c).before 14 t d = iblk V c 14 t :=
  ((dat V c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg2.N) (d) : (dat V c).before 15 t d = iblk V c 15 t :=
  ((dat V c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d))
    ∗ (∃ d, owns (c : Thread nD τ) (st2_15 t) fullShare ((dat V c).before 15 t d))
    ∗ (∃ d, owns (c : Thread nD τ) (st2_16 t) fullShare ((dat V c).before 16 t d))
    ∗ (∃ d, owns (c : Thread nD τ) (st2_17 t) fullShare ((dat V c).before 17 t d))
    ∗ (∃ d, owns (c : Thread nD τ) (st2_18 t) fullShare ((dat V c).before 18 t d))
    ∗ (∃ d, owns (c : Thread nD τ) (st2_19 t) fullShare ((dat V c).before 19 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t)
    ∗ owns (c : Thread nD τ) (st2_15 t) fullShare ((dat V c).after 15 t)
    ∗ owns (c : Thread nD τ) (st2_16 t) fullShare ((dat V c).after 16 t)
    ∗ owns (c : Thread nD τ) (st2_17 t) fullShare ((dat V c).after 17 t)
    ∗ owns (c : Thread nD τ) (st2_18 t) fullShare ((dat V c).after 18 t)
    ∗ owns (c : Thread nD τ) (st2_19 t) fullShare ((dat V c).after 19 t))

set_option maxHeartbeats 2000000 in
/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13, before_14, before_15]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (cfg2.grid.coords t) _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Stage3

end
-- ==== Proof.KI.Run.lean ====
import proofs.«140658_g7370163880393_cont_sun_c4_438_32_alg».proof.Proof.Gen.KernelIdeal.Launch
import proofs.«140658_g7370163880393_cont_sun_c4_438_32_alg».proof.Proof.Gen.KernelIdeal.Skeleton
import proofs.«140658_g7370163880393_cont_sun_c4_438_32_alg».proof.Proof.Gen.KernelIdeal.Points
import proofs.«140658_g7370163880393_cont_sun_c4_438_32_alg».proof.Proof.Gen.KernelIdeal.Regions
import proofs.«140658_g7370163880393_cont_sun_c4_438_32_alg».proof.Proof.KI.Stage1
import proofs.«140658_g7370163880393_cont_sun_c4_438_32_alg».proof.Proof.KI.Stage2
import proofs.«140658_g7370163880393_cont_sun_c4_438_32_alg».proof.Proof.KI.Stage3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The run of the whole program: a stretch of host operations, then the three stages in order

Between two items a core holds every unscoped buffer whole at a valuation: the launch memory, then the four casts of
the user embeddings, then after each stage its outputs at what the write-backs left and everything else unchanged.
Each stage is entered by dealing the buffers behind its windows to the windows (the adjacency arrays in quarter shares)
and left by collecting them back. -/

/-! ## Stage 1: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain1 (c : Dev nD) (V0 : (c : Dev nD) → (b : Ref sig .tc) → Buf (Elt F) ((c : Thread nD τ).loc b))
    (V : (b : Ref sig .tc) → Buf (Elt F) ((c : Thread nD τ).loc b)) :
    ((Stage1.dat V0 c).arrays (fun w => V (Pipeline.arrRef spec0 w)) : sProp 𝕄)
      = iprop((((c : Thread nD τ).loc main_arg0) ↦{fullShare.left.left} V main_arg0) ∗ (((c : Thread nD τ).loc main_arg0) ↦{fullShare.left.right} V main_arg0) ∗ (((c : Thread nD τ).loc main_arg0) ↦{fullShare.right.left} V main_arg0) ∗ (((c : Thread nD τ).loc main_arg0) ↦{fullShare.right.right} V main_arg0) ∗ (((c : Thread nD τ).loc main_arg2) ↦{fullShare.left.left} V main_arg2) ∗ (((c : Thread nD τ).loc main_arg2) ↦{fullShare.left.right} V main_arg2) ∗ (((c : Thread nD τ).loc main_arg2) ↦{fullShare.right.left} V main_arg2) ∗ (((c : Thread nD τ).loc main_arg2) ↦{fullShare.right.right} V main_arg2) ∗ (((c : Thread nD τ).loc main_arg6) ↦{fullShare} V main_arg6) ∗ (((c : Thread nD τ).loc main_arg7) ↦{fullShare} V main_arg7) ∗ (((c : Thread nD τ).loc main_v4_0) ↦{fullShare} V main_v4_0) ∗ (((c : Thread nD τ).loc main_v4_1) ↦{fullShare} V main_v4_1)) := by
  unfold Dat.arrays
  rw [show (bigSep Finset.univ fun w : Fin cfg0.W => ((cfg0.win w).arr.view.loc (c : Thread nD τ) ↦[(cfg0.win w).arr.view.set]{(Stage1.dat V0 c).share w} V (Pipeline.arrRef spec0 w) : sProp 𝕄))
      = bigSep Finset.univ fun w : Fin cfg0.W => ((((c : Thread nD τ).loc (Pipeline.arrRef spec0 w)) ↦{(Stage1.dat V0 c).share w} V (Pipeline.arrRef spec0 w) : sProp 𝕄))
      from bigSep_congr fun w _ => by rw [(arr_whole0 w).set_eq_univ],
    bigSep_W0]
  rfl

/-- The distinct buffers behind them one by one, each whole. -/
theorem arrBufs_chain1 (c : Dev nD) (V : (b : Ref sig .tc) → Buf (Elt F) ((c : Thread nD τ).loc b)) :
    (Pipeline.arrBufs (Ix := Unit) (Name := ℕ) (U := Pipeline.UD sig nD τ) (Lvl := ℕ) spec0 c V : sProp 𝕄)
      = iprop((((c : Thread nD τ).loc main_arg0) ↦{fullShare} V main_arg0) ∗ (((c : Thread nD τ).loc main_arg2) ↦{fullShare} V main_arg2) ∗ (((c : Thread nD τ).loc main_arg6) ↦{fullShare} V main_arg6) ∗ (((c : Thread nD τ).loc main_arg7) ↦{fullShare} V main_arg7) ∗ (((c : Thread nD τ).loc main_v4_0) ↦{fullShare} V main_v4_0) ∗ (((c : Thread nD τ).loc main_v4_1) ↦{fullShare} V main_v4_1)) := by
  unfold Pipeline.arrBufs
  exact bigSep_eq_bigSepL_of_eq [main_arg0, main_arg2, main_arg6, main_arg7, main_v4_0, main_v4_1] (by decide) (by decide) _

/-- Dealing: the buffers whole give every window its array at its share. -/
theorem arrays_of_bufs1 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec0 c V : sProp 𝕄)
      ⊢ (Stage1.dat V0 c).arrays (fun w => V (Pipeline.arrRef spec0 w)) := by
  rw [arrays_chain1, arrBufs_chain1]
  iintro ⟨H_main_arg0, H_main_arg2, H_main_arg6, H_main_arg7, H_main_v4_0, H_main_v4_1⟩
  ihave As := (pointsTo_share (PosShare.mem_left_op_right fullShare)).1 $$ H_main_arg0
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg2
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_arg6]; · iexact H_main_arg6
  isplitl [H_main_arg7]; · iexact H_main_arg7
  isplitl [H_main_v4_0]; · iexact H_main_v4_0
  iexact H_main_v4_1

/-- Collecting: the windows' arrays at their shares, all at one valuation, give the buffers back whole. -/
theorem bufs_of_arrays1 (c : Dev nD) (V0 : (c : Dev nD) → (b : Ref sig .tc) → Buf (Elt F) ((c : Thread nD τ).loc b))
    (V : (b : Ref sig .tc) → Buf (Elt F) ((c : Thread nD τ).loc b)) :
    ((Stage1.dat V0 c).arrays (fun w => V (Pipeline.arrRef spec0 w)) : sProp 𝕄)
      ⊢ Pipeline.arrBufs (Ix := Unit) (Name := ℕ) (U := Pipeline.UD sig nD τ) (Lvl := ℕ) spec0 c V := by
  rw [arrays_chain1, arrBufs_chain1]
  iintro ⟨ALL, ALR, ARL, ARR, BLL, BLR, BRL, BRR, H_main_arg6, H_main_arg7, H_main_v4_0, H_main_v4_1⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg0 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg2 := (pointsTo_share (PosShare.mem_left_op_right fullShare)).2 $$ [BL BR]
  · isplitl [BL]; · iexact BL
    iexact BR
  isplitl [H_main_arg0]; · iexact H_main_arg0
  isplitl [H_main_arg2]; · iexact H_main_arg2
  isplitl [H_main_arg6]; · iexact H_main_arg6
  isplitl [H_main_arg7]; · iexact H_main_arg7
  isplitl [H_main_v4_0]; · iexact H_main_v4_0
  iexact H_main_v4_1

/-! ## Stage 2: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain2 (c : Dev nD) (V0 : (c : Dev nD) → (b : Ref sig .tc) → Buf (Elt F) ((c : Thread nD τ).loc b))
    (V : (b : Ref sig .tc) → Buf (Elt F) ((c : Thread nD τ).loc b)) :
    ((Stage2.dat V0 c).arrays (fun w => V (Pipeline.arrRef spec1 w)) : sProp 𝕄)
      = iprop((((c : Thread nD τ).loc main_arg1) ↦{fullShare.left.left} V main_arg1) ∗ (((c : Thread nD τ).loc main_arg1) ↦{fullShare.left.right} V main_arg1) ∗ (((c : Thread nD τ).loc main_arg1) ↦{fullShare.right.left} V main_arg1) ∗ (((c : Thread nD τ).loc main_arg1) ↦{fullShare.right.right} V main_arg1) ∗ (((c : Thread nD τ).loc main_arg3) ↦{fullShare.left.left} V main_arg3) ∗ (((c : Thread nD τ).loc main_arg3) ↦{fullShare.left.right} V main_arg3) ∗ (((c : Thread nD τ).loc main_arg3) ↦{fullShare.right.left} V main_arg3) ∗ (((c : Thread nD τ).loc main_arg3) ↦{fullShare.right.right} V main_arg3) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_arg6) ↦{fullShare} V main_arg6) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_arg7) ↦{fullShare} V main_arg7) ∗ (((c : Thread nD τ).loc main_v5_0) ↦{fullShare} V main_v5_0) ∗ (((c : Thread nD τ).loc main_v5_1) ↦{fullShare} V main_v5_1) ∗ (((c : Thread nD τ).loc main_v5_2) ↦{fullShare} V main_v5_2) ∗ (((c : Thread nD τ).loc main_v5_3) ↦{fullShare} V main_v5_3)) := by
  unfold Dat.arrays
  rw [show (bigSep Finset.univ fun w : Fin cfg1.W => ((cfg1.win w).arr.view.loc (c : Thread nD τ) ↦[(cfg1.win w).arr.view.set]{(Stage2.dat V0 c).share w} V (Pipeline.arrRef spec1 w) : sProp 𝕄))
      = bigSep Finset.univ fun w : Fin cfg1.W => ((((c : Thread nD τ).loc (Pipeline.arrRef spec1 w)) ↦{(Stage2.dat V0 c).share w} V (Pipeline.arrRef spec1 w) : sProp 𝕄))
      from bigSep_congr fun w _ => by rw [(arr_whole1 w).set_eq_univ],
    bigSep_W1]
  rfl

/-- The distinct buffers behind them one by one, each whole. -/
theorem arrBufs_chain2 (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_arg1) ↦{fullShare} V main_arg1) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_arg6) ↦{fullShare} V main_arg6) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_arg7) ↦{fullShare} V main_arg7) ∗ (((c : Thread nD τ).loc main_v5_0) ↦{fullShare} V main_v5_0) ∗ (((c : Thread nD τ).loc main_v5_1) ↦{fullShare} V main_v5_1) ∗ (((c : Thread nD τ).loc main_v5_2) ↦{fullShare} V main_v5_2) ∗ (((c : Thread nD τ).loc main_v5_3) ↦{fullShare} V main_v5_3)) := by
  unfold Pipeline.arrBufs
  exact bigSep_eq_bigSepL_of_eq [main_arg1, main_arg3, main_v0, main_v1, main_v4_0, main_arg6, main_v2, main_v3, main_v4_1, main_arg7, main_v5_0, main_v5_1, main_v5_2, main_v5_3] (by decide) (by decide) _

/-- Dealing: the buffers whole give every window its array at its share. -/
theorem arrays_of_bufs2 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec1 c V : sProp 𝕄)
      ⊢ (Stage2.dat V0 c).arrays (fun w => V (Pipeline.arrRef spec1 w)) := by
  rw [arrays_chain2, arrBufs_chain2]
  iintro ⟨H_main_arg1, H_main_arg3, H_main_v0, H_main_v1, H_main_v4_0, H_main_arg6, H_main_v2, H_main_v3, H_main_v4_1, H_main_arg7, H_main_v5_0, H_main_v5_1, H_main_v5_2, H_main_v5_3⟩
  ihave As := (pointsTo_share (PosShare.mem_left_op_right fullShare)).1 $$ H_main_arg1
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg3
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_v0]; · iexact H_main_v0
  isplitl [H_main_v1]; · iexact H_main_v1
  isplitl [H_main_v4_0]; · iexact H_main_v4_0
  isplitl [H_main_arg6]; · iexact H_main_arg6
  isplitl [H_main_v2]; · iexact H_main_v2
  isplitl [H_main_v3]; · iexact H_main_v3
  isplitl [H_main_v4_1]; · iexact H_main_v4_1
  isplitl [H_main_arg7]; · iexact H_main_arg7
  isplitl [H_main_v5_0]; · iexact H_main_v5_0
  isplitl [H_main_v5_1]; · iexact H_main_v5_1
  isplitl [H_main_v5_2]; · iexact H_main_v5_2
  iexact H_main_v5_3

/-- Collecting: the windows' arrays at their shares, all at one valuation, give the buffers back whole. -/
theorem bufs_of_arrays2 (c : Dev nD) (V0 : (c : Dev nD) → (b : Ref sig .tc) → Buf (Elt F) ((c : Thread nD τ).loc b))
    (V : (b : Ref sig .tc) → Buf (Elt F) ((c : Thread nD τ).loc b)) :
    ((Stage2.dat V0 c).arrays (fun w => V (Pipeline.arrRef spec1 w)) : sProp 𝕄)
      ⊢ Pipeline.arrBufs (Ix := Unit) (Name := ℕ) (U := Pipeline.UD sig nD τ) (Lvl := ℕ) spec1 c V := by
  rw [arrays_chain2, arrBufs_chain2]
  iintro ⟨ALL, ALR, ARL, ARR, BLL, BLR, BRL, BRR, H_main_v0, H_main_v1, H_main_v4_0, H_main_arg6, H_main_v2, H_main_v3, H_main_v4_1, H_main_arg7, H_main_v5_0, H_main_v5_1, H_main_v5_2, H_main_v5_3⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg1 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg3 := (pointsTo_share (PosShare.mem_left_op_right fullShare)).2 $$ [BL BR]
  · isplitl [BL]; · iexact BL
    iexact BR
  isplitl [H_main_arg1]; · iexact H_main_arg1
  isplitl [H_main_arg3]; · iexact H_main_arg3
  isplitl [H_main_v0]; · iexact H_main_v0
  isplitl [H_main_v1]; · iexact H_main_v1
  isplitl [H_main_v4_0]; · iexact H_main_v4_0
  isplitl [H_main_arg6]; · iexact H_main_arg6
  isplitl [H_main_v2]; · iexact H_main_v2
  isplitl [H_main_v3]; · iexact H_main_v3
  isplitl [H_main_v4_1]; · iexact H_main_v4_1
  isplitl [H_main_arg7]; · iexact H_main_arg7
  isplitl [H_main_v5_0]; · iexact H_main_v5_0
  isplitl [H_main_v5_1]; · iexact H_main_v5_1
  isplitl [H_main_v5_2]; · iexact H_main_v5_2
  iexact H_main_v5_3

/-! ## Stage 3: the arrays behind the windows, and the windows' shares of them

The first adjacency array is read through windows 0–3 and the second through windows 4–7, a column quarter each; every
other array has one window. The buffers behind the arrays, each whole, are the windows' arrays with each adjacency
array's full share dealt into the four quarters, and back. -/

/-- The windows' arrays one by one, each at its window's share. -/
theorem arrays_chain3 (c : Dev nD) (V0 : (c : Dev nD) → (b : Ref sig .tc) → Buf (Elt F) ((c : Thread nD τ).loc b))
    (V : (b : Ref sig .tc) → Buf (Elt F) ((c : Thread nD τ).loc b)) :
    ((Stage3.dat V0 c).arrays (fun w => V (Pipeline.arrRef spec2 w)) : sProp 𝕄)
      = iprop((((c : Thread nD τ).loc main_arg0) ↦{fullShare.left.left} V main_arg0) ∗ (((c : Thread nD τ).loc main_arg0) ↦{fullShare.left.right} V main_arg0) ∗ (((c : Thread nD τ).loc main_arg0) ↦{fullShare.right.left} V main_arg0) ∗ (((c : Thread nD τ).loc main_arg0) ↦{fullShare.right.right} V main_arg0) ∗ (((c : Thread nD τ).loc main_arg2) ↦{fullShare.left.left} V main_arg2) ∗ (((c : Thread nD τ).loc main_arg2) ↦{fullShare.left.right} V main_arg2) ∗ (((c : Thread nD τ).loc main_arg2) ↦{fullShare.right.left} V main_arg2) ∗ (((c : Thread nD τ).loc main_arg2) ↦{fullShare.right.right} V main_arg2) ∗ (((c : Thread nD τ).loc main_v5_0) ↦{fullShare} V main_v5_0) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_v5_2) ↦{fullShare} V main_v5_2) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_v6_0) ↦{fullShare} V main_v6_0) ∗ (((c : Thread nD τ).loc main_v6_1) ↦{fullShare} V main_v6_1) ∗ (((c : Thread nD τ).loc main_v6_2) ↦{fullShare} V main_v6_2) ∗ (((c : Thread nD τ).loc main_v6_3) ↦{fullShare} V main_v6_3)) := by
  unfold Dat.arrays
  rw [show (bigSep Finset.univ fun w : Fin cfg2.W => ((cfg2.win w).arr.view.loc (c : Thread nD τ) ↦[(cfg2.win w).arr.view.set]{(Stage3.dat V0 c).share w} V (Pipeline.arrRef spec2 w) : sProp 𝕄))
      = bigSep Finset.univ fun w : Fin cfg2.W => ((((c : Thread nD τ).loc (Pipeline.arrRef spec2 w)) ↦{(Stage3.dat V0 c).share w} V (Pipeline.arrRef spec2 w) : sProp 𝕄))
      from bigSep_congr fun w _ => by rw [(arr_whole2 w).set_eq_univ],
    bigSep_W2]
  rfl

/-- The distinct buffers behind them one by one, each whole. -/
theorem arrBufs_chain3 (c : Dev nD) (V : (b : Ref sig .tc) → Buf (Elt F) ((c : Thread nD τ).loc b)) :
    (Pipeline.arrBufs (Ix := Unit) (Name := ℕ) (U := Pipeline.UD sig nD τ) (Lvl := ℕ) spec2 c V : sProp 𝕄)
      = iprop((((c : Thread nD τ).loc main_arg0) ↦{fullShare} V main_arg0) ∗ (((c : Thread nD τ).loc main_arg2) ↦{fullShare} V main_arg2) ∗ (((c : Thread nD τ).loc main_v5_0) ↦{fullShare} V main_v5_0) ∗ (((c : Thread nD τ).loc main_v0) ↦{fullShare} V main_v0) ∗ (((c : Thread nD τ).loc main_v1) ↦{fullShare} V main_v1) ∗ (((c : Thread nD τ).loc main_v4_0) ↦{fullShare} V main_v4_0) ∗ (((c : Thread nD τ).loc main_v5_2) ↦{fullShare} V main_v5_2) ∗ (((c : Thread nD τ).loc main_v2) ↦{fullShare} V main_v2) ∗ (((c : Thread nD τ).loc main_v3) ↦{fullShare} V main_v3) ∗ (((c : Thread nD τ).loc main_v4_1) ↦{fullShare} V main_v4_1) ∗ (((c : Thread nD τ).loc main_v6_0) ↦{fullShare} V main_v6_0) ∗ (((c : Thread nD τ).loc main_v6_1) ↦{fullShare} V main_v6_1) ∗ (((c : Thread nD τ).loc main_v6_2) ↦{fullShare} V main_v6_2) ∗ (((c : Thread nD τ).loc main_v6_3) ↦{fullShare} V main_v6_3)) := by
  unfold Pipeline.arrBufs
  exact bigSep_eq_bigSepL_of_eq [main_arg0, main_arg2, main_v5_0, main_v0, main_v1, main_v4_0, main_v5_2, main_v2, main_v3, main_v4_1, main_v6_0, main_v6_1, main_v6_2, main_v6_3] (by decide) (by decide) _

/-- Dealing: the buffers whole give every window its array at its share. -/
theorem arrays_of_bufs3 (c : Dev nD) (V0 : (c : Dev nD) → (b : Ref sig .tc) → Buf (Elt F) ((c : Thread nD τ).loc b))
    (V : (b : Ref sig .tc) → Buf (Elt F) ((c : Thread nD τ).loc b)) :
    (Pipeline.arrBufs (Ix := Unit) (Name := ℕ) (U := Pipeline.UD sig nD τ) (Lvl := ℕ) spec2 c V : sProp 𝕄)
      ⊢ (Stage3.dat V0 c).arrays (fun w => V (Pipeline.arrRef spec2 w)) := by
  rw [arrays_chain3, arrBufs_chain3]
  iintro ⟨H_main_arg0, H_main_arg2, H_main_v5_0, H_main_v0, H_main_v1, H_main_v4_0, H_main_v5_2, H_main_v2, H_main_v3, H_main_v4_1, H_main_v6_0, H_main_v6_1, H_main_v6_2, H_main_v6_3⟩
  ihave As := (pointsTo_share (PosShare.mem_left_op_right fullShare)).1 $$ H_main_arg0
  icases As with ⟨AL, AR⟩
  ihave ALs := (pointsTo_share (PosShare.mem_left_op_right fullShare.left)).1 $$ AL
  icases ALs with ⟨ALL, ALR⟩
  ihave ARs := (pointsTo_share (PosShare.mem_left_op_right fullShare.right)).1 $$ AR
  icases ARs with ⟨ARL, ARR⟩
  ihave Bs := (pointsTo_share (PosShare.mem_left_op_right fullShare)).1 $$ H_main_arg2
  icases Bs with ⟨BL, BR⟩
  ihave BLs := (pointsTo_share (PosShare.mem_left_op_right fullShare.left)).1 $$ BL
  icases BLs with ⟨BLL, BLR⟩
  ihave BRs := (pointsTo_share (PosShare.mem_left_op_right fullShare.right)).1 $$ BR
  icases BRs with ⟨BRL, BRR⟩
  isplitl [ALL]; · iexact ALL
  isplitl [ALR]; · iexact ALR
  isplitl [ARL]; · iexact ARL
  isplitl [ARR]; · iexact ARR
  isplitl [BLL]; · iexact BLL
  isplitl [BLR]; · iexact BLR
  isplitl [BRL]; · iexact BRL
  isplitl [BRR]; · iexact BRR
  isplitl [H_main_v5_0]; · iexact H_main_v5_0
  isplitl [H_main_v0]; · iexact H_main_v0
  isplitl [H_main_v1]; · iexact H_main_v1
  isplitl [H_main_v4_0]; · iexact H_main_v4_0
  isplitl [H_main_v5_2]; · iexact H_main_v5_2
  isplitl [H_main_v2]; · iexact H_main_v2
  isplitl [H_main_v3]; · iexact H_main_v3
  isplitl [H_main_v4_1]; · iexact H_main_v4_1
  isplitl [H_main_v6_0]; · iexact H_main_v6_0
  isplitl [H_main_v6_1]; · iexact H_main_v6_1
  isplitl [H_main_v6_2]; · iexact H_main_v6_2
  iexact H_main_v6_3

/-- Collecting: the windows' arrays at their shares, all at one valuation, give the buffers back whole. -/
theorem bufs_of_arrays3 (c : Dev nD) (V0 : (c : Dev nD) → (b : Ref sig .tc) → Buf (Elt F) ((c : Thread nD τ).loc b))
    (V : (b : Ref sig .tc) → Buf (Elt F) ((c : Thread nD τ).loc b)) :
    ((Stage3.dat V0 c).arrays (fun w => V (Pipeline.arrRef spec2 w)) : sProp 𝕄)
      ⊢ Pipeline.arrBufs (Ix := Unit) (Name := ℕ) (U := Pipeline.UD sig nD τ) (Lvl := ℕ) spec2 c V := by
  rw [arrays_chain3, arrBufs_chain3]
  iintro ⟨ALL, ALR, ARL, ARR, BLL, BLR, BRL, BRR, H_main_v5_0, H_main_v0, H_main_v1, H_main_v4_0, H_main_v5_2, H_main_v2, H_main_v3, H_main_v4_1, H_main_v6_0, H_main_v6_1, H_main_v6_2, H_main_v6_3⟩
  ihave AL := (pointsTo_share (PosShare.mem_left_op_right fullShare.left)).2 $$ [ALL ALR]
  · isplitl [ALL]; · iexact ALL
    iexact ALR
  ihave AR := (pointsTo_share (PosShare.mem_left_op_right fullShare.right)).2 $$ [ARL ARR]
  · isplitl [ARL]; · iexact ARL
    iexact ARR
  ihave H_main_arg0 := (pointsTo_share (PosShare.mem_left_op_right fullShare)).2 $$ [AL AR]
  · isplitl [AL]; · iexact AL
    iexact AR
  ihave BL := (pointsTo_share (PosShare.mem_left_op_right fullShare.left)).2 $$ [BLL BLR]
  · isplitl [BLL]; · iexact BLL
    iexact BLR
  ihave BR := (pointsTo_share (PosShare.mem_left_op_right fullShare.right)).2 $$ [BRL BRR]
  · isplitl [BRL]; · iexact BRL
    iexact BRR
  ihave H_main_arg2 := (pointsTo_share (PosShare.mem_left_op_right fullShare)).2 $$ [BL BR]
  · isplitl [BL]; · iexact BL
    iexact BR
  isplitl [H_main_arg0]; · iexact H_main_arg0
  isplitl [H_main_arg2]; · iexact H_main_arg2
  isplitl [H_main_v5_0]; · iexact H_main_v5_0
  isplitl [H_main_v0]; · iexact H_main_v0
  isplitl [H_main_v1]; · iexact H_main_v1
  isplitl [H_main_v4_0]; · iexact H_main_v4_0
  isplitl [H_main_v5_2]; · iexact H_main_v5_2
  isplitl [H_main_v2]; · iexact H_main_v2
  isplitl [H_main_v3]; · iexact H_main_v3
  isplitl [H_main_v4_1]; · iexact H_main_v4_1
  isplitl [H_main_v6_0]; · iexact H_main_v6_0
  isplitl [H_main_v6_1]; · iexact H_main_v6_1
  isplitl [H_main_v6_2]; · iexact H_main_v6_2
  iexact H_main_v6_3

/-! ## The buffer contents between items -/

variable (m : (ℓ : Loc nD τ sig) → Buf (Elt F) ℓ)

/-- A valuation of every core's buffers read at the TensorCore's references. -/
abbrev asV (W : Dev nD → Valuation τ sig (Elt F)) : (c : Dev nD) → (b : Ref sig .tc) → Buf (Elt F) ((c : Thread nD τ).loc b) :=
  fun c b => W c b

/-! ### After stage 1: its outputs at what the pipeline's write-backs leave, every other buffer as entered -/

/-- Core `c`'s unscoped buffers after stage 1. -/
def W2 (c : Dev nD) : Valuation τ sig (Elt F) :=
  Function.update (Function.update (V1 m c) main_v4_0 ((Stage1.dat (asV (V1 m)) c).arrAt 10 cfg0.N)) main_v4_1 ((Stage1.dat (asV (V1 m)) c).arrAt 11 cfg0.N)

/-- Off the stage's outputs nothing changed. -/
theorem W2_of (c : Dev nD) (r : Ref sig .tc) (h0 : r ≠ main_v4_0) (h1 : r ≠ main_v4_1) : W2 m c r = V1 m c r := by
  unfold W2
  rw [Function.update_of_ne (StableHlo.devRef_ne_of_ne h1 : (Proc.devRef .tc r : DevRef τ sig) ≠ Proc.devRef .tc main_v4_1), Function.update_of_ne (StableHlo.devRef_ne_of_ne h0 : (Proc.devRef .tc r : DevRef τ sig) ≠ Proc.devRef .tc main_v4_0)]

theorem W2_main_v4_0 (c : Dev nD) : W2 m c main_v4_0 = (Stage1.dat (asV (V1 m)) c).arrAt 10 cfg0.N := by
  unfold W2
  rw [Function.update_of_ne (StableHlo.devRef_ne_of_ne (by decide : main_v4_0 ≠ main_v4_1) : (Proc.devRef .tc main_v4_0 : DevRef τ sig) ≠ Proc.devRef .tc main_v4_1), Function.update_self]
theorem W2_main_v4_1 (c : Dev nD) : W2 m c main_v4_1 = (Stage1.dat (asV (V1 m)) c).arrAt 11 cfg0.N := by
  unfold W2
  rw [Function.update_self]

attribute [irreducible] W2

set_option maxHeartbeats 4000000 in
/-- Every window's array after the last write-back is the new valuation at it: an input's array is as entered, an
    output's is what the write-backs left. -/
theorem W2_arr (c : Dev nD) : ∀ w : Fin cfg0.W, (Stage1.dat (asV (V1 m)) c).arrAt w cfg0.N = W2 m c (Pipeline.arrRef spec0 w)
  | ⟨0, _⟩ => ((Stage1.dat (asV (V1 m)) c).arrAt_in 0 rfl _).trans (W2_of m c main_arg0 (by decide) (by decide)).symm
  | ⟨1, _⟩ => ((Stage1.dat (asV (V1 m)) c).arrAt_in 1 rfl _).trans (W2_of m c main_arg0 (by decide) (by decide)).symm
  | ⟨2, _⟩ => ((Stage1.dat (asV (V1 m)) c).arrAt_in 2 rfl _).trans (W2_of m c main_arg0 (by decide) (by decide)).symm
  | ⟨3, _⟩ => ((Stage1.dat (asV (V1 m)) c).arrAt_in 3 rfl _).trans (W2_of m c main_arg0 (by decide) (by decide)).symm
  | ⟨4, _⟩ => ((Stage1.dat (asV (V1 m)) c).arrAt_in 4 rfl _).trans (W2_of m c main_arg2 (by decide) (by decide)).symm
  | ⟨5, _⟩ => ((Stage1.dat (asV (V1 m)) c).arrAt_in 5 rfl _).trans (W2_of m c main_arg2 (by decide) (by decide)).symm
  | ⟨6, _⟩ => ((Stage1.dat (asV (V1 m)) c).arrAt_in 6 rfl _).trans (W2_of m c main_arg2 (by decide) (by decide)).symm
  | ⟨7, _⟩ => ((Stage1.dat (asV (V1 m)) c).arrAt_in 7 rfl _).trans (W2_of m c main_arg2 (by decide) (by decide)).symm
  | ⟨8, _⟩ => ((Stage1.dat (asV (V1 m)) c).arrAt_in 8 rfl _).trans (W2_of m c main_arg6 (by decide) (by decide)).symm
  | ⟨9, _⟩ => ((Stage1.dat (asV (V1 m)) c).arrAt_in 9 rfl _).trans (W2_of m c main_arg7 (by decide) (by decide)).symm
  | ⟨10, _⟩ => (W2_main_v4_0 m c).symm
  | ⟨11, _⟩ => (W2_main_v4_1 m c).symm

/-- ENTRY: the unscoped buffers held at the entry valuation are the windows' arrays at their shares and the rest. -/
theorem entry1 (c : Dev nD) :
    (StableHlo.held (c : Thread nD τ) (Pipeline.ucRefs τ sig) (V1 m c) : sProp 𝕄)
      ⊢ iprop((Stage1.dat (asV (V1 m)) c).arrays ((Stage1.dat (asV (V1 m)) c).arrAt · 0)
          ∗ Pipeline.unscopedRest (Ix := Unit) (Name := ℕ) (U := Pipeline.UD sig nD τ) (Lvl := ℕ) spec0 c (asV (V1 m) c)) := by
  rw [← Pipeline.unscopedBufs_held c (V1 m c),
    Pipeline.PerCore.unscopedBufs_split₀ (fun _ : Dev nD => cfgs) (0 : Fin 3) c winFacts₀0.arr_unscoped]
  exact sep_mono (arrays_of_bufs1 c (asV (V1 m)) (asV (V1 m) c)) .rfl

/-- EXIT: the windows' arrays as the pipeline leaves them and the rest as entered are the unscoped buffers held at
    the new valuation. -/
theorem exit1 (c : Dev nD) :
    iprop((Stage1.dat (asV (V1 m)) c).arrays ((Stage1.dat (asV (V1 m)) c).arrAt · cfg0.N)
        ∗ Pipeline.unscopedRest (Ix := Unit) (Name := ℕ) (U := Pipeline.UD sig nD τ) (Lvl := ℕ) spec0 c (asV (V1 m) c))
      ⊢ (StableHlo.held (c : Thread nD τ) (Pipeline.ucRefs τ sig) (W2 m c) : sProp 𝕄) := by
  rw [← Pipeline.unscopedBufs_held c (W2 m c),
    Pipeline.PerCore.unscopedBufs_split₀ (fun _ : Dev nD => cfgs) (0 : Fin 3) c winFacts₀0.arr_unscoped,
    show ((Stage1.dat (asV (V1 m)) c).arrAt · cfg0.N) = fun w => asV (W2 m) c (Pipeline.arrRef spec0 w) from funext (W2_arr m c)]
  refine sep_mono (bufs_of_arrays1 c (asV (V1 m)) (asV (W2 m) c)) (Entails.of_eq ?_)
  unfold Pipeline.unscopedRest
  refine bigSep_congr fun b hb => ?_
  have hb' := (Finset.mem_sdiff.mp hb).2
  dsimp only [asV]
  rw [W2_of m c b (fun e => hb' (e ▸ Finset.mem_image.mpr ⟨10, Finset.mem_univ _, rfl⟩)) (fun e => hb' (e ▸ Finset.mem_image.mpr ⟨11, Finset.mem_univ _, rfl⟩))]

/-! ### After stage 2: its outputs at what the pipeline's write-backs leave, every other buffer as entered -/

/-- Core `c`'s unscoped buffers after stage 2. -/
def W3 (c : Dev nD) : Valuation τ sig (Elt F) :=
  Function.update (Function.update (Function.update (Function.update (W2 m c) main_v5_0 ((Stage2.dat (asV (W2 m)) c).arrAt 16 cfg1.N)) main_v5_1 ((Stage2.dat (asV (W2 m)) c).arrAt 17 cfg1.N)) main_v5_2 ((Stage2.dat (asV (W2 m)) c).arrAt 18 cfg1.N)) main_v5_3 ((Stage2.dat (asV (W2 m)) c).arrAt 19 cfg1.N)

/-- Off the stage's outputs nothing changed. -/
theorem W3_of (c : Dev nD) (r : Ref sig .tc) (h0 : r ≠ main_v5_0) (h1 : r ≠ main_v5_1) (h2 : r ≠ main_v5_2) (h3 : r ≠ main_v5_3) : W3 m c r = W2 m c r := by
  unfold W3
  rw [Function.update_of_ne (StableHlo.devRef_ne_of_ne h3 : (Proc.devRef .tc r : DevRef τ sig) ≠ Proc.devRef .tc main_v5_3), Function.update_of_ne (StableHlo.devRef_ne_of_ne h2 : (Proc.devRef .tc r : DevRef τ sig) ≠ Proc.devRef .tc main_v5_2), Function.update_of_ne (StableHlo.devRef_ne_of_ne h1 : (Proc.devRef .tc r : DevRef τ sig) ≠ Proc.devRef .tc main_v5_1), Function.update_of_ne (StableHlo.devRef_ne_of_ne h0 : (Proc.devRef .tc r : DevRef τ sig) ≠ Proc.devRef .tc main_v5_0)]

theorem W3_main_v5_0 (c : Dev nD) : W3 m c main_v5_0 = (Stage2.dat (asV (W2 m)) c).arrAt 16 cfg1.N := by
  unfold W3
  rw [Function.update_of_ne (StableHlo.devRef_ne_of_ne (by decide : main_v5_0 ≠ main_v5_3) : (Proc.devRef .tc main_v5_0 : DevRef τ sig) ≠ Proc.devRef .tc main_v5_3), Function.update_of_ne (StableHlo.devRef_ne_of_ne (by decide : main_v5_0 ≠ main_v5_2) : (Proc.devRef .tc main_v5_0 : DevRef τ sig) ≠ Proc.devRef .tc main_v5_2), Function.update_of_ne (StableHlo.devRef_ne_of_ne (by decide : main_v5_0 ≠ main_v5_1) : (Proc.devRef .tc main_v5_0 : DevRef τ sig) ≠ Proc.devRef .tc main_v5_1), Function.update_self]
theorem W3_main_v5_1 (c : Dev nD) : W3 m c main_v5_1 = (Stage2.dat (asV (W2 m)) c).arrAt 17 cfg1.N := by
  unfold W3
  rw [Function.update_of_ne (StableHlo.devRef_ne_of_ne (by decide : main_v5_1 ≠ main_v5_3) : (Proc.devRef .tc main_v5_1 : DevRef τ sig) ≠ Proc.devRef .tc main_v5_3), Function.update_of_ne (StableHlo.devRef_ne_of_ne (by decide : main_v5_1 ≠ main_v5_2) : (Proc.devRef .tc main_v5_1 : DevRef τ sig) ≠ Proc.devRef .tc main_v5_2), Function.update_self]
theorem W3_main_v5_2 (c : Dev nD) : W3 m c main_v5_2 = (Stage2.dat (asV (W2 m)) c).arrAt 18 cfg1.N := by
  unfold W3
  rw [Function.update_of_ne (StableHlo.devRef_ne_of_ne (by decide : main_v5_2 ≠ main_v5_3) : (Proc.devRef .tc main_v5_2 : DevRef τ sig) ≠ Proc.devRef .tc main_v5_3), Function.update_self]
theorem W3_main_v5_3 (c : Dev nD) : W3 m c main_v5_3 = (Stage2.dat (asV (W2 m)) c).arrAt 19 cfg1.N := by
  unfold W3
  rw [Function.update_self]

attribute [irreducible] W3

set_option maxHeartbeats 4000000 in
/-- Every window's array after the last write-back is the new valuation at it: an input's array is as entered, an
    output's is what the write-backs left. -/
theorem W3_arr (c : Dev nD) : ∀ w : Fin cfg1.W, (Stage2.dat (asV (W2 m)) c).arrAt w cfg1.N = W3 m c (Pipeline.arrRef spec1 w)
  | ⟨0, _⟩ => ((Stage2.dat (asV (W2 m)) c).arrAt_in 0 rfl _).trans (W3_of m c main_arg1 (by decide) (by decide) (by decide) (by decide)).symm
  | ⟨1, _⟩ => ((Stage2.dat (asV (W2 m)) c).arrAt_in 1 rfl _).trans (W3_of m c main_arg1 (by decide) (by decide) (by decide) (by decide)).symm
  | ⟨2, _⟩ => ((Stage2.dat (asV (W2 m)) c).arrAt_in 2 rfl _).trans (W3_of m c main_arg1 (by decide) (by decide) (by decide) (by decide)).symm
  | ⟨3, _⟩ => ((Stage2.dat (asV (W2 m)) c).arrAt_in 3 rfl _).trans (W3_of m c main_arg1 (by decide) (by decide) (by decide) (by decide)).symm
  | ⟨4, _⟩ => ((Stage2.dat (asV (W2 m)) c).arrAt_in 4 rfl _).trans (W3_of m c main_arg3 (by decide) (by decide) (by decide) (by decide)).symm
  | ⟨5, _⟩ => ((Stage2.dat (asV (W2 m)) c).arrAt_in 5 rfl _).trans (W3_of m c main_arg3 (by decide) (by decide) (by decide) (by decide)).symm
  | ⟨6, _⟩ => ((Stage2.dat (asV (W2 m)) c).arrAt_in 6 rfl _).trans (W3_of m c main_arg3 (by decide) (by decide) (by decide) (by decide)).symm
  | ⟨7, _⟩ => ((Stage2.dat (asV (W2 m)) c).arrAt_in 7 rfl _).trans (W3_of m c main_arg3 (by decide) (by decide) (by decide) (by decide)).symm
  | ⟨8, _⟩ => ((Stage2.dat (asV (W2 m)) c).arrAt_in 8 rfl _).trans (W3_of m c main_v0 (by decide) (by decide) (by decide) (by decide)).symm
  | ⟨9, _⟩ => ((Stage2.dat (asV (W2 m)) c).arrAt_in 9 rfl _).trans (W3_of m c main_v1 (by decide) (by decide) (by decide) (by decide)).symm
  | ⟨10, _⟩ => ((Stage2.dat (asV (W2 m)) c).arrAt_in 10 rfl _).trans (W3_of m c main_v4_0 (by decide) (by decide) (by decide) (by decide)).symm
  | ⟨11, _⟩ => ((Stage2.dat (asV (W2 m)) c).arrAt_in 11 rfl _).trans (W3_of m c main_arg6 (by decide) (by decide) (by decide) (by decide)).symm
  | ⟨12, _⟩ => ((Stage2.dat (asV (W2 m)) c).arrAt_in 12 rfl _).trans (W3_of m c main_v2 (by decide) (by decide) (by decide) (by decide)).symm
  | ⟨13, _⟩ => ((Stage2.dat (asV (W2 m)) c).arrAt_in 13 rfl _).trans (W3_of m c main_v3 (by decide) (by decide) (by decide) (by decide)).symm
  | ⟨14, _⟩ => ((Stage2.dat (asV (W2 m)) c).arrAt_in 14 rfl _).trans (W3_of m c main_v4_1 (by decide) (by decide) (by decide) (by decide)).symm
  | ⟨15, _⟩ => ((Stage2.dat (asV (W2 m)) c).arrAt_in 15 rfl _).trans (W3_of m c main_arg7 (by decide) (by decide) (by decide) (by decide)).symm
  | ⟨16, _⟩ => (W3_main_v5_0 m c).symm
  | ⟨17, _⟩ => (W3_main_v5_1 m c).symm
  | ⟨18, _⟩ => (W3_main_v5_2 m c).symm
  | ⟨19, _⟩ => (W3_main_v5_3 m c).symm
  | ⟨_ + 20, h⟩ => absurd h (Nat.not_lt.2 (Nat.le_add_left _ _))

/-- ENTRY: the unscoped buffers held at the entry valuation are the windows' arrays at their shares and the rest. -/
theorem entry2 (c : Dev nD) :
    (StableHlo.held (c : Thread nD τ) (Pipeline.ucRefs τ sig) (W2 m c) : sProp 𝕄)
      ⊢ iprop((Stage2.dat (asV (W2 m)) c).arrays ((Stage2.dat (asV (W2 m)) c).arrAt · 0)
          ∗ Pipeline.unscopedRest (Ix := Unit) (Name := ℕ) (U := Pipeline.UD sig nD τ) (Lvl := ℕ) spec1 c (asV (W2 m) c)) := by
  rw [← Pipeline.unscopedBufs_held c (W2 m c),
    Pipeline.PerCore.unscopedBufs_split₀ (fun _ : Dev nD => cfgs) (1 : Fin 3) c winFacts₀1.arr_unscoped]
  exact sep_mono (arrays_of_bufs2 c (asV (W2 m)) (asV (W2 m) c)) .rfl

/-- EXIT: the windows' arrays as the pipeline leaves them and the rest as entered are the unscoped buffers held at
    the new valuation. -/
theorem exit2 (c : Dev nD) :
    iprop((Stage2.dat (asV (W2 m)) c).arrays ((Stage2.dat (asV (W2 m)) c).arrAt · cfg1.N)
        ∗ Pipeline.unscopedRest (Ix := Unit) (Name := ℕ) (U := Pipeline.UD sig nD τ) (Lvl := ℕ) spec1 c (asV (W2 m) c))
      ⊢ (StableHlo.held (c : Thread nD τ) (Pipeline.ucRefs τ sig) (W3 m c) : sProp 𝕄) := by
  rw [← Pipeline.unscopedBufs_held c (W3 m c),
    Pipeline.PerCore.unscopedBufs_split₀ (fun _ : Dev nD => cfgs) (1 : Fin 3) c winFacts₀1.arr_unscoped,
    show ((Stage2.dat (asV (W2 m)) c).arrAt · cfg1.N) = fun w => asV (W3 m) c (Pipeline.arrRef spec1 w) from funext (W3_arr m c)]
  refine sep_mono (bufs_of_arrays2 c (asV (W2 m)) (asV (W3 m) c)) (Entails.of_eq ?_)
  unfold Pipeline.unscopedRest
  refine bigSep_congr fun b hb => ?_
  have hb' := (Finset.mem_sdiff.mp hb).2
  dsimp only [asV]
  rw [W3_of m c b (fun e => hb' (e ▸ Finset.mem_image.mpr ⟨16, Finset.mem_univ _, rfl⟩)) (fun e => hb' (e ▸ Finset.mem_image.mpr ⟨17, Finset.mem_univ _, rfl⟩)) (fun e => hb' (e ▸ Finset.mem_image.mpr ⟨18, Finset.mem_univ _, rfl⟩)) (fun e => hb' (e ▸ Finset.mem_image.mpr ⟨19, Finset.mem_univ _, rfl⟩))]

/-! ### After stage 3: its outputs at what the pipeline's write-backs leave, every other buffer as entered -/

/-- Core `c`'s unscoped buffers after stage 3. -/
def W4 (c : Dev nD) : Valuation τ sig (Elt F) :=
  Function.update (Function.update (Function.update (Function.update (W3 m c) main_v6_0 ((Stage3.dat (asV (W3 m)) c).arrAt 16 cfg2.N)) main_v6_1 ((Stage3.dat (asV (W3 m)) c).arrAt 17 cfg2.N)) main_v6_2 ((Stage3.dat (asV (W3 m)) c).arrAt 18 cfg2.N)) main_v6_3 ((Stage3.dat (asV (W3 m)) c).arrAt 19 cfg2.N)

/-- Off the stage's outputs nothing changed. -/
theorem W4_of (c : Dev nD) (r : Ref sig .tc) (h0 : r ≠ main_v6_0) (h1 : r ≠ main_v6_1) (h2 : r ≠ main_v6_2) (h3 : r ≠ main_v6_3) : W4 m c r = W3 m c r := by
  unfold W4
  rw [Function.update_of_ne (StableHlo.devRef_ne_of_ne h3 : (Proc.devRef .tc r : DevRef τ sig) ≠ Proc.devRef .tc main_v6_3), Function.update_of_ne (StableHlo.devRef_ne_of_ne h2 : (Proc.devRef .tc r : DevRef τ sig) ≠ Proc.devRef .tc main_v6_2), Function.update_of_ne (StableHlo.devRef_ne_of_ne h1 : (Proc.devRef .tc r : DevRef τ sig) ≠ Proc.devRef .tc main_v6_1), Function.update_of_ne (StableHlo.devRef_ne_of_ne h0 : (Proc.devRef .tc r : DevRef τ sig) ≠ Proc.devRef .tc main_v6_0)]

theorem W4_main_v6_0 (c : Dev nD) : W4 m c main_v6_0 = (Stage3.dat (asV (W3 m)) c).arrAt 16 cfg2.N := by
  unfold W4
  rw [Function.update_of_ne (StableHlo.devRef_ne_of_ne (by decide : main_v6_0 ≠ main_v6_3) : (Proc.devRef .tc main_v6_0 : DevRef τ sig) ≠ Proc.devRef .tc main_v6_3), Function.update_of_ne (StableHlo.devRef_ne_of_ne (by decide : main_v6_0 ≠ main_v6_2) : (Proc.devRef .tc main_v6_0 : DevRef τ sig) ≠ Proc.devRef .tc main_v6_2), Function.update_of_ne (StableHlo.devRef_ne_of_ne (by decide : main_v6_0 ≠ main_v6_1) : (Proc.devRef .tc main_v6_0 : DevRef τ sig) ≠ Proc.devRef .tc main_v6_1), Function.update_self]
theorem W4_main_v6_1 (c : Dev nD) : W4 m c main_v6_1 = (Stage3.dat (asV (W3 m)) c).arrAt 17 cfg2.N := by
  unfold W4
  rw [Function.update_of_ne (StableHlo.devRef_ne_of_ne (by decide : main_v6_1 ≠ main_v6_3) : (Proc.devRef .tc main_v6_1 : DevRef τ sig) ≠ Proc.devRef .tc main_v6_3), Function.update_of_ne (StableHlo.devRef_ne_of_ne (by decide : main_v6_1 ≠ main_v6_2) : (Proc.devRef .tc main_v6_1 : DevRef τ sig) ≠ Proc.devRef .tc main_v6_2), Function.update_self]
theorem W4_main_v6_2 (c : Dev nD) : W4 m c main_v6_2 = (Stage3.dat (asV (W3 m)) c).arrAt 18 cfg2.N := by
  unfold W4
  rw [Function.update_of_ne (StableHlo.devRef_ne_of_ne (by decide : main_v6_2 ≠ main_v6_3) : (Proc.devRef .tc main_v6_2 : DevRef τ sig) ≠ Proc.devRef .tc main_v6_3), Function.update_self]
theorem W4_main_v6_3 (c : Dev nD) : W4 m c main_v6_3 = (Stage3.dat (asV (W3 m)) c).arrAt 19 cfg2.N := by
  unfold W4
  rw [Function.update_self]

attribute [irreducible] W4

set_option maxHeartbeats 4000000 in
/-- Every window's array after the last write-back is the new valuation at it: an input's array is as entered, an
    output's is what the write-backs left. -/
theorem W4_arr (c : Dev nD) : ∀ w : Fin cfg2.W, (Stage3.dat (asV (W3 m)) c).arrAt w cfg2.N = W4 m c (Pipeline.arrRef spec2 w)
  | ⟨0, _⟩ => ((Stage3.dat (asV (W3 m)) c).arrAt_in 0 rfl _).trans (W4_of m c main_arg0 (by decide) (by decide) (by decide) (by decide)).symm
  | ⟨1, _⟩ => ((Stage3.dat (asV (W3 m)) c).arrAt_in 1 rfl _).trans (W4_of m c main_arg0 (by decide) (by decide) (by decide) (by decide)).symm
  | ⟨2, _⟩ => ((Stage3.dat (asV (W3 m)) c).arrAt_in 2 rfl _).trans (W4_of m c main_arg0 (by decide) (by decide) (by decide) (by decide)).symm
  | ⟨3, _⟩ => ((Stage3.dat (asV (W3 m)) c).arrAt_in 3 rfl _).trans (W4_of m c main_arg0 (by decide) (by decide) (by decide) (by decide)).symm
  | ⟨4, _⟩ => ((Stage3.dat (asV (W3 m)) c).arrAt_in 4 rfl _).trans (W4_of m c main_arg2 (by decide) (by decide) (by decide) (by decide)).symm
  | ⟨5, _⟩ => ((Stage3.dat (asV (W3 m)) c).arrAt_in 5 rfl _).trans (W4_of m c main_arg2 (by decide) (by decide) (by decide) (by decide)).symm
  | ⟨6, _⟩ => ((Stage3.dat (asV (W3 m)) c).arrAt_in 6 rfl _).trans (W4_of m c main_arg2 (by decide) (by decide) (by decide) (by decide)).symm
  | ⟨7, _⟩ => ((Stage3.dat (asV (W3 m)) c).arrAt_in 7 rfl _).trans (W4_of m c main_arg2 (by decide) (by decide) (by decide) (by decide)).symm
  | ⟨8, _⟩ => ((Stage3.dat (asV (W3 m)) c).arrAt_in 8 rfl _).trans (W4_of m c main_v5_0 (by decide) (by decide) (by decide) (by decide)).symm
  | ⟨9, _⟩ => ((Stage3.dat (asV (W3 m)) c).arrAt_in 9 rfl _).trans (W4_of m c main_v0 (by decide) (by decide) (by decide) (by decide)).symm
  | ⟨10, _⟩ => ((Stage3.dat (asV (W3 m)) c).arrAt_in 10 rfl _).trans (W4_of m c main_v1 (by decide) (by decide) (by decide) (by decide)).symm
  | ⟨11, _⟩ => ((Stage3.dat (asV (W3 m)) c).arrAt_in 11 rfl _).trans (W4_of m c main_v4_0 (by decide) (by decide) (by decide) (by decide)).symm
  | ⟨12, _⟩ => ((Stage3.dat (asV (W3 m)) c).arrAt_in 12 rfl _).trans (W4_of m c main_v5_2 (by decide) (by decide) (by decide) (by decide)).symm
  | ⟨13, _⟩ => ((Stage3.dat (asV (W3 m)) c).arrAt_in 13 rfl _).trans (W4_of m c main_v2 (by decide) (by decide) (by decide) (by decide)).symm
  | ⟨14, _⟩ => ((Stage3.dat (asV (W3 m)) c).arrAt_in 14 rfl _).trans (W4_of m c main_v3 (by decide) (by decide) (by decide) (by decide)).symm
  | ⟨15, _⟩ => ((Stage3.dat (asV (W3 m)) c).arrAt_in 15 rfl _).trans (W4_of m c main_v4_1 (by decide) (by decide) (by decide) (by decide)).symm
  | ⟨16, _⟩ => (W4_main_v6_0 m c).symm
  | ⟨17, _⟩ => (W4_main_v6_1 m c).symm
  | ⟨18, _⟩ => (W4_main_v6_2 m c).symm
  | ⟨19, _⟩ => (W4_main_v6_3 m c).symm
  | ⟨_ + 20, h⟩ => absurd h (Nat.not_lt.2 (Nat.le_add_left _ _))

/-- ENTRY: the unscoped buffers held at the entry valuation are the windows' arrays at their shares and the rest. -/
theorem entry3 (c : Dev nD) :
    (StableHlo.held (c : Thread nD τ) (Pipeline.ucRefs τ sig) (W3 m c) : sProp 𝕄)
      ⊢ iprop((Stage3.dat (asV (W3 m)) c).arrays ((Stage3.dat (asV (W3 m)) c).arrAt · 0)
          ∗ Pipeline.unscopedRest (Ix := Unit) (Name := ℕ) (U := Pipeline.UD sig nD τ) (Lvl := ℕ) spec2 c (asV (W3 m) c)) := by
  rw [← Pipeline.unscopedBufs_held c (W3 m c),
    Pipeline.PerCore.unscopedBufs_split₀ (fun _ : Dev nD => cfgs) (2 : Fin 3) c winFacts₀2.arr_unscoped]
  exact sep_mono (arrays_of_bufs3 c (asV (W3 m)) (asV (W3 m) c)) .rfl

/-- EXIT: the windows' arrays as the pipeline leaves them and the rest as entered are the unscoped buffers held at
    the new valuation. -/
theorem exit3 (c : Dev nD) :
    iprop((Stage3.dat (asV (W3 m)) c).arrays ((Stage3.dat (asV (W3 m)) c).arrAt · cfg2.N)
        ∗ Pipeline.unscopedRest (Ix := Unit) (Name := ℕ) (U := Pipeline.UD sig nD τ) (Lvl := ℕ) spec2 c (asV (W3 m) c))
      ⊢ (StableHlo.held (c : Thread nD τ) (Pipeline.ucRefs τ sig) (W4 m c) : sProp 𝕄) := by
  rw [← Pipeline.unscopedBufs_held c (W4 m c),
    Pipeline.PerCore.unscopedBufs_split₀ (fun _ : Dev nD => cfgs) (2 : Fin 3) c winFacts₀2.arr_unscoped,
    show ((Stage3.dat (asV (W3 m)) c).arrAt · cfg2.N) = fun w => asV (W4 m) c (Pipeline.arrRef spec2 w) from funext (W4_arr m c)]
  refine sep_mono (bufs_of_arrays3 c (asV (W3 m)) (asV (W4 m) c)) (Entails.of_eq ?_)
  unfold Pipeline.unscopedRest
  refine bigSep_congr fun b hb => ?_
  have hb' := (Finset.mem_sdiff.mp hb).2
  dsimp only [asV]
  rw [W4_of m c b (fun e => hb' (e ▸ Finset.mem_image.mpr ⟨16, Finset.mem_univ _, rfl⟩)) (fun e => hb' (e ▸ Finset.mem_image.mpr ⟨17, Finset.mem_univ _, rfl⟩)) (fun e => hb' (e ▸ Finset.mem_image.mpr ⟨18, Finset.mem_univ _, rfl⟩)) (fun e => hb' (e ▸ Finset.mem_image.mpr ⟨19, Finset.mem_univ _, rfl⟩))]

/-! ## The proof data of the three pipelines and the thread state -/

/-- Every pipeline's proof data, each at its stage's entry contents. -/
def pdats : (p : Fin 3) → (c : Dev nD) → Dat τ (Elt F) Unit ℕ (Pipeline.UD sig nD τ) ℕ (Pipeline.pin (pcfgs (F := F)) adm p) c
  | ⟨0, _⟩ => fun c => Stage1.dat (asV (V1 m)) c
  | ⟨1, _⟩ => fun c => Stage2.dat (asV (W2 m)) c
  | ⟨2, _⟩ => fun c => Stage3.dat (asV (W3 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m c) ∗ ∃ r, prngReg c r)

/-! ## The stages as segments -/

set_option backward.isDefEq.respectTransparency.types false in
/-- Stage 1 as a segment: entered with every unscoped buffer held at `V1`, left with them at `W2`; the generator
    register goes into the class invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stage1.body_obligation (asV (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (asV (V1 m) c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 2 as a segment: entered with every unscoped buffer held at `W2`, left with them at `W3`; the generator
    register goes into the class invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Stage2.body_obligation (asV (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (asV (W2 m) c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit2 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Stage 3 as a segment: entered with every unscoped buffer held at `W3`, left with them at `W4`; the generator
    register goes into the class invariant and comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Stage3.body_obligation (asV (W3 m)) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (asV (W3 m) c)
  hentry c := by
    rw [Pipeline.ownSems0_none]
    iintro ⟨⟨Hub, Hp, HO⟩, -, -⟩
    ihave H := (entry3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit3 m c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each core's every unscoped buffer holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ (∃ r, prngReg c r) ∗ ∃ W, owes (c : Thread nD τ) (0 : CellTallies nD τ sig Unit) W) : sProp 𝕄)
        ⊢ iprop((StableHlo.held (c : Thread nD τ) (Pipeline.ucRefs τ sig) (W4 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## Reading the last valuation -/

/-- No host operation and no stage writes argument 0. -/
theorem W4_main_arg0 (c : Dev nD) : W4 m c main_arg0 = m ((c : Thread nD τ).loc main_arg0) :=
  (W4_of m c main_arg0 (by decide) (by decide) (by decide) (by decide)).trans <| (W3_of m c main_arg0 (by decide) (by decide) (by decide) (by decide)).trans <|
    (W2_of m c main_arg0 (by decide) (by decide)).trans <| (V1_of m c main_arg0 (by decide)).trans rfl
/-- No host operation and no stage writes argument 1. -/
theorem W4_main_arg1 (c : Dev nD) : W4 m c main_arg1 = m ((c : Thread nD τ).loc main_arg1) :=
  (W4_of m c main_arg1 (by decide) (by decide) (by decide) (by decide)).trans <| (W3_of m c main_arg1 (by decide) (by decide) (by decide) (by decide)).trans <|
    (W2_of m c main_arg1 (by decide) (by decide)).trans <| (V1_of m c main_arg1 (by decide)).trans rfl
/-- No host operation and no stage writes argument 2. -/
theorem W4_main_arg2 (c : Dev nD) : W4 m c main_arg2 = m ((c : Thread nD τ).loc main_arg2) :=
  (W4_of m c main_arg2 (by decide) (by decide) (by decide) (by decide)).trans <| (W3_of m c main_arg2 (by decide) (by decide) (by decide) (by decide)).trans <|
    (W2_of m c main_arg2 (by decide) (by decide)).trans <| (V1_of m c main_arg2 (by decide)).trans rfl
/-- No host operation and no stage writes argument 3. -/
theorem W4_main_arg3 (c : Dev nD) : W4 m c main_arg3 = m ((c : Thread nD τ).loc main_arg3) :=
  (W4_of m c main_arg3 (by decide) (by decide) (by decide) (by decide)).trans <| (W3_of m c main_arg3 (by decide) (by decide) (by decide) (by decide)).trans <|
    (W2_of m c main_arg3 (by decide) (by decide)).trans <| (V1_of m c main_arg3 (by decide)).trans rfl
/-- No host operation and no stage writes argument 4. -/
theorem W4_main_arg4 (c : Dev nD) : W4 m c main_arg4 = m ((c : Thread nD τ).loc main_arg4) :=
  (W4_of m c main_arg4 (by decide) (by decide) (by decide) (by decide)).trans <| (W3_of m c main_arg4 (by decide) (by decide) (by decide) (by decide)).trans <|
    (W2_of m c main_arg4 (by decide) (by decide)).trans <| (V1_of m c main_arg4 (by decide)).trans rfl
/-- No host operation and no stage writes argument 5. -/
theorem W4_main_arg5 (c : Dev nD) : W4 m c main_arg5 = m ((c : Thread nD τ).loc main_arg5) :=
  (W4_of m c main_arg5 (by decide) (by decide) (by decide) (by decide)).trans <| (W3_of m c main_arg5 (by decide) (by decide) (by decide) (by decide)).trans <|
    (W2_of m c main_arg5 (by decide) (by decide)).trans <| (V1_of m c main_arg5 (by decide)).trans rfl
/-- No host operation and no stage writes argument 6. -/
theorem W4_main_arg6 (c : Dev nD) : W4 m c main_arg6 = m ((c : Thread nD τ).loc main_arg6) :=
  (W4_of m c main_arg6 (by decide) (by decide) (by decide) (by decide)).trans <| (W3_of m c main_arg6 (by decide) (by decide) (by decide) (by decide)).trans <|
    (W2_of m c main_arg6 (by decide) (by decide)).trans <| (V1_of m c main_arg6 (by decide)).trans rfl
/-- No host operation and no stage writes argument 7. -/
theorem W4_main_arg7 (c : Dev nD) : W4 m c main_arg7 = m ((c : Thread nD τ).loc main_arg7) :=
  (W4_of m c main_arg7 (by decide) (by decide) (by decide) (by decide)).trans <| (W3_of m c main_arg7 (by decide) (by decide) (by decide) (by decide)).trans <|
    (W2_of m c main_arg7 (by decide) (by decide)).trans <| (V1_of m c main_arg7 (by decide)).trans rfl
/-- No host operation and no stage writes argument 8. -/
theorem W4_main_arg8 (c : Dev nD) : W4 m c main_arg8 = m ((c : Thread nD τ).loc main_arg8) :=
  (W4_of m c main_arg8 (by decide) (by decide) (by decide) (by decide)).trans <| (W3_of m c main_arg8 (by decide) (by decide) (by decide) (by decide)).trans <|
    (W2_of m c main_arg8 (by decide) (by decide)).trans <| (V1_of m c main_arg8 (by decide)).trans rfl
/-- No host operation and no stage writes argument 9. -/
theorem W4_main_arg9 (c : Dev nD) : W4 m c main_arg9 = m ((c : Thread nD τ).loc main_arg9) :=
  (W4_of m c main_arg9 (by decide) (by decide) (by decide) (by decide)).trans <| (W3_of m c main_arg9 (by decide) (by decide) (by decide) (by decide)).trans <|
    (W2_of m c main_arg9 (by decide) (by decide)).trans <| (V1_of m c main_arg9 (by decide)).trans rfl

/-- THE FRAME, at any instance: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c)⟩)
    (run_all m ρ)

end Cert.KernelIdeal.Run

end
-- ==== Proof.KI.HostCasts.lean ====
import proofs.«140658_g7370163880393_cont_sun_c4_438_32_alg».proof.Proof.Gen.KernelIdeal.Regions
import Idealize.ShloMosaic.Lib.StableHlo.Run

noncomputable section

namespace Cert.KernelIdeal.HostCasts

open Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-! The four host operations before the first stage cast the four user embeddings to the narrower format; each result
    buffer holds the cast of its argument's launch contents. -/

theorem V1_main_v0 (c : Dev nD) :
    V1 m c main_v0 = truncf .bf16 (m ((c : Thread nD τ).loc main_arg4)) bitsLt_bf16_f32 := by
  dsimp only [V1, V0, hostOps0]; after_results

theorem V1_main_v1 (c : Dev nD) :
    V1 m c main_v1 = truncf .bf16 (m ((c : Thread nD τ).loc main_arg8)) bitsLt_bf16_f32 := by
  dsimp only [V1, V0, hostOps0]; after_results

theorem V1_main_v2 (c : Dev nD) :
    V1 m c main_v2 = truncf .bf16 (m ((c : Thread nD τ).loc main_arg5)) bitsLt_bf16_f32 := by
  dsimp only [V1, V0, hostOps0]; after_results

theorem V1_main_v3 (c : Dev nD) :
    V1 m c main_v3 = truncf .bf16 (m ((c : Thread nD τ).loc main_arg9)) bitsLt_bf16_f32 := by
  dsimp only [V1, V0, hostOps0]; after_results

end Cert.KernelIdeal.HostCasts

end
-- ==== Proof.PayValueLib.lean ====
/-
  The matrix unit's product and the layout operations of the three kernel bodies, read at one entry, at the ideal values.

  Every body multiplies a 512 × 1024 block of rows of an adjacency array with a 1024-row quarter of a resident right-hand
  side into a zero accumulator, four times, and adds the four partial products left to right. Read at the entry `(p, q)`,
  one such product is `Σ_k a[p,k] · w[k,q]` over the 1024 contracted coordinates (`mm256_apply` for 256 columns,
  `mm512_apply` for 512), so the sum of the four is four such sums added in the same order (`quarters256_apply`,
  `quarters512_apply`; `halves256_apply` for two). Format changes between bf16 and f32 and a shape cast to the same
  shape do nothing on the extended reals (`truncf_id`, `extf_id`); the scaling constant is one third (`inv3`); and a
  512-column accumulator's left and right 256-column halves read at `(p, q)` are the accumulator at columns `q` and
  `q + 256` (`sliceLo_apply`, `sliceHi_apply`).
-/
import proofs.«140658_g7370163880393_cont_sun_c4_438_32_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.PayValue

open Cert.KernelIdeal Cert.KernelIdeal.Gen Idealize.ShloMosaic Idealize.ShloMosaic.ValueIdx

/-! ## One product on the matrix unit, read at an entry -/

theorem mm256_lhs0 (i : S512x256.Idx) (c : dot_S512x1024_S1024x256_S512x256_1_0_0_1_n_n.contr.Idx) :
    (dot_S512x1024_S1024x256_S512x256_1_0_0_1_n_n.lhsIdx i c 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem mm256_lhs1 (i : S512x256.Idx) (c : dot_S512x1024_S1024x256_S512x256_1_0_0_1_n_n.contr.Idx) :
    (dot_S512x1024_S1024x256_S512x256_1_0_0_1_n_n.lhsIdx i c 1).val = (c ⟨0, by decide⟩).val :=
  dot_S512x1024_S1024x256_S512x256_1_0_0_1_n_n.lhsIdx_val_of_single rfl i c
theorem mm256_rhs0 (i : S512x256.Idx) (c : dot_S512x1024_S1024x256_S512x256_1_0_0_1_n_n.contr.Idx) :
    (dot_S512x1024_S1024x256_S512x256_1_0_0_1_n_n.rhsIdx i c 0).val = (c ⟨0, by decide⟩).val :=
  dot_S512x1024_S1024x256_S512x256_1_0_0_1_n_n.rhsIdx_val_of_single rfl i c
theorem mm256_rhs1 (i : S512x256.Idx) (c : dot_S512x1024_S1024x256_S512x256_1_0_0_1_n_n.contr.Idx) :
    (dot_S512x1024_S1024x256_S512x256_1_0_0_1_n_n.rhsIdx i c 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- A product on the matrix unit into a zero accumulator, read at entry `(p, q)`: the sum over the contracted
    coordinate `k` of the left operand's entry `(p, k)` times the right operand's entry `(k, q)`. -/
theorem mm256_apply (a : FVec Ideal S512x1024 .bf16) (w : FVec Ideal S1024x256 .bf16) (p : Fin 512) (q : Fin 256) :
    matmul dot_S512x1024_S1024x256_S512x256_1_0_0_1_n_n none a w (constant S512x256 .f32 0x00000000#32) (ix2 p q)
      = ∑ k : Fin 1024, a (ix2 p k) * w (ix2 k q) := by
  refine (Ideal.matmul_constant_zero_apply dot_S512x1024_S1024x256_S512x256_1_0_0_1_n_n none a w (ix2 p q)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p q) ((contrEquiv1 dot_S512x1024_S1024x256_S512x256_1_0_0_1_n_n 1024 rfl rfl).symm k) = ix2 p k :=
    funext fun ax => Fin.ext (by
      match ax with
      | ⟨0, _⟩ => exact mm256_lhs0 _ _
      | ⟨1, _⟩ => exact (mm256_lhs1 _ _).trans hk)
  have er : dot_S512x1024_S1024x256_S512x256_1_0_0_1_n_n.rhsIdx (ix2 p q) ((contrEquiv1 dot_S512x1024_S1024x256_S512x256_1_0_0_1_n_n 1024 rfl rfl).symm k) = ix2 k q :=
    funext fun ax => Fin.ext (by
      match ax with
      | ⟨0, _⟩ => exact (mm256_rhs0 _ _).trans hk
      | ⟨1, _⟩ => exact mm256_rhs1 _ _)
  rw [el, er]

theorem mm512_lhs0 (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem mm512_lhs1 (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c
theorem mm512_rhs0 (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c
theorem mm512_rhs1 (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- A product on the matrix unit into a zero accumulator, read at entry `(p, q)`: the sum over the contracted
    coordinate `k` of the left operand's entry `(p, k)` times the right operand's entry `(k, q)`. -/
theorem mm512_apply (a : FVec Ideal S512x1024 .bf16) (w : FVec Ideal S1024x512 .bf16) (p : Fin 512) (q : Fin 512) :
    matmul dot_S512x1024_S1024x512_S512x512_1_0_0_1_n_n none a w (constant S512x512 .f32 0x00000000#32) (ix2 p q)
      = ∑ k : Fin 1024, a (ix2 p k) * w (ix2 k q) := by
  refine (Ideal.matmul_constant_zero_apply dot_S512x1024_S1024x512_S512x512_1_0_0_1_n_n none a w (ix2 p q)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k :=
    funext fun ax => Fin.ext (by
      match ax with
      | ⟨0, _⟩ => exact mm512_lhs0 _ _
      | ⟨1, _⟩ => exact (mm512_lhs1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q :=
    funext fun ax => Fin.ext (by
      match ax with
      | ⟨0, _⟩ => exact (mm512_rhs0 _ _).trans hk
      | ⟨1, _⟩ => exact mm512_rhs1 _ _)
  rw [el, er]

/-! ## The sum of the quarters' products -/

/-- Four column quarters of a row block, each multiplied with the matching 1024-row quarter of the right-hand side into a
    zero accumulator and the partial products added left to right: entry `(p, q)` is the sum of the four quarters' sums,
    in that order. -/
theorem quarters256_apply (a1 a2 a3 a4 : FVec Ideal S512x1024 .bf16) (w1 w2 w3 w4 : FVec Ideal S1024x256 .bf16) (p : Fin 512) (q : Fin 256) :
    addf (addf (addf (matmul dot_S512x1024_S1024x256_S512x256_1_0_0_1_n_n none a1 w1 (constant S512x256 .f32 0x00000000#32))
        (matmul dot_S512x1024_S1024x256_S512x256_1_0_0_1_n_n none a2 w2 (constant S512x256 .f32 0x00000000#32)))
        (matmul dot_S512x1024_S1024x256_S512x256_1_0_0_1_n_n none a3 w3 (constant S512x256 .f32 0x00000000#32)))
        (matmul dot_S512x1024_S1024x256_S512x256_1_0_0_1_n_n none a4 w4 (constant S512x256 .f32 0x00000000#32)) (ix2 p q)
      = (∑ k : Fin 1024, a1 (ix2 p k) * w1 (ix2 k q)) + (∑ k : Fin 1024, a2 (ix2 p k) * w2 (ix2 k q))
        + (∑ k : Fin 1024, a3 (ix2 p k) * w3 (ix2 k q)) + (∑ k : Fin 1024, a4 (ix2 p k) * w4 (ix2 k q)) := by
  rw [addf_apply, addf_apply, addf_apply, mm256_apply, mm256_apply, mm256_apply, mm256_apply]

/-- The same for two quarters. -/
theorem halves256_apply (a1 a2 : FVec Ideal S512x1024 .bf16) (w1 w2 : FVec Ideal S1024x256 .bf16) (p : Fin 512) (q : Fin 256) :
    addf (matmul dot_S512x1024_S1024x256_S512x256_1_0_0_1_n_n none a1 w1 (constant S512x256 .f32 0x00000000#32))
        (matmul dot_S512x1024_S1024x256_S512x256_1_0_0_1_n_n none a2 w2 (constant S512x256 .f32 0x00000000#32)) (ix2 p q)
      = (∑ k : Fin 1024, a1 (ix2 p k) * w1 (ix2 k q)) + (∑ k : Fin 1024, a2 (ix2 p k) * w2 (ix2 k q)) := by
  rw [addf_apply, mm256_apply, mm256_apply]

/-- Four column quarters of a row block, each multiplied with the matching 1024-row quarter of the right-hand side into a
    zero accumulator and the partial products added left to right: entry `(p, q)` is the sum of the four quarters' sums,
    in that order. -/
theorem quarters512_apply (a1 a2 a3 a4 : FVec Ideal S512x1024 .bf16) (w1 w2 w3 w4 : FVec Ideal S1024x512 .bf16) (p : Fin 512) (q : Fin 512) :
    addf (addf (addf (matmul dot_S512x1024_S1024x512_S512x512_1_0_0_1_n_n none a1 w1 (constant S512x512 .f32 0x00000000#32))
        (matmul dot_S512x1024_S1024x512_S512x512_1_0_0_1_n_n none a2 w2 (constant S512x512 .f32 0x00000000#32)))
        (matmul dot_S512x1024_S1024x512_S512x512_1_0_0_1_n_n none a3 w3 (constant S512x512 .f32 0x00000000#32)))
        (matmul dot_S512x1024_S1024x512_S512x512_1_0_0_1_n_n none a4 w4 (constant S512x512 .f32 0x00000000#32)) (ix2 p q)
      = (∑ k : Fin 1024, a1 (ix2 p k) * w1 (ix2 k q)) + (∑ k : Fin 1024, a2 (ix2 p k) * w2 (ix2 k q))
        + (∑ k : Fin 1024, a3 (ix2 p k) * w3 (ix2 k q)) + (∑ k : Fin 1024, a4 (ix2 p k) * w4 (ix2 k q)) := by
  rw [addf_apply, addf_apply, addf_apply, mm512_apply, mm512_apply, mm512_apply, mm512_apply]

/-- The same for two quarters. -/
theorem halves512_apply (a1 a2 : FVec Ideal S512x1024 .bf16) (w1 w2 : FVec Ideal S1024x512 .bf16) (p : Fin 512) (q : Fin 512) :
    addf (matmul dot_S512x1024_S1024x512_S512x512_1_0_0_1_n_n none a1 w1 (constant S512x512 .f32 0x00000000#32))
        (matmul dot_S512x1024_S1024x512_S512x512_1_0_0_1_n_n none a2 w2 (constant S512x512 .f32 0x00000000#32)) (ix2 p q)
      = (∑ k : Fin 1024, a1 (ix2 p k) * w1 (ix2 k q)) + (∑ k : Fin 1024, a2 (ix2 p k) * w2 (ix2 k q)) := by
  rw [addf_apply, mm512_apply, mm512_apply]

/-! ## Operations that are the identity at the ideal values -/

/-- A narrowing format change of a whole vector is the vector itself on the extended reals. -/
theorem truncf_id {s : Shape} {φ ψ : FTy} (a : FVec Ideal s φ) (h : ψ.bits < φ.bits) : (truncf ψ a h : FVec Ideal s ψ) = a := rfl

/-- A widening format change of a whole vector is the vector itself on the extended reals. -/
theorem extf_id {s : Shape} {φ ψ : FTy} (a : FVec Ideal s φ) (h : φ.bits < ψ.bits) : (extf ψ a h : FVec Ideal s ψ) = a := rfl

/-! ## The scaling constant -/

/-- The named constant `inv_3` is the rational one third at the ideal values, by the certificate's table. -/
theorem inv3 : Named.named (F := Ideal) κ "inv_3" (φ := .f32) 0x3EAAAAAB#32 = ((1 / 3 : ℝ) : EReal) :=
  IdealRules.named_const.ideal_named_scalar _ _ _ _ rfl

/-! ## The two column halves of a 512-column accumulator -/

/-- Column `q` of the left half of 512 columns. -/
abbrev colLo (q : Fin 256) : Fin 512 := ⟨q.val, by omega⟩
/-- Column `q` of the right half of 512 columns: column `q + 256`. -/
abbrev colHi (q : Fin 256) : Fin 512 := ⟨q.val + 256, by omega⟩

@[simp] theorem colLo_val (q : Fin 256) : (colLo q).val = q.val := rfl
@[simp] theorem colHi_val (q : Fin 256) : (colHi q).val = q.val + 256 := rfl

/-- The slice of the first 256 columns, read at `(p, q)`, is the operand at `(p, q)`. -/
theorem sliceLo_apply {α : Type} (v : S512x512.Idx → α) (p : Fin 512) (q : Fin 256) :
    extractStridedSlice S512x256 ![0, 0] v slices_S512x512_o0_0_S512x256 (ix2 p q) = v (ix2 p (colLo q)) :=
  extractStridedSlice_apply _ _ _ _ _ (fun ax => by
    match ax with
    | ⟨0, _⟩ => exact (Nat.zero_add _).symm
    | ⟨1, _⟩ => exact (Nat.zero_add _).symm)

/-- The slice of the last 256 columns, read at `(p, q)`, is the operand at `(p, q + 256)`. -/
theorem sliceHi_apply {α : Type} (v : S512x512.Idx → α) (p : Fin 512) (q : Fin 256) :
    extractStridedSlice S512x256 ![0, 256] v slices_S512x512_o0_256_S512x256 (ix2 p q) = v (ix2 p (colHi q)) :=
  extractStridedSlice_apply _ _ _ _ _ (fun ax => by
    match ax with
    | ⟨0, _⟩ => exact (Nat.zero_add _).symm
    | ⟨1, _⟩ => exact Nat.add_comm _ _)

end Cert.KernelIdeal.PayValue

end
-- ==== Proof.PayValue0.lean ====
/-
  Stage 1, read at one entry, at the ideal values.

  The body runs twice, once per domain, on a block of 512 rows of a 4096 × 4096 adjacency array that arrives as four
  512 × 1024 column quarters, and on the resident 4096 × 256 item embedding read as four 1024-row quarters. Each
  quarter of the block is cast to bf16 (nothing on the extended reals), multiplied with the matching quarter of the
  embedding into a zero accumulator, the four partial products are added left to right, and the sum is cast to bf16 and
  stored. So the stored entry `(p, q)` is

      Σ_k a₁[p,k]·w₁[k,q] + Σ_k a₂[p,k]·w₂[k,q] + Σ_k a₃[p,k]·w₃[k,q] + Σ_k a₄[p,k]·w₄[k,q],

  `k` over the 1024 coordinates of a quarter: the block's row `p` times the embedding's column `q`, cut in four.

  The first domain's store takes its four adjacency quarters as loaded (`k0_pay2_apply`). The second domain's store
  (`k0_pay1`) takes its first two quarters already cast (`k0_pay3`, `k0_pay4`: the cast is the identity,
  `k0_pay3_eq`, `k0_pay4_eq`) and the last two as loaded; `k0_pay1_apply` reads it over any two cast quarters and
  `k0_pay1_loaded` over the four loaded ones.
-/
import proofs.«140658_g7370163880393_cont_sun_c4_438_32_alg».proof.Proof.PayValueLib

noncomputable section

open scoped BigOperators

namespace Cert.KernelIdeal.PayValue

open Cert.KernelIdeal Cert.KernelIdeal.Gen Idealize.ShloMosaic Idealize.ShloMosaic.ValueIdx

/-- The first domain's stored block at `(p, q)`: the four quarters' sums of products, added left to right. -/
theorem k0_pay2_apply (v0 v2 v4 v6 : Vec Ideal S512x1024 .f32) (v8 v11 v15 v19 : Vec Ideal S1024x256 .f32)
    (p : Fin 512) (q : Fin 256) :
    k0_pay2 (F := Ideal) v0 v2 v4 v6 v8 v11 v15 v19 (ix2 p q)
      = (∑ k : Fin 1024, v0 (ix2 p k) * v8 (ix2 k q)) + (∑ k : Fin 1024, v2 (ix2 p k) * v11 (ix2 k q))
        + (∑ k : Fin 1024, v4 (ix2 p k) * v15 (ix2 k q)) + (∑ k : Fin 1024, v6 (ix2 p k) * v19 (ix2 k q)) := by
  unfold k0_pay2
  exact quarters256_apply v0 v2 v4 v6 v8 v11 v15 v19 p q

/-- The cast of the second domain's first adjacency quarter is that quarter. -/
theorem k0_pay3_eq (v25 : Vec Ideal S512x1024 .f32) : k0_pay3 (F := Ideal) v25 = v25 := rfl

/-- The cast of the second domain's second adjacency quarter is that quarter. -/
theorem k0_pay4_eq (v27 : Vec Ideal S512x1024 .f32) : k0_pay4 (F := Ideal) v27 = v27 := rfl

/-- The second domain's stored block at `(p, q)`, over two already cast quarters `v26`, `v28` and two loaded ones. -/
theorem k0_pay1_apply (v26 v28 : FVec Ideal S512x1024 .bf16) (v29 v31 : Vec Ideal S512x1024 .f32)
    (v33 v36 v40 v44 : Vec Ideal S1024x256 .f32) (p : Fin 512) (q : Fin 256) :
    k0_pay1 (F := Ideal) v26 v28 v29 v31 v33 v36 v40 v44 (ix2 p q)
      = (∑ k : Fin 1024, v26 (ix2 p k) * v33 (ix2 k q)) + (∑ k : Fin 1024, v28 (ix2 p k) * v36 (ix2 k q))
        + (∑ k : Fin 1024, v29 (ix2 p k) * v40 (ix2 k q)) + (∑ k : Fin 1024, v31 (ix2 p k) * v44 (ix2 k q)) := by
  unfold k0_pay1
  exact quarters256_apply v26 v28 v29 v31 v33 v36 v40 v44 p q

/-- The second domain's stored block at `(p, q)` over the four loaded adjacency quarters. -/
theorem k0_pay1_loaded (v25 v27 v29 v31 : Vec Ideal S512x1024 .f32) (v33 v36 v40 v44 : Vec Ideal S1024x256 .f32)
    (p : Fin 512) (q : Fin 256) :
    k0_pay1 (F := Ideal) (k0_pay3 v25) (k0_pay4 v27) v29 v31 v33 v36 v40 v44 (ix2 p q)
      = (∑ k : Fin 1024, v25 (ix2 p k) * v33 (ix2 k q)) + (∑ k : Fin 1024, v27 (ix2 p k) * v36 (ix2 k q))
        + (∑ k : Fin 1024, v29 (ix2 p k) * v40 (ix2 k q)) + (∑ k : Fin 1024, v31 (ix2 p k) * v44 (ix2 k q)) :=
  k0_pay1_apply v25 v27 v29 v31 v33 v36 v40 v44 p q

end Cert.KernelIdeal.PayValue

end
-- ==== Proof.LibQuarterSum.lean ====
/-
  A sum over 4096 consecutive indices, cut into its four quarters of 1024.

  Addition in a commutative monoid is associative, so a sum over the indices `0, …, 4n − 1` taken in order is the sum
  over the first `n` indices, plus the sum over the next `n`, plus the third `n`, plus the last `n`: index `j` of quarter
  `a` is index `a·n + j` of the whole. A matrix product whose contracted axis of 4096 is computed as four partial
  products over 1024 coordinates each, added in order, is the whole product by this identity.
-/
import Mathlib.Algebra.BigOperators.Fin

open scoped BigOperators

namespace Cert.LibQuarterSum

/-- A sum over `n + n + n + n` consecutive indices is the sum of the four sums over its quarters, in order. -/
theorem sum_four_quarters {M : Type*} [AddCommMonoid M] (n : ℕ) (f : Fin (n + n + n + n) → M) :
    ∑ j, f j = (∑ k : Fin n, f ⟨k.val, by omega⟩) + (∑ k : Fin n, f ⟨n + k.val, by omega⟩)
      + (∑ k : Fin n, f ⟨n + n + k.val, by omega⟩) + (∑ k : Fin n, f ⟨n + n + n + k.val, by omega⟩) := by
  rw [Fin.sum_univ_add, Fin.sum_univ_add, Fin.sum_univ_add]
  rfl

/-- A sum over 4096 consecutive indices is the sum of the four sums over its quarters of 1024, in order: quarter `a`
    holds the indices `1024·a + k`. -/
theorem sum_4096 {M : Type*} [AddCommMonoid M] (f : Fin 4096 → M) :
    ∑ j : Fin 4096, f j = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) :=
  sum_four_quarters 1024 f

end Cert.LibQuarterSum
-- ==== Proof.KI.Stage1Value.lean ====
/-
  Stage 1 of the kernel, from blocks to arrays: each of its two outputs ends holding a matrix product.

  The kernel's first stage runs over a grid of eight points. At point `t` it reads rows `512·t, …, 512·t + 511` of a
  4096 × 4096 adjacency array as four 512 × 1024 column quarters (block columns 0, 1, 2, 3), reads the resident
  4096 × 256 right-hand side whole and takes its rows in four quarters of 1024, multiplies quarter with quarter over
  1024 contracted coordinates, adds the four partial products in order, and writes the 512 × 256 sum back as block
  row `t` of the output. It does so twice, once for each of two pairs (adjacency array, right-hand side). Everything
  here is read at the ideal values (the extended reals), where the changes of number format the body makes between
  loading and storing are the identity.

    * At the entry `(p, q)` of the stored block the four sums are `Σ_k A[512·t + p, 1024·a + k] · B[1024·a + k, q]`
      for `a = 0, 1, 2, 3`; laid end to end the four quarters are the contracted axis of 4096, so their sum, in that
      order, is `Σ_l A[512·t + p, l] · B[l, q]`: the product `A·B` at row `512·t + p` (`quarters_eq`).
    * So what point `t` writes back is block row `t` of `A·B` (`flushed10_eq`, `flushed11_eq`), at a symbolic point;
      the index maps' values at each of the eight points are checked once (`idx_facts`).
    * Row `i` of the output is in the block of point `i / 512`, so the eight blocks cover the array (`cover10`,
      `cover11`), and the array after the run is the product (`final_s`, `final_t`).
-/
import proofs.«140658_g7370163880393_cont_sun_c4_438_32_alg».proof.Proof.Spec
import proofs.«140658_g7370163880393_cont_sun_c4_438_32_alg».proof.Proof.KI.Stage1
import proofs.«140658_g7370163880393_cont_sun_c4_438_32_alg».proof.Proof.PayValue0
import proofs.«140658_g7370163880393_cont_sun_c4_438_32_alg».proof.Proof.LibQuarterSum
import Idealize.ShloMosaic.Lib.Pipeline.Value
import Idealize.ShloMosaic.Lib.ValueIdx

noncomputable section

open scoped BigOperators

namespace Cert.KernelIdeal.Stage1Value

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-! ## The product of a row block with the resident right-hand side, read at an entry -/

/-- The matrix product `A·B` of a 4096 × 4096 array with a 4096 × 256 array, as an array of the result's shape:
    entry `(p, q)` is `Σ_j A[p,j] · B[j,q]`. -/
abbrev mm (A : S4096x4096.Idx → EReal) (B : S4096x256.Idx → EReal) : S4096x256.Idx → EReal :=
  Cert.Spec.ofEntries (Cert.Spec.mmE (Cert.Spec.entries A) (Cert.Spec.entries B))

theorem mm_ix2 (A : S4096x4096.Idx → EReal) (B : S4096x256.Idx → EReal) (p : Fin 4096) (q : Fin 256) :
    mm A B (ix2 p q) = ∑ j : Fin 4096, A (ix2 p j) * B (ix2 j q) := rfl

theorem hz : (![0, 0] : Fin 2 → Nat) = fun _ => 0 := funext fun a => by fin_cases a <;> rfl

/-- Rows `o, …, o + 1023` of the resident right-hand side, loaded as a 1024-row quarter: entry `(k, q)` of the quarter
    is entry `(o + k, q)` of the array. -/
theorem quarter_rows (b : Vec Ideal S4096x256 .f32) (o : Nat) (inb : ∀ a, (![o, 0] : Fin 2 → Nat) a + S1024x256.size a ≤ S4096x256.size a)
    (k : Fin 1024) (q : Fin 256) (ho : o + k.val < 4096) :
    View.ld b (Rect.unit (s := S4096x256) ![o, 0] S1024x256.size inb) (ix2 k q) = b (ix2 ⟨o + k.val, ho⟩ q) :=
  congrArg b (funext fun a => Fin.ext (by
    match a with
    | ⟨0, _⟩ => show o + 1 * k.val = o + k.val; omega
    | ⟨1, _⟩ => show 0 + 1 * q.val = q.val; omega))

/-- The four quarters' sums are the whole sum. If the four column quarters `a0 … a3` are columns
    `1024·j, …, 1024·j + 1023` of rows `512·r, …, 512·r + 511` of `A`, and the resident array is `B`, then the
    four sums over 1024 contracted coordinates each, added in order, are at `(p, q)` the product `A·B` at
    `(512·r + p, q)`: the contracted axis of 4096 is the four quarters laid end to end. -/
theorem quarters_eq (A : S4096x4096.Idx → EReal) (B : S4096x256.Idx → EReal)
    (a0 a1 a2 a3 : Vec Ideal S512x1024 .f32) (b : Vec Ideal S4096x256 .f32) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q))
    (p : Fin 512) (q : Fin 256) :
    (∑ k : Fin 1024, a0 (ix2 p k) * View.ld b Stage1.rB0 (ix2 k q)) + (∑ k : Fin 1024, a1 (ix2 p k) * View.ld b Stage1.rB1 (ix2 k q))
        + (∑ k : Fin 1024, a2 (ix2 p k) * View.ld b Stage1.rB2 (ix2 k q)) + (∑ k : Fin 1024, a3 (ix2 p k) * View.ld b Stage1.rB3 (ix2 k q))
      = mm A B (ix2 ⟨r.val * 512 + p.val, by omega⟩ q) := by
  rw [mm_ix2, LibQuarterSum.sum_4096]
  refine congrArg₂ (· + ·) (congrArg₂ (· + ·) (congrArg₂ (· + ·) ?_ ?_) ?_) ?_ <;>
    refine Finset.sum_congr rfl fun k _ => ?_
  · have e : View.ld b Stage1.rB0 (ix2 k q) = b (ix2 ⟨k.val, by omega⟩ q) :=
      congrArg b (funext fun a => Fin.ext (by
        match a with
        | ⟨0, _⟩ => show 0 + 1 * k.val = k.val; omega
        | ⟨1, _⟩ => show 0 + 1 * q.val = q.val; omega))
    rw [h0 p k, e, hb]
  · rw [h1 p k, quarter_rows b 1024 _ k q (by omega), hb]
  · rw [h2 p k, quarter_rows b 2048 _ k q (by omega), hb]
  · rw [h3 p k, quarter_rows b 3072 _ k q (by omega), hb]

/-- The first output's stored block is a block of rows of the product. -/
theorem block_s (A : S4096x4096.Idx → EReal) (B : S4096x256.Idx → EReal)
    (a0 a1 a2 a3 : Vec Ideal S512x1024 .f32) (b : Vec Ideal S4096x256 .f32) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q))
    (p : Fin 512) (q : Fin 256) :
    k0_pay2 (F := Ideal) a0 a1 a2 a3 (View.ld b Stage1.rB0) (View.ld b Stage1.rB1) (View.ld b Stage1.rB2) (View.ld b Stage1.rB3) (ix2 p q)
      = mm A B (ix2 ⟨r.val * 512 + p.val, by omega⟩ q) :=
  (PayValue.k0_pay2_apply a0 a1 a2 a3 _ _ _ _ p q).trans (quarters_eq A B a0 a1 a2 a3 b r h0 h1 h2 h3 hb p q)

/-- The second output's stored block likewise (its first two quarters pass through a cast that is the identity on the
    extended reals). -/
theorem block_t (A : S4096x4096.Idx → EReal) (B : S4096x256.Idx → EReal)
    (a0 a1 a2 a3 : Vec Ideal S512x1024 .f32) (b : Vec Ideal S4096x256 .f32) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q))
    (p : Fin 512) (q : Fin 256) :
    k0_pay1 (F := Ideal) (k0_pay3 a0) (k0_pay4 a1) a2 a3 (View.ld b Stage1.rB0) (View.ld b Stage1.rB1) (View.ld b Stage1.rB2) (View.ld b Stage1.rB3) (ix2 p q)
      = mm A B (ix2 ⟨r.val * 512 + p.val, by omega⟩ q) :=
  (PayValue.k0_pay1_loaded a0 a1 a2 a3 _ _ _ _ p q).trans (quarters_eq A B a0 a1 a2 a3 b r h0 h1 h2 h3 hb p q)

/-! ## What a grid point writes back -/

/-- The windows' index maps over the grid, first pair: at point `t` the output's block and the four column quarters of
    the adjacency array all sit at block row `t`, the quarters at block columns 0, 1, 2, 3, and the resident array is
    its one whole block. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_8.index t (0 : Fin 2) = 0 ∧ win0_8.index t (1 : Fin 2) = 0 :=
  (by decide +kernel : ∀ t : Fin grid0.N, _)

/-- The same for the second pair. -/
theorem idx_facts' : ∀ t : Fin cfg0.N,
    win0_11.index t (0 : Fin 2) = t.val ∧ win0_11.index t (1 : Fin 2) = 0
    ∧ win0_4.index t (0 : Fin 2) = t.val ∧ win0_4.index t (1 : Fin 2) = 0
    ∧ win0_5.index t (0 : Fin 2) = t.val ∧ win0_5.index t (1 : Fin 2) = 1
    ∧ win0_6.index t (0 : Fin 2) = t.val ∧ win0_6.index t (1 : Fin 2) = 2
    ∧ win0_7.index t (0 : Fin 2) = t.val ∧ win0_7.index t (1 : Fin 2) = 3
    ∧ win0_9.index t (0 : Fin 2) = 0 ∧ win0_9.index t (1 : Fin 2) = 0 :=
  (by decide +kernel : ∀ t : Fin grid0.N, _)

/-- What point `t` writes back to the first output is block row `t` of the product of the first adjacency array with
    the first resident array, as the region finds them: rows `512·t, …, 512·t + 511`. -/
theorem flushed10_eq (c : Dev nD) (t : Fin cfg0.N) :
    (Stage1.dat (F := Ideal) V c).flushed 10 t
      = ((cfg0.win 10).blk t).view.read (Elt Ideal) (mm (V c main_arg0) (V c main_arg6)) := by
  show (cfg0.win 10).cut (grid0.coords t) ((Stage1.dat V c).after 10 t) = _
  rw [Stage1.after_10]
  unfold Stage1.outS
  rw [View.canon_unit_zero hz]
  simp only [View.ld_unit_zero (S := S512x1024) hz]
  obtain ⟨eoa, eob, e0a, e0b, e1a, e1b, e2a, e2b, e3a, e3b, e8a, e8b⟩ := idx_facts t
  funext j
  have ht : t.val < 8 := lt_of_lt_of_eq t.isLt N_0
  have hj0 : (j 0).val < 512 := (j 0).isLt
  have hj1 : (j 1).val < 256 := (j 1).isLt
  have hx : (cfg0.win 10).xinj (grid0.coords t) j = ix2 ⟨(j 0).val, hj0⟩ ⟨(j 1).val, hj1⟩ :=
    funext fun a => by match a with | ⟨0, _⟩ => rfl | ⟨1, _⟩ => rfl
  show k0_pay2 (F := Ideal) (Stage1.iblk V c 0 t) (Stage1.iblk V c 1 t) (Stage1.iblk V c 2 t) (Stage1.iblk V c 3 t)
      (View.ld (Stage1.iblk V c 8 t) Stage1.rB0) (View.ld (Stage1.iblk V c 8 t) Stage1.rB1)
      (View.ld (Stage1.iblk V c 8 t) Stage1.rB2) (View.ld (Stage1.iblk V c 8 t) Stage1.rB3)
      ((cfg0.win 10).xinj (grid0.coords t) j)
    = mm (V c main_arg0) (V c main_arg6) (((cfg0.win 10).blk t).view.emb j)
  rw [hx]
  refine (block_s (V c main_arg0) (V c main_arg6) _ _ _ _ _ ⟨t.val, ht⟩ ?_ ?_ ?_ ?_ ?_ _ _).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 512 + 1 * p.val = t.val * 512 + p.val; rw [e0a]; omega
    | ⟨1, _⟩ => show win0_0.index t (1 : Fin 2) * 1024 + 1 * k.val = k.val; rw [e0b]; omega
  · intro p k
    show V c main_arg0 (((cfg0.win 1).blk t).view.emb (ix2 p k)) = V c main_arg0 _
    refine congrArg (V c main_arg0) (funext fun a => Fin.ext ?_)
    match a with
    | ⟨0, _⟩ => show win0_1.index t (0 : Fin 2) * 512 + 1 * p.val = t.val * 512 + p.val; rw [e1a]; omega
    | ⟨1, _⟩ => show win0_1.index t (1 : Fin 2) * 1024 + 1 * k.val = 1024 + k.val; rw [e1b]; omega
  · intro p k
    show V c main_arg0 (((cfg0.win 2).blk t).view.emb (ix2 p k)) = V c main_arg0 _
    refine congrArg (V c main_arg0) (funext fun a => Fin.ext ?_)
    match a with
    | ⟨0, _⟩ => show win0_2.index t (0 : Fin 2) * 512 + 1 * p.val = t.val * 512 + p.val; rw [e2a]; omega
    | ⟨1, _⟩ => show win0_2.index t (1 : Fin 2) * 1024 + 1 * k.val = 2048 + k.val; rw [e2b]; omega
  · intro p k
    show V c main_arg0 (((cfg0.win 3).blk t).view.emb (ix2 p k)) = V c main_arg0 _
    refine congrArg (V c main_arg0) (funext fun a => Fin.ext ?_)
    match a with
    | ⟨0, _⟩ => show win0_3.index t (0 : Fin 2) * 512 + 1 * p.val = t.val * 512 + p.val; rw [e3a]; omega
    | ⟨1, _⟩ => show win0_3.index t (1 : Fin 2) * 1024 + 1 * k.val = 3072 + k.val; rw [e3b]; omega
  · intro l q
    show V c main_arg6 (((cfg0.win 8).blk t).view.emb (ix2 l q)) = V c main_arg6 _
    refine congrArg (V c main_arg6) (funext fun a => Fin.ext ?_)
    match a with
    | ⟨0, _⟩ => show win0_8.index t (0 : Fin 2) * 4096 + 1 * l.val = l.val; rw [e8a]; omega
    | ⟨1, _⟩ => show win0_8.index t (1 : Fin 2) * 256 + 1 * q.val = q.val; rw [e8b]; omega
  · refine congrArg (mm (V c main_arg0) (V c main_arg6)) (funext fun a => Fin.ext ?_)
    match a with
    | ⟨0, _⟩ => show t.val * 512 + (j 0).val = win0_10.index t (0 : Fin 2) * 512 + 1 * (j 0).val; rw [eoa]; omega
    | ⟨1, _⟩ => show (j 1).val = win0_10.index t (1 : Fin 2) * 256 + 1 * (j 1).val; rw [eob]; omega

/-- What point `t` writes back to the second output is block row `t` of the product of the second pair. -/
theorem flushed11_eq (c : Dev nD) (t : Fin cfg0.N) :
    (Stage1.dat (F := Ideal) V c).flushed 11 t
      = ((cfg0.win 11).blk t).view.read (Elt Ideal) (mm (V c main_arg2) (V c main_arg7)) := by
  show (cfg0.win 11).cut (grid0.coords t) ((Stage1.dat V c).after 11 t) = _
  rw [Stage1.after_11]
  unfold Stage1.outT
  rw [View.canon_unit_zero hz]
  simp only [View.ld_unit_zero (S := S512x1024) hz]
  obtain ⟨eoa, eob, e0a, e0b, e1a, e1b, e2a, e2b, e3a, e3b, e8a, e8b⟩ := idx_facts' t
  funext j
  have ht : t.val < 8 := lt_of_lt_of_eq t.isLt N_0
  have hj0 : (j 0).val < 512 := (j 0).isLt
  have hj1 : (j 1).val < 256 := (j 1).isLt
  have hx : (cfg0.win 11).xinj (grid0.coords t) j = ix2 ⟨(j 0).val, hj0⟩ ⟨(j 1).val, hj1⟩ :=
    funext fun a => by match a with | ⟨0, _⟩ => rfl | ⟨1, _⟩ => rfl
  show k0_pay1 (F := Ideal) (k0_pay3 (Stage1.iblk V c 4 t)) (k0_pay4 (Stage1.iblk V c 5 t)) (Stage1.iblk V c 6 t) (Stage1.iblk V c 7 t)
      (View.ld (Stage1.iblk V c 9 t) Stage1.rB0) (View.ld (Stage1.iblk V c 9 t) Stage1.rB1)
      (View.ld (Stage1.iblk V c 9 t) Stage1.rB2) (View.ld (Stage1.iblk V c 9 t) Stage1.rB3)
      ((cfg0.win 11).xinj (grid0.coords t) j)
    = mm (V c main_arg2) (V c main_arg7) (((cfg0.win 11).blk t).view.emb j)
  rw [hx]
  refine (block_t (V c main_arg2) (V c main_arg7) _ _ _ _ _ ⟨t.val, ht⟩ ?_ ?_ ?_ ?_ ?_ _ _).trans ?_
  · intro p k
    show V c main_arg2 (((cfg0.win 4).blk t).view.emb (ix2 p k)) = V c main_arg2 _
    refine congrArg (V c main_arg2) (funext fun a => Fin.ext ?_)
    match a with
    | ⟨0, _⟩ => show win0_4.index t (0 : Fin 2) * 512 + 1 * p.val = t.val * 512 + p.val; rw [e0a]; omega
    | ⟨1, _⟩ => show win0_4.index t (1 : Fin 2) * 1024 + 1 * k.val = k.val; rw [e0b]; omega
  · intro p k
    show V c main_arg2 (((cfg0.win 5).blk t).view.emb (ix2 p k)) = V c main_arg2 _
    refine congrArg (V c main_arg2) (funext fun a => Fin.ext ?_)
    match a with
    | ⟨0, _⟩ => show win0_5.index t (0 : Fin 2) * 512 + 1 * p.val = t.val * 512 + p.val; rw [e1a]; omega
    | ⟨1, _⟩ => show win0_5.index t (1 : Fin 2) * 1024 + 1 * k.val = 1024 + k.val; rw [e1b]; omega
  · intro p k
    show V c main_arg2 (((cfg0.win 6).blk t).view.emb (ix2 p k)) = V c main_arg2 _
    refine congrArg (V c main_arg2) (funext fun a => Fin.ext ?_)
    match a with
    | ⟨0, _⟩ => show win0_6.index t (0 : Fin 2) * 512 + 1 * p.val = t.val * 512 + p.val; rw [e2a]; omega
    | ⟨1, _⟩ => show win0_6.index t (1 : Fin 2) * 1024 + 1 * k.val = 2048 + k.val; rw [e2b]; omega
  · intro p k
    show V c main_arg2 (((cfg0.win 7).blk t).view.emb (ix2 p k)) = V c main_arg2 _
    refine congrArg (V c main_arg2) (funext fun a => Fin.ext ?_)
    match a with
    | ⟨0, _⟩ => show win0_7.index t (0 : Fin 2) * 512 + 1 * p.val = t.val * 512 + p.val; rw [e3a]; omega
    | ⟨1, _⟩ => show win0_7.index t (1 : Fin 2) * 1024 + 1 * k.val = 3072 + k.val; rw [e3b]; omega
  · intro l q
    show V c main_arg7 (((cfg0.win 9).blk t).view.emb (ix2 l q)) = V c main_arg7 _
    refine congrArg (V c main_arg7) (funext fun a => Fin.ext ?_)
    match a with
    | ⟨0, _⟩ => show win0_9.index t (0 : Fin 2) * 4096 + 1 * l.val = l.val; rw [e8a]; omega
    | ⟨1, _⟩ => show win0_9.index t (1 : Fin 2) * 256 + 1 * q.val = q.val; rw [e8b]; omega
  · refine congrArg (mm (V c main_arg2) (V c main_arg7)) (funext fun a => Fin.ext ?_)
    match a with
    | ⟨0, _⟩ => show t.val * 512 + (j 0).val = win0_11.index t (0 : Fin 2) * 512 + 1 * (j 0).val; rw [eoa]; omega
    | ⟨1, _⟩ => show (j 1).val = win0_11.index t (1 : Fin 2) * 256 + 1 * (j 1).val; rw [eob]; omega

/-! ## The blocks cover the arrays -/

/-- An index of the output array is in point `t`'s block iff each coordinate is in the block's range on its axis. -/
theorem mem_blk10 (t : Fin cfg0.N) (i : S4096x256.Idx) :
    i ∈ ((cfg0.win 10).blk t).view.set ↔ ∀ a : Fin 2, win0_10.index t a * S512x256.size a ≤ (i a).val
      ∧ (i a).val < win0_10.index t a * S512x256.size a + S512x256.size a := by
  show i ∈ ((View.whole main_v4_0).slice (win0_10.rect t)).set ↔ _
  rw [View.set_slice_whole, Rect.mem_set_unit]
  exact Iff.rfl

/-- Every index of the output array is in the block of a point that writes back: row `i` is in block row `i / 512`. -/
theorem cover10 (i : S4096x256.Idx) :
    ∃ t : Fin cfg0.N, (cfg0.win 10).flush t = true ∧ i ∈ ((cfg0.win 10).blk t).view.set := by
  have hi0 : (i 0).val < 4096 := (i 0).isLt
  have hi1 : (i 1).val < 256 := (i 1).isLt
  have hN : cfg0.N = 8 := N_0
  have hlt : (i 0).val / 512 < cfg0.N := by rw [hN]; omega
  obtain ⟨eoa, eob, -⟩ := idx_facts ⟨(i 0).val / 512, hlt⟩
  refine ⟨⟨(i 0).val / 512, hlt⟩, flush0_10 _, ?_⟩
  rw [mem_blk10]
  intro a
  match a with
  | ⟨0, _⟩ =>
    show win0_10.index ⟨(i 0).val / 512, hlt⟩ (0 : Fin 2) * 512 ≤ (i 0).val
      ∧ (i 0).val < win0_10.index ⟨(i 0).val / 512, hlt⟩ (0 : Fin 2) * 512 + 512
    rw [eoa]; show (i 0).val / 512 * 512 ≤ (i 0).val ∧ (i 0).val < (i 0).val / 512 * 512 + 512; omega
  | ⟨1, _⟩ =>
    show win0_10.index ⟨(i 0).val / 512, hlt⟩ (1 : Fin 2) * 256 ≤ (i 1).val
      ∧ (i 1).val < win0_10.index ⟨(i 0).val / 512, hlt⟩ (1 : Fin 2) * 256 + 256
    rw [eob]; omega

/-- An index of the output array is in point `t`'s block iff each coordinate is in the block's range on its axis. -/
theorem mem_blk11 (t : Fin cfg0.N) (i : S4096x256.Idx) :
    i ∈ ((cfg0.win 11).blk t).view.set ↔ ∀ a : Fin 2, win0_11.index t a * S512x256.size a ≤ (i a).val
      ∧ (i a).val < win0_11.index t a * S512x256.size a + S512x256.size a := by
  show i ∈ ((View.whole main_v4_1).slice (win0_11.rect t)).set ↔ _
  rw [View.set_slice_whole, Rect.mem_set_unit]
  exact Iff.rfl

/-- Every index of the output array is in the block of a point that writes back: row `i` is in block row `i / 512`. -/
theorem cover11 (i : S4096x256.Idx) :
    ∃ t : Fin cfg0.N, (cfg0.win 11).flush t = true ∧ i ∈ ((cfg0.win 11).blk t).view.set := by
  have hi0 : (i 0).val < 4096 := (i 0).isLt
  have hi1 : (i 1).val < 256 := (i 1).isLt
  have hN : cfg0.N = 8 := N_0
  have hlt : (i 0).val / 512 < cfg0.N := by rw [hN]; omega
  obtain ⟨eoa, eob, -⟩ := idx_facts' ⟨(i 0).val / 512, hlt⟩
  refine ⟨⟨(i 0).val / 512, hlt⟩, flush0_11 _, ?_⟩
  rw [mem_blk11]
  intro a
  match a with
  | ⟨0, _⟩ =>
    show win0_11.index ⟨(i 0).val / 512, hlt⟩ (0 : Fin 2) * 512 ≤ (i 0).val
      ∧ (i 0).val < win0_11.index ⟨(i 0).val / 512, hlt⟩ (0 : Fin 2) * 512 + 512
    rw [eoa]; show (i 0).val / 512 * 512 ≤ (i 0).val ∧ (i 0).val < (i 0).val / 512 * 512 + 512; omega
  | ⟨1, _⟩ =>
    show win0_11.index ⟨(i 0).val / 512, hlt⟩ (1 : Fin 2) * 256 ≤ (i 1).val
      ∧ (i 1).val < win0_11.index ⟨(i 0).val / 512, hlt⟩ (1 : Fin 2) * 256 + 256
    rw [eob]; omega

/-! ## The arrays after the run -/

/-- The first output array after the run is the product of the first adjacency array with the first resident array, as
    the region finds them: entry `(p, q)` is `Σ_j A[p,j] · B[j,q]`. -/
theorem final_s (c : Dev nD) :
    (Stage1.dat (F := Ideal) V c).arrAt 10 cfg0.N
      = Cert.Spec.ofEntries (Cert.Spec.mmE (Cert.Spec.entries (V c main_arg0)) (Cert.Spec.entries (V c main_arg6))) :=
  (Stage1.dat V c).arrAt_eq_of_cover 10 (mm (V c main_arg0) (V c main_arg6)) (fun t _ => flushed10_eq V c t) cover10

/-- The second output array after the run is the product of the second pair. -/
theorem final_t (c : Dev nD) :
    (Stage1.dat (F := Ideal) V c).arrAt 11 cfg0.N
      = Cert.Spec.ofEntries (Cert.Spec.mmE (Cert.Spec.entries (V c main_arg2)) (Cert.Spec.entries (V c main_arg7))) :=
  (Stage1.dat V c).arrAt_eq_of_cover 11 (mm (V c main_arg2) (V c main_arg7)) (fun t _ => flushed11_eq V c t) cover11

end Cert.KernelIdeal.Stage1Value

end
-- ==== Proof.PayValue1.lean ====
/-
  Stage 2, read at one entry, at the ideal values.

  The body runs twice, once per domain. It holds a block of 512 rows of a 4096 × 4096 adjacency array as four
  512 × 1024 column quarters `a₁ … a₄` (cast to bf16: nothing on the extended reals), three resident 4096 × 256
  right-hand sides, each read as four 1024-row quarters (a shape cast to the same shape: nothing), and a 512 × 256 block
  `x` of an f32 embedding. Writing `a·w` for the block's product with a right-hand side, entry `(p, q)` of which is

      Σ_k a₁[p,k]·w₁[k,q] + Σ_k a₂[p,k]·w₂[k,q] + Σ_k a₃[p,k]·w₃[k,q] + Σ_k a₄[p,k]·w₄[k,q]

  (`k` over a quarter's 1024 coordinates, the partial products into zero accumulators added left to right), the body
  stores `a·w` for the first right-hand side into the left 256 columns of a 512-column output, `a·w'` for the second
  into the right 256 columns, and `(x + a·w + a·w'')·(1/3)` for the third into an f32 output.

  For each stored value there is a lemma `…_apply` over the payload's own arguments (partial sums and cast quarters
  as variables) and a lemma `…_loaded` in which every argument is a loaded value.
-/
import proofs.«140658_g7370163880393_cont_sun_c4_438_32_alg».proof.Proof.PayValueLib

noncomputable section

open scoped BigOperators

namespace Cert.KernelIdeal.PayValue

open Cert.KernelIdeal Cert.KernelIdeal.Gen Idealize.ShloMosaic Idealize.ShloMosaic.ValueIdx

/-! ## The first domain -/

/-- The cast of the first domain's adjacency quarter 1 is that quarter. -/
theorem k1_pay1_eq (v0 : Vec Ideal S512x1024 .f32) : k1_pay1 (F := Ideal) v0 = v0 := rfl

/-- The cast of the first domain's adjacency quarter 2 is that quarter. -/
theorem k1_pay2_eq (v2 : Vec Ideal S512x1024 .f32) : k1_pay2 (F := Ideal) v2 = v2 := rfl

/-- The cast of the first domain's adjacency quarter 3 is that quarter. -/
theorem k1_pay3_eq (v4 : Vec Ideal S512x1024 .f32) : k1_pay3 (F := Ideal) v4 = v4 := rfl

/-- The cast of the first domain's adjacency quarter 4 is that quarter. -/
theorem k1_pay4_eq (v6 : Vec Ideal S512x1024 .f32) : k1_pay4 (F := Ideal) v6 = v6 := rfl

/-- The product with the first right-hand side, at `(p, q)`: the four quarters' sums of products, added left to right. -/
theorem k1_pay5_apply (v0 v2 v4 v6 : Vec Ideal S512x1024 .f32) (v8 v11 v15 v19 : Vec Ideal S1024x256 .bf16)
    (p : Fin 512) (q : Fin 256) :
    k1_pay5 (F := Ideal) v0 v2 v4 v6 v8 v11 v15 v19 (ix2 p q)
      = (∑ k : Fin 1024, v0 (ix2 p k) * v8 (ix2 k q)) + (∑ k : Fin 1024, v2 (ix2 p k) * v11 (ix2 k q))
        + (∑ k : Fin 1024, v4 (ix2 p k) * v15 (ix2 k q)) + (∑ k : Fin 1024, v6 (ix2 p k) * v19 (ix2 k q)) := by
  unfold k1_pay5 k1_pay1 k1_pay2 k1_pay3 k1_pay4
  simp only [shapeCast_self]
  exact quarters256_apply v0 v2 v4 v6 v8 v11 v15 v19 p q

/-- The first two quarters of the product with the second right-hand side, at `(p, q)`. -/
theorem k1_pay6_apply (v0 v2 : Vec Ideal S512x1024 .f32) (v23 v26 : Vec Ideal S1024x256 .bf16)
    (p : Fin 512) (q : Fin 256) :
    k1_pay6 (F := Ideal) v0 v2 v23 v26 (ix2 p q)
      = (∑ k : Fin 1024, v0 (ix2 p k) * v23 (ix2 k q)) + (∑ k : Fin 1024, v2 (ix2 p k) * v26 (ix2 k q)) := by
  unfold k1_pay6 k1_pay1 k1_pay2
  simp only [shapeCast_self]
  exact halves256_apply v0 v2 v23 v26 p q

/-- The cast of the first product to bf16, stored as the left column half, is that product. -/
theorem k1_pay7_eq (v22 : FVec Ideal S512x256 .f32) : k1_pay7 (F := Ideal) v22 = v22 := rfl

/-- The left column half's stored block at `(p, q)` over the loaded values: the product with the first right-hand side. -/
theorem k1_pay7_loaded (v0 v2 v4 v6 : Vec Ideal S512x1024 .f32) (v8 v11 v15 v19 : Vec Ideal S1024x256 .bf16)
    (p : Fin 512) (q : Fin 256) :
    k1_pay7 (F := Ideal) (k1_pay5 v0 v2 v4 v6 v8 v11 v15 v19) (ix2 p q)
      = (∑ k : Fin 1024, v0 (ix2 p k) * v8 (ix2 k q)) + (∑ k : Fin 1024, v2 (ix2 p k) * v11 (ix2 k q))
        + (∑ k : Fin 1024, v4 (ix2 p k) * v15 (ix2 k q)) + (∑ k : Fin 1024, v6 (ix2 p k) * v19 (ix2 k q)) :=
  k1_pay5_apply v0 v2 v4 v6 v8 v11 v15 v19 p q

/-- The right column half's stored block at `(p, q)`, over the partial sum `v29` of the first two quarters and two
    already cast adjacency quarters: the partial sum plus the last two quarters' sums of products. -/
theorem k1_pay8_apply (v5 v7 : FVec Ideal S512x1024 .bf16) (v29 : FVec Ideal S512x256 .f32)
    (v30 : Vec Ideal S1024x256 .bf16) (v34 : Vec Ideal S1024x256 .bf16) (p : Fin 512) (q : Fin 256) :
    k1_pay8 (F := Ideal) v5 v7 v29 v30 v34 (ix2 p q)
      = v29 (ix2 p q) + (∑ k : Fin 1024, v5 (ix2 p k) * v30 (ix2 k q))
        + (∑ k : Fin 1024, v7 (ix2 p k) * v34 (ix2 k q)) := by
  unfold k1_pay8
  simp only [shapeCast_self]
  show v29 (ix2 p q) + matmul dot_S512x1024_S1024x256_S512x256_1_0_0_1_n_n none v5 v30 (constant S512x256 .f32 0x00000000#32) (ix2 p q) + matmul dot_S512x1024_S1024x256_S512x256_1_0_0_1_n_n none v7 v34 (constant S512x256 .f32 0x00000000#32) (ix2 p q) = _
  rw [mm256_apply, mm256_apply]

/-- The right column half's stored block at `(p, q)` over the loaded values: the product with the second right-hand
    side, its four quarters' sums added left to right. -/
theorem k1_pay8_loaded (v0 v2 v4 v6 : Vec Ideal S512x1024 .f32) (v23 v26 v30 v34 : Vec Ideal S1024x256 .bf16)
    (p : Fin 512) (q : Fin 256) :
    k1_pay8 (F := Ideal) (k1_pay3 v4) (k1_pay4 v6) (k1_pay6 v0 v2 v23 v26) v30 v34 (ix2 p q)
      = (∑ k : Fin 1024, v0 (ix2 p k) * v23 (ix2 k q)) + (∑ k : Fin 1024, v2 (ix2 p k) * v26 (ix2 k q))
        + (∑ k : Fin 1024, v4 (ix2 p k) * v30 (ix2 k q)) + (∑ k : Fin 1024, v6 (ix2 p k) * v34 (ix2 k q)) := by
  refine (k1_pay8_apply _ _ _ _ _ p q).trans ?_
  rw [k1_pay6_apply]
  rfl

/-- The f32 result block at `(p, q)`, over four already cast adjacency quarters and the first product `v22`:
    the loaded embedding entry plus the first product plus the product with the third right-hand side, times one third. -/
theorem k1_pay9_apply (v1 v3 v5 v7 : FVec Ideal S512x1024 .bf16) (v22 : FVec Ideal S512x256 .f32)
    (v38 v41 v45 v49 : Vec Ideal S1024x256 .bf16) (v57 : Vec Ideal S512x256 .f32) (p : Fin 512) (q : Fin 256) :
    k1_pay9 (F := Ideal) v1 v3 v5 v7 v22 v38 v41 v45 v49 v57 (ix2 p q)
      = (v57 (ix2 p q) + v22 (ix2 p q)
          + ((∑ k : Fin 1024, v1 (ix2 p k) * v38 (ix2 k q)) + (∑ k : Fin 1024, v3 (ix2 p k) * v41 (ix2 k q))
        + (∑ k : Fin 1024, v5 (ix2 p k) * v45 (ix2 k q)) + (∑ k : Fin 1024, v7 (ix2 p k) * v49 (ix2 k q)))) * ((1 / 3 : ℝ) : EReal) := by
  unfold k1_pay9
  simp only [shapeCast_self]
  show (v57 (ix2 p q) + v22 (ix2 p q)
      + addf (addf (addf (matmul dot_S512x1024_S1024x256_S512x256_1_0_0_1_n_n none v1 v38 (constant S512x256 .f32 0x00000000#32)) (matmul dot_S512x1024_S1024x256_S512x256_1_0_0_1_n_n none v3 v41 (constant S512x256 .f32 0x00000000#32))) (matmul dot_S512x1024_S1024x256_S512x256_1_0_0_1_n_n none v5 v45 (constant S512x256 .f32 0x00000000#32))) (matmul dot_S512x1024_S1024x256_S512x256_1_0_0_1_n_n none v7 v49 (constant S512x256 .f32 0x00000000#32)) (ix2 p q))
    * Named.named (F := Ideal) κ "inv_3" (φ := .f32) 0x3EAAAAAB#32 = _
  rw [quarters256_apply, inv3]

/-- The f32 result block at `(p, q)` over the loaded values: the embedding entry, plus the product with the first
    right-hand side, plus the product with the third, times one third. -/
theorem k1_pay9_loaded (v0 v2 v4 v6 : Vec Ideal S512x1024 .f32) (v8 v11 v15 v19 : Vec Ideal S1024x256 .bf16)
    (v38 v41 v45 v49 : Vec Ideal S1024x256 .bf16) (v57 : Vec Ideal S512x256 .f32) (p : Fin 512) (q : Fin 256) :
    k1_pay9 (F := Ideal) (k1_pay1 v0) (k1_pay2 v2) (k1_pay3 v4) (k1_pay4 v6) (k1_pay5 v0 v2 v4 v6 v8 v11 v15 v19) v38 v41 v45 v49 v57 (ix2 p q)
      = (v57 (ix2 p q)
          + ((∑ k : Fin 1024, v0 (ix2 p k) * v8 (ix2 k q)) + (∑ k : Fin 1024, v2 (ix2 p k) * v11 (ix2 k q))
        + (∑ k : Fin 1024, v4 (ix2 p k) * v15 (ix2 k q)) + (∑ k : Fin 1024, v6 (ix2 p k) * v19 (ix2 k q)))
          + ((∑ k : Fin 1024, v0 (ix2 p k) * v38 (ix2 k q)) + (∑ k : Fin 1024, v2 (ix2 p k) * v41 (ix2 k q))
        + (∑ k : Fin 1024, v4 (ix2 p k) * v45 (ix2 k q)) + (∑ k : Fin 1024, v6 (ix2 p k) * v49 (ix2 k q)))) * ((1 / 3 : ℝ) : EReal) := by
  refine (k1_pay9_apply _ _ _ _ _ _ _ _ _ _ p q).trans ?_
  rw [k1_pay5_apply]
  rfl

/-! ## The second domain -/

/-- The cast of the second domain's adjacency quarter 1 is that quarter. -/
theorem k1_pay10_eq (v63 : Vec Ideal S512x1024 .f32) : k1_pay10 (F := Ideal) v63 = v63 := rfl

/-- The cast of the second domain's adjacency quarter 2 is that quarter. -/
theorem k1_pay11_eq (v65 : Vec Ideal S512x1024 .f32) : k1_pay11 (F := Ideal) v65 = v65 := rfl

/-- The cast of the second domain's adjacency quarter 3 is that quarter. -/
theorem k1_pay12_eq (v67 : Vec Ideal S512x1024 .f32) : k1_pay12 (F := Ideal) v67 = v67 := rfl

/-- The cast of the second domain's adjacency quarter 4 is that quarter. -/
theorem k1_pay13_eq (v69 : Vec Ideal S512x1024 .f32) : k1_pay13 (F := Ideal) v69 = v69 := rfl

/-- The product with the first right-hand side, at `(p, q)`: the four quarters' sums of products, added left to right. -/
theorem k1_pay14_apply (v63 v65 v67 v69 : Vec Ideal S512x1024 .f32) (v71 v74 v78 v82 : Vec Ideal S1024x256 .bf16)
    (p : Fin 512) (q : Fin 256) :
    k1_pay14 (F := Ideal) v63 v65 v67 v69 v71 v74 v78 v82 (ix2 p q)
      = (∑ k : Fin 1024, v63 (ix2 p k) * v71 (ix2 k q)) + (∑ k : Fin 1024, v65 (ix2 p k) * v74 (ix2 k q))
        + (∑ k : Fin 1024, v67 (ix2 p k) * v78 (ix2 k q)) + (∑ k : Fin 1024, v69 (ix2 p k) * v82 (ix2 k q)) := by
  unfold k1_pay14 k1_pay10 k1_pay11 k1_pay12 k1_pay13
  simp only [shapeCast_self]
  exact quarters256_apply v63 v65 v67 v69 v71 v74 v78 v82 p q

/-- The first two quarters of the product with the second right-hand side, at `(p, q)`. -/
theorem k1_pay15_apply (v63 v65 : Vec Ideal S512x1024 .f32) (v86 v89 : Vec Ideal S1024x256 .bf16)
    (p : Fin 512) (q : Fin 256) :
    k1_pay15 (F := Ideal) v63 v65 v86 v89 (ix2 p q)
      = (∑ k : Fin 1024, v63 (ix2 p k) * v86 (ix2 k q)) + (∑ k : Fin 1024, v65 (ix2 p k) * v89 (ix2 k q)) := by
  unfold k1_pay15 k1_pay10 k1_pay11
  simp only [shapeCast_self]
  exact halves256_apply v63 v65 v86 v89 p q

/-- The shape cast of the second right-hand side's third quarter to its own shape is that quarter. -/
theorem k1_pay16_eq (v93 : Vec Ideal S1024x256 .bf16) : k1_pay16 (F := Ideal) v93 = v93 := by
  unfold k1_pay16
  exact shapeCast_self _ _

/-- The cast of the first product to bf16, stored as the left column half, is that product. -/
theorem k1_pay17_eq (v85 : FVec Ideal S512x256 .f32) : k1_pay17 (F := Ideal) v85 = v85 := rfl

/-- The left column half's stored block at `(p, q)` over the loaded values: the product with the first right-hand side. -/
theorem k1_pay17_loaded (v63 v65 v67 v69 : Vec Ideal S512x1024 .f32) (v71 v74 v78 v82 : Vec Ideal S1024x256 .bf16)
    (p : Fin 512) (q : Fin 256) :
    k1_pay17 (F := Ideal) (k1_pay14 v63 v65 v67 v69 v71 v74 v78 v82) (ix2 p q)
      = (∑ k : Fin 1024, v63 (ix2 p k) * v71 (ix2 k q)) + (∑ k : Fin 1024, v65 (ix2 p k) * v74 (ix2 k q))
        + (∑ k : Fin 1024, v67 (ix2 p k) * v78 (ix2 k q)) + (∑ k : Fin 1024, v69 (ix2 p k) * v82 (ix2 k q)) :=
  k1_pay14_apply v63 v65 v67 v69 v71 v74 v78 v82 p q

/-- The right column half's stored block at `(p, q)`, over the partial sum `v92` of the first two quarters and two
    already cast adjacency quarters: the partial sum plus the last two quarters' sums of products. -/
theorem k1_pay18_apply (v68 v70 : FVec Ideal S512x1024 .bf16) (v92 : FVec Ideal S512x256 .f32)
    (v94 : FVec Ideal S1024x256 .bf16) (v97 : Vec Ideal S1024x256 .bf16) (p : Fin 512) (q : Fin 256) :
    k1_pay18 (F := Ideal) v68 v70 v92 v94 v97 (ix2 p q)
      = v92 (ix2 p q) + (∑ k : Fin 1024, v68 (ix2 p k) * v94 (ix2 k q))
        + (∑ k : Fin 1024, v70 (ix2 p k) * v97 (ix2 k q)) := by
  unfold k1_pay18
  simp only [shapeCast_self]
  show v92 (ix2 p q) + matmul dot_S512x1024_S1024x256_S512x256_1_0_0_1_n_n none v68 v94 (constant S512x256 .f32 0x00000000#32) (ix2 p q) + matmul dot_S512x1024_S1024x256_S512x256_1_0_0_1_n_n none v70 v97 (constant S512x256 .f32 0x00000000#32) (ix2 p q) = _
  rw [mm256_apply, mm256_apply]

/-- The right column half's stored block at `(p, q)` over the loaded values: the product with the second right-hand
    side, its four quarters' sums added left to right. -/
theorem k1_pay18_loaded (v63 v65 v67 v69 : Vec Ideal S512x1024 .f32) (v86 v89 v93 v97 : Vec Ideal S1024x256 .bf16)
    (p : Fin 512) (q : Fin 256) :
    k1_pay18 (F := Ideal) (k1_pay12 v67) (k1_pay13 v69) (k1_pay15 v63 v65 v86 v89) (k1_pay16 v93) v97 (ix2 p q)
      = (∑ k : Fin 1024, v63 (ix2 p k) * v86 (ix2 k q)) + (∑ k : Fin 1024, v65 (ix2 p k) * v89 (ix2 k q))
        + (∑ k : Fin 1024, v67 (ix2 p k) * v93 (ix2 k q)) + (∑ k : Fin 1024, v69 (ix2 p k) * v97 (ix2 k q)) := by
  refine (k1_pay18_apply _ _ _ _ _ p q).trans ?_
  rw [k1_pay15_apply, k1_pay16_eq]
  rfl

/-- The f32 result block at `(p, q)`, over four already cast adjacency quarters and the first product `v85`:
    the loaded embedding entry plus the first product plus the product with the third right-hand side, times one third. -/
theorem k1_pay19_apply (v64 v66 v68 v70 : FVec Ideal S512x1024 .bf16) (v85 : FVec Ideal S512x256 .f32)
    (v101 v104 v108 v112 : Vec Ideal S1024x256 .bf16) (v120 : Vec Ideal S512x256 .f32) (p : Fin 512) (q : Fin 256) :
    k1_pay19 (F := Ideal) v64 v66 v68 v70 v85 v101 v104 v108 v112 v120 (ix2 p q)
      = (v120 (ix2 p q) + v85 (ix2 p q)
          + ((∑ k : Fin 1024, v64 (ix2 p k) * v101 (ix2 k q)) + (∑ k : Fin 1024, v66 (ix2 p k) * v104 (ix2 k q))
        + (∑ k : Fin 1024, v68 (ix2 p k) * v108 (ix2 k q)) + (∑ k : Fin 1024, v70 (ix2 p k) * v112 (ix2 k q)))) * ((1 / 3 : ℝ) : EReal) := by
  unfold k1_pay19
  simp only [shapeCast_self]
  show (v120 (ix2 p q) + v85 (ix2 p q)
      + addf (addf (addf (matmul dot_S512x1024_S1024x256_S512x256_1_0_0_1_n_n none v64 v101 (constant S512x256 .f32 0x00000000#32)) (matmul dot_S512x1024_S1024x256_S512x256_1_0_0_1_n_n none v66 v104 (constant S512x256 .f32 0x00000000#32))) (matmul dot_S512x1024_S1024x256_S512x256_1_0_0_1_n_n none v68 v108 (constant S512x256 .f32 0x00000000#32))) (matmul dot_S512x1024_S1024x256_S512x256_1_0_0_1_n_n none v70 v112 (constant S512x256 .f32 0x00000000#32)) (ix2 p q))
    * Named.named (F := Ideal) κ "inv_3" (φ := .f32) 0x3EAAAAAB#32 = _
  rw [quarters256_apply, inv3]

/-- The f32 result block at `(p, q)` over the loaded values: the embedding entry, plus the product with the first
    right-hand side, plus the product with the third, times one third. -/
theorem k1_pay19_loaded (v63 v65 v67 v69 : Vec Ideal S512x1024 .f32) (v71 v74 v78 v82 : Vec Ideal S1024x256 .bf16)
    (v101 v104 v108 v112 : Vec Ideal S1024x256 .bf16) (v120 : Vec Ideal S512x256 .f32) (p : Fin 512) (q : Fin 256) :
    k1_pay19 (F := Ideal) (k1_pay10 v63) (k1_pay11 v65) (k1_pay12 v67) (k1_pay13 v69) (k1_pay14 v63 v65 v67 v69 v71 v74 v78 v82) v101 v104 v108 v112 v120 (ix2 p q)
      = (v120 (ix2 p q)
          + ((∑ k : Fin 1024, v63 (ix2 p k) * v71 (ix2 k q)) + (∑ k : Fin 1024, v65 (ix2 p k) * v74 (ix2 k q))
        + (∑ k : Fin 1024, v67 (ix2 p k) * v78 (ix2 k q)) + (∑ k : Fin 1024, v69 (ix2 p k) * v82 (ix2 k q)))
          + ((∑ k : Fin 1024, v63 (ix2 p k) * v101 (ix2 k q)) + (∑ k : Fin 1024, v65 (ix2 p k) * v104 (ix2 k q))
        + (∑ k : Fin 1024, v67 (ix2 p k) * v108 (ix2 k q)) + (∑ k : Fin 1024, v69 (ix2 p k) * v112 (ix2 k q)))) * ((1 / 3 : ℝ) : EReal) := by
  refine (k1_pay19_apply _ _ _ _ _ _ _ _ _ _ p q).trans ?_
  rw [k1_pay14_apply]
  rfl

end Cert.KernelIdeal.PayValue

end
-- ==== Proof.KI.Stage2Value.lean ====
/-
  Stage 2 of the kernel, first pair of arrays, from blocks to arrays.

  The second stage runs over a grid of eight points. At point `t` it reads rows `512·t, …, 512·t + 511` of a
  4096 × 4096 adjacency array `A` as four 512 × 1024 column quarters, three resident 4096 × 256 right-hand sides
  `B`, `B'`, `D` whole (each taken in four quarters of 1024 rows), and the same 512 rows of a starting array `X`.
  It writes back two blocks: a 512 × 512 block whose left 256 columns are the block's rows of `A·B` and whose right
  256 columns are those of `A·B'` (two stores, the right half last), and a 512 × 256 block of
  `(X + A·B + A·D)·(1/3)`. Everything here is read at the ideal values (the extended reals), where the changes of
  number format the body makes are the identity and the scaling constant is the rational one third.

    * Each product's entry `(p, q)` of the block is four sums over 1024 contracted coordinates, added in order; the
      four quarters laid end to end are the contracted axis of 4096, so the sum is `Σ_l A[512·t + p, l] · B[l, q]`
      (`quarters_eq`).
    * Of the two stores into the 512 × 512 block, an entry at a left-half column is not reached by the last store
      and reads the first one's payload; an entry at a right-half column reads the last one's (`halves_lo`,
      `halves_hi`), so the block is a block of rows of the two products side by side (`halves_apply`).
    * So what point `t` writes back is block row `t` of one whole-array function of the arrays the stage starts
      from (`flushed16_eq`, `flushed17_eq`), the index maps' values checked once at each of the eight points (`idx1_…`); row `i`
      is in the block of point `i / 512` (`cover16`, `cover17`); hence the arrays after the run (`final16`,
      `final16_lo`, `final16_hi`, `final17`).
-/
import proofs.«140658_g7370163880393_cont_sun_c4_438_32_alg».proof.Proof.Spec
import proofs.«140658_g7370163880393_cont_sun_c4_438_32_alg».proof.Proof.KI.Stage2
import proofs.«140658_g7370163880393_cont_sun_c4_438_32_alg».proof.Proof.PayValue1
import proofs.«140658_g7370163880393_cont_sun_c4_438_32_alg».proof.Proof.LibQuarterSum
import Idealize.ShloMosaic.Lib.Pipeline.Value
import Idealize.ShloMosaic.Lib.ValueIdx

noncomputable section

open scoped BigOperators

namespace Cert.KernelIdeal.Stage2Value

open Cert.KernelIdeal Cert.KernelIdeal.Gen Idealize.ShloMosaic Idealize.ShloMosaic.TcCoe Idealize.SL.Sem
  Idealize.ShloMosaic.ValueIdx
open Idealize.ShloMosaic.Pipeline (Dat)
open Cert.KernelIdeal.PayValue (colLo colHi)

variable (V : (c : Dev nD) → (b : Ref sig .tc) → Buf (Elt Ideal) ((c : Thread nD τ).loc b))

/-! ## The arrays the outputs end holding -/

/-- The scaling constant, one third. -/
abbrev INV : EReal := ((1 / 3 : ℝ) : EReal)

/-- The matrix product `A·B` of a 4096 × 4096 array with a 4096 × 256 array: entry `(p, q)` is `Σ_j A[p,j] · B[j,q]`. -/
abbrev mm (A : S4096x4096.Idx → EReal) (B : S4096x256.Idx → EReal) : S4096x256.Idx → EReal :=
  Cert.Spec.ofEntries (Cert.Spec.mmE (Cert.Spec.entries A) (Cert.Spec.entries B))

/-- Two 4096 × 256 arrays side by side as the column halves of a 4096 × 512 array: column `c < 256` is column `c`
    of the left one, column `c ≥ 256` is column `c − 256` of the right one. -/
def pairCols (L R : S4096x256.Idx → EReal) : S4096x512.Idx → EReal := fun i =>
  if h : (i 1).val < 256 then L (ix2 ⟨(i 0).val, (i 0).isLt⟩ ⟨(i 1).val, h⟩)
  else R (ix2 ⟨(i 0).val, (i 0).isLt⟩ ⟨(i 1).val - 256, by have h2 : (i 1).val < 512 := (i 1).isLt; omega⟩)

theorem pairCols_lo (L R : S4096x256.Idx → EReal) (P : Fin 4096) (q : Fin 256) :
    pairCols L R (ix2 P (colLo q)) = L (ix2 P q) :=
  dif_pos (show ((ix2 P (colLo q) : S4096x512.Idx) 1).val < 256 from q.isLt)

theorem pairCols_hi (L R : S4096x256.Idx → EReal) (P : Fin 4096) (q : Fin 256) :
    pairCols L R (ix2 P (colHi q)) = R (ix2 P q) :=
  (dif_neg (show ¬ ((ix2 P (colHi q) : S4096x512.Idx) 1).val < 256 from by show ¬ (q.val + 256 < 256); omega)).trans
    (congrArg R (funext fun a => Fin.ext (by
      match a with
      | ⟨0, _⟩ => rfl
      | ⟨1, _⟩ => show q.val + 256 - 256 = q.val; omega)))

/-- The mean of the three layers with the two products given by their right-hand sides: entry `(p, q)` is
    `(X[p,q] + (A·B)[p,q] + (A·D)[p,q]) · (1/3)`. -/
abbrev mean3 (X : S4096x256.Idx → EReal) (A : S4096x4096.Idx → EReal) (B D : S4096x256.Idx → EReal) : S4096x256.Idx → EReal :=
  Cert.Spec.ofEntries (fun p q => (Cert.Spec.entries X p q + Cert.Spec.mmE (Cert.Spec.entries A) (Cert.Spec.entries B) p q
    + Cert.Spec.mmE (Cert.Spec.entries A) (Cert.Spec.entries D) p q) * INV)

theorem hz : (![0, 0] : Fin 2 → Nat) = fun _ => 0 := funext fun a => by fin_cases a <;> rfl

/-! ## The product of a row block with a resident right-hand side, read at an entry -/

/-- Rows `o, …, o + 1023` of a resident right-hand side, loaded as a 1024-row quarter: entry `(k, q)` of the quarter
    is entry `(o + k, q)` of the array. -/
theorem quarter_rows (b : Vec Ideal S4096x256 .bf16) (o : Nat) (inb : ∀ a, (![o, 0] : Fin 2 → Nat) a + S1024x256.size a ≤ S4096x256.size a)
    (k : Fin 1024) (q : Fin 256) (ho : o + k.val < 4096) :
    View.ld b (Rect.unit (s := S4096x256) ![o, 0] S1024x256.size inb) (ix2 k q) = b (ix2 ⟨o + k.val, ho⟩ q) :=
  congrArg b (funext fun a => Fin.ext (by
    match a with
    | ⟨0, _⟩ => show o + 1 * k.val = o + k.val; omega
    | ⟨1, _⟩ => show 0 + 1 * q.val = q.val; omega))

/-- The four quarters' sums are the whole sum. If the four column quarters `a0 … a3` are columns
    `1024·j, …, 1024·j + 1023` of rows `512·r, …, 512·r + 511` of `A`, and the resident array is `B`, then the
    four sums over 1024 contracted coordinates each, added in order, are at `(p, q)` the product `A·B` at
    `(512·r + p, q)`: the contracted axis of 4096 is the four quarters laid end to end. -/
theorem quarters_eq (A : S4096x4096.Idx → EReal) (B : S4096x256.Idx → EReal)
    (a0 a1 a2 a3 : Vec Ideal S512x1024 .f32) (b : Vec Ideal S4096x256 .bf16) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q))
    (p : Fin 512) (q : Fin 256) :
    (∑ k : Fin 1024, a0 (ix2 p k) * View.ld b Stage2.rB0 (ix2 k q)) + (∑ k : Fin 1024, a1 (ix2 p k) * View.ld b Stage2.rB1 (ix2 k q))
        + (∑ k : Fin 1024, a2 (ix2 p k) * View.ld b Stage2.rB2 (ix2 k q)) + (∑ k : Fin 1024, a3 (ix2 p k) * View.ld b Stage2.rB3 (ix2 k q))
      = mm A B (ix2 ⟨r.val * 512 + p.val, by omega⟩ q) := by
  show _ = ∑ j : Fin 4096, A (ix2 ⟨r.val * 512 + p.val, by omega⟩ j) * B (ix2 j q)
  rw [LibQuarterSum.sum_4096]
  refine congrArg₂ (· + ·) (congrArg₂ (· + ·) (congrArg₂ (· + ·) ?_ ?_) ?_) ?_ <;>
    refine Finset.sum_congr rfl fun k _ => ?_
  · have e : View.ld b Stage2.rB0 (ix2 k q) = b (ix2 ⟨k.val, by omega⟩ q) :=
      congrArg b (funext fun a => Fin.ext (by
        match a with
        | ⟨0, _⟩ => show 0 + 1 * k.val = k.val; omega
        | ⟨1, _⟩ => show 0 + 1 * q.val = q.val; omega))
    rw [h0 p k, e, hb]
  · rw [h1 p k, quarter_rows b 1024 _ k q (by omega), hb]
  · rw [h2 p k, quarter_rows b 2048 _ k q (by omega), hb]
  · rw [h3 p k, quarter_rows b 3072 _ k q (by omega), hb]

/-! ## The stored blocks over literal shapes -/

/-- First pair, left column half: the stored block is a block of rows of the product with the first right-hand side. -/
theorem block_lo_s (A : S4096x4096.Idx → EReal) (B : S4096x256.Idx → EReal)
    (a0 a1 a2 a3 : Vec Ideal S512x1024 .f32) (b : Vec Ideal S4096x256 .bf16) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q)) (p : Fin 512) (q : Fin 256) :
    k1_pay7 (F := Ideal) (k1_pay5 a0 a1 a2 a3 (View.ld b Stage2.rB0) (View.ld b Stage2.rB1) (View.ld b Stage2.rB2) (View.ld b Stage2.rB3)) (ix2 p q) = mm A B (ix2 ⟨r.val * 512 + p.val, by omega⟩ q) :=
  (PayValue.k1_pay7_loaded a0 a1 a2 a3 _ _ _ _ p q).trans (quarters_eq A B a0 a1 a2 a3 b r h0 h1 h2 h3 hb p q)

/-- First pair, right column half: a block of rows of the product with the second right-hand side. -/
theorem block_hi_s (A : S4096x4096.Idx → EReal) (B : S4096x256.Idx → EReal)
    (a0 a1 a2 a3 : Vec Ideal S512x1024 .f32) (b : Vec Ideal S4096x256 .bf16) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q)) (p : Fin 512) (q : Fin 256) :
    k1_pay8 (F := Ideal) (k1_pay3 a2) (k1_pay4 a3) (k1_pay6 a0 a1 (View.ld b Stage2.rB0) (View.ld b Stage2.rB1)) (View.ld b Stage2.rB2) (View.ld b Stage2.rB3) (ix2 p q)
      = mm A B (ix2 ⟨r.val * 512 + p.val, by omega⟩ q) :=
  (PayValue.k1_pay8_loaded a0 a1 a2 a3 _ _ _ _ p q).trans (quarters_eq A B a0 a1 a2 a3 b r h0 h1 h2 h3 hb p q)

/-- First pair, the mean of three layers: a block of rows of `(X + A·B + A·D)·(1/3)`. -/
theorem block_I_s (X : S4096x256.Idx → EReal) (A : S4096x4096.Idx → EReal) (B D : S4096x256.Idx → EReal)
    (a0 a1 a2 a3 : Vec Ideal S512x1024 .f32) (b d : Vec Ideal S4096x256 .bf16) (x : Vec Ideal S512x256 .f32) (r : Fin 8)
    (h0 : ∀ (p : Fin 512) (k : Fin 1024), a0 (ix2 p k) = A (ix2 ⟨r.val * 512 + p.val, by omega⟩ ⟨k.val, by omega⟩))
    (h1 : ∀ (p : Fin 512) (k : Fin 1024), a1 (ix2 p k) = A (ix2 ⟨r.val * 512 + p.val, by omega⟩ ⟨1024 + k.val, by omega⟩))
    (h2 : ∀ (p : Fin 512) (k : Fin 1024), a2 (ix2 p k) = A (ix2 ⟨r.val * 512 + p.val, by omega⟩ ⟨2048 + k.val, by omega⟩))
    (h3 : ∀ (p : Fin 512) (k : Fin 1024), a3 (ix2 p k) = A (ix2 ⟨r.val * 512 + p.val, by omega⟩ ⟨3072 + k.val, by omega⟩))
    (hb : ∀ (l : Fin 4096) (q : Fin 256), b (ix2 l q) = B (ix2 l q))
    (hd : ∀ (l : Fin 4096) (q : Fin 256), d (ix2 l q) = D (ix2 l q))
    (hx : ∀ (p : Fin 512) (q : Fin 256), x (ix2 p q) = X (ix2 ⟨r.val * 512 + p.val, by omega⟩ q)) (p : Fin 512) (q : Fin 256) :
    k1_pay9 (F := Ideal) (k1_pay1 a0) (k1_pay2 a1) (k1_pay3 a2) (k1_pay4 a3) (k1_pay5 a0 a1 a2 a3 (View.ld b Stage2.rB0) (View.ld b Stage2.rB1) (View.ld b Stage2.rB2) (View.ld b Stage2.rB3))
        (View.ld d Stage2.rB0) (View.ld d Stage2.rB1) (View.ld d Stage2.rB2) (View.ld d Stage2.rB3) x (ix2 p q)
      = mean3 X A B D (ix2 ⟨r.val * 512 + p.val, by omega⟩ q) :=
  (PayValue.k1_pay9_loaded a0 a1 a2 a3 _ _ _ _ _ _ _ _ x p q).trans
    (congrArg (· * INV) (congrArg₂ (· + ·) (congrArg₂ (· + ·) (hx p q) (quarters_eq A B a0 a1 a2 a3 b r h0 h1 h2 h3 hb p q))
      (quarters_eq A D a0 a1 a2 a3 d r h0 h1 h2 h3 hd p q)))

/-- The two stores of a 512 × 512 output block, the right column half stored last: at a column `q` of the left half
    the right half's store does not reach the entry, and the left half's payload is read at `(p, q)`. -/
theorem halves_lo (hi lo : Vec Ideal S512x256 .bf16) (p : Fin 512) (q : Fin 256) :
    View.canon [(⟨Stage2.rHi, hi⟩ : View.Piece (Elt Ideal) S512x512 .bf16), ⟨Stage2.rLo, lo⟩] (ix2 p (colLo q))
      = lo (ix2 p q) := by
  have hnot : (ix2 p (colLo q) : S512x512.Idx) ∉ Stage2.rHi.set := fun hm => by
    have h1 : 256 ≤ q.val := (Rect.mem_set_unit.mp hm 1).1
    omega
  have hemb : (ix2 p (colLo q) : S512x512.Idx) = Stage2.rLo.emb (ix2 p q) :=
    funext fun a => Fin.ext (by
      match a with
      | ⟨0, _⟩ => show p.val = 0 + 1 * p.val; omega
      | ⟨1, _⟩ => show q.val = 0 + 1 * q.val; omega)
  exact (View.canon_cons_of_not_mem (⟨Stage2.rHi, hi⟩ : View.Piece (Elt Ideal) S512x512 .bf16) [⟨Stage2.rLo, lo⟩] hnot).trans
    ((congrArg (View.canon [(⟨Stage2.rLo, lo⟩ : View.Piece (Elt Ideal) S512x512 .bf16)]) hemb).trans
      (View.canon_cons_emb Stage2.rLo lo [] (ix2 p q)))

/-- At a column `q + 256` of the right half the last store's payload is read at `(p, q)`. -/
theorem halves_hi (hi lo : Vec Ideal S512x256 .bf16) (p : Fin 512) (q : Fin 256) :
    View.canon [(⟨Stage2.rHi, hi⟩ : View.Piece (Elt Ideal) S512x512 .bf16), ⟨Stage2.rLo, lo⟩] (ix2 p (colHi q))
      = hi (ix2 p q) := by
  have hemb : (ix2 p (colHi q) : S512x512.Idx) = Stage2.rHi.emb (ix2 p q) :=
    funext fun a => Fin.ext (by
      match a with
      | ⟨0, _⟩ => show p.val = 0 + 1 * p.val; omega
      | ⟨1, _⟩ => show q.val + 256 = 256 + 1 * q.val; omega)
  exact (congrArg (View.canon [(⟨Stage2.rHi, hi⟩ : View.Piece (Elt Ideal) S512x512 .bf16), ⟨Stage2.rLo, lo⟩]) hemb).trans
    (View.canon_cons_emb Stage2.rHi hi [⟨Stage2.rLo, lo⟩] (ix2 p q))

/-- So if the two payloads are block row `r` of `L` and of `R`, the stored block is block row `r` of the two
    arrays side by side. -/
theorem halves_apply (hi lo : Vec Ideal S512x256 .bf16) (L R : S4096x256.Idx → EReal) (r : Fin 8)
    (hlo : ∀ (p : Fin 512) (q : Fin 256), lo (ix2 p q) = L (ix2 ⟨r.val * 512 + p.val, by omega⟩ q))
    (hhi : ∀ (p : Fin 512) (q : Fin 256), hi (ix2 p q) = R (ix2 ⟨r.val * 512 + p.val, by omega⟩ q))
    (p : Fin 512) (c : Fin 512) :
    View.canon [(⟨Stage2.rHi, hi⟩ : View.Piece (Elt Ideal) S512x512 .bf16), ⟨Stage2.rLo, lo⟩] (ix2 p c)
      = pairCols L R (ix2 ⟨r.val * 512 + p.val, by omega⟩ c) := by
  by_cases h : c.val < 256
  · obtain ⟨q, rfl⟩ : ∃ q : Fin 256, c = colLo q := ⟨⟨c.val, h⟩, rfl⟩
    exact (halves_lo hi lo p q).trans ((hlo p q).trans (pairCols_lo L R _ q).symm)
  · have hc : c.val < 512 := c.isLt
    obtain ⟨q, rfl⟩ : ∃ q : Fin 256, c = colHi q :=
      ⟨⟨c.val - 256, by omega⟩, Fin.ext (by show c.val = c.val - 256 + 256; omega)⟩
    exact (halves_hi hi lo p q).trans ((hhi p q).trans (pairCols_hi L R _ q).symm)

/-! ## The windows' index maps over the grid, and each input block as rows of its array -/

/-- The block row of point `t`. -/
abbrev row (t : Fin cfg1.N) : Fin 8 := ⟨t.val, lt_of_lt_of_eq t.isLt N_1⟩

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 1 :=
  (by decide +kernel : ∀ t : Fin grid1.N, _)
theorem idx1_2 : ∀ t : Fin cfg1.N, win1_2.index t (0 : Fin 2) = t.val ∧ win1_2.index t (1 : Fin 2) = 2 :=
  (by decide +kernel : ∀ t : Fin grid1.N, _)
theorem idx1_3 : ∀ t : Fin cfg1.N, win1_3.index t (0 : Fin 2) = t.val ∧ win1_3.index t (1 : Fin 2) = 3 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_16 : ∀ t : Fin cfg1.N, win1_16.index t (0 : Fin 2) = t.val ∧ win1_16.index t (1 : Fin 2) = 0 :=
  (by decide +kernel : ∀ t : Fin grid1.N, _)
theorem idx1_17 : ∀ t : Fin cfg1.N, win1_17.index t (0 : Fin 2) = t.val ∧ win1_17.index t (1 : Fin 2) = 0 :=
  (by decide +kernel : ∀ t : Fin grid1.N, _)

/-- Column quarter `j` of the adjacency block at point `t`: rows `512·t + p`, columns `1024·j + k` of the array. -/
theorem adj_0 (c : Dev nD) (t : Fin cfg1.N) (p : Fin 512) (k : Fin 1024) :
    Stage2.iblk V c 0 t (ix2 p k)
      = V c main_arg1 (ix2 ⟨(row t).val * 512 + p.val, by have := (row t).isLt; omega⟩ ⟨k.val, by omega⟩) := by
  obtain ⟨ea, eb⟩ := idx1_0 t
  show V c main_arg1 (((cfg1.win 0).blk t).view.emb (ix2 p k)) = V c main_arg1 _
  refine congrArg (V c main_arg1) (funext fun a => Fin.ext ?_)
  match a with
  | ⟨0, _⟩ => show win1_0.index t (0 : Fin 2) * 512 + 1 * p.val = t.val * 512 + p.val; rw [ea]; omega
  | ⟨1, _⟩ => show win1_0.index t (1 : Fin 2) * 1024 + 1 * k.val = k.val; rw [eb]; omega
theorem adj_1 (c : Dev nD) (t : Fin cfg1.N) (p : Fin 512) (k : Fin 1024) :
    Stage2.iblk V c 1 t (ix2 p k)
      = V c main_arg1 (ix2 ⟨(row t).val * 512 + p.val, by have := (row t).isLt; omega⟩ ⟨1024 + k.val, by omega⟩) := by
  obtain ⟨ea, eb⟩ := idx1_1 t
  show V c main_arg1 (((cfg1.win 1).blk t).view.emb (ix2 p k)) = V c main_arg1 _
  refine congrArg (V c main_arg1) (funext fun a => Fin.ext ?_)
  match a with
  | ⟨0, _⟩ => show win1_1.index t (0 : Fin 2) * 512 + 1 * p.val = t.val * 512 + p.val; rw [ea]; omega
  | ⟨1, _⟩ => show win1_1.index t (1 : Fin 2) * 1024 + 1 * k.val = 1024 + k.val; rw [eb]; omega
theorem adj_2 (c : Dev nD) (t : Fin cfg1.N) (p : Fin 512) (k : Fin 1024) :
    Stage2.iblk V c 2 t (ix2 p k)
      = V c main_arg1 (ix2 ⟨(row t).val * 512 + p.val, by have := (row t).isLt; omega⟩ ⟨2048 + k.val, by omega⟩) := by
  obtain ⟨ea, eb⟩ := idx1_2 t
  show V c main_arg1 (((cfg1.win 2).blk t).view.emb (ix2 p k)) = V c main_arg1 _
  refine congrArg (V c main_arg1) (funext fun a => Fin.ext ?_)
  match a with
  | ⟨0, _⟩ => show win1_2.index t (0 : Fin 2) * 512 + 1 * p.val = t.val * 512 + p.val; rw [ea]; omega
  | ⟨1, _⟩ => show win1_2.index t (1 : Fin 2) * 1024 + 1 * k.val = 2048 + k.val; rw [eb]; omega
theorem adj_3 (c : Dev nD) (t : Fin cfg1.N) (p : Fin 512) (k : Fin 1024) :
    Stage2.iblk V c 3 t (ix2 p k)
      = V c main_arg1 (ix2 ⟨(row t).val * 512 + p.val, by have := (row t).isLt; omega⟩ ⟨3072 + k.val, by omega⟩) := by
  obtain ⟨ea, eb⟩ := idx1_3 t
  show V c main_arg1 (((cfg1.win 3).blk t).view.emb (ix2 p k)) = V c main_arg1 _
  refine congrArg (V c main_arg1) (funext fun a => Fin.ext ?_)
  match a with
  | ⟨0, _⟩ => show win1_3.index t (0 : Fin 2) * 512 + 1 * p.val = t.val * 512 + p.val; rw [ea]; omega
  | ⟨1, _⟩ => show win1_3.index t (1 : Fin 2) * 1024 + 1 * k.val = 3072 + k.val; rw [eb]; omega

/-- A resident right-hand side's one block is the whole array. -/
theorem res_8 (c : Dev nD) (t : Fin cfg1.N) (l : Fin 4096) (q : Fin 256) :
    Stage2.iblk V c 8 t (ix2 l q) = V c main_v0 (ix2 l q) := by
  obtain ⟨ea, eb⟩ := idx1_8 t
  show V c main_v0 (((cfg1.win 8).blk t).view.emb (ix2 l q)) = V c main_v0 _
  refine congrArg (V c main_v0) (funext fun a => Fin.ext ?_)
  match a with
  | ⟨0, _⟩ => show win1_8.index t (0 : Fin 2) * 4096 + 1 * l.val = l.val; rw [ea]; omega
  | ⟨1, _⟩ => show win1_8.index t (1 : Fin 2) * 256 + 1 * q.val = q.val; rw [eb]; omega
theorem res_9 (c : Dev nD) (t : Fin cfg1.N) (l : Fin 4096) (q : Fin 256) :
    Stage2.iblk V c 9 t (ix2 l q) = V c main_v1 (ix2 l q) := by
  obtain ⟨ea, eb⟩ := idx1_9 t
  show V c main_v1 (((cfg1.win 9).blk t).view.emb (ix2 l q)) = V c main_v1 _
  refine congrArg (V c main_v1) (funext fun a => Fin.ext ?_)
  match a with
  | ⟨0, _⟩ => show win1_9.index t (0 : Fin 2) * 4096 + 1 * l.val = l.val; rw [ea]; omega
  | ⟨1, _⟩ => show win1_9.index t (1 : Fin 2) * 256 + 1 * q.val = q.val; rw [eb]; omega
theorem res_10 (c : Dev nD) (t : Fin cfg1.N) (l : Fin 4096) (q : Fin 256) :
    Stage2.iblk V c 10 t (ix2 l q) = V c main_v4_0 (ix2 l q) := by
  obtain ⟨ea, eb⟩ := idx1_10 t
  show V c main_v4_0 (((cfg1.win 10).blk t).view.emb (ix2 l q)) = V c main_v4_0 _
  refine congrArg (V c main_v4_0) (funext fun a => Fin.ext ?_)
  match a with
  | ⟨0, _⟩ => show win1_10.index t (0 : Fin 2) * 4096 + 1 * l.val = l.val; rw [ea]; omega
  | ⟨1, _⟩ => show win1_10.index t (1 : Fin 2) * 256 + 1 * q.val = q.val; rw [eb]; omega

/-- The row block of the starting array at point `t`: rows `512·t + p`. -/
theorem rowblk_11 (c : Dev nD) (t : Fin cfg1.N) (p : Fin 512) (q : Fin 256) :
    Stage2.iblk V c 11 t (ix2 p q)
      = V c main_arg6 (ix2 ⟨(row t).val * 512 + p.val, by have := (row t).isLt; omega⟩ q) := by
  obtain ⟨ea, eb⟩ := idx1_11 t
  show V c main_arg6 (((cfg1.win 11).blk t).view.emb (ix2 p q)) = V c main_arg6 _
  refine congrArg (V c main_arg6) (funext fun a => Fin.ext ?_)
  match a with
  | ⟨0, _⟩ => show win1_11.index t (0 : Fin 2) * 512 + 1 * p.val = t.val * 512 + p.val; rw [ea]; omega
  | ⟨1, _⟩ => show win1_11.index t (1 : Fin 2) * 256 + 1 * q.val = q.val; rw [eb]; omega

/-! ## What a grid point writes back -/

/-- What point `t` writes back to the paired output is block row `t` of the two products side by side: the product
    with the first right-hand side in the left 256 columns, with the second in the right 256 columns. -/
theorem flushed16_eq (c : Dev nD) (t : Fin cfg1.N) :
    (Stage2.dat (F := Ideal) V c).flushed 16 t
      = ((cfg1.win 16).blk t).view.read (Elt Ideal)
          (pairCols (mm (V c main_arg1) (V c main_v0)) (mm (V c main_arg1) (V c main_v1))) := by
  show (cfg1.win 16).cut (grid1.coords t) ((Stage2.dat V c).after 16 t) = _
  rw [Stage2.after_16]
  unfold Stage2.outBBs
  simp only [View.ld_unit_zero (S := S512x1024) hz]
  obtain ⟨eoa, eob⟩ := idx1_16 t
  funext j
  have hj0 : (j 0).val < 512 := (j 0).isLt
  have hj1 : (j 1).val < 512 := (j 1).isLt
  have hx : (cfg1.win 16).xinj (grid1.coords t) j = ix2 ⟨(j 0).val, hj0⟩ ⟨(j 1).val, hj1⟩ :=
    funext fun a => by match a with | ⟨0, _⟩ => rfl | ⟨1, _⟩ => rfl
  show View.canon (Val := Elt Ideal) (s := S512x512) (e := .bf16) _ ((cfg1.win 16).xinj (grid1.coords t) j)
    = pairCols (mm (V c main_arg1) (V c main_v0)) (mm (V c main_arg1) (V c main_v1)) (((cfg1.win 16).blk t).view.emb j)
  rw [hx]
  refine (halves_apply _ _ (mm (V c main_arg1) (V c main_v0)) (mm (V c main_arg1) (V c main_v1)) (row t) ?_ ?_ _ _).trans ?_
  · exact block_lo_s (V c main_arg1) (V c main_v0) _ _ _ _ _ (row t) (adj_0 V c t) (adj_1 V c t) (adj_2 V c t) (adj_3 V c t) (res_8 V c t)
  · exact block_hi_s (V c main_arg1) (V c main_v1) _ _ _ _ _ (row t) (adj_0 V c t) (adj_1 V c t) (adj_2 V c t) (adj_3 V c t) (res_9 V c t)
  · refine congrArg (pairCols (mm (V c main_arg1) (V c main_v0)) (mm (V c main_arg1) (V c main_v1))) (funext fun a => Fin.ext ?_)
    match a with
    | ⟨0, _⟩ => show t.val * 512 + (j 0).val = win1_16.index t (0 : Fin 2) * 512 + 1 * (j 0).val; rw [eoa]; omega
    | ⟨1, _⟩ => show (j 1).val = win1_16.index t (1 : Fin 2) * 512 + 1 * (j 1).val; rw [eob]; omega

/-- What point `t` writes back to the mean output is block row `t` of `(X + A·B + A·D)·(1/3)`, `X` the starting
    array, `B` the first right-hand side and `D` the third. -/
theorem flushed17_eq (c : Dev nD) (t : Fin cfg1.N) :
    (Stage2.dat (F := Ideal) V c).flushed 17 t
      = ((cfg1.win 17).blk t).view.read (Elt Ideal)
          (mean3 (V c main_arg6) (V c main_arg1) (V c main_v0) (V c main_v4_0)) := by
  show (cfg1.win 17).cut (grid1.coords t) ((Stage2.dat V c).after 17 t) = _
  rw [Stage2.after_17]
  unfold Stage2.outIs
  rw [View.canon_unit_zero hz]
  simp only [View.ld_unit_zero (S := S512x1024) hz, View.ld_unit_zero (S := S512x256) hz]
  obtain ⟨eoa, eob⟩ := idx1_17 t
  funext j
  have hj0 : (j 0).val < 512 := (j 0).isLt
  have hj1 : (j 1).val < 256 := (j 1).isLt
  have hx : (cfg1.win 17).xinj (grid1.coords t) j = ix2 ⟨(j 0).val, hj0⟩ ⟨(j 1).val, hj1⟩ :=
    funext fun a => by match a with | ⟨0, _⟩ => rfl | ⟨1, _⟩ => rfl
  show k1_pay9 (F := Ideal) _ _ _ _ _ _ _ _ _ _ ((cfg1.win 17).xinj (grid1.coords t) j)
    = mean3 (V c main_arg6) (V c main_arg1) (V c main_v0) (V c main_v4_0) (((cfg1.win 17).blk t).view.emb j)
  rw [hx]
  refine (block_I_s (V c main_arg6) (V c main_arg1) (V c main_v0) (V c main_v4_0) _ _ _ _ _ _ _ (row t)
    (adj_0 V c t) (adj_1 V c t) (adj_2 V c t) (adj_3 V c t) (res_8 V c t) (res_10 V c t) (rowblk_11 V c t) _ _).trans ?_
  refine congrArg (mean3 (V c main_arg6) (V c main_arg1) (V c main_v0) (V c main_v4_0)) (funext fun a => Fin.ext ?_)
  match a with
  | ⟨0, _⟩ => show t.val * 512 + (j 0).val = win1_17.index t (0 : Fin 2) * 512 + 1 * (j 0).val; rw [eoa]; omega
  | ⟨1, _⟩ => show (j 1).val = win1_17.index t (1 : Fin 2) * 256 + 1 * (j 1).val; rw [eob]; omega

/-! ## The blocks cover the arrays -/

/-- An index of the array of output 16 is in point `t`'s block iff each coordinate is in the block's range on its axis. -/
theorem mem_blk16 (t : Fin cfg1.N) (i : S4096x512.Idx) :
    i ∈ ((cfg1.win 16).blk t).view.set ↔ ∀ a : Fin 2, win1_16.index t a * S512x512.size a ≤ (i a).val
      ∧ (i a).val < win1_16.index t a * S512x512.size a + S512x512.size a := by
  show i ∈ ((View.whole main_v5_0).slice (win1_16.rect t)).set ↔ _
  rw [View.set_slice_whole, Rect.mem_set_unit]
  exact Iff.rfl

/-- Every index of that array is in the block of a point that writes back: row `i` is in block row `i / 512`. -/
theorem cover16 (i : S4096x512.Idx) :
    ∃ t : Fin cfg1.N, (cfg1.win 16).flush t = true ∧ i ∈ ((cfg1.win 16).blk t).view.set := by
  have hi0 : (i 0).val < 4096 := (i 0).isLt
  have hi1 : (i 1).val < 512 := (i 1).isLt
  have hN : cfg1.N = 8 := N_1
  have hlt : (i 0).val / 512 < cfg1.N := by rw [hN]; omega
  obtain ⟨eoa, eob⟩ := idx1_16 ⟨(i 0).val / 512, hlt⟩
  refine ⟨⟨(i 0).val / 512, hlt⟩, flush1_16 _, ?_⟩
  rw [mem_blk16]
  intro a
  match a with
  | ⟨0, _⟩ =>
    show win1_16.index ⟨(i 0).val / 512, hlt⟩ (0 : Fin 2) * 512 ≤ (i 0).val
      ∧ (i 0).val < win1_16.index ⟨(i 0).val / 512, hlt⟩ (0 : Fin 2) * 512 + 512
    rw [eoa]; show (i 0).val / 512 * 512 ≤ (i 0).val ∧ (i 0).val < (i 0).val / 512 * 512 + 512; omega
  | ⟨1, _⟩ =>
    show win1_16.index ⟨(i 0).val / 512, hlt⟩ (1 : Fin 2) * 512 ≤ (i 1).val
      ∧ (i 1).val < win1_16.index ⟨(i 0).val / 512, hlt⟩ (1 : Fin 2) * 512 + 512
    rw [eob]; omega

/-- An index of the array of output 17 is in point `t`'s block iff each coordinate is in the block's range on its axis. -/
theorem mem_blk17 (t : Fin cfg1.N) (i : S4096x256.Idx) :
    i ∈ ((cfg1.win 17).blk t).view.set ↔ ∀ a : Fin 2, win1_17.index t a * S512x256.size a ≤ (i a).val
      ∧ (i a).val < win1_17.index t a * S512x256.size a + S512x256.size a := by
  show i ∈ ((View.whole main_v5_1).slice (win1_17.rect t)).set ↔ _
  rw [View.set_slice_whole, Rect.mem_set_unit]
  exact Iff.rfl

/-- Every index of that array is in the block of a point that writes back: row `i` is in block row `i / 512`. -/
theorem cover17 (i : S4096x256.Idx) :
    ∃ t : Fin cfg1.N, (cfg1.win 17).flush t = true ∧ i ∈ ((cfg1.win 17).blk t).view.set := by
  have hi0 : (i 0).val < 4096 := (i 0).isLt
  have hi1 : (i 1).val < 256 := (i 1).isLt
  have hN : cfg1.N = 8 := N_1
  have hlt : (i 0).val / 512 < cfg1.N := by rw [hN]; omega
  obtain ⟨eoa, eob⟩ := idx1_17 ⟨(i 0).val / 512, hlt⟩
  refine ⟨⟨(i 0).val / 512, hlt⟩, flush1_17 _, ?_⟩
  rw [mem_blk17]
  intro a
  match a with
  | ⟨0, _⟩ =>
    show win1_17.index ⟨(i 0).val / 512, hlt⟩ (0 : Fin 2) * 512 ≤ (i 0).val
      ∧ (i 0).val < win1_17.index ⟨(i 0).val / 512, hlt⟩ (0 : Fin 2) * 512 + 512
    rw [eoa]; show (i 0).val / 512 * 512 ≤ (i 0).val ∧ (i 0).val < (i 0).val / 512 * 512 + 512; omega
  | ⟨1, _⟩ =>
    show win1_17.index ⟨(i 0).val / 512, hlt⟩ (1 : Fin 2) * 256 ≤ (i 1).val
      ∧ (i 1).val < win1_17.index ⟨(i 0).val / 512, hlt⟩ (1 : Fin 2) * 256 + 256
    rw [eob]; omega

/-! ## The arrays after the run -/

/-- The paired output after the run: the two products side by side. -/
theorem final16 (c : Dev nD) :
    (Stage2.dat (F := Ideal) V c).arrAt 16 cfg1.N
      = pairCols (mm (V c main_arg1) (V c main_v0)) (mm (V c main_arg1) (V c main_v1)) :=
  (Stage2.dat V c).arrAt_eq_of_cover 16 _ (fun t _ => flushed16_eq V c t) cover16

/-- Its left 256 columns are the product of the adjacency array with the first right-hand side. -/
theorem final16_lo (c : Dev nD) (p : Fin 4096) (q : Fin 256) :
    Cert.Spec.entries ((Stage2.dat (F := Ideal) V c).arrAt 16 cfg1.N) p (colLo q)
      = Cert.Spec.mmE (Cert.Spec.entries (V c main_arg1)) (Cert.Spec.entries (V c main_v0)) p q := by
  rw [final16]
  exact pairCols_lo _ _ p q

/-- Its right 256 columns are the product with the second right-hand side. -/
theorem final16_hi (c : Dev nD) (p : Fin 4096) (q : Fin 256) :
    Cert.Spec.entries ((Stage2.dat (F := Ideal) V c).arrAt 16 cfg1.N) p (colHi q)
      = Cert.Spec.mmE (Cert.Spec.entries (V c main_arg1)) (Cert.Spec.entries (V c main_v1)) p q := by
  rw [final16]
  exact pairCols_hi _ _ p q

/-- The mean output after the run: entry `(p, q)` is `(X[p,q] + (A·B)[p,q] + (A·D)[p,q])·(1/3)`, `X` the starting
    array, `B` the first right-hand side, `D` the third. -/
theorem final17 (c : Dev nD) :
    (Stage2.dat (F := Ideal) V c).arrAt 17 cfg1.N
      = Cert.Spec.ofEntries (fun p q => (Cert.Spec.entries (V c main_arg6) p q
          + Cert.Spec.mmE (Cert.Spec.entries (V c main_arg1)) (Cert.Spec.entries (V c main_v0)) p q
          + Cert.Spec.mmE (Cert.Spec.entries (V c main_arg1)) (Cert.Spec.entries (V c main_v4_0)) p q) * INV) :=
  (Stage2.dat V c).arrAt_eq_of_cover 17 (mean3 (V c main_arg6) (V c main_arg1) (V c main_v0) (V c main_v4_0))
    (fun t _ => flushed17_eq V c t) cover17

end Cert.KernelIdeal.Stage2Value

end
-- ==== Proof.KI.Stage2ValueT.lean ====
/-
  Stage 2, second domain: the pair of products and the item-side result after the run, as functions of the arrays the
  stage finds, at the ideal values.

  Grid point `t` of eight holds rows `512·t … 512·t + 511` of the item-by-user array as four 1024-column quarters
  (quarter `a` holds columns `1024·a … 1024·a + 1023`), the row block of the item embedding, and the row blocks of the
  two outputs; the two user embeddings and stage 1's result (4096 × 256 each) are resident whole and read as four
  1024-row quarters. Read where the blocks sit in their arrays, a quarter's entry `(p, k)` is the adjacency array at
  `(512·t + p, 1024·a + k)` and a resident quarter's entry `(k, q)` the resident array at `(1024·a + k, q)`, so the four
  quarter sums of a product are the one sum over the 4096 contracted coordinates, cut into its quarters.

  The first output's block is 512 × 512 and is written by two stores, the product with the first embedding into its
  left 256 columns and the product with the second into its right 256 columns: each store's local entry `(p, q)` is the
  whole-array function `G18` at the entry the store's column half and the point's row block place it at, and the two
  halves tile the block, so the block is `G18` read through the point's rows. The second output's block is written by
  one store. Row `r` lies in point `r / 512`'s block and every point writes its blocks back, so the blocks cover each
  array and it ends holding its function.
-/
import proofs.«140658_g7370163880393_cont_sun_c4_438_32_alg».proof.Proof.Spec
import proofs.«140658_g7370163880393_cont_sun_c4_438_32_alg».proof.Proof.KI.Stage2
import proofs.«140658_g7370163880393_cont_sun_c4_438_32_alg».proof.Proof.PayValue1
import proofs.«140658_g7370163880393_cont_sun_c4_438_32_alg».proof.Proof.LibQuarterSum
import Idealize.ShloMosaic.Lib.Pipeline.Value
import Idealize.ShloMosaic.Lib.ValueIdx

noncomputable section

open scoped BigOperators

namespace Cert.KernelIdeal.Stage2ValueT

open Cert.KernelIdeal Cert.KernelIdeal.Gen Cert.KernelIdeal.Stage2 Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg1.N) : t.val < 8 := lt_of_lt_of_eq t.isLt N_1

/-! ## The index maps, decided over the eight grid points -/

theorem idx_w4 : ∀ t : Fin cfg1.N, win1_4.index t (0 : Fin 2) = t.val ∧ win1_4.index t (1 : Fin 2) = 0 :=
  (by decide +kernel : ∀ t : Fin grid1.N, _)

theorem idx_w5 : ∀ t : Fin cfg1.N, win1_5.index t (0 : Fin 2) = t.val ∧ win1_5.index t (1 : Fin 2) = 1 :=
  (by decide +kernel : ∀ t : Fin grid1.N, _)

theorem idx_w6 : ∀ t : Fin cfg1.N, win1_6.index t (0 : Fin 2) = t.val ∧ win1_6.index t (1 : Fin 2) = 2 :=
  (by decide +kernel : ∀ t : Fin grid1.N, _)

theorem idx_w7 : ∀ t : Fin cfg1.N, win1_7.index t (0 : Fin 2) = t.val ∧ win1_7.index t (1 : Fin 2) = 3 :=
  (by decide +kernel : ∀ t : Fin grid1.N, _)

theorem idx_w12 : ∀ t : Fin cfg1.N, win1_12.index t (0 : Fin 2) = 0 ∧ win1_12.index t (1 : Fin 2) = 0 :=
  (by decide +kernel : ∀ t : Fin grid1.N, _)

theorem idx_w13 : ∀ t : Fin cfg1.N, win1_13.index t (0 : Fin 2) = 0 ∧ win1_13.index t (1 : Fin 2) = 0 :=
  (by decide +kernel : ∀ t : Fin grid1.N, _)

theorem idx_w14 : ∀ t : Fin cfg1.N, win1_14.index t (0 : Fin 2) = 0 ∧ win1_14.index t (1 : Fin 2) = 0 :=
  (by decide +kernel : ∀ t : Fin grid1.N, _)

theorem idx_w15 : ∀ t : Fin cfg1.N, win1_15.index t (0 : Fin 2) = t.val ∧ win1_15.index t (1 : Fin 2) = 0 :=
  (by decide +kernel : ∀ t : Fin grid1.N, _)

theorem idx_w18 : ∀ t : Fin cfg1.N, win1_18.index t (0 : Fin 2) = t.val ∧ win1_18.index t (1 : Fin 2) = 0 :=
  (by decide +kernel : ∀ t : Fin grid1.N, _)

theorem idx_w19 : ∀ t : Fin cfg1.N, win1_19.index t (0 : Fin 2) = t.val ∧ win1_19.index t (1 : Fin 2) = 0 :=
  (by decide +kernel : ∀ t : Fin grid1.N, _)

/-! ## Each input block as entries of its array -/

/-- Window 4's block at point `t`, at `(p, k)`: the array's row `512·t + p`, column `0 + k`. -/
theorem iblk4_apply (c : Dev nD) (t : Fin cfg1.N) (p : Fin 512) (k : Fin 1024) (r j : Fin 4096)
    (hr : r.val = 512 * t.val + p.val) (hj : j.val = 0 + k.val) :
    (iblk V c 4 t : Vec Ideal S512x1024 .f32) (ix2 p k) = (V c main_arg3 : S4096x4096.Idx → EReal) (ix2 r j) := by
  obtain ⟨h0, h1⟩ := idx_w4 t
  unfold iblk
  rw [View.read_apply]
  show (V c main_arg3 : S4096x4096.Idx → EReal) _ = _
  refine congrArg (V c main_arg3 : S4096x4096.Idx → EReal) (funext fun a => Fin.ext ?_)
  match a with
  | ⟨0, _⟩ => show win1_4.index t (0 : Fin 2) * 512 + 1 * p.val = r.val; rw [h0, hr]; omega
  | ⟨1, _⟩ => show win1_4.index t (1 : Fin 2) * 1024 + 1 * k.val = j.val; rw [h1, hj]; omega

/-- Window 5's block at point `t`, at `(p, k)`: the array's row `512·t + p`, column `1024 + k`. -/
theorem iblk5_apply (c : Dev nD) (t : Fin cfg1.N) (p : Fin 512) (k : Fin 1024) (r j : Fin 4096)
    (hr : r.val = 512 * t.val + p.val) (hj : j.val = 1024 + k.val) :
    (iblk V c 5 t : Vec Ideal S512x1024 .f32) (ix2 p k) = (V c main_arg3 : S4096x4096.Idx → EReal) (ix2 r j) := by
  obtain ⟨h0, h1⟩ := idx_w5 t
  unfold iblk
  rw [View.read_apply]
  show (V c main_arg3 : S4096x4096.Idx → EReal) _ = _
  refine congrArg (V c main_arg3 : S4096x4096.Idx → EReal) (funext fun a => Fin.ext ?_)
  match a with
  | ⟨0, _⟩ => show win1_5.index t (0 : Fin 2) * 512 + 1 * p.val = r.val; rw [h0, hr]; omega
  | ⟨1, _⟩ => show win1_5.index t (1 : Fin 2) * 1024 + 1 * k.val = j.val; rw [h1, hj]; omega

/-- Window 6's block at point `t`, at `(p, k)`: the array's row `512·t + p`, column `2048 + k`. -/
theorem iblk6_apply (c : Dev nD) (t : Fin cfg1.N) (p : Fin 512) (k : Fin 1024) (r j : Fin 4096)
    (hr : r.val = 512 * t.val + p.val) (hj : j.val = 2048 + k.val) :
    (iblk V c 6 t : Vec Ideal S512x1024 .f32) (ix2 p k) = (V c main_arg3 : S4096x4096.Idx → EReal) (ix2 r j) := by
  obtain ⟨h0, h1⟩ := idx_w6 t
  unfold iblk
  rw [View.read_apply]
  show (V c main_arg3 : S4096x4096.Idx → EReal) _ = _
  refine congrArg (V c main_arg3 : S4096x4096.Idx → EReal) (funext fun a => Fin.ext ?_)
  match a with
  | ⟨0, _⟩ => show win1_6.index t (0 : Fin 2) * 512 + 1 * p.val = r.val; rw [h0, hr]; omega
  | ⟨1, _⟩ => show win1_6.index t (1 : Fin 2) * 1024 + 1 * k.val = j.val; rw [h1, hj]; omega

/-- Window 7's block at point `t`, at `(p, k)`: the array's row `512·t + p`, column `3072 + k`. -/
theorem iblk7_apply (c : Dev nD) (t : Fin cfg1.N) (p : Fin 512) (k : Fin 1024) (r j : Fin 4096)
    (hr : r.val = 512 * t.val + p.val) (hj : j.val = 3072 + k.val) :
    (iblk V c 7 t : Vec Ideal S512x1024 .f32) (ix2 p k) = (V c main_arg3 : S4096x4096.Idx → EReal) (ix2 r j) := by
  obtain ⟨h0, h1⟩ := idx_w7 t
  unfold iblk
  rw [View.read_apply]
  show (V c main_arg3 : S4096x4096.Idx → EReal) _ = _
  refine congrArg (V c main_arg3 : S4096x4096.Idx → EReal) (funext fun a => Fin.ext ?_)
  match a with
  | ⟨0, _⟩ => show win1_7.index t (0 : Fin 2) * 512 + 1 * p.val = r.val; rw [h0, hr]; omega
  | ⟨1, _⟩ => show win1_7.index t (1 : Fin 2) * 1024 + 1 * k.val = j.val; rw [h1, hj]; omega

/-- Window 15's block at point `t`, at `(p, q)`: the array's row `512·t + p`, column `q`. -/
theorem iblk15_apply (c : Dev nD) (t : Fin cfg1.N) (p : Fin 512) (q : Fin 256) (r : Fin 4096)
    (hr : r.val = 512 * t.val + p.val) :
    (iblk V c 15 t : Vec Ideal S512x256 .f32) (ix2 p q) = (V c main_arg7 : S4096x256.Idx → EReal) (ix2 r q) := by
  obtain ⟨h0, h1⟩ := idx_w15 t
  unfold iblk
  rw [View.read_apply]
  show (V c main_arg7 : S4096x256.Idx → EReal) _ = _
  refine congrArg (V c main_arg7 : S4096x256.Idx → EReal) (funext fun a => Fin.ext ?_)
  match a with
  | ⟨0, _⟩ => show win1_15.index t (0 : Fin 2) * 512 + 1 * p.val = r.val; rw [h0, hr]; omega
  | ⟨1, _⟩ => show win1_15.index t (1 : Fin 2) * 256 + 1 * q.val = q.val; rw [h1]; omega

/-- Rows `0 … 1023` of the resident right-hand side (window 12) as the body loads them, at `(k, cc)`: the
    array's row `0 + k`, column `cc`. -/
theorem ld12_0_apply (c : Dev nD) (t : Fin cfg1.N) (k : Fin 1024) (cc : Fin 256) (j : Fin 4096) (hj : j.val = 0 + k.val) :
    View.ld (iblk V c 12 t : Vec Ideal S4096x256 .bf16) rB0 (ix2 k cc) = (V c main_v2 : S4096x256.Idx → EReal) (ix2 j cc) := by
  obtain ⟨h0, h1⟩ := idx_w12 t
  show (iblk V c 12 t : Vec Ideal S4096x256 .bf16) (rB0.idx (ix2 k cc)) = _
  unfold iblk
  rw [View.read_apply]
  show (V c main_v2 : S4096x256.Idx → EReal) _ = _
  refine congrArg (V c main_v2 : S4096x256.Idx → EReal) (funext fun ax => Fin.ext ?_)
  match ax with
  | ⟨0, _⟩ => show win1_12.index t (0 : Fin 2) * 4096 + 1 * (0 + 1 * k.val) = j.val; rw [h0, hj]; omega
  | ⟨1, _⟩ => show win1_12.index t (1 : Fin 2) * 256 + 1 * (0 + 1 * cc.val) = cc.val; rw [h1]; omega

/-- Rows `1024 … 2047` of the resident right-hand side (window 12) as the body loads them, at `(k, cc)`: the
    array's row `1024 + k`, column `cc`. -/
theorem ld12_1_apply (c : Dev nD) (t : Fin cfg1.N) (k : Fin 1024) (cc : Fin 256) (j : Fin 4096) (hj : j.val = 1024 + k.val) :
    View.ld (iblk V c 12 t : Vec Ideal S4096x256 .bf16) rB1 (ix2 k cc) = (V c main_v2 : S4096x256.Idx → EReal) (ix2 j cc) := by
  obtain ⟨h0, h1⟩ := idx_w12 t
  show (iblk V c 12 t : Vec Ideal S4096x256 .bf16) (rB1.idx (ix2 k cc)) = _
  unfold iblk
  rw [View.read_apply]
  show (V c main_v2 : S4096x256.Idx → EReal) _ = _
  refine congrArg (V c main_v2 : S4096x256.Idx → EReal) (funext fun ax => Fin.ext ?_)
  match ax with
  | ⟨0, _⟩ => show win1_12.index t (0 : Fin 2) * 4096 + 1 * (1024 + 1 * k.val) = j.val; rw [h0, hj]; omega
  | ⟨1, _⟩ => show win1_12.index t (1 : Fin 2) * 256 + 1 * (0 + 1 * cc.val) = cc.val; rw [h1]; omega

/-- Rows `2048 … 3071` of the resident right-hand side (window 12) as the body loads them, at `(k, cc)`: the
    array's row `2048 + k`, column `cc`. -/
theorem ld12_2_apply (c : Dev nD) (t : Fin cfg1.N) (k : Fin 1024) (cc : Fin 256) (j : Fin 4096) (hj : j.val = 2048 + k.val) :
    View.ld (iblk V c 12 t : Vec Ideal S4096x256 .bf16) rB2 (ix2 k cc) = (V c main_v2 : S4096x256.Idx → EReal) (ix2 j cc) := by
  obtain ⟨h0, h1⟩ := idx_w12 t
  show (iblk V c 12 t : Vec Ideal S4096x256 .bf16) (rB2.idx (ix2 k cc)) = _
  unfold iblk
  rw [View.read_apply]
  show (V c main_v2 : S4096x256.Idx → EReal) _ = _
  refine congrArg (V c main_v2 : S4096x256.Idx → EReal) (funext fun ax => Fin.ext ?_)
  match ax with
  | ⟨0, _⟩ => show win1_12.index t (0 : Fin 2) * 4096 + 1 * (2048 + 1 * k.val) = j.val; rw [h0, hj]; omega
  | ⟨1, _⟩ => show win1_12.index t (1 : Fin 2) * 256 + 1 * (0 + 1 * cc.val) = cc.val; rw [h1]; omega

/-- Rows `3072 … 4095` of the resident right-hand side (window 12) as the body loads them, at `(k, cc)`: the
    array's row `3072 + k`, column `cc`. -/
theorem ld12_3_apply (c : Dev nD) (t : Fin cfg1.N) (k : Fin 1024) (cc : Fin 256) (j : Fin 4096) (hj : j.val = 3072 + k.val) :
    View.ld (iblk V c 12 t : Vec Ideal S4096x256 .bf16) rB3 (ix2 k cc) = (V c main_v2 : S4096x256.Idx → EReal) (ix2 j cc) := by
  obtain ⟨h0, h1⟩ := idx_w12 t
  show (iblk V c 12 t : Vec Ideal S4096x256 .bf16) (rB3.idx (ix2 k cc)) = _
  unfold iblk
  rw [View.read_apply]
  show (V c main_v2 : S4096x256.Idx → EReal) _ = _
  refine congrArg (V c main_v2 : S4096x256.Idx → EReal) (funext fun ax => Fin.ext ?_)
  match ax with
  | ⟨0, _⟩ => show win1_12.index t (0 : Fin 2) * 4096 + 1 * (3072 + 1 * k.val) = j.val; rw [h0, hj]; omega
  | ⟨1, _⟩ => show win1_12.index t (1 : Fin 2) * 256 + 1 * (0 + 1 * cc.val) = cc.val; rw [h1]; omega

/-- Rows `0 … 1023` of the resident right-hand side (window 13) as the body loads them, at `(k, cc)`: the
    array's row `0 + k`, column `cc`. -/
theorem ld13_0_apply (c : Dev nD) (t : Fin cfg1.N) (k : Fin 1024) (cc : Fin 256) (j : Fin 4096) (hj : j.val = 0 + k.val) :
    View.ld (iblk V c 13 t : Vec Ideal S4096x256 .bf16) rB0 (ix2 k cc) = (V c main_v3 : S4096x256.Idx → EReal) (ix2 j cc) := by
  obtain ⟨h0, h1⟩ := idx_w13 t
  show (iblk V c 13 t : Vec Ideal S4096x256 .bf16) (rB0.idx (ix2 k cc)) = _
  unfold iblk
  rw [View.read_apply]
  show (V c main_v3 : S4096x256.Idx → EReal) _ = _
  refine congrArg (V c main_v3 : S4096x256.Idx → EReal) (funext fun ax => Fin.ext ?_)
  match ax with
  | ⟨0, _⟩ => show win1_13.index t (0 : Fin 2) * 4096 + 1 * (0 + 1 * k.val) = j.val; rw [h0, hj]; omega
  | ⟨1, _⟩ => show win1_13.index t (1 : Fin 2) * 256 + 1 * (0 + 1 * cc.val) = cc.val; rw [h1]; omega

/-- Rows `1024 … 2047` of the resident right-hand side (window 13) as the body loads them, at `(k, cc)`: the
    array's row `1024 + k`, column `cc`. -/
theorem ld13_1_apply (c : Dev nD) (t : Fin cfg1.N) (k : Fin 1024) (cc : Fin 256) (j : Fin 4096) (hj : j.val = 1024 + k.val) :
    View.ld (iblk V c 13 t : Vec Ideal S4096x256 .bf16) rB1 (ix2 k cc) = (V c main_v3 : S4096x256.Idx → EReal) (ix2 j cc) := by
  obtain ⟨h0, h1⟩ := idx_w13 t
  show (iblk V c 13 t : Vec Ideal S4096x256 .bf16) (rB1.idx (ix2 k cc)) = _
  unfold iblk
  rw [View.read_apply]
  show (V c main_v3 : S4096x256.Idx → EReal) _ = _
  refine congrArg (V c main_v3 : S4096x256.Idx → EReal) (funext fun ax => Fin.ext ?_)
  match ax with
  | ⟨0, _⟩ => show win1_13.index t (0 : Fin 2) * 4096 + 1 * (1024 + 1 * k.val) = j.val; rw [h0, hj]; omega
  | ⟨1, _⟩ => show win1_13.index t (1 : Fin 2) * 256 + 1 * (0 + 1 * cc.val) = cc.val; rw [h1]; omega

/-- Rows `2048 … 3071` of the resident right-hand side (window 13) as the body loads them, at `(k, cc)`: the
    array's row `2048 + k`, column `cc`. -/
theorem ld13_2_apply (c : Dev nD) (t : Fin cfg1.N) (k : Fin 1024) (cc : Fin 256) (j : Fin 4096) (hj : j.val = 2048 + k.val) :
    View.ld (iblk V c 13 t : Vec Ideal S4096x256 .bf16) rB2 (ix2 k cc) = (V c main_v3 : S4096x256.Idx → EReal) (ix2 j cc) := by
  obtain ⟨h0, h1⟩ := idx_w13 t
  show (iblk V c 13 t : Vec Ideal S4096x256 .bf16) (rB2.idx (ix2 k cc)) = _
  unfold iblk
  rw [View.read_apply]
  show (V c main_v3 : S4096x256.Idx → EReal) _ = _
  refine congrArg (V c main_v3 : S4096x256.Idx → EReal) (funext fun ax => Fin.ext ?_)
  match ax with
  | ⟨0, _⟩ => show win1_13.index t (0 : Fin 2) * 4096 + 1 * (2048 + 1 * k.val) = j.val; rw [h0, hj]; omega
  | ⟨1, _⟩ => show win1_13.index t (1 : Fin 2) * 256 + 1 * (0 + 1 * cc.val) = cc.val; rw [h1]; omega

/-- Rows `3072 … 4095` of the resident right-hand side (window 13) as the body loads them, at `(k, cc)`: the
    array's row `3072 + k`, column `cc`. -/
theorem ld13_3_apply (c : Dev nD) (t : Fin cfg1.N) (k : Fin 1024) (cc : Fin 256) (j : Fin 4096) (hj : j.val = 3072 + k.val) :
    View.ld (iblk V c 13 t : Vec Ideal S4096x256 .bf16) rB3 (ix2 k cc) = (V c main_v3 : S4096x256.Idx → EReal) (ix2 j cc) := by
  obtain ⟨h0, h1⟩ := idx_w13 t
  show (iblk V c 13 t : Vec Ideal S4096x256 .bf16) (rB3.idx (ix2 k cc)) = _
  unfold iblk
  rw [View.read_apply]
  show (V c main_v3 : S4096x256.Idx → EReal) _ = _
  refine congrArg (V c main_v3 : S4096x256.Idx → EReal) (funext fun ax => Fin.ext ?_)
  match ax with
  | ⟨0, _⟩ => show win1_13.index t (0 : Fin 2) * 4096 + 1 * (3072 + 1 * k.val) = j.val; rw [h0, hj]; omega
  | ⟨1, _⟩ => show win1_13.index t (1 : Fin 2) * 256 + 1 * (0 + 1 * cc.val) = cc.val; rw [h1]; omega

/-- Rows `0 … 1023` of the resident right-hand side (window 14) as the body loads them, at `(k, cc)`: the
    array's row `0 + k`, column `cc`. -/
theorem ld14_0_apply (c : Dev nD) (t : Fin cfg1.N) (k : Fin 1024) (cc : Fin 256) (j : Fin 4096) (hj : j.val = 0 + k.val) :
    View.ld (iblk V c 14 t : Vec Ideal S4096x256 .bf16) rB0 (ix2 k cc) = (V c main_v4_1 : S4096x256.Idx → EReal) (ix2 j cc) := by
  obtain ⟨h0, h1⟩ := idx_w14 t
  show (iblk V c 14 t : Vec Ideal S4096x256 .bf16) (rB0.idx (ix2 k cc)) = _
  unfold iblk
  rw [View.read_apply]
  show (V c main_v4_1 : S4096x256.Idx → EReal) _ = _
  refine congrArg (V c main_v4_1 : S4096x256.Idx → EReal) (funext fun ax => Fin.ext ?_)
  match ax with
  | ⟨0, _⟩ => show win1_14.index t (0 : Fin 2) * 4096 + 1 * (0 + 1 * k.val) = j.val; rw [h0, hj]; omega
  | ⟨1, _⟩ => show win1_14.index t (1 : Fin 2) * 256 + 1 * (0 + 1 * cc.val) = cc.val; rw [h1]; omega

/-- Rows `1024 … 2047` of the resident right-hand side (window 14) as the body loads them, at `(k, cc)`: the
    array's row `1024 + k`, column `cc`. -/
theorem ld14_1_apply (c : Dev nD) (t : Fin cfg1.N) (k : Fin 1024) (cc : Fin 256) (j : Fin 4096) (hj : j.val = 1024 + k.val) :
    View.ld (iblk V c 14 t : Vec Ideal S4096x256 .bf16) rB1 (ix2 k cc) = (V c main_v4_1 : S4096x256.Idx → EReal) (ix2 j cc) := by
  obtain ⟨h0, h1⟩ := idx_w14 t
  show (iblk V c 14 t : Vec Ideal S4096x256 .bf16) (rB1.idx (ix2 k cc)) = _
  unfold iblk
  rw [View.read_apply]
  show (V c main_v4_1 : S4096x256.Idx → EReal) _ = _
  refine congrArg (V c main_v4_1 : S4096x256.Idx → EReal) (funext fun ax => Fin.ext ?_)
  match ax with
  | ⟨0, _⟩ => show win1_14.index t (0 : Fin 2) * 4096 + 1 * (1024 + 1 * k.val) = j.val; rw [h0, hj]; omega
  | ⟨1, _⟩ => show win1_14.index t (1 : Fin 2) * 256 + 1 * (0 + 1 * cc.val) = cc.val; rw [h1]; omega

/-- Rows `2048 … 3071` of the resident right-hand side (window 14) as the body loads them, at `(k, cc)`: the
    array's row `2048 + k`, column `cc`. -/
theorem ld14_2_apply (c : Dev nD) (t : Fin cfg1.N) (k : Fin 1024) (cc : Fin 256) (j : Fin 4096) (hj : j.val = 2048 + k.val) :
    View.ld (iblk V c 14 t : Vec Ideal S4096x256 .bf16) rB2 (ix2 k cc) = (V c main_v4_1 : S4096x256.Idx → EReal) (ix2 j cc) := by
  obtain ⟨h0, h1⟩ := idx_w14 t
  show (iblk V c 14 t : Vec Ideal S4096x256 .bf16) (rB2.idx (ix2 k cc)) = _
  unfold iblk
  rw [View.read_apply]
  show (V c main_v4_1 : S4096x256.Idx → EReal) _ = _
  refine congrArg (V c main_v4_1 : S4096x256.Idx → EReal) (funext fun ax => Fin.ext ?_)
  match ax with
  | ⟨0, _⟩ => show win1_14.index t (0 : Fin 2) * 4096 + 1 * (2048 + 1 * k.val) = j.val; rw [h0, hj]; omega
  | ⟨1, _⟩ => show win1_14.index t (1 : Fin 2) * 256 + 1 * (0 + 1 * cc.val) = cc.val; rw [h1]; omega

/-- Rows `3072 … 4095` of the resident right-hand side (window 14) as the body loads them, at `(k, cc)`: the
    array's row `3072 + k`, column `cc`. -/
theorem ld14_3_apply (c : Dev nD) (t : Fin cfg1.N) (k : Fin 1024) (cc : Fin 256) (j : Fin 4096) (hj : j.val = 3072 + k.val) :
    View.ld (iblk V c 14 t : Vec Ideal S4096x256 .bf16) rB3 (ix2 k cc) = (V c main_v4_1 : S4096x256.Idx → EReal) (ix2 j cc) := by
  obtain ⟨h0, h1⟩ := idx_w14 t
  show (iblk V c 14 t : Vec Ideal S4096x256 .bf16) (rB3.idx (ix2 k cc)) = _
  unfold iblk
  rw [View.read_apply]
  show (V c main_v4_1 : S4096x256.Idx → EReal) _ = _
  refine congrArg (V c main_v4_1 : S4096x256.Idx → EReal) (funext fun ax => Fin.ext ?_)
  match ax with
  | ⟨0, _⟩ => show win1_14.index t (0 : Fin 2) * 4096 + 1 * (3072 + 1 * k.val) = j.val; rw [h0, hj]; omega
  | ⟨1, _⟩ => show win1_14.index t (1 : Fin 2) * 256 + 1 * (0 + 1 * cc.val) = cc.val; rw [h1]; omega

/-! ## Output window 18: the pair of products, side by side -/

/-- What the window's array ends holding: in its left 256 columns the product of the adjacency array with the first
    embedding, in its right 256 columns the product with the second. -/
def G18 (c : Dev nD) : S4096x512.Idx → EReal := fun i =>
  if h : (i 1).val < 256 then Cert.Spec.mmE (Cert.Spec.entries (V c main_arg3 : S4096x4096.Idx → EReal)) (Cert.Spec.entries (V c main_v2 : S4096x256.Idx → EReal)) (i 0) ⟨(i 1).val, h⟩
  else Cert.Spec.mmE (Cert.Spec.entries (V c main_arg3 : S4096x4096.Idx → EReal)) (Cert.Spec.entries (V c main_v3 : S4096x256.Idx → EReal)) (i 0)
    ⟨(i 1).val - 256, by have h1 : (i 1).val < 512 := (i 1).isLt; omega⟩

/-- `G18` at a left-half column. -/
theorem G18_lo (c : Dev nD) (r : Fin 4096) (s : Fin 512) (q : Fin 256) (hs : s.val = q.val) :
    G18 V c (ix2 r s) = Cert.Spec.mmE (Cert.Spec.entries (V c main_arg3 : S4096x4096.Idx → EReal)) (Cert.Spec.entries (V c main_v2 : S4096x256.Idx → EReal)) r q := by
  unfold G18
  rw [dif_pos (show ((ix2 r s : S4096x512.Idx) 1).val < 256 from hs ▸ q.isLt)]
  exact congrArg (Cert.Spec.mmE (Cert.Spec.entries (V c main_arg3 : S4096x4096.Idx → EReal)) (Cert.Spec.entries (V c main_v2 : S4096x256.Idx → EReal)) r) (Fin.ext hs)

/-- `G18` at a right-half column. -/
theorem G18_hi (c : Dev nD) (r : Fin 4096) (s : Fin 512) (q : Fin 256) (hs : s.val = 256 + q.val) :
    G18 V c (ix2 r s) = Cert.Spec.mmE (Cert.Spec.entries (V c main_arg3 : S4096x4096.Idx → EReal)) (Cert.Spec.entries (V c main_v3 : S4096x256.Idx → EReal)) r q := by
  unfold G18
  rw [dif_neg (show ¬((ix2 r s : S4096x512.Idx) 1).val < 256 from by show ¬ s.val < 256; omega)]
  exact congrArg (Cert.Spec.mmE (Cert.Spec.entries (V c main_arg3 : S4096x4096.Idx → EReal)) (Cert.Spec.entries (V c main_v3 : S4096x256.Idx → EReal)) r) (Fin.ext (by show s.val - 256 = q.val; omega))

/-- What point `t` writes back is block `t` of `G18`: each of the two stores holds, at its local entry `(p, q)`, `G18` at
    the entry of the array that the store's column half and the point's row block place it at. -/
theorem flushed18_eq (c : Dev nD) (t : Fin cfg1.N) :
    (dat (F := Ideal) V c).flushed 18 t = ((cfg1.win 18).blk t).view.read (Elt Ideal) (G18 V c) := by
  show (cfg1.win 18).cut (grid1.coords t) ((dat (F := Ideal) V c).after 18 t) = _
  rw [Stage2.after_18]
  unfold outBBt
  simp only [View.ld_unit_zero (S := S512x1024) hz]
  funext j
  have ht := t_lt t
  obtain ⟨g0, g1⟩ := idx_w18 t
  refine View.canon_apply_of_pieces (Val := Elt Ideal)
    (fun y : S512x512.Idx => G18 V c (((cfg1.win 18).blk t).view.emb y)) _ ?_ j (Stage2.coverBB _ _ j)
  intro pc hpc x
  rcases List.mem_cons.mp hpc with rfl | hpc
  · obtain ⟨p, q, rfl⟩ : ∃ (p : Fin 512) (q : Fin 256), x = ix2 p q := ⟨x 0, x 1, eq_ix2 x⟩
    obtain ⟨r, hr⟩ : ∃ r : Fin 4096, r.val = 512 * t.val + p.val := ⟨⟨512 * t.val + p.val, by omega⟩, rfl⟩
    obtain ⟨s, hs⟩ : ∃ s : Fin 512, s.val = 256 + q.val := ⟨⟨256 + q.val, by omega⟩, rfl⟩
    have hemb : ((cfg1.win 18).blk t).view.emb (rHi.emb (ix2 p q)) = (ix2 r s : S4096x512.Idx) := funext fun a => Fin.ext (by
      match a with
      | ⟨0, _⟩ => show win1_18.index t (0 : Fin 2) * 512 + 1 * (0 + 1 * p.val) = r.val; rw [g0, hr]; omega
      | ⟨1, _⟩ => show win1_18.index t (1 : Fin 2) * 512 + 1 * (256 + 1 * q.val) = s.val; rw [g1, hs]; omega)
    refine (k1_pay18_loaded _ _ _ _ _ _ _ _ p q).trans ?_
    show _ = G18 V c (((cfg1.win 18).blk t).view.emb (rHi.emb (ix2 p q)))
    rw [hemb, G18_hi V c r s q hs]
    show _ = ∑ j : Fin 4096, Cert.Spec.entries (V c main_arg3 : S4096x4096.Idx → EReal) r j * Cert.Spec.entries (V c main_v3 : S4096x256.Idx → EReal) j q
    rw [Cert.LibQuarterSum.sum_4096]
    refine congrArg₂ (· + ·) (congrArg₂ (· + ·) (congrArg₂ (· + ·) ?_ ?_) ?_) ?_
    · exact Finset.sum_congr rfl fun k _ => congrArg₂ (· * ·) (iblk4_apply V c t p k r _ hr (by simp)) (ld13_0_apply V c t k q _ (by simp))
    · exact Finset.sum_congr rfl fun k _ => congrArg₂ (· * ·) (iblk5_apply V c t p k r _ hr rfl) (ld13_1_apply V c t k q _ rfl)
    · exact Finset.sum_congr rfl fun k _ => congrArg₂ (· * ·) (iblk6_apply V c t p k r _ hr rfl) (ld13_2_apply V c t k q _ rfl)
    · exact Finset.sum_congr rfl fun k _ => congrArg₂ (· * ·) (iblk7_apply V c t p k r _ hr rfl) (ld13_3_apply V c t k q _ rfl)
  · obtain rfl := List.mem_singleton.mp hpc
    obtain ⟨p, q, rfl⟩ : ∃ (p : Fin 512) (q : Fin 256), x = ix2 p q := ⟨x 0, x 1, eq_ix2 x⟩
    obtain ⟨r, hr⟩ : ∃ r : Fin 4096, r.val = 512 * t.val + p.val := ⟨⟨512 * t.val + p.val, by omega⟩, rfl⟩
    obtain ⟨s, hs⟩ : ∃ s : Fin 512, s.val = q.val := ⟨⟨q.val, by omega⟩, rfl⟩
    have hemb : ((cfg1.win 18).blk t).view.emb (rLo.emb (ix2 p q)) = (ix2 r s : S4096x512.Idx) := funext fun a => Fin.ext (by
      match a with
      | ⟨0, _⟩ => show win1_18.index t (0 : Fin 2) * 512 + 1 * (0 + 1 * p.val) = r.val; rw [g0, hr]; omega
      | ⟨1, _⟩ => show win1_18.index t (1 : Fin 2) * 512 + 1 * (0 + 1 * q.val) = s.val; rw [g1, hs]; omega)
    refine (k1_pay17_loaded _ _ _ _ _ _ _ _ p q).trans ?_
    show _ = G18 V c (((cfg1.win 18).blk t).view.emb (rLo.emb (ix2 p q)))
    rw [hemb, G18_lo V c r s q hs]
    show _ = ∑ j : Fin 4096, Cert.Spec.entries (V c main_arg3 : S4096x4096.Idx → EReal) r j * Cert.Spec.entries (V c main_v2 : S4096x256.Idx → EReal) j q
    rw [Cert.LibQuarterSum.sum_4096]
    refine congrArg₂ (· + ·) (congrArg₂ (· + ·) (congrArg₂ (· + ·) ?_ ?_) ?_) ?_
    · exact Finset.sum_congr rfl fun k _ => congrArg₂ (· * ·) (iblk4_apply V c t p k r _ hr (by simp)) (ld12_0_apply V c t k q _ (by simp))
    · exact Finset.sum_congr rfl fun k _ => congrArg₂ (· * ·) (iblk5_apply V c t p k r _ hr rfl) (ld12_1_apply V c t k q _ rfl)
    · exact Finset.sum_congr rfl fun k _ => congrArg₂ (· * ·) (iblk6_apply V c t p k r _ hr rfl) (ld12_2_apply V c t k q _ rfl)
    · exact Finset.sum_congr rfl fun k _ => congrArg₂ (· * ·) (iblk7_apply V c t p k r _ hr rfl) (ld12_3_apply V c t k q _ rfl)

/-- Every row of the array is in some point's block: row `r` in point `r / 512`'s, which holds all 512 columns. -/
theorem cover18 (i : S4096x512.Idx) :
    ∃ t : Fin cfg1.N, (cfg1.win 18).flush t = true ∧ i ∈ ((cfg1.win 18).blk t).view.set := by
  have hi0 : (i 0).val < 4096 := (i 0).isLt
  have hi1 : (i 1).val < 512 := (i 1).isLt
  obtain ⟨t, htv⟩ : ∃ t : Fin cfg1.N, t.val = (i 0).val / 512 :=
    ⟨⟨(i 0).val / 512, lt_of_lt_of_eq (by omega : (i 0).val / 512 < 8) N_1.symm⟩, rfl⟩
  obtain ⟨g0, g1⟩ := idx_w18 t
  refine ⟨t, flush1_18 t, ?_⟩
  show i ∈ ((View.whole main_v5_2).slice (win1_18.rect t)).set
  rw [View.set_slice_whole, Rect.mem_set_unit]
  intro a
  match a with
  | ⟨0, _⟩ =>
    show win1_18.index t (0 : Fin 2) * 512 ≤ (i 0).val ∧ (i 0).val < win1_18.index t (0 : Fin 2) * 512 + 512
    rw [g0, htv]; omega
  | ⟨1, _⟩ =>
    show win1_18.index t (1 : Fin 2) * 512 ≤ (i 1).val ∧ (i 1).val < win1_18.index t (1 : Fin 2) * 512 + 512
    rw [g1]; omega

/-- The array after the run. -/
theorem final18 (c : Dev nD) : (dat (F := Ideal) V c).arrAt 18 cfg1.N = G18 V c :=
  (dat (F := Ideal) V c).arrAt_eq_of_cover 18 (G18 V c) (fun t _ => flushed18_eq V c t) (cover18)

/-- Its left 256 columns: the product with the first embedding. -/
theorem final18_lo (c : Dev nD) : ∀ (p : Fin 4096) (q : Fin 256),
    Cert.Spec.entries ((dat (F := Ideal) V c).arrAt 18 cfg1.N : S4096x512.Idx → EReal) p (colLo q)
      = Cert.Spec.mmE (Cert.Spec.entries (V c main_arg3 : S4096x4096.Idx → EReal)) (Cert.Spec.entries (V c main_v2 : S4096x256.Idx → EReal)) p q := fun p q => by
  rw [final18]
  exact G18_lo V c p (colLo q) q rfl

/-- Its right 256 columns: the product with the second embedding. -/
theorem final18_hi (c : Dev nD) : ∀ (p : Fin 4096) (q : Fin 256),
    Cert.Spec.entries ((dat (F := Ideal) V c).arrAt 18 cfg1.N : S4096x512.Idx → EReal) p (colHi q)
      = Cert.Spec.mmE (Cert.Spec.entries (V c main_arg3 : S4096x4096.Idx → EReal)) (Cert.Spec.entries (V c main_v3 : S4096x256.Idx → EReal)) p q := fun p q => by
  rw [final18]
  exact G18_hi V c p (colHi q) q (Nat.add_comm _ _)

/-! ## Output window 19: the item-side result -/

/-- What the window's array ends holding: the item embedding's entry, plus the product with the first embedding, plus
    the product with stage 1's result, times one third. -/
abbrev G19 (c : Dev nD) : S4096x256.Idx → EReal :=
  Cert.Spec.ofEntries (fun p q =>
      (Cert.Spec.entries (V c main_arg7 : S4096x256.Idx → EReal) p q + Cert.Spec.mmE (Cert.Spec.entries (V c main_arg3 : S4096x4096.Idx → EReal)) (Cert.Spec.entries (V c main_v2 : S4096x256.Idx → EReal)) p q
        + Cert.Spec.mmE (Cert.Spec.entries (V c main_arg3 : S4096x4096.Idx → EReal)) (Cert.Spec.entries (V c main_v4_1 : S4096x256.Idx → EReal)) p q) * ((1 / 3 : ℝ) : EReal))

/-- What point `t` writes back is block `t` of `G19`. -/
theorem flushed19_eq (c : Dev nD) (t : Fin cfg1.N) :
    (dat (F := Ideal) V c).flushed 19 t = ((cfg1.win 19).blk t).view.read (Elt Ideal) (G19 V c) := by
  show (cfg1.win 19).cut (grid1.coords t) ((dat (F := Ideal) V c).after 19 t) = _
  rw [Stage2.after_19]
  unfold outIt
  rw [View.canon_unit_zero hz]
  simp only [View.ld_unit_zero (S := S512x1024) hz, View.ld_unit_zero (S := S512x256) hz]
  funext j
  obtain ⟨p, q, rfl⟩ : ∃ (p : Fin 512) (q : Fin 256), j = ix2 p q := ⟨j 0, j 1, eq_ix2 j⟩
  have ht := t_lt t
  obtain ⟨r, hr⟩ : ∃ r : Fin 4096, r.val = 512 * t.val + p.val := ⟨⟨512 * t.val + p.val, by omega⟩, rfl⟩
  obtain ⟨g0, g1⟩ := idx_w19 t
  have hemb : ((cfg1.win 19).blk t).view.emb (ix2 p q) = (ix2 r q : S4096x256.Idx) := funext fun a => Fin.ext (by
    match a with
    | ⟨0, _⟩ => show win1_19.index t (0 : Fin 2) * 512 + 1 * p.val = r.val; rw [g0, hr]; omega
    | ⟨1, _⟩ => show win1_19.index t (1 : Fin 2) * 256 + 1 * q.val = q.val; rw [g1]; omega)
  refine (k1_pay19_loaded _ _ _ _ _ _ _ _ _ _ _ _ _ p q).trans ?_
  show _ = G19 V c (((cfg1.win 19).blk t).view.emb (ix2 p q))
  rw [hemb]
  show _ = (Cert.Spec.entries (V c main_arg7 : S4096x256.Idx → EReal) r q + (∑ j : Fin 4096, Cert.Spec.entries (V c main_arg3 : S4096x4096.Idx → EReal) r j * Cert.Spec.entries (V c main_v2 : S4096x256.Idx → EReal) j q)
      + ∑ j : Fin 4096, Cert.Spec.entries (V c main_arg3 : S4096x4096.Idx → EReal) r j * Cert.Spec.entries (V c main_v4_1 : S4096x256.Idx → EReal) j q) * ((1 / 3 : ℝ) : EReal)
  rw [Cert.LibQuarterSum.sum_4096, Cert.LibQuarterSum.sum_4096]
  refine congrArg (· * ((1 / 3 : ℝ) : EReal)) ?_
  refine congrArg₂ (· + ·) (congrArg₂ (· + ·) (iblk15_apply V c t p q r hr) ?_) ?_
  · refine congrArg₂ (· + ·) (congrArg₂ (· + ·) (congrArg₂ (· + ·) ?_ ?_) ?_) ?_
    · exact Finset.sum_congr rfl fun k _ => congrArg₂ (· * ·) (iblk4_apply V c t p k r _ hr (by simp)) (ld12_0_apply V c t k q _ (by simp))
    · exact Finset.sum_congr rfl fun k _ => congrArg₂ (· * ·) (iblk5_apply V c t p k r _ hr rfl) (ld12_1_apply V c t k q _ rfl)
    · exact Finset.sum_congr rfl fun k _ => congrArg₂ (· * ·) (iblk6_apply V c t p k r _ hr rfl) (ld12_2_apply V c t k q _ rfl)
    · exact Finset.sum_congr rfl fun k _ => congrArg₂ (· * ·) (iblk7_apply V c t p k r _ hr rfl) (ld12_3_apply V c t k q _ rfl)
  · refine congrArg₂ (· + ·) (congrArg₂ (· + ·) (congrArg₂ (· + ·) ?_ ?_) ?_) ?_
    · exact Finset.sum_congr rfl fun k _ => congrArg₂ (· * ·) (iblk4_apply V c t p k r _ hr (by simp)) (ld14_0_apply V c t k q _ (by simp))
    · exact Finset.sum_congr rfl fun k _ => congrArg₂ (· * ·) (iblk5_apply V c t p k r _ hr rfl) (ld14_1_apply V c t k q _ rfl)
    · exact Finset.sum_congr rfl fun k _ => congrArg₂ (· * ·) (iblk6_apply V c t p k r _ hr rfl) (ld14_2_apply V c t k q _ rfl)
    · exact Finset.sum_congr rfl fun k _ => congrArg₂ (· * ·) (iblk7_apply V c t p k r _ hr rfl) (ld14_3_apply V c t k q _ rfl)

/-- Every row of the array is in some point's block: row `r` in point `r / 512`'s. -/
theorem cover19 (i : S4096x256.Idx) :
    ∃ t : Fin cfg1.N, (cfg1.win 19).flush t = true ∧ i ∈ ((cfg1.win 19).blk t).view.set := by
  have hi0 : (i 0).val < 4096 := (i 0).isLt
  have hi1 : (i 1).val < 256 := (i 1).isLt
  obtain ⟨t, htv⟩ : ∃ t : Fin cfg1.N, t.val = (i 0).val / 512 :=
    ⟨⟨(i 0).val / 512, lt_of_lt_of_eq (by omega : (i 0).val / 512 < 8) N_1.symm⟩, rfl⟩
  obtain ⟨g0, g1⟩ := idx_w19 t
  refine ⟨t, flush1_19 t, ?_⟩
  show i ∈ ((View.whole main_v5_3).slice (win1_19.rect t)).set
  rw [View.set_slice_whole, Rect.mem_set_unit]
  intro a
  match a with
  | ⟨0, _⟩ =>
    show win1_19.index t (0 : Fin 2) * 512 ≤ (i 0).val ∧ (i 0).val < win1_19.index t (0 : Fin 2) * 512 + 512
    rw [g0, htv]; omega
  | ⟨1, _⟩ =>
    show win1_19.index t (1 : Fin 2) * 256 ≤ (i 1).val ∧ (i 1).val < win1_19.index t (1 : Fin 2) * 256 + 256
    rw [g1]; omega

/-- The array after the run. -/
theorem final19 (c : Dev nD) : (dat (F := Ideal) V c).arrAt 19 cfg1.N
    = Cert.Spec.ofEntries (fun p q =>
      (Cert.Spec.entries (V c main_arg7 : S4096x256.Idx → EReal) p q + Cert.Spec.mmE (Cert.Spec.entries (V c main_arg3 : S4096x4096.Idx → EReal)) (Cert.Spec.entries (V c main_v2 : S4096x256.Idx → EReal)) p q
        + Cert.Spec.mmE (Cert.Spec.entries (V c main_arg3 : S4096x4096.Idx → EReal)) (Cert.Spec.entries (V c main_v4_1 : S4096x256.Idx → EReal)) p q) * ((1 / 3 : ℝ) : EReal)) :=
  (dat (F := Ideal) V c).arrAt_eq_of_cover 19 (G19 V c) (fun t _ => flushed19_eq V c t) (cover19)

end Cert.KernelIdeal.Stage2ValueT

end
-- ==== Proof.PayValue2.lean ====
/-
  Stage 3, read at one entry, at the ideal values.

  The body runs twice, once per domain. It holds a block of 512 rows of a 4096 × 4096 adjacency array as four
  512 × 1024 column quarters `a₁ … a₄` (cast to bf16: nothing on the extended reals), a resident 4096 × 512
  right-hand side read as four 1024-row quarters `w₁ … w₄` (a shape cast to the same shape: nothing), and three
  512 × 256 bf16 blocks `x`, `x'`, `y` (widened to f32: nothing). The accumulator is the block's product with the
  right-hand side, a 512 × 512 array whose entry `(p, c)` is

      Σ_k a₁[p,k]·w₁[k,c] + Σ_k a₂[p,k]·w₂[k,c] + Σ_k a₃[p,k]·w₃[k,c] + Σ_k a₄[p,k]·w₄[k,c]

  (`k` over a quarter's 1024 coordinates, the partial products into zero accumulators added left to right). Its left
  256 columns are sliced off for the first result and its right 256 columns for the second: the two stored blocks are

      (x  + y + acc[:, :256]) · (1/3)     at (p, q):  … + acc[p, q]       (column `colLo q`)
      (x' + y + acc[:, 256:]) · (1/3)     at (p, q):  … + acc[p, q + 256] (column `colHi q`).

  The first domain computes the whole accumulator in one payload (`k2_pay5`) and the sums `x + y` ahead of the stores;
  the second computes three quarters' partial sum (`k2_pay12`) and adds the fourth in `k2_pay1`. For each stored value
  there is a lemma `…_apply` over the payload's own arguments and a lemma `…_loaded` in which every argument is a loaded
  value.
-/
import proofs.«140658_g7370163880393_cont_sun_c4_438_32_alg».proof.Proof.PayValueLib

noncomputable section

open scoped BigOperators

namespace Cert.KernelIdeal.PayValue

open Cert.KernelIdeal Cert.KernelIdeal.Gen Idealize.ShloMosaic Idealize.ShloMosaic.ValueIdx

/-! ## The first domain -/

/-- The accumulator at `(p, c)`: the four quarters' sums of products, added left to right. -/
theorem k2_pay5_apply (v0 v2 v4 v6 : Vec Ideal S512x1024 .f32) (v8 v11 v15 v19 : Vec Ideal S1024x512 .bf16)
    (p c : Fin 512) :
    k2_pay5 (F := Ideal) v0 v2 v4 v6 v8 v11 v15 v19 (ix2 p c)
      = (∑ k : Fin 1024, v0 (ix2 p k) * v8 (ix2 k c)) + (∑ k : Fin 1024, v2 (ix2 p k) * v11 (ix2 k c))
        + (∑ k : Fin 1024, v4 (ix2 p k) * v15 (ix2 k c)) + (∑ k : Fin 1024, v6 (ix2 p k) * v19 (ix2 k c)) := by
  unfold k2_pay5
  simp only [shapeCast_self]
  exact quarters512_apply v0 v2 v4 v6 v8 v11 v15 v19 p c

/-- The block `y` widened to f32 is that block. -/
theorem k2_pay6_eq (v23 : Vec Ideal S512x256 .bf16) : k2_pay6 (F := Ideal) v23 = v23 := by
  unfold k2_pay6
  simp only [shapeCast_self]
  rfl

/-- The block `x'` widened to f32 is that block. -/
theorem k2_pay7_eq (v29 : Vec Ideal S512x256 .bf16) : k2_pay7 (F := Ideal) v29 = v29 := by
  unfold k2_pay7
  simp only [shapeCast_self]
  rfl

/-- The sum `x + y` of the two widened blocks, at any index. -/
theorem k2_pay8_apply (v23 v26 : Vec Ideal S512x256 .bf16) (i : S512x256.Idx) :
    k2_pay8 (F := Ideal) v23 v26 i = v26 i + v23 i := by
  unfold k2_pay8
  rw [k2_pay6_eq]
  simp only [shapeCast_self]
  rfl

/-- The first stored block at `(p, q)`, over the accumulator `v22` and the sum `v32`: the sum plus the accumulator's
    column `q`, times one third. -/
theorem k2_pay9_apply (v22 : FVec Ideal S512x512 .f32) (v32 : FVec Ideal S512x256 .f32) (p : Fin 512) (q : Fin 256) :
    k2_pay9 (F := Ideal) v22 v32 (ix2 p q) = (v32 (ix2 p q) + v22 (ix2 p (colLo q))) * ((1 / 3 : ℝ) : EReal) := by
  unfold k2_pay9
  show (v32 (ix2 p q) + extractStridedSlice S512x256 ![0, 0] v22 slices_S512x512_o0_0_S512x256 (ix2 p q)) * Named.named (F := Ideal) κ "inv_3" (φ := .f32) 0x3EAAAAAB#32 = _
  rw [sliceLo_apply, inv3]

/-- The first stored block at `(p, q)` over the loaded values. -/
theorem k2_pay9_loaded (v0 v2 v4 v6 : Vec Ideal S512x1024 .f32) (v8 v11 v15 v19 : Vec Ideal S1024x512 .bf16)
    (v23 v26 : Vec Ideal S512x256 .bf16) (p : Fin 512) (q : Fin 256) :
    k2_pay9 (F := Ideal) (k2_pay5 v0 v2 v4 v6 v8 v11 v15 v19) (k2_pay8 v23 v26) (ix2 p q)
      = (v26 (ix2 p q) + v23 (ix2 p q)
          + ((∑ k : Fin 1024, v0 (ix2 p k) * v8 (ix2 k (colLo q))) + (∑ k : Fin 1024, v2 (ix2 p k) * v11 (ix2 k (colLo q)))
        + (∑ k : Fin 1024, v4 (ix2 p k) * v15 (ix2 k (colLo q))) + (∑ k : Fin 1024, v6 (ix2 p k) * v19 (ix2 k (colLo q))))) * ((1 / 3 : ℝ) : EReal) := by
  rw [k2_pay9_apply, k2_pay8_apply, k2_pay5_apply]

/-- The second stored block at `(p, q)`, over the accumulator `v22` and the widened blocks `v25`, `v31`: their sum
    plus the accumulator's column `q + 256`, times one third. -/
theorem k2_pay10_apply (v22 : FVec Ideal S512x512 .f32) (v25 v31 : FVec Ideal S512x256 .f32) (p : Fin 512) (q : Fin 256) :
    k2_pay10 (F := Ideal) v22 v25 v31 (ix2 p q)
      = (v31 (ix2 p q) + v25 (ix2 p q) + v22 (ix2 p (colHi q))) * ((1 / 3 : ℝ) : EReal) := by
  unfold k2_pay10
  show (v31 (ix2 p q) + v25 (ix2 p q)
      + extractStridedSlice S512x256 ![0, 256] v22 slices_S512x512_o0_256_S512x256 (ix2 p q)) * Named.named (F := Ideal) κ "inv_3" (φ := .f32) 0x3EAAAAAB#32 = _
  rw [sliceHi_apply, inv3]

/-- The second stored block at `(p, q)` over the loaded values. -/
theorem k2_pay10_loaded (v0 v2 v4 v6 : Vec Ideal S512x1024 .f32) (v8 v11 v15 v19 : Vec Ideal S1024x512 .bf16)
    (v23 v29 : Vec Ideal S512x256 .bf16) (p : Fin 512) (q : Fin 256) :
    k2_pay10 (F := Ideal) (k2_pay5 v0 v2 v4 v6 v8 v11 v15 v19) (k2_pay6 v23) (k2_pay7 v29) (ix2 p q)
      = (v29 (ix2 p q) + v23 (ix2 p q)
          + ((∑ k : Fin 1024, v0 (ix2 p k) * v8 (ix2 k (colHi q))) + (∑ k : Fin 1024, v2 (ix2 p k) * v11 (ix2 k (colHi q)))
        + (∑ k : Fin 1024, v4 (ix2 p k) * v15 (ix2 k (colHi q))) + (∑ k : Fin 1024, v6 (ix2 p k) * v19 (ix2 k (colHi q))))) * ((1 / 3 : ℝ) : EReal) := by
  rw [k2_pay10_apply, k2_pay6_eq, k2_pay7_eq, k2_pay5_apply]

/-! ## The second domain -/

/-- The cast of the fourth adjacency quarter is that quarter. -/
theorem k2_pay11_eq (v50 : Vec Ideal S512x1024 .f32) : k2_pay11 (F := Ideal) v50 = v50 := rfl

/-- The first three quarters' partial sum at `(p, c)`. -/
theorem k2_pay12_apply (v44 v46 v48 : Vec Ideal S512x1024 .f32) (v52 v55 v59 : Vec Ideal S1024x512 .bf16) (p c : Fin 512) :
    k2_pay12 (F := Ideal) v44 v46 v48 v52 v55 v59 (ix2 p c)
      = (∑ k : Fin 1024, v44 (ix2 p k) * v52 (ix2 k c)) + (∑ k : Fin 1024, v46 (ix2 p k) * v55 (ix2 k c))
        + (∑ k : Fin 1024, v48 (ix2 p k) * v59 (ix2 k c)) := by
  unfold k2_pay12
  simp only [shapeCast_self]
  show matmul (F := Ideal) (φ₁ := .bf16) (φ₂ := .bf16) dot_S512x1024_S1024x512_S512x512_1_0_0_1_n_n none v44 v52 (constant S512x512 .f32 0x00000000#32) (ix2 p c)
      + matmul (F := Ideal) (φ₁ := .bf16) (φ₂ := .bf16) dot_S512x1024_S1024x512_S512x512_1_0_0_1_n_n none v46 v55 (constant S512x512 .f32 0x00000000#32) (ix2 p c)
      + matmul (F := Ideal) (φ₁ := .bf16) (φ₂ := .bf16) dot_S512x1024_S1024x512_S512x512_1_0_0_1_n_n none v48 v59 (constant S512x512 .f32 0x00000000#32) (ix2 p c) = _
  rw [mm512_apply, mm512_apply, mm512_apply]

/-- The shape cast of the right-hand side's fourth quarter to its own shape is that quarter. -/
theorem k2_pay13_eq (v63 : Vec Ideal S1024x512 .bf16) : k2_pay13 (F := Ideal) v63 = v63 := by
  unfold k2_pay13
  exact shapeCast_self _ _

/-- The accumulator at `(p, c)`, over the partial sum `v62` and the cast fourth quarter: the partial sum plus the
    fourth quarter's sum of products (into the zero accumulator the body passes). -/
theorem k2_pay1_apply (v51 : FVec Ideal S512x1024 .bf16) (v62 : FVec Ideal S512x512 .f32) (v64 : FVec Ideal S1024x512 .bf16)
    (p c : Fin 512) :
    k2_pay1 (F := Ideal) v51 v62 v64 (constant (F := Ideal) S512x512 .f32 0x00000000#32) (ix2 p c)
      = v62 (ix2 p c) + ∑ k : Fin 1024, v51 (ix2 p k) * v64 (ix2 k c) := by
  unfold k2_pay1
  show v62 (ix2 p c) + matmul dot_S512x1024_S1024x512_S512x512_1_0_0_1_n_n none v51 v64 (constant S512x512 .f32 0x00000000#32) (ix2 p c) = _
  rw [mm512_apply]

/-- The accumulator at `(p, c)` over the loaded values: the four quarters' sums of products, added left to right. -/
theorem k2_pay1_loaded (v44 v46 v48 v50 : Vec Ideal S512x1024 .f32) (v52 v55 v59 v63 : Vec Ideal S1024x512 .bf16) (p c : Fin 512) :
    k2_pay1 (F := Ideal) (k2_pay11 v50) (k2_pay12 v44 v46 v48 v52 v55 v59) (k2_pay13 v63) (constant (F := Ideal) S512x512 .f32 0x00000000#32) (ix2 p c)
      = (∑ k : Fin 1024, v44 (ix2 p k) * v52 (ix2 k c)) + (∑ k : Fin 1024, v46 (ix2 p k) * v55 (ix2 k c))
        + (∑ k : Fin 1024, v48 (ix2 p k) * v59 (ix2 k c)) + (∑ k : Fin 1024, v50 (ix2 p k) * v63 (ix2 k c)) := by
  rw [k2_pay1_apply, k2_pay12_apply, k2_pay13_eq, k2_pay11_eq]

/-- The block `y` widened to f32 is that block. -/
theorem k2_pay2_eq (v67 : Vec Ideal S512x256 .bf16) : k2_pay2 (F := Ideal) v67 = v67 := by
  unfold k2_pay2
  simp only [shapeCast_self]
  rfl

/-- The first stored block at `(p, q)`, over the partial sum and the cast fourth quarter: `x + y` plus the
    accumulator's column `q`, times one third. -/
theorem k2_pay3_apply (v51 : FVec Ideal S512x1024 .bf16) (v62 : FVec Ideal S512x512 .f32) (v64 : FVec Ideal S1024x512 .bf16)
    (v67 v70 : Vec Ideal S512x256 .bf16) (p : Fin 512) (q : Fin 256) :
    k2_pay3 (F := Ideal) v51 v62 v64 (constant (F := Ideal) S512x512 .f32 0x00000000#32) v67 v70 (ix2 p q)
      = (v70 (ix2 p q) + v67 (ix2 p q)
          + (v62 (ix2 p (colLo q)) + ∑ k : Fin 1024, v51 (ix2 p k) * v64 (ix2 k (colLo q)))) * ((1 / 3 : ℝ) : EReal) := by
  unfold k2_pay3
  rw [k2_pay2_eq]
  simp only [shapeCast_self]
  show (v70 (ix2 p q) + v67 (ix2 p q)
      + extractStridedSlice S512x256 ![0, 0] (k2_pay1 (F := Ideal) v51 v62 v64 (constant (F := Ideal) S512x512 .f32 0x00000000#32))
          slices_S512x512_o0_0_S512x256 (ix2 p q)) * Named.named (F := Ideal) κ "inv_3" (φ := .f32) 0x3EAAAAAB#32 = _
  rw [sliceLo_apply, k2_pay1_apply, inv3]

/-- The first stored block at `(p, q)` over the loaded values. -/
theorem k2_pay3_loaded (v44 v46 v48 v50 : Vec Ideal S512x1024 .f32) (v52 v55 v59 v63 : Vec Ideal S1024x512 .bf16)
    (v67 v70 : Vec Ideal S512x256 .bf16) (p : Fin 512) (q : Fin 256) :
    k2_pay3 (F := Ideal) (k2_pay11 v50) (k2_pay12 v44 v46 v48 v52 v55 v59) (k2_pay13 v63) (constant (F := Ideal) S512x512 .f32 0x00000000#32) v67 v70 (ix2 p q)
      = (v70 (ix2 p q) + v67 (ix2 p q)
          + ((∑ k : Fin 1024, v44 (ix2 p k) * v52 (ix2 k (colLo q))) + (∑ k : Fin 1024, v46 (ix2 p k) * v55 (ix2 k (colLo q)))
        + (∑ k : Fin 1024, v48 (ix2 p k) * v59 (ix2 k (colLo q))) + (∑ k : Fin 1024, v50 (ix2 p k) * v63 (ix2 k (colLo q))))) * ((1 / 3 : ℝ) : EReal) := by
  rw [k2_pay3_apply, k2_pay12_apply, k2_pay13_eq, k2_pay11_eq]

/-- The second stored block at `(p, q)`, over the partial sum and the cast fourth quarter: `x' + y` plus the
    accumulator's column `q + 256`, times one third. -/
theorem k2_pay4_apply (v51 : FVec Ideal S512x1024 .bf16) (v62 : FVec Ideal S512x512 .f32) (v64 : FVec Ideal S1024x512 .bf16)
    (v67 v73 : Vec Ideal S512x256 .bf16) (p : Fin 512) (q : Fin 256) :
    k2_pay4 (F := Ideal) v51 v62 v64 (constant (F := Ideal) S512x512 .f32 0x00000000#32) v67 v73 (ix2 p q)
      = (v73 (ix2 p q) + v67 (ix2 p q)
          + (v62 (ix2 p (colHi q)) + ∑ k : Fin 1024, v51 (ix2 p k) * v64 (ix2 k (colHi q)))) * ((1 / 3 : ℝ) : EReal) := by
  unfold k2_pay4
  rw [k2_pay2_eq]
  simp only [shapeCast_self]
  show (v73 (ix2 p q) + v67 (ix2 p q)
      + extractStridedSlice S512x256 ![0, 256] (k2_pay1 (F := Ideal) v51 v62 v64 (constant (F := Ideal) S512x512 .f32 0x00000000#32))
          slices_S512x512_o0_256_S512x256 (ix2 p q)) * Named.named (F := Ideal) κ "inv_3" (φ := .f32) 0x3EAAAAAB#32 = _
  rw [sliceHi_apply, k2_pay1_apply, inv3]

/-- The second stored block at `(p, q)` over the loaded values. -/
theorem k2_pay4_loaded (v44 v46 v48 v50 : Vec Ideal S512x1024 .f32) (v52 v55 v59 v63 : Vec Ideal S1024x512 .bf16)
    (v67 v73 : Vec Ideal S512x256 .bf16) (p : Fin 512) (q : Fin 256) :
    k2_pay4 (F := Ideal) (k2_pay11 v50) (k2_pay12 v44 v46 v48 v52 v55 v59) (k2_pay13 v63) (constant (F := Ideal) S512x512 .f32 0x00000000#32) v67 v73 (ix2 p q)
      = (v73 (ix2 p q) + v67 (ix2 p q)
          + ((∑ k : Fin 1024, v44 (ix2 p k) * v52 (ix2 k (colHi q))) + (∑ k : Fin 1024, v46 (ix2 p k) * v55 (ix2 k (colHi q)))
        + (∑ k : Fin 1024, v48 (ix2 p k) * v59 (ix2 k (colHi q))) + (∑ k : Fin 1024, v50 (ix2 p k) * v63 (ix2 k (colHi q))))) * ((1 / 3 : ℝ) : EReal) := by
  rw [k2_pay4_apply, k2_pay12_apply, k2_pay13_eq, k2_pay11_eq]

end Cert.KernelIdeal.PayValue

end
-- ==== Proof.KI.Stage3Value.lean ====
/-
  Stage 3: the four user-side result arrays after the run, as functions of the arrays the stage finds, at the ideal values.

  Grid point `t` of eight holds rows `512·t … 512·t + 511` of everything that has 4096 rows: the four 1024-column
  quarters of a user-by-item array's row block (quarter `a` holds columns `1024·a … 1024·a + 1023`), the row blocks of a
  user embedding `x` and of stage 1's result `y`, and the output's row block; the pair of stage 2 (4096 × 512) is
  resident whole and read as four 1024-row quarters. The body's stored entry `(p, q)` is

      (x[p,q] + y[p,q] + Σ_a Σ_k a_a[p,k] · w_a[k,c]) · (1/3),     c = q or q + 256,

  the four quarter sums added in order. Read where the blocks sit in their arrays, `a_a[p,k]` is the adjacency array at
  `(512·t + p, 1024·a + k)` and `w_a[k,c]` the resident pair at `(1024·a + k, c)`, so the four sums are the one sum over
  the 4096 contracted coordinates, cut into its quarters: the stored entry is the whole-array function `G` at row
  `512·t + p`. Row `r` lies in point `r / 512`'s block and every point writes its block back, so the blocks cover the
  array and it ends holding `G`.
-/
import proofs.«140658_g7370163880393_cont_sun_c4_438_32_alg».proof.Proof.Spec
import proofs.«140658_g7370163880393_cont_sun_c4_438_32_alg».proof.Proof.KI.Stage3
import proofs.«140658_g7370163880393_cont_sun_c4_438_32_alg».proof.Proof.PayValue2
import proofs.«140658_g7370163880393_cont_sun_c4_438_32_alg».proof.Proof.LibQuarterSum
import Idealize.ShloMosaic.Lib.Pipeline.Value
import Idealize.ShloMosaic.Lib.ValueIdx

noncomputable section

open scoped BigOperators

namespace Cert.KernelIdeal.Stage3Value

open Cert.KernelIdeal Cert.KernelIdeal.Gen Cert.KernelIdeal.Stage3 Cert.KernelIdeal.PayValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem t_lt (t : Fin cfg2.N) : t.val < 8 := lt_of_lt_of_eq t.isLt N_2

/-! ## The index maps, decided over the eight grid points -/

theorem idx_w0 : ∀ t : Fin cfg2.N, win2_0.index t (0 : Fin 2) = t.val ∧ win2_0.index t (1 : Fin 2) = 0 :=
  (by decide +kernel : ∀ t : Fin grid2.N, _)

theorem idx_w1 : ∀ t : Fin cfg2.N, win2_1.index t (0 : Fin 2) = t.val ∧ win2_1.index t (1 : Fin 2) = 1 :=
  (by decide +kernel : ∀ t : Fin grid2.N, _)

theorem idx_w2 : ∀ t : Fin cfg2.N, win2_2.index t (0 : Fin 2) = t.val ∧ win2_2.index t (1 : Fin 2) = 2 :=
  (by decide +kernel : ∀ t : Fin grid2.N, _)

theorem idx_w3 : ∀ t : Fin cfg2.N, win2_3.index t (0 : Fin 2) = t.val ∧ win2_3.index t (1 : Fin 2) = 3 :=
  (by decide +kernel : ∀ t : Fin grid2.N, _)

theorem idx_w4 : ∀ t : Fin cfg2.N, win2_4.index t (0 : Fin 2) = t.val ∧ win2_4.index t (1 : Fin 2) = 0 :=
  (by decide +kernel : ∀ t : Fin grid2.N, _)

theorem idx_w5 : ∀ t : Fin cfg2.N, win2_5.index t (0 : Fin 2) = t.val ∧ win2_5.index t (1 : Fin 2) = 1 :=
  (by decide +kernel : ∀ t : Fin grid2.N, _)

theorem idx_w6 : ∀ t : Fin cfg2.N, win2_6.index t (0 : Fin 2) = t.val ∧ win2_6.index t (1 : Fin 2) = 2 :=
  (by decide +kernel : ∀ t : Fin grid2.N, _)

theorem idx_w7 : ∀ t : Fin cfg2.N, win2_7.index t (0 : Fin 2) = t.val ∧ win2_7.index t (1 : Fin 2) = 3 :=
  (by decide +kernel : ∀ t : Fin grid2.N, _)

theorem idx_w8 : ∀ t : Fin cfg2.N, win2_8.index t (0 : Fin 2) = 0 ∧ win2_8.index t (1 : Fin 2) = 0 :=
  (by decide +kernel : ∀ t : Fin grid2.N, _)

theorem idx_w9 : ∀ t : Fin cfg2.N, win2_9.index t (0 : Fin 2) = t.val ∧ win2_9.index t (1 : Fin 2) = 0 :=
  (by decide +kernel : ∀ t : Fin grid2.N, _)

theorem idx_w10 : ∀ t : Fin cfg2.N, win2_10.index t (0 : Fin 2) = t.val ∧ win2_10.index t (1 : Fin 2) = 0 :=
  (by decide +kernel : ∀ t : Fin grid2.N, _)

theorem idx_w11 : ∀ t : Fin cfg2.N, win2_11.index t (0 : Fin 2) = t.val ∧ win2_11.index t (1 : Fin 2) = 0 :=
  (by decide +kernel : ∀ t : Fin grid2.N, _)

theorem idx_w12 : ∀ t : Fin cfg2.N, win2_12.index t (0 : Fin 2) = 0 ∧ win2_12.index t (1 : Fin 2) = 0 :=
  (by decide +kernel : ∀ t : Fin grid2.N, _)

theorem idx_w13 : ∀ t : Fin cfg2.N, win2_13.index t (0 : Fin 2) = t.val ∧ win2_13.index t (1 : Fin 2) = 0 :=
  (by decide +kernel : ∀ t : Fin grid2.N, _)

theorem idx_w14 : ∀ t : Fin cfg2.N, win2_14.index t (0 : Fin 2) = t.val ∧ win2_14.index t (1 : Fin 2) = 0 :=
  (by decide +kernel : ∀ t : Fin grid2.N, _)

theorem idx_w15 : ∀ t : Fin cfg2.N, win2_15.index t (0 : Fin 2) = t.val ∧ win2_15.index t (1 : Fin 2) = 0 :=
  (by decide +kernel : ∀ t : Fin grid2.N, _)

theorem idx_w16 : ∀ t : Fin cfg2.N, win2_16.index t (0 : Fin 2) = t.val ∧ win2_16.index t (1 : Fin 2) = 0 :=
  (by decide +kernel : ∀ t : Fin grid2.N, _)

theorem idx_w17 : ∀ t : Fin cfg2.N, win2_17.index t (0 : Fin 2) = t.val ∧ win2_17.index t (1 : Fin 2) = 0 :=
  (by decide +kernel : ∀ t : Fin grid2.N, _)

theorem idx_w18 : ∀ t : Fin cfg2.N, win2_18.index t (0 : Fin 2) = t.val ∧ win2_18.index t (1 : Fin 2) = 0 :=
  (by decide +kernel : ∀ t : Fin grid2.N, _)

theorem idx_w19 : ∀ t : Fin cfg2.N, win2_19.index t (0 : Fin 2) = t.val ∧ win2_19.index t (1 : Fin 2) = 0 :=
  (by decide +kernel : ∀ t : Fin grid2.N, _)

/-! ## Each input block as entries of its array -/

/-- Window 0's block at point `t`, at `(p, k)`: the array's row `512·t + p`, column `0 + k`. -/
theorem iblk0_apply (c : Dev nD) (t : Fin cfg2.N) (p : Fin 512) (k : Fin 1024) (r j : Fin 4096)
    (hr : r.val = 512 * t.val + p.val) (hj : j.val = 0 + k.val) :
    (iblk V c 0 t : Vec Ideal S512x1024 .f32) (ix2 p k) = (V c main_arg0 : S4096x4096.Idx → EReal) (ix2 r j) := by
  obtain ⟨h0, h1⟩ := idx_w0 t
  unfold iblk
  rw [View.read_apply]
  show (V c main_arg0 : S4096x4096.Idx → EReal) _ = _
  refine congrArg (V c main_arg0 : S4096x4096.Idx → EReal) (funext fun a => Fin.ext ?_)
  match a with
  | ⟨0, _⟩ => show win2_0.index t (0 : Fin 2) * 512 + 1 * p.val = r.val; rw [h0, hr]; omega
  | ⟨1, _⟩ => show win2_0.index t (1 : Fin 2) * 1024 + 1 * k.val = j.val; rw [h1, hj]; omega

/-- Window 1's block at point `t`, at `(p, k)`: the array's row `512·t + p`, column `1024 + k`. -/
theorem iblk1_apply (c : Dev nD) (t : Fin cfg2.N) (p : Fin 512) (k : Fin 1024) (r j : Fin 4096)
    (hr : r.val = 512 * t.val + p.val) (hj : j.val = 1024 + k.val) :
    (iblk V c 1 t : Vec Ideal S512x1024 .f32) (ix2 p k) = (V c main_arg0 : S4096x4096.Idx → EReal) (ix2 r j) := by
  obtain ⟨h0, h1⟩ := idx_w1 t
  unfold iblk
  rw [View.read_apply]
  show (V c main_arg0 : S4096x4096.Idx → EReal) _ = _
  refine congrArg (V c main_arg0 : S4096x4096.Idx → EReal) (funext fun a => Fin.ext ?_)
  match a with
  | ⟨0, _⟩ => show win2_1.index t (0 : Fin 2) * 512 + 1 * p.val = r.val; rw [h0, hr]; omega
  | ⟨1, _⟩ => show win2_1.index t (1 : Fin 2) * 1024 + 1 * k.val = j.val; rw [h1, hj]; omega

/-- Window 2's block at point `t`, at `(p, k)`: the array's row `512·t + p`, column `2048 + k`. -/
theorem iblk2_apply (c : Dev nD) (t : Fin cfg2.N) (p : Fin 512) (k : Fin 1024) (r j : Fin 4096)
    (hr : r.val = 512 * t.val + p.val) (hj : j.val = 2048 + k.val) :
    (iblk V c 2 t : Vec Ideal S512x1024 .f32) (ix2 p k) = (V c main_arg0 : S4096x4096.Idx → EReal) (ix2 r j) := by
  obtain ⟨h0, h1⟩ := idx_w2 t
  unfold iblk
  rw [View.read_apply]
  show (V c main_arg0 : S4096x4096.Idx → EReal) _ = _
  refine congrArg (V c main_arg0 : S4096x4096.Idx → EReal) (funext fun a => Fin.ext ?_)
  match a with
  | ⟨0, _⟩ => show win2_2.index t (0 : Fin 2) * 512 + 1 * p.val = r.val; rw [h0, hr]; omega
  | ⟨1, _⟩ => show win2_2.index t (1 : Fin 2) * 1024 + 1 * k.val = j.val; rw [h1, hj]; omega

/-- Window 3's block at point `t`, at `(p, k)`: the array's row `512·t + p`, column `3072 + k`. -/
theorem iblk3_apply (c : Dev nD) (t : Fin cfg2.N) (p : Fin 512) (k : Fin 1024) (r j : Fin 4096)
    (hr : r.val = 512 * t.val + p.val) (hj : j.val = 3072 + k.val) :
    (iblk V c 3 t : Vec Ideal S512x1024 .f32) (ix2 p k) = (V c main_arg0 : S4096x4096.Idx → EReal) (ix2 r j) := by
  obtain ⟨h0, h1⟩ := idx_w3 t
  unfold iblk
  rw [View.read_apply]
  show (V c main_arg0 : S4096x4096.Idx → EReal) _ = _
  refine congrArg (V c main_arg0 : S4096x4096.Idx → EReal) (funext fun a => Fin.ext ?_)
  match a with
  | ⟨0, _⟩ => show win2_3.index t (0 : Fin 2) * 512 + 1 * p.val = r.val; rw [h0, hr]; omega
  | ⟨1, _⟩ => show win2_3.index t (1 : Fin 2) * 1024 + 1 * k.val = j.val; rw [h1, hj]; omega

/-- Window 4's block at point `t`, at `(p, k)`: the array's row `512·t + p`, column `0 + k`. -/
theorem iblk4_apply (c : Dev nD) (t : Fin cfg2.N) (p : Fin 512) (k : Fin 1024) (r j : Fin 4096)
    (hr : r.val = 512 * t.val + p.val) (hj : j.val = 0 + k.val) :
    (iblk V c 4 t : Vec Ideal S512x1024 .f32) (ix2 p k) = (V c main_arg2 : S4096x4096.Idx → EReal) (ix2 r j) := by
  obtain ⟨h0, h1⟩ := idx_w4 t
  unfold iblk
  rw [View.read_apply]
  show (V c main_arg2 : S4096x4096.Idx → EReal) _ = _
  refine congrArg (V c main_arg2 : S4096x4096.Idx → EReal) (funext fun a => Fin.ext ?_)
  match a with
  | ⟨0, _⟩ => show win2_4.index t (0 : Fin 2) * 512 + 1 * p.val = r.val; rw [h0, hr]; omega
  | ⟨1, _⟩ => show win2_4.index t (1 : Fin 2) * 1024 + 1 * k.val = j.val; rw [h1, hj]; omega

/-- Window 5's block at point `t`, at `(p, k)`: the array's row `512·t + p`, column `1024 + k`. -/
theorem iblk5_apply (c : Dev nD) (t : Fin cfg2.N) (p : Fin 512) (k : Fin 1024) (r j : Fin 4096)
    (hr : r.val = 512 * t.val + p.val) (hj : j.val = 1024 + k.val) :
    (iblk V c 5 t : Vec Ideal S512x1024 .f32) (ix2 p k) = (V c main_arg2 : S4096x4096.Idx → EReal) (ix2 r j) := by
  obtain ⟨h0, h1⟩ := idx_w5 t
  unfold iblk
  rw [View.read_apply]
  show (V c main_arg2 : S4096x4096.Idx → EReal) _ = _
  refine congrArg (V c main_arg2 : S4096x4096.Idx → EReal) (funext fun a => Fin.ext ?_)
  match a with
  | ⟨0, _⟩ => show win2_5.index t (0 : Fin 2) * 512 + 1 * p.val = r.val; rw [h0, hr]; omega
  | ⟨1, _⟩ => show win2_5.index t (1 : Fin 2) * 1024 + 1 * k.val = j.val; rw [h1, hj]; omega

/-- Window 6's block at point `t`, at `(p, k)`: the array's row `512·t + p`, column `2048 + k`. -/
theorem iblk6_apply (c : Dev nD) (t : Fin cfg2.N) (p : Fin 512) (k : Fin 1024) (r j : Fin 4096)
    (hr : r.val = 512 * t.val + p.val) (hj : j.val = 2048 + k.val) :
    (iblk V c 6 t : Vec Ideal S512x1024 .f32) (ix2 p k) = (V c main_arg2 : S4096x4096.Idx → EReal) (ix2 r j) := by
  obtain ⟨h0, h1⟩ := idx_w6 t
  unfold iblk
  rw [View.read_apply]
  show (V c main_arg2 : S4096x4096.Idx → EReal) _ = _
  refine congrArg (V c main_arg2 : S4096x4096.Idx → EReal) (funext fun a => Fin.ext ?_)
  match a with
  | ⟨0, _⟩ => show win2_6.index t (0 : Fin 2) * 512 + 1 * p.val = r.val; rw [h0, hr]; omega
  | ⟨1, _⟩ => show win2_6.index t (1 : Fin 2) * 1024 + 1 * k.val = j.val; rw [h1, hj]; omega

/-- Window 7's block at point `t`, at `(p, k)`: the array's row `512·t + p`, column `3072 + k`. -/
theorem iblk7_apply (c : Dev nD) (t : Fin cfg2.N) (p : Fin 512) (k : Fin 1024) (r j : Fin 4096)
    (hr : r.val = 512 * t.val + p.val) (hj : j.val = 3072 + k.val) :
    (iblk V c 7 t : Vec Ideal S512x1024 .f32) (ix2 p k) = (V c main_arg2 : S4096x4096.Idx → EReal) (ix2 r j) := by
  obtain ⟨h0, h1⟩ := idx_w7 t
  unfold iblk
  rw [View.read_apply]
  show (V c main_arg2 : S4096x4096.Idx → EReal) _ = _
  refine congrArg (V c main_arg2 : S4096x4096.Idx → EReal) (funext fun a => Fin.ext ?_)
  match a with
  | ⟨0, _⟩ => show win2_7.index t (0 : Fin 2) * 512 + 1 * p.val = r.val; rw [h0, hr]; omega
  | ⟨1, _⟩ => show win2_7.index t (1 : Fin 2) * 1024 + 1 * k.val = j.val; rw [h1, hj]; omega

/-- Window 9's block at point `t`, at `(p, q)`: the array's row `512·t + p`, column `q`. -/
theorem iblk9_apply (c : Dev nD) (t : Fin cfg2.N) (p : Fin 512) (q : Fin 256) (r : Fin 4096)
    (hr : r.val = 512 * t.val + p.val) :
    (iblk V c 9 t : Vec Ideal S512x256 .bf16) (ix2 p q) = (V c main_v0 : S4096x256.Idx → EReal) (ix2 r q) := by
  obtain ⟨h0, h1⟩ := idx_w9 t
  unfold iblk
  rw [View.read_apply]
  show (V c main_v0 : S4096x256.Idx → EReal) _ = _
  refine congrArg (V c main_v0 : S4096x256.Idx → EReal) (funext fun a => Fin.ext ?_)
  match a with
  | ⟨0, _⟩ => show win2_9.index t (0 : Fin 2) * 512 + 1 * p.val = r.val; rw [h0, hr]; omega
  | ⟨1, _⟩ => show win2_9.index t (1 : Fin 2) * 256 + 1 * q.val = q.val; rw [h1]; omega

/-- Window 10's block at point `t`, at `(p, q)`: the array's row `512·t + p`, column `q`. -/
theorem iblk10_apply (c : Dev nD) (t : Fin cfg2.N) (p : Fin 512) (q : Fin 256) (r : Fin 4096)
    (hr : r.val = 512 * t.val + p.val) :
    (iblk V c 10 t : Vec Ideal S512x256 .bf16) (ix2 p q) = (V c main_v1 : S4096x256.Idx → EReal) (ix2 r q) := by
  obtain ⟨h0, h1⟩ := idx_w10 t
  unfold iblk
  rw [View.read_apply]
  show (V c main_v1 : S4096x256.Idx → EReal) _ = _
  refine congrArg (V c main_v1 : S4096x256.Idx → EReal) (funext fun a => Fin.ext ?_)
  match a with
  | ⟨0, _⟩ => show win2_10.index t (0 : Fin 2) * 512 + 1 * p.val = r.val; rw [h0, hr]; omega
  | ⟨1, _⟩ => show win2_10.index t (1 : Fin 2) * 256 + 1 * q.val = q.val; rw [h1]; omega

/-- Window 11's block at point `t`, at `(p, q)`: the array's row `512·t + p`, column `q`. -/
theorem iblk11_apply (c : Dev nD) (t : Fin cfg2.N) (p : Fin 512) (q : Fin 256) (r : Fin 4096)
    (hr : r.val = 512 * t.val + p.val) :
    (iblk V c 11 t : Vec Ideal S512x256 .bf16) (ix2 p q) = (V c main_v4_0 : S4096x256.Idx → EReal) (ix2 r q) := by
  obtain ⟨h0, h1⟩ := idx_w11 t
  unfold iblk
  rw [View.read_apply]
  show (V c main_v4_0 : S4096x256.Idx → EReal) _ = _
  refine congrArg (V c main_v4_0 : S4096x256.Idx → EReal) (funext fun a => Fin.ext ?_)
  match a with
  | ⟨0, _⟩ => show win2_11.index t (0 : Fin 2) * 512 + 1 * p.val = r.val; rw [h0, hr]; omega
  | ⟨1, _⟩ => show win2_11.index t (1 : Fin 2) * 256 + 1 * q.val = q.val; rw [h1]; omega

/-- Window 13's block at point `t`, at `(p, q)`: the array's row `512·t + p`, column `q`. -/
theorem iblk13_apply (c : Dev nD) (t : Fin cfg2.N) (p : Fin 512) (q : Fin 256) (r : Fin 4096)
    (hr : r.val = 512 * t.val + p.val) :
    (iblk V c 13 t : Vec Ideal S512x256 .bf16) (ix2 p q) = (V c main_v2 : S4096x256.Idx → EReal) (ix2 r q) := by
  obtain ⟨h0, h1⟩ := idx_w13 t
  unfold iblk
  rw [View.read_apply]
  show (V c main_v2 : S4096x256.Idx → EReal) _ = _
  refine congrArg (V c main_v2 : S4096x256.Idx → EReal) (funext fun a => Fin.ext ?_)
  match a with
  | ⟨0, _⟩ => show win2_13.index t (0 : Fin 2) * 512 + 1 * p.val = r.val; rw [h0, hr]; omega
  | ⟨1, _⟩ => show win2_13.index t (1 : Fin 2) * 256 + 1 * q.val = q.val; rw [h1]; omega

/-- Window 14's block at point `t`, at `(p, q)`: the array's row `512·t + p`, column `q`. -/
theorem iblk14_apply (c : Dev nD) (t : Fin cfg2.N) (p : Fin 512) (q : Fin 256) (r : Fin 4096)
    (hr : r.val = 512 * t.val + p.val) :
    (iblk V c 14 t : Vec Ideal S512x256 .bf16) (ix2 p q) = (V c main_v3 : S4096x256.Idx → EReal) (ix2 r q) := by
  obtain ⟨h0, h1⟩ := idx_w14 t
  unfold iblk
  rw [View.read_apply]
  show (V c main_v3 : S4096x256.Idx → EReal) _ = _
  refine congrArg (V c main_v3 : S4096x256.Idx → EReal) (funext fun a => Fin.ext ?_)
  match a with
  | ⟨0, _⟩ => show win2_14.index t (0 : Fin 2) * 512 + 1 * p.val = r.val; rw [h0, hr]; omega
  | ⟨1, _⟩ => show win2_14.index t (1 : Fin 2) * 256 + 1 * q.val = q.val; rw [h1]; omega

/-- Window 15's block at point `t`, at `(p, q)`: the array's row `512·t + p`, column `q`. -/
theorem iblk15_apply (c : Dev nD) (t : Fin cfg2.N) (p : Fin 512) (q : Fin 256) (r : Fin 4096)
    (hr : r.val = 512 * t.val + p.val) :
    (iblk V c 15 t : Vec Ideal S512x256 .bf16) (ix2 p q) = (V c main_v4_1 : S4096x256.Idx → EReal) (ix2 r q) := by
  obtain ⟨h0, h1⟩ := idx_w15 t
  unfold iblk
  rw [View.read_apply]
  show (V c main_v4_1 : S4096x256.Idx → EReal) _ = _
  refine congrArg (V c main_v4_1 : S4096x256.Idx → EReal) (funext fun a => Fin.ext ?_)
  match a with
  | ⟨0, _⟩ => show win2_15.index t (0 : Fin 2) * 512 + 1 * p.val = r.val; rw [h0, hr]; omega
  | ⟨1, _⟩ => show win2_15.index t (1 : Fin 2) * 256 + 1 * q.val = q.val; rw [h1]; omega

/-- Rows `0 … 1023` of the resident right-hand side (window 8) as the body loads them, at `(k, cc)`: the
    array's row `0 + k`, column `cc`. -/
theorem ld8_0_apply (c : Dev nD) (t : Fin cfg2.N) (k : Fin 1024) (cc : Fin 512) (j : Fin 4096) (hj : j.val = 0 + k.val) :
    View.ld (iblk V c 8 t : Vec Ideal S4096x512 .bf16) rC0 (ix2 k cc) = (V c main_v5_0 : S4096x512.Idx → EReal) (ix2 j cc) := by
  obtain ⟨h0, h1⟩ := idx_w8 t
  show (iblk V c 8 t : Vec Ideal S4096x512 .bf16) (rC0.idx (ix2 k cc)) = _
  unfold iblk
  rw [View.read_apply]
  show (V c main_v5_0 : S4096x512.Idx → EReal) _ = _
  refine congrArg (V c main_v5_0 : S4096x512.Idx → EReal) (funext fun ax => Fin.ext ?_)
  match ax with
  | ⟨0, _⟩ => show win2_8.index t (0 : Fin 2) * 4096 + 1 * (0 + 1 * k.val) = j.val; rw [h0, hj]; omega
  | ⟨1, _⟩ => show win2_8.index t (1 : Fin 2) * 512 + 1 * (0 + 1 * cc.val) = cc.val; rw [h1]; omega

/-- Rows `1024 … 2047` of the resident right-hand side (window 8) as the body loads them, at `(k, cc)`: the
    array's row `1024 + k`, column `cc`. -/
theorem ld8_1_apply (c : Dev nD) (t : Fin cfg2.N) (k : Fin 1024) (cc : Fin 512) (j : Fin 4096) (hj : j.val = 1024 + k.val) :
    View.ld (iblk V c 8 t : Vec Ideal S4096x512 .bf16) rC1 (ix2 k cc) = (V c main_v5_0 : S4096x512.Idx → EReal) (ix2 j cc) := by
  obtain ⟨h0, h1⟩ := idx_w8 t
  show (iblk V c 8 t : Vec Ideal S4096x512 .bf16) (rC1.idx (ix2 k cc)) = _
  unfold iblk
  rw [View.read_apply]
  show (V c main_v5_0 : S4096x512.Idx → EReal) _ = _
  refine congrArg (V c main_v5_0 : S4096x512.Idx → EReal) (funext fun ax => Fin.ext ?_)
  match ax with
  | ⟨0, _⟩ => show win2_8.index t (0 : Fin 2) * 4096 + 1 * (1024 + 1 * k.val) = j.val; rw [h0, hj]; omega
  | ⟨1, _⟩ => show win2_8.index t (1 : Fin 2) * 512 + 1 * (0 + 1 * cc.val) = cc.val; rw [h1]; omega

/-- Rows `2048 … 3071` of the resident right-hand side (window 8) as the body loads them, at `(k, cc)`: the
    array's row `2048 + k`, column `cc`. -/
theorem ld8_2_apply (c : Dev nD) (t : Fin cfg2.N) (k : Fin 1024) (cc : Fin 512) (j : Fin 4096) (hj : j.val = 2048 + k.val) :
    View.ld (iblk V c 8 t : Vec Ideal S4096x512 .bf16) rC2 (ix2 k cc) = (V c main_v5_0 : S4096x512.Idx → EReal) (ix2 j cc) := by
  obtain ⟨h0, h1⟩ := idx_w8 t
  show (iblk V c 8 t : Vec Ideal S4096x512 .bf16) (rC2.idx (ix2 k cc)) = _
  unfold iblk
  rw [View.read_apply]
  show (V c main_v5_0 : S4096x512.Idx → EReal) _ = _
  refine congrArg (V c main_v5_0 : S4096x512.Idx → EReal) (funext fun ax => Fin.ext ?_)
  match ax with
  | ⟨0, _⟩ => show win2_8.index t (0 : Fin 2) * 4096 + 1 * (2048 + 1 * k.val) = j.val; rw [h0, hj]; omega
  | ⟨1, _⟩ => show win2_8.index t (1 : Fin 2) * 512 + 1 * (0 + 1 * cc.val) = cc.val; rw [h1]; omega

/-- Rows `3072 … 4095` of the resident right-hand side (window 8) as the body loads them, at `(k, cc)`: the
    array's row `3072 + k`, column `cc`. -/
theorem ld8_3_apply (c : Dev nD) (t : Fin cfg2.N) (k : Fin 1024) (cc : Fin 512) (j : Fin 4096) (hj : j.val = 3072 + k.val) :
    View.ld (iblk V c 8 t : Vec Ideal S4096x512 .bf16) rC3 (ix2 k cc) = (V c main_v5_0 : S4096x512.Idx → EReal) (ix2 j cc) := by
  obtain ⟨h0, h1⟩ := idx_w8 t
  show (iblk V c 8 t : Vec Ideal S4096x512 .bf16) (rC3.idx (ix2 k cc)) = _
  unfold iblk
  rw [View.read_apply]
  show (V c main_v5_0 : S4096x512.Idx → EReal) _ = _
  refine congrArg (V c main_v5_0 : S4096x512.Idx → EReal) (funext fun ax => Fin.ext ?_)
  match ax with
  | ⟨0, _⟩ => show win2_8.index t (0 : Fin 2) * 4096 + 1 * (3072 + 1 * k.val) = j.val; rw [h0, hj]; omega
  | ⟨1, _⟩ => show win2_8.index t (1 : Fin 2) * 512 + 1 * (0 + 1 * cc.val) = cc.val; rw [h1]; omega

/-- Rows `0 … 1023` of the resident right-hand side (window 12) as the body loads them, at `(k, cc)`: the
    array's row `0 + k`, column `cc`. -/
theorem ld12_0_apply (c : Dev nD) (t : Fin cfg2.N) (k : Fin 1024) (cc : Fin 512) (j : Fin 4096) (hj : j.val = 0 + k.val) :
    View.ld (iblk V c 12 t : Vec Ideal S4096x512 .bf16) rC0 (ix2 k cc) = (V c main_v5_2 : S4096x512.Idx → EReal) (ix2 j cc) := by
  obtain ⟨h0, h1⟩ := idx_w12 t
  show (iblk V c 12 t : Vec Ideal S4096x512 .bf16) (rC0.idx (ix2 k cc)) = _
  unfold iblk
  rw [View.read_apply]
  show (V c main_v5_2 : S4096x512.Idx → EReal) _ = _
  refine congrArg (V c main_v5_2 : S4096x512.Idx → EReal) (funext fun ax => Fin.ext ?_)
  match ax with
  | ⟨0, _⟩ => show win2_12.index t (0 : Fin 2) * 4096 + 1 * (0 + 1 * k.val) = j.val; rw [h0, hj]; omega
  | ⟨1, _⟩ => show win2_12.index t (1 : Fin 2) * 512 + 1 * (0 + 1 * cc.val) = cc.val; rw [h1]; omega

/-- Rows `1024 … 2047` of the resident right-hand side (window 12) as the body loads them, at `(k, cc)`: the
    array's row `1024 + k`, column `cc`. -/
theorem ld12_1_apply (c : Dev nD) (t : Fin cfg2.N) (k : Fin 1024) (cc : Fin 512) (j : Fin 4096) (hj : j.val = 1024 + k.val) :
    View.ld (iblk V c 12 t : Vec Ideal S4096x512 .bf16) rC1 (ix2 k cc) = (V c main_v5_2 : S4096x512.Idx → EReal) (ix2 j cc) := by
  obtain ⟨h0, h1⟩ := idx_w12 t
  show (iblk V c 12 t : Vec Ideal S4096x512 .bf16) (rC1.idx (ix2 k cc)) = _
  unfold iblk
  rw [View.read_apply]
  show (V c main_v5_2 : S4096x512.Idx → EReal) _ = _
  refine congrArg (V c main_v5_2 : S4096x512.Idx → EReal) (funext fun ax => Fin.ext ?_)
  match ax with
  | ⟨0, _⟩ => show win2_12.index t (0 : Fin 2) * 4096 + 1 * (1024 + 1 * k.val) = j.val; rw [h0, hj]; omega
  | ⟨1, _⟩ => show win2_12.index t (1 : Fin 2) * 512 + 1 * (0 + 1 * cc.val) = cc.val; rw [h1]; omega

/-- Rows `2048 … 3071` of the resident right-hand side (window 12) as the body loads them, at `(k, cc)`: the
    array's row `2048 + k`, column `cc`. -/
theorem ld12_2_apply (c : Dev nD) (t : Fin cfg2.N) (k : Fin 1024) (cc : Fin 512) (j : Fin 4096) (hj : j.val = 2048 + k.val) :
    View.ld (iblk V c 12 t : Vec Ideal S4096x512 .bf16) rC2 (ix2 k cc) = (V c main_v5_2 : S4096x512.Idx → EReal) (ix2 j cc) := by
  obtain ⟨h0, h1⟩ := idx_w12 t
  show (iblk V c 12 t : Vec Ideal S4096x512 .bf16) (rC2.idx (ix2 k cc)) = _
  unfold iblk
  rw [View.read_apply]
  show (V c main_v5_2 : S4096x512.Idx → EReal) _ = _
  refine congrArg (V c main_v5_2 : S4096x512.Idx → EReal) (funext fun ax => Fin.ext ?_)
  match ax with
  | ⟨0, _⟩ => show win2_12.index t (0 : Fin 2) * 4096 + 1 * (2048 + 1 * k.val) = j.val; rw [h0, hj]; omega
  | ⟨1, _⟩ => show win2_12.index t (1 : Fin 2) * 512 + 1 * (0 + 1 * cc.val) = cc.val; rw [h1]; omega

/-- Rows `3072 … 4095` of the resident right-hand side (window 12) as the body loads them, at `(k, cc)`: the
    array's row `3072 + k`, column `cc`. -/
theorem ld12_3_apply (c : Dev nD) (t : Fin cfg2.N) (k : Fin 1024) (cc : Fin 512) (j : Fin 4096) (hj : j.val = 3072 + k.val) :
    View.ld (iblk V c 12 t : Vec Ideal S4096x512 .bf16) rC3 (ix2 k cc) = (V c main_v5_2 : S4096x512.Idx → EReal) (ix2 j cc) := by
  obtain ⟨h0, h1⟩ := idx_w12 t
  show (iblk V c 12 t : Vec Ideal S4096x512 .bf16) (rC3.idx (ix2 k cc)) = _
  unfold iblk
  rw [View.read_apply]
  show (V c main_v5_2 : S4096x512.Idx → EReal) _ = _
  refine congrArg (V c main_v5_2 : S4096x512.Idx → EReal) (funext fun ax => Fin.ext ?_)
  match ax with
  | ⟨0, _⟩ => show win2_12.index t (0 : Fin 2) * 4096 + 1 * (3072 + 1 * k.val) = j.val; rw [h0, hj]; omega
  | ⟨1, _⟩ => show win2_12.index t (1 : Fin 2) * 512 + 1 * (0 + 1 * cc.val) = cc.val; rw [h1]; omega

/-! ## Output window 16 -/

/-- What the window's array ends holding: at `(p, q)`, the row block's embedding entry plus stage 1's entry plus the
    product of the adjacency array's row `p` with column `q` of the resident pair, times one third. -/
abbrev G16 (c : Dev nD) : S4096x256.Idx → EReal :=
  Cert.Spec.ofEntries (fun p q =>
      (Cert.Spec.entries (V c main_v0 : S4096x256.Idx → EReal) p q + Cert.Spec.entries (V c main_v4_0 : S4096x256.Idx → EReal) p q
        + Cert.Spec.mmE (Cert.Spec.entries (V c main_arg0 : S4096x4096.Idx → EReal))
            (fun j q' => Cert.Spec.entries (V c main_v5_0 : S4096x512.Idx → EReal) j (colLo q')) p q) * ((1 / 3 : ℝ) : EReal))

/-- What point `t` writes back is block `t` of `G16`: the body's stored entry `(p, q)` reads each input block where
    the output's row `512·t + p` says, and the four quarters' sums are the sum over all 4096 columns cut in four. -/
theorem flushed16_eq (c : Dev nD) (t : Fin cfg2.N) :
    (dat (F := Ideal) V c).flushed 16 t = ((cfg2.win 16).blk t).view.read (Elt Ideal) (G16 V c) := by
  show (cfg2.win 16).cut (grid2.coords t) ((dat (F := Ideal) V c).after 16 t) = _
  rw [Stage3.after_16]
  unfold outUs
  rw [View.canon_unit_zero hz]
  simp only [View.ld_unit_zero (S := S512x1024) hz, View.ld_unit_zero (S := S512x256) hz]
  funext j
  obtain ⟨p, q, rfl⟩ : ∃ (p : Fin 512) (q : Fin 256), j = ix2 p q := ⟨j 0, j 1, eq_ix2 j⟩
  have ht := t_lt t
  obtain ⟨r, hr⟩ : ∃ r : Fin 4096, r.val = 512 * t.val + p.val := ⟨⟨512 * t.val + p.val, by omega⟩, rfl⟩
  obtain ⟨g0, g1⟩ := idx_w16 t
  have hemb : ((cfg2.win 16).blk t).view.emb (ix2 p q) = (ix2 r q : S4096x256.Idx) := funext fun a => Fin.ext (by
    match a with
    | ⟨0, _⟩ => show win2_16.index t (0 : Fin 2) * 512 + 1 * p.val = r.val; rw [g0, hr]; omega
    | ⟨1, _⟩ => show win2_16.index t (1 : Fin 2) * 256 + 1 * q.val = q.val; rw [g1]; omega)
  refine (k2_pay9_loaded _ _ _ _ _ _ _ _ _ _ p q).trans ?_
  show _ = G16 V c (((cfg2.win 16).blk t).view.emb (ix2 p q))
  rw [hemb]
  show _ = (Cert.Spec.entries (V c main_v0 : S4096x256.Idx → EReal) r q + Cert.Spec.entries (V c main_v4_0 : S4096x256.Idx → EReal) r q
      + ∑ j : Fin 4096, Cert.Spec.entries (V c main_arg0 : S4096x4096.Idx → EReal) r j
          * Cert.Spec.entries (V c main_v5_0 : S4096x512.Idx → EReal) j (colLo q)) * ((1 / 3 : ℝ) : EReal)
  rw [Cert.LibQuarterSum.sum_4096]
  refine congrArg (· * ((1 / 3 : ℝ) : EReal)) ?_
  refine congrArg₂ (· + ·) (congrArg₂ (· + ·) (iblk9_apply V c t p q r hr) (iblk11_apply V c t p q r hr)) ?_
  refine congrArg₂ (· + ·) (congrArg₂ (· + ·) (congrArg₂ (· + ·) ?_ ?_) ?_) ?_
  · exact Finset.sum_congr rfl fun k _ => congrArg₂ (· * ·) (iblk0_apply V c t p k r _ hr (by simp)) (ld8_0_apply V c t k (colLo q) _ (by simp))
  · exact Finset.sum_congr rfl fun k _ => congrArg₂ (· * ·) (iblk1_apply V c t p k r _ hr rfl) (ld8_1_apply V c t k (colLo q) _ rfl)
  · exact Finset.sum_congr rfl fun k _ => congrArg₂ (· * ·) (iblk2_apply V c t p k r _ hr rfl) (ld8_2_apply V c t k (colLo q) _ rfl)
  · exact Finset.sum_congr rfl fun k _ => congrArg₂ (· * ·) (iblk3_apply V c t p k r _ hr rfl) (ld8_3_apply V c t k (colLo q) _ rfl)

/-- Every row of the array is in some point's block: row `r` in point `r / 512`'s. -/
theorem cover16 (i : S4096x256.Idx) :
    ∃ t : Fin cfg2.N, (cfg2.win 16).flush t = true ∧ i ∈ ((cfg2.win 16).blk t).view.set := by
  have hi0 : (i 0).val < 4096 := (i 0).isLt
  have hi1 : (i 1).val < 256 := (i 1).isLt
  obtain ⟨t, htv⟩ : ∃ t : Fin cfg2.N, t.val = (i 0).val / 512 :=
    ⟨⟨(i 0).val / 512, lt_of_lt_of_eq (by omega : (i 0).val / 512 < 8) N_2.symm⟩, rfl⟩
  obtain ⟨g0, g1⟩ := idx_w16 t
  refine ⟨t, flush2_16 t, ?_⟩
  show i ∈ ((View.whole main_v6_0).slice (win2_16.rect t)).set
  rw [View.set_slice_whole, Rect.mem_set_unit]
  intro a
  match a with
  | ⟨0, _⟩ =>
    show win2_16.index t (0 : Fin 2) * 512 ≤ (i 0).val ∧ (i 0).val < win2_16.index t (0 : Fin 2) * 512 + 512
    rw [g0, htv]; omega
  | ⟨1, _⟩ =>
    show win2_16.index t (1 : Fin 2) * 256 ≤ (i 1).val ∧ (i 1).val < win2_16.index t (1 : Fin 2) * 256 + 256
    rw [g1]; omega

/-- The array after the run. -/
theorem final16 (c : Dev nD) : (dat (F := Ideal) V c).arrAt 16 cfg2.N
    = Cert.Spec.ofEntries (fun p q =>
      (Cert.Spec.entries (V c main_v0 : S4096x256.Idx → EReal) p q + Cert.Spec.entries (V c main_v4_0 : S4096x256.Idx → EReal) p q
        + Cert.Spec.mmE (Cert.Spec.entries (V c main_arg0 : S4096x4096.Idx → EReal))
            (fun j q' => Cert.Spec.entries (V c main_v5_0 : S4096x512.Idx → EReal) j (colLo q')) p q) * ((1 / 3 : ℝ) : EReal)) :=
  (dat (F := Ideal) V c).arrAt_eq_of_cover 16 (G16 V c) (fun t _ => flushed16_eq V c t) (cover16)

/-! ## Output window 17 -/

/-- What the window's array ends holding: at `(p, q)`, the row block's embedding entry plus stage 1's entry plus the
    product of the adjacency array's row `p` with column `q + 256` of the resident pair, times one third. -/
abbrev G17 (c : Dev nD) : S4096x256.Idx → EReal :=
  Cert.Spec.ofEntries (fun p q =>
      (Cert.Spec.entries (V c main_v1 : S4096x256.Idx → EReal) p q + Cert.Spec.entries (V c main_v4_0 : S4096x256.Idx → EReal) p q
        + Cert.Spec.mmE (Cert.Spec.entries (V c main_arg0 : S4096x4096.Idx → EReal))
            (fun j q' => Cert.Spec.entries (V c main_v5_0 : S4096x512.Idx → EReal) j (colHi q')) p q) * ((1 / 3 : ℝ) : EReal))

/-- What point `t` writes back is block `t` of `G17`: the body's stored entry `(p, q)` reads each input block where
    the output's row `512·t + p` says, and the four quarters' sums are the sum over all 4096 columns cut in four. -/
theorem flushed17_eq (c : Dev nD) (t : Fin cfg2.N) :
    (dat (F := Ideal) V c).flushed 17 t = ((cfg2.win 17).blk t).view.read (Elt Ideal) (G17 V c) := by
  show (cfg2.win 17).cut (grid2.coords t) ((dat (F := Ideal) V c).after 17 t) = _
  rw [Stage3.after_17]
  unfold outSs
  rw [View.canon_unit_zero hz]
  simp only [View.ld_unit_zero (S := S512x1024) hz, View.ld_unit_zero (S := S512x256) hz]
  funext j
  obtain ⟨p, q, rfl⟩ : ∃ (p : Fin 512) (q : Fin 256), j = ix2 p q := ⟨j 0, j 1, eq_ix2 j⟩
  have ht := t_lt t
  obtain ⟨r, hr⟩ : ∃ r : Fin 4096, r.val = 512 * t.val + p.val := ⟨⟨512 * t.val + p.val, by omega⟩, rfl⟩
  obtain ⟨g0, g1⟩ := idx_w17 t
  have hemb : ((cfg2.win 17).blk t).view.emb (ix2 p q) = (ix2 r q : S4096x256.Idx) := funext fun a => Fin.ext (by
    match a with
    | ⟨0, _⟩ => show win2_17.index t (0 : Fin 2) * 512 + 1 * p.val = r.val; rw [g0, hr]; omega
    | ⟨1, _⟩ => show win2_17.index t (1 : Fin 2) * 256 + 1 * q.val = q.val; rw [g1]; omega)
  refine (k2_pay10_loaded _ _ _ _ _ _ _ _ _ _ p q).trans ?_
  show _ = G17 V c (((cfg2.win 17).blk t).view.emb (ix2 p q))
  rw [hemb]
  show _ = (Cert.Spec.entries (V c main_v1 : S4096x256.Idx → EReal) r q + Cert.Spec.entries (V c main_v4_0 : S4096x256.Idx → EReal) r q
      + ∑ j : Fin 4096, Cert.Spec.entries (V c main_arg0 : S4096x4096.Idx → EReal) r j
          * Cert.Spec.entries (V c main_v5_0 : S4096x512.Idx → EReal) j (colHi q)) * ((1 / 3 : ℝ) : EReal)
  rw [Cert.LibQuarterSum.sum_4096]
  refine congrArg (· * ((1 / 3 : ℝ) : EReal)) ?_
  refine congrArg₂ (· + ·) (congrArg₂ (· + ·) (iblk10_apply V c t p q r hr) (iblk11_apply V c t p q r hr)) ?_
  refine congrArg₂ (· + ·) (congrArg₂ (· + ·) (congrArg₂ (· + ·) ?_ ?_) ?_) ?_
  · exact Finset.sum_congr rfl fun k _ => congrArg₂ (· * ·) (iblk0_apply V c t p k r _ hr (by simp)) (ld8_0_apply V c t k (colHi q) _ (by simp))
  · exact Finset.sum_congr rfl fun k _ => congrArg₂ (· * ·) (iblk1_apply V c t p k r _ hr rfl) (ld8_1_apply V c t k (colHi q) _ rfl)
  · exact Finset.sum_congr rfl fun k _ => congrArg₂ (· * ·) (iblk2_apply V c t p k r _ hr rfl) (ld8_2_apply V c t k (colHi q) _ rfl)
  · exact Finset.sum_congr rfl fun k _ => congrArg₂ (· * ·) (iblk3_apply V c t p k r _ hr rfl) (ld8_3_apply V c t k (colHi q) _ rfl)

/-- Every row of the array is in some point's block: row `r` in point `r / 512`'s. -/
theorem cover17 (i : S4096x256.Idx) :
    ∃ t : Fin cfg2.N, (cfg2.win 17).flush t = true ∧ i ∈ ((cfg2.win 17).blk t).view.set := by
  have hi0 : (i 0).val < 4096 := (i 0).isLt
  have hi1 : (i 1).val < 256 := (i 1).isLt
  obtain ⟨t, htv⟩ : ∃ t : Fin cfg2.N, t.val = (i 0).val / 512 :=
    ⟨⟨(i 0).val / 512, lt_of_lt_of_eq (by omega : (i 0).val / 512 < 8) N_2.symm⟩, rfl⟩
  obtain ⟨g0, g1⟩ := idx_w17 t
  refine ⟨t, flush2_17 t, ?_⟩
  show i ∈ ((View.whole main_v6_1).slice (win2_17.rect t)).set
  rw [View.set_slice_whole, Rect.mem_set_unit]
  intro a
  match a with
  | ⟨0, _⟩ =>
    show win2_17.index t (0 : Fin 2) * 512 ≤ (i 0).val ∧ (i 0).val < win2_17.index t (0 : Fin 2) * 512 + 512
    rw [g0, htv]; omega
  | ⟨1, _⟩ =>
    show win2_17.index t (1 : Fin 2) * 256 ≤ (i 1).val ∧ (i 1).val < win2_17.index t (1 : Fin 2) * 256 + 256
    rw [g1]; omega

/-- The array after the run. -/
theorem final17 (c : Dev nD) : (dat (F := Ideal) V c).arrAt 17 cfg2.N
    = Cert.Spec.ofEntries (fun p q =>
      (Cert.Spec.entries (V c main_v1 : S4096x256.Idx → EReal) p q + Cert.Spec.entries (V c main_v4_0 : S4096x256.Idx → EReal) p q
        + Cert.Spec.mmE (Cert.Spec.entries (V c main_arg0 : S4096x4096.Idx → EReal))
            (fun j q' => Cert.Spec.entries (V c main_v5_0 : S4096x512.Idx → EReal) j (colHi q')) p q) * ((1 / 3 : ℝ) : EReal)) :=
  (dat (F := Ideal) V c).arrAt_eq_of_cover 17 (G17 V c) (fun t _ => flushed17_eq V c t) (cover17)

/-! ## Output window 18 -/

/-- What the window's array ends holding: at `(p, q)`, the row block's embedding entry plus stage 1's entry plus the
    product of the adjacency array's row `p` with column `q` of the resident pair, times one third. -/
abbrev G18 (c : Dev nD) : S4096x256.Idx → EReal :=
  Cert.Spec.ofEntries (fun p q =>
      (Cert.Spec.entries (V c main_v2 : S4096x256.Idx → EReal) p q + Cert.Spec.entries (V c main_v4_1 : S4096x256.Idx → EReal) p q
        + Cert.Spec.mmE (Cert.Spec.entries (V c main_arg2 : S4096x4096.Idx → EReal))
            (fun j q' => Cert.Spec.entries (V c main_v5_2 : S4096x512.Idx → EReal) j (colLo q')) p q) * ((1 / 3 : ℝ) : EReal))

/-- What point `t` writes back is block `t` of `G18`: the body's stored entry `(p, q)` reads each input block where
    the output's row `512·t + p` says, and the four quarters' sums are the sum over all 4096 columns cut in four. -/
theorem flushed18_eq (c : Dev nD) (t : Fin cfg2.N) :
    (dat (F := Ideal) V c).flushed 18 t = ((cfg2.win 18).blk t).view.read (Elt Ideal) (G18 V c) := by
  show (cfg2.win 18).cut (grid2.coords t) ((dat (F := Ideal) V c).after 18 t) = _
  rw [Stage3.after_18]
  unfold outUt
  rw [View.canon_unit_zero hz]
  simp only [View.ld_unit_zero (S := S512x1024) hz, View.ld_unit_zero (S := S512x256) hz]
  funext j
  obtain ⟨p, q, rfl⟩ : ∃ (p : Fin 512) (q : Fin 256), j = ix2 p q := ⟨j 0, j 1, eq_ix2 j⟩
  have ht := t_lt t
  obtain ⟨r, hr⟩ : ∃ r : Fin 4096, r.val = 512 * t.val + p.val := ⟨⟨512 * t.val + p.val, by omega⟩, rfl⟩
  obtain ⟨g0, g1⟩ := idx_w18 t
  have hemb : ((cfg2.win 18).blk t).view.emb (ix2 p q) = (ix2 r q : S4096x256.Idx) := funext fun a => Fin.ext (by
    match a with
    | ⟨0, _⟩ => show win2_18.index t (0 : Fin 2) * 512 + 1 * p.val = r.val; rw [g0, hr]; omega
    | ⟨1, _⟩ => show win2_18.index t (1 : Fin 2) * 256 + 1 * q.val = q.val; rw [g1]; omega)
  refine (k2_pay3_loaded _ _ _ _ _ _ _ _ _ _ p q).trans ?_
  show _ = G18 V c (((cfg2.win 18).blk t).view.emb (ix2 p q))
  rw [hemb]
  show _ = (Cert.Spec.entries (V c main_v2 : S4096x256.Idx → EReal) r q + Cert.Spec.entries (V c main_v4_1 : S4096x256.Idx → EReal) r q
      + ∑ j : Fin 4096, Cert.Spec.entries (V c main_arg2 : S4096x4096.Idx → EReal) r j
          * Cert.Spec.entries (V c main_v5_2 : S4096x512.Idx → EReal) j (colLo q)) * ((1 / 3 : ℝ) : EReal)
  rw [Cert.LibQuarterSum.sum_4096]
  refine congrArg (· * ((1 / 3 : ℝ) : EReal)) ?_
  refine congrArg₂ (· + ·) (congrArg₂ (· + ·) (iblk13_apply V c t p q r hr) (iblk15_apply V c t p q r hr)) ?_
  refine congrArg₂ (· + ·) (congrArg₂ (· + ·) (congrArg₂ (· + ·) ?_ ?_) ?_) ?_
  · exact Finset.sum_congr rfl fun k _ => congrArg₂ (· * ·) (iblk4_apply V c t p k r _ hr (by simp)) (ld12_0_apply V c t k (colLo q) _ (by simp))
  · exact Finset.sum_congr rfl fun k _ => congrArg₂ (· * ·) (iblk5_apply V c t p k r _ hr rfl) (ld12_1_apply V c t k (colLo q) _ rfl)
  · exact Finset.sum_congr rfl fun k _ => congrArg₂ (· * ·) (iblk6_apply V c t p k r _ hr rfl) (ld12_2_apply V c t k (colLo q) _ rfl)
  · exact Finset.sum_congr rfl fun k _ => congrArg₂ (· * ·) (iblk7_apply V c t p k r _ hr rfl) (ld12_3_apply V c t k (colLo q) _ rfl)

/-- Every row of the array is in some point's block: row `r` in point `r / 512`'s. -/
theorem cover18 (i : S4096x256.Idx) :
    ∃ t : Fin cfg2.N, (cfg2.win 18).flush t = true ∧ i ∈ ((cfg2.win 18).blk t).view.set := by
  have hi0 : (i 0).val < 4096 := (i 0).isLt
  have hi1 : (i 1).val < 256 := (i 1).isLt
  obtain ⟨t, htv⟩ : ∃ t : Fin cfg2.N, t.val = (i 0).val / 512 :=
    ⟨⟨(i 0).val / 512, lt_of_lt_of_eq (by omega : (i 0).val / 512 < 8) N_2.symm⟩, rfl⟩
  obtain ⟨g0, g1⟩ := idx_w18 t
  refine ⟨t, flush2_18 t, ?_⟩
  show i ∈ ((View.whole main_v6_2).slice (win2_18.rect t)).set
  rw [View.set_slice_whole, Rect.mem_set_unit]
  intro a
  match a with
  | ⟨0, _⟩ =>
    show win2_18.index t (0 : Fin 2) * 512 ≤ (i 0).val ∧ (i 0).val < win2_18.index t (0 : Fin 2) * 512 + 512
    rw [g0, htv]; omega
  | ⟨1, _⟩ =>
    show win2_18.index t (1 : Fin 2) * 256 ≤ (i 1).val ∧ (i 1).val < win2_18.index t (1 : Fin 2) * 256 + 256
    rw [g1]; omega

/-- The array after the run. -/
theorem final18 (c : Dev nD) : (dat (F := Ideal) V c).arrAt 18 cfg2.N
    = Cert.Spec.ofEntries (fun p q =>
      (Cert.Spec.entries (V c main_v2 : S4096x256.Idx → EReal) p q + Cert.Spec.entries (V c main_v4_1 : S4096x256.Idx → EReal) p q
        + Cert.Spec.mmE (Cert.Spec.entries (V c main_arg2 : S4096x4096.Idx → EReal))
            (fun j q' => Cert.Spec.entries (V c main_v5_2 : S4096x512.Idx → EReal) j (colLo q')) p q) * ((1 / 3 : ℝ) : EReal)) :=
  (dat (F := Ideal) V c).arrAt_eq_of_cover 18 (G18 V c) (fun t _ => flushed18_eq V c t) (cover18)

/-! ## Output window 19 -/

/-- What the window's array ends holding: at `(p, q)`, the row block's embedding entry plus stage 1's entry plus the
    product of the adjacency array's row `p` with column `q + 256` of the resident pair, times one third. -/
abbrev G19 (c : Dev nD) : S4096x256.Idx → EReal :=
  Cert.Spec.ofEntries (fun p q =>
      (Cert.Spec.entries (V c main_v3 : S4096x256.Idx → EReal) p q + Cert.Spec.entries (V c main_v4_1 : S4096x256.Idx → EReal) p q
        + Cert.Spec.mmE (Cert.Spec.entries (V c main_arg2 : S4096x4096.Idx → EReal))
            (fun j q' => Cert.Spec.entries (V c main_v5_2 : S4096x512.Idx → EReal) j (colHi q')) p q) * ((1 / 3 : ℝ) : EReal))

/-- What point `t` writes back is block `t` of `G19`: the body's stored entry `(p, q)` reads each input block where
    the output's row `512·t + p` says, and the four quarters' sums are the sum over all 4096 columns cut in four. -/
theorem flushed19_eq (c : Dev nD) (t : Fin cfg2.N) :
    (dat (F := Ideal) V c).flushed 19 t = ((cfg2.win 19).blk t).view.read (Elt Ideal) (G19 V c) := by
  show (cfg2.win 19).cut (grid2.coords t) ((dat (F := Ideal) V c).after 19 t) = _
  rw [Stage3.after_19]
  unfold outSt
  rw [View.canon_unit_zero hz]
  simp only [View.ld_unit_zero (S := S512x1024) hz, View.ld_unit_zero (S := S512x256) hz]
  funext j
  obtain ⟨p, q, rfl⟩ : ∃ (p : Fin 512) (q : Fin 256), j = ix2 p q := ⟨j 0, j 1, eq_ix2 j⟩
  have ht := t_lt t
  obtain ⟨r, hr⟩ : ∃ r : Fin 4096, r.val = 512 * t.val + p.val := ⟨⟨512 * t.val + p.val, by omega⟩, rfl⟩
  obtain ⟨g0, g1⟩ := idx_w19 t
  have hemb : ((cfg2.win 19).blk t).view.emb (ix2 p q) = (ix2 r q : S4096x256.Idx) := funext fun a => Fin.ext (by
    match a with
    | ⟨0, _⟩ => show win2_19.index t (0 : Fin 2) * 512 + 1 * p.val = r.val; rw [g0, hr]; omega
    | ⟨1, _⟩ => show win2_19.index t (1 : Fin 2) * 256 + 1 * q.val = q.val; rw [g1]; omega)
  refine (k2_pay4_loaded _ _ _ _ _ _ _ _ _ _ p q).trans ?_
  show _ = G19 V c (((cfg2.win 19).blk t).view.emb (ix2 p q))
  rw [hemb]
  show _ = (Cert.Spec.entries (V c main_v3 : S4096x256.Idx → EReal) r q + Cert.Spec.entries (V c main_v4_1 : S4096x256.Idx → EReal) r q
      + ∑ j : Fin 4096, Cert.Spec.entries (V c main_arg2 : S4096x4096.Idx → EReal) r j
          * Cert.Spec.entries (V c main_v5_2 : S4096x512.Idx → EReal) j (colHi q)) * ((1 / 3 : ℝ) : EReal)
  rw [Cert.LibQuarterSum.sum_4096]
  refine congrArg (· * ((1 / 3 : ℝ) : EReal)) ?_
  refine congrArg₂ (· + ·) (congrArg₂ (· + ·) (iblk14_apply V c t p q r hr) (iblk15_apply V c t p q r hr)) ?_
  refine congrArg₂ (· + ·) (congrArg₂ (· + ·) (congrArg₂ (· + ·) ?_ ?_) ?_) ?_
  · exact Finset.sum_congr rfl fun k _ => congrArg₂ (· * ·) (iblk4_apply V c t p k r _ hr (by simp)) (ld12_0_apply V c t k (colHi q) _ (by simp))
  · exact Finset.sum_congr rfl fun k _ => congrArg₂ (· * ·) (iblk5_apply V c t p k r _ hr rfl) (ld12_1_apply V c t k (colHi q) _ rfl)
  · exact Finset.sum_congr rfl fun k _ => congrArg₂ (· * ·) (iblk6_apply V c t p k r _ hr rfl) (ld12_2_apply V c t k (colHi q) _ rfl)
  · exact Finset.sum_congr rfl fun k _ => congrArg₂ (· * ·) (iblk7_apply V c t p k r _ hr rfl) (ld12_3_apply V c t k (colHi q) _ rfl)

/-- Every row of the array is in some point's block: row `r` in point `r / 512`'s. -/
theorem cover19 (i : S4096x256.Idx) :
    ∃ t : Fin cfg2.N, (cfg2.win 19).flush t = true ∧ i ∈ ((cfg2.win 19).blk t).view.set := by
  have hi0 : (i 0).val < 4096 := (i 0).isLt
  have hi1 : (i 1).val < 256 := (i 1).isLt
  obtain ⟨t, htv⟩ : ∃ t : Fin cfg2.N, t.val = (i 0).val / 512 :=
    ⟨⟨(i 0).val / 512, lt_of_lt_of_eq (by omega : (i 0).val / 512 < 8) N_2.symm⟩, rfl⟩
  obtain ⟨g0, g1⟩ := idx_w19 t
  refine ⟨t, flush2_19 t, ?_⟩
  show i ∈ ((View.whole main_v6_3).slice (win2_19.rect t)).set
  rw [View.set_slice_whole, Rect.mem_set_unit]
  intro a
  match a with
  | ⟨0, _⟩ =>
    show win2_19.index t (0 : Fin 2) * 512 ≤ (i 0).val ∧ (i 0).val < win2_19.index t (0 : Fin 2) * 512 + 512
    rw [g0, htv]; omega
  | ⟨1, _⟩ =>
    show win2_19.index t (1 : Fin 2) * 256 ≤ (i 1).val ∧ (i 1).val < win2_19.index t (1 : Fin 2) * 256 + 256
    rw [g1]; omega

/-- The array after the run. -/
theorem final19 (c : Dev nD) : (dat (F := Ideal) V c).arrAt 19 cfg2.N
    = Cert.Spec.ofEntries (fun p q =>
      (Cert.Spec.entries (V c main_v3 : S4096x256.Idx → EReal) p q + Cert.Spec.entries (V c main_v4_1 : S4096x256.Idx → EReal) p q
        + Cert.Spec.mmE (Cert.Spec.entries (V c main_arg2 : S4096x4096.Idx → EReal))
            (fun j q' => Cert.Spec.entries (V c main_v5_2 : S4096x512.Idx → EReal) j (colHi q')) p q) * ((1 / 3 : ℝ) : EReal)) :=
  (dat (F := Ideal) V c).arrAt_eq_of_cover 19 (G19 V c) (fun t _ => flushed19_eq V c t) (cover19)

end Cert.KernelIdeal.Stage3Value

end
-- ==== Proof.KI.Results.lean ====
import proofs.«140658_g7370163880393_cont_sun_c4_438_32_alg».proof.Proof.Spec
import proofs.«140658_g7370163880393_cont_sun_c4_438_32_alg».proof.Proof.KI.Run
import proofs.«140658_g7370163880393_cont_sun_c4_438_32_alg».proof.Proof.KI.HostCasts
import proofs.«140658_g7370163880393_cont_sun_c4_438_32_alg».proof.Proof.KI.Stage1Value
import proofs.«140658_g7370163880393_cont_sun_c4_438_32_alg».proof.Proof.KI.Stage2Value
import proofs.«140658_g7370163880393_cont_sun_c4_438_32_alg».proof.Proof.KI.Stage2ValueT
import proofs.«140658_g7370163880393_cont_sun_c4_438_32_alg».proof.Proof.KI.Stage3Value

noncomputable section

namespace Cert.KernelIdeal.Results

open Cert.KernelIdeal Cert.KernelIdeal.Gen Cert.KernelIdeal.Run Cert.KernelIdeal.PayValue
open Cert.Spec
open Idealize.ShloMosaic Idealize.ShloMosaic.TcCoe Idealize.ShloMosaic.ValueIdx Idealize.SL.Sem

variable (m : (ℓ : Loc nD τ sig) → Buf (Elt Ideal) ℓ)

/-! # What the idealized kernel's six results are, as functions of the arguments

The run leaves every buffer at the last valuation. Read backwards through the stages: a stage-3 output is
`(u + A + UV·B) · (1/3)` over the valuation before stage 3, where `u` is a cast of a user embedding (the identity on the
extended reals), `A = UV·i` is what stage 1 left, and `B = VU·u` is the matching column half of what stage 2 left; a
stage-2 output is `(i + VU·u + VU·A) · (1/3)`. Substituting, each is the three-layer mean `lgcn` of the specification. -/

/-! ## The valuations at buffers no earlier item wrote -/

theorem V1_arg0 (c : Dev nD) : V1 m c main_arg0 = (m ((c : Thread nD τ).loc main_arg0)) := (V1_of m c main_arg0 (by decide)).trans rfl
theorem W2_arg0 (c : Dev nD) : W2 m c main_arg0 = (m ((c : Thread nD τ).loc main_arg0)) := (W2_of m c main_arg0 (by decide) (by decide)).trans (V1_arg0 m c)
theorem W3_arg0 (c : Dev nD) : W3 m c main_arg0 = (m ((c : Thread nD τ).loc main_arg0)) := (W3_of m c main_arg0 (by decide) (by decide) (by decide) (by decide)).trans (W2_arg0 m c)
theorem V1_arg1 (c : Dev nD) : V1 m c main_arg1 = (m ((c : Thread nD τ).loc main_arg1)) := (V1_of m c main_arg1 (by decide)).trans rfl
theorem W2_arg1 (c : Dev nD) : W2 m c main_arg1 = (m ((c : Thread nD τ).loc main_arg1)) := (W2_of m c main_arg1 (by decide) (by decide)).trans (V1_arg1 m c)
theorem W3_arg1 (c : Dev nD) : W3 m c main_arg1 = (m ((c : Thread nD τ).loc main_arg1)) := (W3_of m c main_arg1 (by decide) (by decide) (by decide) (by decide)).trans (W2_arg1 m c)
theorem V1_arg2 (c : Dev nD) : V1 m c main_arg2 = (m ((c : Thread nD τ).loc main_arg2)) := (V1_of m c main_arg2 (by decide)).trans rfl
theorem W2_arg2 (c : Dev nD) : W2 m c main_arg2 = (m ((c : Thread nD τ).loc main_arg2)) := (W2_of m c main_arg2 (by decide) (by decide)).trans (V1_arg2 m c)
theorem W3_arg2 (c : Dev nD) : W3 m c main_arg2 = (m ((c : Thread nD τ).loc main_arg2)) := (W3_of m c main_arg2 (by decide) (by decide) (by decide) (by decide)).trans (W2_arg2 m c)
theorem V1_arg3 (c : Dev nD) : V1 m c main_arg3 = (m ((c : Thread nD τ).loc main_arg3)) := (V1_of m c main_arg3 (by decide)).trans rfl
theorem W2_arg3 (c : Dev nD) : W2 m c main_arg3 = (m ((c : Thread nD τ).loc main_arg3)) := (W2_of m c main_arg3 (by decide) (by decide)).trans (V1_arg3 m c)
theorem W3_arg3 (c : Dev nD) : W3 m c main_arg3 = (m ((c : Thread nD τ).loc main_arg3)) := (W3_of m c main_arg3 (by decide) (by decide) (by decide) (by decide)).trans (W2_arg3 m c)
theorem V1_arg4 (c : Dev nD) : V1 m c main_arg4 = (m ((c : Thread nD τ).loc main_arg4)) := (V1_of m c main_arg4 (by decide)).trans rfl
theorem W2_arg4 (c : Dev nD) : W2 m c main_arg4 = (m ((c : Thread nD τ).loc main_arg4)) := (W2_of m c main_arg4 (by decide) (by decide)).trans (V1_arg4 m c)
theorem W3_arg4 (c : Dev nD) : W3 m c main_arg4 = (m ((c : Thread nD τ).loc main_arg4)) := (W3_of m c main_arg4 (by decide) (by decide) (by decide) (by decide)).trans (W2_arg4 m c)
theorem V1_arg5 (c : Dev nD) : V1 m c main_arg5 = (m ((c : Thread nD τ).loc main_arg5)) := (V1_of m c main_arg5 (by decide)).trans rfl
theorem W2_arg5 (c : Dev nD) : W2 m c main_arg5 = (m ((c : Thread nD τ).loc main_arg5)) := (W2_of m c main_arg5 (by decide) (by decide)).trans (V1_arg5 m c)
theorem W3_arg5 (c : Dev nD) : W3 m c main_arg5 = (m ((c : Thread nD τ).loc main_arg5)) := (W3_of m c main_arg5 (by decide) (by decide) (by decide) (by decide)).trans (W2_arg5 m c)
theorem V1_arg6 (c : Dev nD) : V1 m c main_arg6 = (m ((c : Thread nD τ).loc main_arg6)) := (V1_of m c main_arg6 (by decide)).trans rfl
theorem W2_arg6 (c : Dev nD) : W2 m c main_arg6 = (m ((c : Thread nD τ).loc main_arg6)) := (W2_of m c main_arg6 (by decide) (by decide)).trans (V1_arg6 m c)
theorem W3_arg6 (c : Dev nD) : W3 m c main_arg6 = (m ((c : Thread nD τ).loc main_arg6)) := (W3_of m c main_arg6 (by decide) (by decide) (by decide) (by decide)).trans (W2_arg6 m c)
theorem V1_arg7 (c : Dev nD) : V1 m c main_arg7 = (m ((c : Thread nD τ).loc main_arg7)) := (V1_of m c main_arg7 (by decide)).trans rfl
theorem W2_arg7 (c : Dev nD) : W2 m c main_arg7 = (m ((c : Thread nD τ).loc main_arg7)) := (W2_of m c main_arg7 (by decide) (by decide)).trans (V1_arg7 m c)
theorem W3_arg7 (c : Dev nD) : W3 m c main_arg7 = (m ((c : Thread nD τ).loc main_arg7)) := (W3_of m c main_arg7 (by decide) (by decide) (by decide) (by decide)).trans (W2_arg7 m c)
theorem V1_arg8 (c : Dev nD) : V1 m c main_arg8 = (m ((c : Thread nD τ).loc main_arg8)) := (V1_of m c main_arg8 (by decide)).trans rfl
theorem W2_arg8 (c : Dev nD) : W2 m c main_arg8 = (m ((c : Thread nD τ).loc main_arg8)) := (W2_of m c main_arg8 (by decide) (by decide)).trans (V1_arg8 m c)
theorem W3_arg8 (c : Dev nD) : W3 m c main_arg8 = (m ((c : Thread nD τ).loc main_arg8)) := (W3_of m c main_arg8 (by decide) (by decide) (by decide) (by decide)).trans (W2_arg8 m c)
theorem V1_arg9 (c : Dev nD) : V1 m c main_arg9 = (m ((c : Thread nD τ).loc main_arg9)) := (V1_of m c main_arg9 (by decide)).trans rfl
theorem W2_arg9 (c : Dev nD) : W2 m c main_arg9 = (m ((c : Thread nD τ).loc main_arg9)) := (W2_of m c main_arg9 (by decide) (by decide)).trans (V1_arg9 m c)
theorem W3_arg9 (c : Dev nD) : W3 m c main_arg9 = (m ((c : Thread nD τ).loc main_arg9)) := (W3_of m c main_arg9 (by decide) (by decide) (by decide) (by decide)).trans (W2_arg9 m c)

/-! ## The casts: on the extended reals a change of format is the identity -/

theorem V1_main_v0E (c : Dev nD) : entries (V1 m c main_v0) = entries (m ((c : Thread nD τ).loc main_arg4)) := congrArg entries (HostCasts.V1_main_v0 m c)
theorem W2_main_v0E (c : Dev nD) : entries (W2 m c main_v0) = entries (m ((c : Thread nD τ).loc main_arg4)) := (congrArg entries (W2_of m c main_v0 (by decide) (by decide))).trans (V1_main_v0E m c)
theorem W3_main_v0E (c : Dev nD) : entries (W3 m c main_v0) = entries (m ((c : Thread nD τ).loc main_arg4)) := (congrArg entries (W3_of m c main_v0 (by decide) (by decide) (by decide) (by decide))).trans (W2_main_v0E m c)
theorem V1_main_v1E (c : Dev nD) : entries (V1 m c main_v1) = entries (m ((c : Thread nD τ).loc main_arg8)) := congrArg entries (HostCasts.V1_main_v1 m c)
theorem W2_main_v1E (c : Dev nD) : entries (W2 m c main_v1) = entries (m ((c : Thread nD τ).loc main_arg8)) := (congrArg entries (W2_of m c main_v1 (by decide) (by decide))).trans (V1_main_v1E m c)
theorem W3_main_v1E (c : Dev nD) : entries (W3 m c main_v1) = entries (m ((c : Thread nD τ).loc main_arg8)) := (congrArg entries (W3_of m c main_v1 (by decide) (by decide) (by decide) (by decide))).trans (W2_main_v1E m c)
theorem V1_main_v2E (c : Dev nD) : entries (V1 m c main_v2) = entries (m ((c : Thread nD τ).loc main_arg5)) := congrArg entries (HostCasts.V1_main_v2 m c)
theorem W2_main_v2E (c : Dev nD) : entries (W2 m c main_v2) = entries (m ((c : Thread nD τ).loc main_arg5)) := (congrArg entries (W2_of m c main_v2 (by decide) (by decide))).trans (V1_main_v2E m c)
theorem W3_main_v2E (c : Dev nD) : entries (W3 m c main_v2) = entries (m ((c : Thread nD τ).loc main_arg5)) := (congrArg entries (W3_of m c main_v2 (by decide) (by decide) (by decide) (by decide))).trans (W2_main_v2E m c)
theorem V1_main_v3E (c : Dev nD) : entries (V1 m c main_v3) = entries (m ((c : Thread nD τ).loc main_arg9)) := congrArg entries (HostCasts.V1_main_v3 m c)
theorem W2_main_v3E (c : Dev nD) : entries (W2 m c main_v3) = entries (m ((c : Thread nD τ).loc main_arg9)) := (congrArg entries (W2_of m c main_v3 (by decide) (by decide))).trans (V1_main_v3E m c)
theorem W3_main_v3E (c : Dev nD) : entries (W3 m c main_v3) = entries (m ((c : Thread nD τ).loc main_arg9)) := (congrArg entries (W3_of m c main_v3 (by decide) (by decide) (by decide) (by decide))).trans (W2_main_v3E m c)

/-! ## Stage 1: `A = UV · i` -/

theorem W2_main_v4_0E (c : Dev nD) : entries (W2 m c main_v4_0) = mmE (entries (m ((c : Thread nD τ).loc main_arg0))) (entries (m ((c : Thread nD τ).loc main_arg6))) := by
  rw [W2_main_v4_0, Stage1Value.final_s (asV (V1 m)) c]
  show entries (ofEntries (mmE (entries (V1 m c main_arg0)) (entries (V1 m c main_arg6)))) = _
  rw [V1_arg0 m c, V1_arg6 m c]; rfl
theorem W3_main_v4_0E (c : Dev nD) : entries (W3 m c main_v4_0) = mmE (entries (m ((c : Thread nD τ).loc main_arg0))) (entries (m ((c : Thread nD τ).loc main_arg6))) :=
  (congrArg entries (W3_of m c main_v4_0 (by decide) (by decide) (by decide) (by decide))).trans (W2_main_v4_0E m c)
theorem W2_main_v4_1E (c : Dev nD) : entries (W2 m c main_v4_1) = mmE (entries (m ((c : Thread nD τ).loc main_arg2))) (entries (m ((c : Thread nD τ).loc main_arg7))) := by
  rw [W2_main_v4_1, Stage1Value.final_t (asV (V1 m)) c]
  show entries (ofEntries (mmE (entries (V1 m c main_arg2)) (entries (V1 m c main_arg7)))) = _
  rw [V1_arg2 m c, V1_arg7 m c]; rfl
theorem W3_main_v4_1E (c : Dev nD) : entries (W3 m c main_v4_1) = mmE (entries (m ((c : Thread nD τ).loc main_arg2))) (entries (m ((c : Thread nD τ).loc main_arg7))) :=
  (congrArg entries (W3_of m c main_v4_1 (by decide) (by decide) (by decide) (by decide))).trans (W2_main_v4_1E m c)

/-! ## Stage 2: `B = VU · u`, `B' = VU · u'` as the column halves of one array, and the item-side result -/

theorem W3_main_v5_0_lo (c : Dev nD) : (fun j q' => entries (W3 m c main_v5_0) j (colLo q')) = mmE (entries (m ((c : Thread nD τ).loc main_arg1))) (entries (m ((c : Thread nD τ).loc main_arg4))) := by
  funext j q'
  rw [W3_main_v5_0]
  refine (Stage2Value.final16_lo (asV (W2 m)) c j q').trans ?_
  show mmE (entries (W2 m c main_arg1)) (entries (W2 m c main_v0)) j q' = _
  rw [W2_arg1 m c, W2_main_v0E m c]
theorem W3_main_v5_0_hi (c : Dev nD) : (fun j q' => entries (W3 m c main_v5_0) j (colHi q')) = mmE (entries (m ((c : Thread nD τ).loc main_arg1))) (entries (m ((c : Thread nD τ).loc main_arg8))) := by
  funext j q'
  rw [W3_main_v5_0]
  refine (Stage2Value.final16_hi (asV (W2 m)) c j q').trans ?_
  show mmE (entries (W2 m c main_arg1)) (entries (W2 m c main_v1)) j q' = _
  rw [W2_arg1 m c, W2_main_v1E m c]
/-- The item-side result: `(i + VU·u + VU·(UV·i)) · (1/3)`. -/
theorem W3_main_v5_1_val (c : Dev nD) : W3 m c main_v5_1 = lgcn (m ((c : Thread nD τ).loc main_arg1)) (m ((c : Thread nD τ).loc main_arg0)) (m ((c : Thread nD τ).loc main_arg6)) (m ((c : Thread nD τ).loc main_arg4)) := by
  rw [W3_main_v5_1, Stage2Value.final17 (asV (W2 m)) c]
  show ofEntries (fun p q => (entries (W2 m c main_arg6) p q + mmE (entries (W2 m c main_arg1)) (entries (W2 m c main_v0)) p q
      + mmE (entries (W2 m c main_arg1)) (entries (W2 m c main_v4_0)) p q) * ((1 / 3 : ℝ) : EReal)) = _
  rw [W2_arg6 m c, W2_arg1 m c, W2_main_v0E m c, W2_main_v4_0E m c]; rfl
theorem W3_main_v5_2_lo (c : Dev nD) : (fun j q' => entries (W3 m c main_v5_2) j (colLo q')) = mmE (entries (m ((c : Thread nD τ).loc main_arg3))) (entries (m ((c : Thread nD τ).loc main_arg5))) := by
  funext j q'
  rw [W3_main_v5_2]
  refine (Stage2ValueT.final18_lo (asV (W2 m)) c j q').trans ?_
  show mmE (entries (W2 m c main_arg3)) (entries (W2 m c main_v2)) j q' = _
  rw [W2_arg3 m c, W2_main_v2E m c]
theorem W3_main_v5_2_hi (c : Dev nD) : (fun j q' => entries (W3 m c main_v5_2) j (colHi q')) = mmE (entries (m ((c : Thread nD τ).loc main_arg3))) (entries (m ((c : Thread nD τ).loc main_arg9))) := by
  funext j q'
  rw [W3_main_v5_2]
  refine (Stage2ValueT.final18_hi (asV (W2 m)) c j q').trans ?_
  show mmE (entries (W2 m c main_arg3)) (entries (W2 m c main_v3)) j q' = _
  rw [W2_arg3 m c, W2_main_v3E m c]
/-- The item-side result: `(i + VU·u + VU·(UV·i)) · (1/3)`. -/
theorem W3_main_v5_3_val (c : Dev nD) : W3 m c main_v5_3 = lgcn (m ((c : Thread nD τ).loc main_arg3)) (m ((c : Thread nD τ).loc main_arg2)) (m ((c : Thread nD τ).loc main_arg7)) (m ((c : Thread nD τ).loc main_arg5)) := by
  rw [W3_main_v5_3, Stage2ValueT.final19 (asV (W2 m)) c]
  show ofEntries (fun p q => (entries (W2 m c main_arg7) p q + mmE (entries (W2 m c main_arg3)) (entries (W2 m c main_v2)) p q
      + mmE (entries (W2 m c main_arg3)) (entries (W2 m c main_v4_1)) p q) * ((1 / 3 : ℝ) : EReal)) = _
  rw [W2_arg7 m c, W2_arg3 m c, W2_main_v2E m c, W2_main_v4_1E m c]; rfl

/-! ## Stage 3: the two user-side results -/

/-- `(u + UV·i + UV·(VU·u)) · (1/3)`. -/
theorem W4_main_v6_0_val (c : Dev nD) : W4 m c main_v6_0 = lgcn (m ((c : Thread nD τ).loc main_arg0)) (m ((c : Thread nD τ).loc main_arg1)) (m ((c : Thread nD τ).loc main_arg4)) (m ((c : Thread nD τ).loc main_arg6)) := by
  rw [W4_main_v6_0, Stage3Value.final16 (asV (W3 m)) c]
  show ofEntries (fun p q => (entries (W3 m c main_v0) p q + entries (W3 m c main_v4_0) p q
      + mmE (entries (W3 m c main_arg0)) (fun j q' => entries (W3 m c main_v5_0) j (colLo q')) p q) * ((1 / 3 : ℝ) : EReal)) = _
  rw [W3_main_v0E m c, W3_main_v4_0E m c, W3_arg0 m c, W3_main_v5_0_lo m c]; rfl
/-- `(u' + UV·i + UV·(VU·u')) · (1/3)`. -/
theorem W4_main_v6_1_val (c : Dev nD) : W4 m c main_v6_1 = lgcn (m ((c : Thread nD τ).loc main_arg0)) (m ((c : Thread nD τ).loc main_arg1)) (m ((c : Thread nD τ).loc main_arg8)) (m ((c : Thread nD τ).loc main_arg6)) := by
  rw [W4_main_v6_1, Stage3Value.final17 (asV (W3 m)) c]
  show ofEntries (fun p q => (entries (W3 m c main_v1) p q + entries (W3 m c main_v4_0) p q
      + mmE (entries (W3 m c main_arg0)) (fun j q' => entries (W3 m c main_v5_0) j (colHi q')) p q) * ((1 / 3 : ℝ) : EReal)) = _
  rw [W3_main_v1E m c, W3_main_v4_0E m c, W3_arg0 m c, W3_main_v5_0_hi m c]; rfl
theorem W4_main_v5_1_val (c : Dev nD) : W4 m c main_v5_1 = lgcn (m ((c : Thread nD τ).loc main_arg1)) (m ((c : Thread nD τ).loc main_arg0)) (m ((c : Thread nD τ).loc main_arg6)) (m ((c : Thread nD τ).loc main_arg4)) :=
  (W4_of m c main_v5_1 (by decide) (by decide) (by decide) (by decide)).trans (W3_main_v5_1_val m c)
/-- `(u + UV·i + UV·(VU·u)) · (1/3)`. -/
theorem W4_main_v6_2_val (c : Dev nD) : W4 m c main_v6_2 = lgcn (m ((c : Thread nD τ).loc main_arg2)) (m ((c : Thread nD τ).loc main_arg3)) (m ((c : Thread nD τ).loc main_arg5)) (m ((c : Thread nD τ).loc main_arg7)) := by
  rw [W4_main_v6_2, Stage3Value.final18 (asV (W3 m)) c]
  show ofEntries (fun p q => (entries (W3 m c main_v2) p q + entries (W3 m c main_v4_1) p q
      + mmE (entries (W3 m c main_arg2)) (fun j q' => entries (W3 m c main_v5_2) j (colLo q')) p q) * ((1 / 3 : ℝ) : EReal)) = _
  rw [W3_main_v2E m c, W3_main_v4_1E m c, W3_arg2 m c, W3_main_v5_2_lo m c]; rfl
/-- `(u' + UV·i + UV·(VU·u')) · (1/3)`. -/
theorem W4_main_v6_3_val (c : Dev nD) : W4 m c main_v6_3 = lgcn (m ((c : Thread nD τ).loc main_arg2)) (m ((c : Thread nD τ).loc main_arg3)) (m ((c : Thread nD τ).loc main_arg9)) (m ((c : Thread nD τ).loc main_arg7)) := by
  rw [W4_main_v6_3, Stage3Value.final19 (asV (W3 m)) c]
  show ofEntries (fun p q => (entries (W3 m c main_v3) p q + entries (W3 m c main_v4_1) p q
      + mmE (entries (W3 m c main_arg2)) (fun j q' => entries (W3 m c main_v5_2) j (colHi q')) p q) * ((1 / 3 : ℝ) : EReal)) = _
  rw [W3_main_v3E m c, W3_main_v4_1E m c, W3_arg2 m c, W3_main_v5_2_hi m c]; rfl
theorem W4_main_v5_3_val (c : Dev nD) : W4 m c main_v5_3 = lgcn (m ((c : Thread nD τ).loc main_arg3)) (m ((c : Thread nD τ).loc main_arg2)) (m ((c : Thread nD τ).loc main_arg7)) (m ((c : Thread nD τ).loc main_arg5)) :=
  (W4_of m c main_v5_3 (by decide) (by decide) (by decide) (by decide)).trans (W3_main_v5_3_val m c)

/-! ## The run with its six results named -/

theorem run (ρ : Dev nD → PrngReg) : θ_run defs (onTc (τ := τ) (main (F := Ideal))) ⟨m, fun _ => 0, ρ⟩ (fun r => ∀ c : Dev nD,
      r.2.mem ((c.tc : Thread nD τ).loc main_v6_1) = lgcn (m ((c : Thread nD τ).loc main_arg0)) (m ((c : Thread nD τ).loc main_arg1)) (m ((c : Thread nD τ).loc main_arg8)) (m ((c : Thread nD τ).loc main_arg6))
      ∧ r.2.mem ((c.tc : Thread nD τ).loc main_v6_0) = lgcn (m ((c : Thread nD τ).loc main_arg0)) (m ((c : Thread nD τ).loc main_arg1)) (m ((c : Thread nD τ).loc main_arg4)) (m ((c : Thread nD τ).loc main_arg6))
      ∧ r.2.mem ((c.tc : Thread nD τ).loc main_v5_1) = lgcn (m ((c : Thread nD τ).loc main_arg1)) (m ((c : Thread nD τ).loc main_arg0)) (m ((c : Thread nD τ).loc main_arg6)) (m ((c : Thread nD τ).loc main_arg4))
      ∧ r.2.mem ((c.tc : Thread nD τ).loc main_v6_3) = lgcn (m ((c : Thread nD τ).loc main_arg2)) (m ((c : Thread nD τ).loc main_arg3)) (m ((c : Thread nD τ).loc main_arg9)) (m ((c : Thread nD τ).loc main_arg7))
      ∧ r.2.mem ((c.tc : Thread nD τ).loc main_v6_2) = lgcn (m ((c : Thread nD τ).loc main_arg2)) (m ((c : Thread nD τ).loc main_arg3)) (m ((c : Thread nD τ).loc main_arg5)) (m ((c : Thread nD τ).loc main_arg7))
      ∧ r.2.mem ((c.tc : Thread nD τ).loc main_v5_3) = lgcn (m ((c : Thread nD τ).loc main_arg3)) (m ((c : Thread nD τ).loc main_arg2)) (m ((c : Thread nD τ).loc main_arg7)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v6_1 (by decide))).trans (W4_main_v6_1_val m c),
     (h c _ (mem_uc main_v6_0 (by decide))).trans (W4_main_v6_0_val m c),
     (h c _ (mem_uc main_v5_1 (by decide))).trans (W4_main_v5_1_val m c),
     (h c _ (mem_uc main_v6_3 (by decide))).trans (W4_main_v6_3_val m c),
     (h c _ (mem_uc main_v6_2 (by decide))).trans (W4_main_v6_2_val m c),
     (h c _ (mem_uc main_v5_3 (by decide))).trans (W4_main_v5_3_val m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c)⟩)
    (run_all m ρ)

end Cert.KernelIdeal.Results

end
-- ==== Proof.lean ====
/-
  The proof of `Cert.Claim`: the three frames, that the idealized kernel is the kernel's sanctioned idealization, and that
  the idealized kernel and the idealized reference compute the same six arrays over the extended reals.

  THE MATHEMATICS. Both programs compute, for each of two domains, the mean of the three layers of a two-layer
  bipartite propagation: with `UV` the user-by-item and `VU` the item-by-user array, `u` a user embedding and `i`
  the item embedding,

      user side:  (u + UV·i + UV·(VU·u)) / 3        item side:  (i + VU·u + VU·(UV·i)) / 3 ,

  the user side twice (for the domain's own and its shared user embedding). All six are one function `lgcn P Q x y =
  (x + P·y + P·(Q·x)) · (1/3)` (Proof/Spec.lean), the item side taking the two square arrays exchanged.

  THE REFERENCE forms each product by a whole `dot_general`, stacks the three layers, sums the stack from zero and
  divides by the literal 3: on the extended reals the sum from zero is the sum, and the quotient by the real 3 is
  the product with 1/3 at every extended real — so each result is `lgcn` of its arguments (Proof/RefSpec.lean).

  THE KERNEL shares work between the six: three stages (three kernel launches), each over 512-row blocks. Stage 1 forms `A = UV·i`; stage 2
  forms `B = VU·u`, `B' = VU·u'` (stored as the two column halves of one array) and the item-side result
  `(i + B + VU·A)·third`; stage 3 forms `UV·[B | B']` and the user-side results `(u + A + UV·B)·third`,
  `(u' + A + UV·B')·third`, where `third` is the constant the source spells `1.0 / 3.0`, named `inv_3` and read as the rational 1/3 in the
  idealized program. Every product is formed as four partial products over 1024-column quarters of the adjacency block
  (each adjacency array is handed to the kernel through four windows, one per quarter) added in order: a regrouping
  of one sum, which needs only that addition of extended reals is associative and commutative. The narrow-format
  casts on the way into the matrix unit are the identity on the extended reals. No step uses that the inputs are
  finite, so the precondition is never opened.

  THE FRAMES of the two kernel programs hold at any float instance (Proof/K for the word-level program, Proof/KI for
  the idealized one): each stage's body runs on its staging buffers (KI/Stage1–3), each
  stage is entered from and left at a valuation of every unscoped buffer, the adjacency arrays dealt to their four
  windows in quarter shares and collected back (KI/Run), and the last valuation read against the final memory gives
  both the unchanged arguments and the six results (KI/Results).
-/
import proofs.«140658_g7370163880393_cont_sun_c4_438_32_alg».proof.Defs
import proofs.«140658_g7370163880393_cont_sun_c4_438_32_alg».proof.Proof.Gen.Kernel
import proofs.«140658_g7370163880393_cont_sun_c4_438_32_alg».proof.Proof.Gen.KernelIdeal
import proofs.«140658_g7370163880393_cont_sun_c4_438_32_alg».proof.Proof.Gen.ReferenceIdeal
import proofs.«140658_g7370163880393_cont_sun_c4_438_32_alg».proof.Proof.Gen.ReferenceIdeal.Run
import proofs.«140658_g7370163880393_cont_sun_c4_438_32_alg».proof.Proof.Gen.ReferenceIdeal.Read
import proofs.«140658_g7370163880393_cont_sun_c4_438_32_alg».proof.Proof.Gen.Pre_finite_inputs
import proofs.«140658_g7370163880393_cont_sun_c4_438_32_alg».proof.Proof.Spec
import proofs.«140658_g7370163880393_cont_sun_c4_438_32_alg».proof.Proof.RefSpec
import proofs.«140658_g7370163880393_cont_sun_c4_438_32_alg».proof.Proof.K.Run
import proofs.«140658_g7370163880393_cont_sun_c4_438_32_alg».proof.Proof.KI.Run
import proofs.«140658_g7370163880393_cont_sun_c4_438_32_alg».proof.Proof.KI.Results
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments unchanged. -/
theorem frame_k : Cert.frame_Kernel := fun m ρ _ => Cert.Kernel.Run.frame (F := Bits) m ρ

/-- The same of the idealized kernel. -/
theorem frame_ki : Cert.frame_KernelIdeal := fun m ρ _ => Cert.KernelIdeal.Run.frame (F := Ideal) m ρ

/-- The reference's run with its results dropped. -/
theorem frame_ri : Cert.frame_ReferenceIdeal := fun m ρ _ =>
  (θ_run Cert.ReferenceIdeal.defs _ _).mono (fun _ h c => (h c).2.2.2.2.2.2) (Cert.RefSpec.run m ρ)

/-- The idealization's six rewrites are one: the constant the source spells `1.0 / 3.0` is named and read as 1/3. -/
theorem preserves : Cert.preserves_Kernel_KernelIdeal :=
  have s := IdealRules.named_const.statement Cert.KernelIdeal.κ "inv_3" .f32 0x3EAAAAAB#32 ((1 / 3 : ℝ) : EReal) rfl
  ⟨s, s, s, s, s, s⟩

/-- From memories agreeing on the arguments both idealized programs end with each result the three-layer mean of the
    same four argument arrays. -/
theorem algebraic : Cert.algebraic_KernelIdeal_ReferenceIdeal := by
  intro m ρ m' ρ' _ hagree
  refine ⟨_, _, _, _, _, _, Cert.KernelIdeal.Results.run m ρ, ?_⟩
  refine (θ_run Cert.ReferenceIdeal.defs _ _).mono (fun r h c => ?_) (Cert.RefSpec.run m' ρ')
  obtain ⟨e0, e1, e2, e3, e4, e5, e6, e7, e8, e9⟩ := hagree c
  obtain ⟨h0, h1, h2, h3, h4, h5, hargs⟩ := h c
  refine ⟨?_, ?_, ?_, ?_, ?_, ?_, hargs⟩
  · rw [h0, e0, e1, e8, e6]
  · rw [h1, e0, e1, e4, e6]
  · rw [h2, e1, e0, e6, e4]
  · rw [h3, e2, e3, e9, e7]
  · rw [h4, e2, e3, e5, e7]
  · rw [h5, e3, e2, e7, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
